-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S384x128 : Shape := ⟨2, ![384, 128]⟩
abbrev S384 : Shape := ⟨1, ![384]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S384 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S384 .f32 := Host.absf main_arg9
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_v48 main_v49 main_v50

def fn_part1 {F : FTy → Type} [FloatOps F] (main_arg6 : FVec F S384x128 .f32) (main_arg7 : FVec F S384x128 .f32) (main_arg8 : FVec F S384 .f32) (main_arg9 : FVec F S384 .f32) (main_arg10 : FVec F S128x128 .f32) (main_arg11 : FVec F S128 .f32) (main_arg12 : FVec F S128x1 .f32) (main_arg13 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S384x128 .f32 := Host.absf main_arg6
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384x128 .f32 := Host.absf main_arg7
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg8
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S3x128x128 .f32) (main_arg6 : FVec F S384x128 .f32) (main_arg7 : FVec F S384x128 .f32) (main_arg8 : FVec F S384 .f32) (main_arg9 : FVec F S384 .f32) (main_arg10 : FVec F S128x128 .f32) (main_arg11 : FVec F S128 .f32) (main_arg12 : FVec F S128x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S384x128 : Shape := ⟨2, ![384, 128]⟩
abbrev S384 : Shape := ⟨1, ![384]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1000x128 : Shape := ⟨2, ![1000, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1000x1 : Shape := ⟨2, ![1000, 1]⟩
abbrev S128x384 : Shape := ⟨2, ![128, 384]⟩
abbrev S1x128x128 : Shape := ⟨3, ![1, 128, 128]⟩
abbrev S1x384 : Shape := ⟨2, ![1, 384]⟩
abbrev S1000x384 : Shape := ⟨2, ![1000, 384]⟩
abbrev S1x1 : Shape := ⟨2, ![1, 1]⟩
abbrev S64x1 : Shape := ⟨2, ![64, 1]⟩

abbrev nBuf : Space → Nat
  | .hbm => 177
  | .vmem => 69
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S3x128x128, .f32⟩
  | 6 => ⟨S384x128, .f32⟩
  | 7 => ⟨S384x128, .f32⟩
  | 8 => ⟨S384, .f32⟩
  | 9 => ⟨S384, .f32⟩
  | 10 => ⟨S128x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000, .f32⟩
  | 65 => ⟨S50000x1, .f32⟩
  | 66 => ⟨S1x128, .f32⟩
  | 67 => ⟨S50000x128, .f32⟩
  | 68 => ⟨S128x384, .f32⟩
  | 69 => ⟨S128x384, .f32⟩
  | 70 => ⟨S1x128x128, .f32⟩
  | 71 => ⟨S128x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S1x384, .f32⟩
  | 87 => ⟨S1x384, .f32⟩
  | 88 => ⟨S50000x128, .f32⟩
  | 89 => ⟨S1x128x128, .f32⟩
  | 90 => ⟨S128x128, .f32⟩
  | 91 => ⟨S50000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S1x384, .f32⟩
  | 106 => ⟨S1x384, .f32⟩
  | 107 => ⟨S50000x128, .f32⟩
  | 108 => ⟨S1x128x128, .f32⟩
  | 109 => ⟨S128x128, .f32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S1x384, .f32⟩
  | 125 => ⟨S1x384, .f32⟩
  | 126 => ⟨S50000x128, .f32⟩
  | 127 => ⟨S1x128, .f32⟩
  | _ => ⟨S50000x128, .f32⟩

abbrev hbmTy0_1 (i : Nat) : BufTy := match i % 128 with
  | 0 => ⟨S1x1, .f32⟩
  | 1 => ⟨S50000x1, .f32⟩
  | 2 => ⟨S_, .f32⟩
  | 3 => ⟨S50000, .f32⟩
  | 4 => ⟨S800000x1, .i32⟩
  | 5 => ⟨S50000, .f32⟩
  | 6 => ⟨S50000x1, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x1, .f32⟩
  | 25 => ⟨S800000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .i32⟩
  | 35 => ⟨S_, .f32⟩
  | 36 => ⟨S64x1, .f32⟩
  | 37 => ⟨S800000x1, .i32⟩
  | 38 => ⟨S64x1, .f32⟩
  | 39 => ⟨S50000x1, .f32⟩
  | 40 => ⟨S_, .f32⟩
  | 41 => ⟨S64x1, .f32⟩
  | 42 => ⟨S50000x1, .i32⟩
  | 43 => ⟨S64x1, .f32⟩
  | 44 => ⟨S64x1, .f32⟩
  | 45 => ⟨S64x1, .f32⟩
  | 46 => ⟨S_, .f32⟩
  | 47 => ⟨S64x1, .f32⟩
  | 48 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x1, .f32⟩
  | .local _ .vmem, ⟨10, _⟩ => ⟨S1000x1, .f32⟩
  | .local _ .vmem, ⟨11, _⟩ => ⟨S1x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S128x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S128x384, .f32⟩
  | .local _ .vmem, ⟨24, _⟩ => ⟨S128x384, .f32⟩
  | .local _ .vmem, ⟨25, _⟩ => ⟨S1x384, .f32⟩
  | .local _ .vmem, ⟨26, _⟩ => ⟨S1x384, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S128x128, .f32⟩
  | .local _ .vmem, ⟨32, _⟩ => ⟨S1000x128, .f32⟩
  | .local _ .vmem, ⟨33, _⟩ => ⟨S1000x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S128x384, .f32⟩
  | .local _ .vmem, ⟨39, _⟩ => ⟨S128x384, .f32⟩
  | .local _ .vmem, ⟨40, _⟩ => ⟨S1x384, .f32⟩
  | .local _ .vmem, ⟨41, _⟩ => ⟨S1x384, .f32⟩
  | .local _ .vmem, ⟨42, _⟩ => ⟨S1000x128, .f32⟩
  | .local _ .vmem, ⟨43, _⟩ => ⟨S1000x128, .f32⟩
  | .local _ .vmem, ⟨44, _⟩ => ⟨S1000x128, .f32⟩
  | .local _ .vmem, ⟨45, _⟩ => ⟨S1000x128, .f32⟩
  | .local _ .vmem, ⟨46, _⟩ => ⟨S128x128, .f32⟩
  | .local _ .vmem, ⟨47, _⟩ => ⟨S1000x128, .f32⟩
  | .local _ .vmem, ⟨48, _⟩ => ⟨S1000x128, .f32⟩
  | .local _ .vmem, ⟨49, _⟩ => ⟨S1000x128, .f32⟩
  | .local _ .vmem, ⟨50, _⟩ => ⟨S1000x128, .f32⟩
  | .local _ .vmem, ⟨51, _⟩ => ⟨S1000x128, .f32⟩
  | .local _ .vmem, ⟨52, _⟩ => ⟨S1000x128, .f32⟩
  | .local _ .vmem, ⟨53, _⟩ => ⟨S128x384, .f32⟩
  | .local _ .vmem, ⟨54, _⟩ => ⟨S128x384, .f32⟩
  | .local _ .vmem, ⟨55, _⟩ => ⟨S1x384, .f32⟩
  | .local _ .vmem, ⟨56, _⟩ => ⟨S1x384, .f32⟩
  | .local _ .vmem, ⟨57, _⟩ => ⟨S1000x128, .f32⟩
  | .local _ .vmem, ⟨58, _⟩ => ⟨S1000x128, .f32⟩
  | .local _ .vmem, ⟨59, _⟩ => ⟨S1000x128, .f32⟩
  | .local _ .vmem, ⟨60, _⟩ => ⟨S1000x128, .f32⟩
  | .local _ .vmem, ⟨61, _⟩ => ⟨S1000x128, .f32⟩
  | .local _ .vmem, ⟨62, _⟩ => ⟨S1000x128, .f32⟩
  | .local _ .vmem, ⟨63, _⟩ => ⟨S128x128, .f32⟩
  | .local _ .vmem, ⟨64, _⟩ => ⟨S1x128, .f32⟩
  | .local _ .vmem, ⟨65, _⟩ => ⟨S128x1, .f32⟩
  | .local _ .vmem, ⟨66, _⟩ => ⟨S1x1, .f32⟩
  | .local _ .vmem, ⟨67, _⟩ => ⟨S1000x1, .f32⟩
  | .local _ .vmem, ⟨68, _⟩ => ⟨S1000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_8 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_11 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_13 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_14 : Ref sig .tc := ⟨.hbm, 111, rfl⟩
abbrev main_v81 : Ref sig .tc := ⟨.hbm, 112, rfl⟩
abbrev main_v82 : Ref sig .tc := ⟨.hbm, 113, rfl⟩
abbrev main_c_15 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_16 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_17 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_c_18 : Ref sig .tc := ⟨.hbm, 135, rfl⟩
abbrev main_v101 : Ref sig .tc := ⟨.hbm, 136, rfl⟩
abbrev main_v102 : Ref sig .tc := ⟨.hbm, 137, rfl⟩
abbrev main_c_19 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_20 : Ref sig .tc := ⟨.hbm, 144, rfl⟩
abbrev main_v108 : Ref sig .tc := ⟨.hbm, 145, rfl⟩
abbrev main_v109 : Ref sig .tc := ⟨.hbm, 146, rfl⟩
abbrev main_c_21 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_c_22 : Ref sig .tc := ⟨.hbm, 154, rfl⟩
abbrev main_v116 : Ref sig .tc := ⟨.hbm, 155, rfl⟩
abbrev main_v117 : Ref sig .tc := ⟨.hbm, 156, rfl⟩
abbrev main_c_23 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_24 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_25 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_26 : Ref sig .tc := ⟨.hbm, 174, rfl⟩
abbrev main_v132 : Ref sig .tc := ⟨.hbm, 175, rfl⟩
abbrev main_v133 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg6_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg4_0 : Ref sig .tc := ⟨.vmem, 55, rfl⟩
abbrev cc7_stg5_0 : Ref sig .tc := ⟨.vmem, 56, rfl⟩
abbrev cc7_stg6_0 : Ref sig .tc := ⟨.vmem, 57, rfl⟩
abbrev cc7_stg6_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg4_0 : Ref sig .tc := ⟨.vmem, 65, rfl⟩
abbrev cc8_stg5_0 : Ref sig .tc := ⟨.vmem, 66, rfl⟩
abbrev cc8_stg6_0 : Ref sig .tc := ⟨.vmem, 67, rfl⟩
abbrev cc8_stg6_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem6_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem2_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem4_0 : DmaSem sig := 55
abbrev cc7_sem5_0 : DmaSem sig := 56
abbrev cc7_sem6_0 : DmaSem sig := 57
abbrev cc7_sem6_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem3_0 : DmaSem sig := 64
abbrev cc8_sem4_0 : DmaSem sig := 65
abbrev cc8_sem5_0 : DmaSem sig := 66
abbrev cc8_sem6_0 : DmaSem sig := 67
abbrev cc8_sem6_1 : DmaSem sig := 68

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x384 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x384 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x384 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x384 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x384 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S1000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S1000x1 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  shapeCasts_S128_S1x128 : S128.ShapeCasts S1x128
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  transposes_S384x128_S128x384_1_0 : S384x128.Transposes [1, 0] S128x384
  slices_S3x128x128_S1x128x128_0_0_0 : S3x128x128.Slices ![0, 0, 0] S1x128x128
  shapeCasts_S1x128x128_S128x128 : S1x128x128.ShapeCasts S128x128
  shapeCasts_S128x128_S128x128 : S128x128.ShapeCasts S128x128
  shapeCasts_S384_S1x384 : S384.ShapeCasts S1x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  slices_S3x128x128_S1x128x128_1_0_0 : S3x128x128.Slices ![1, 0, 0] S1x128x128
  slices_S3x128x128_S1x128x128_2_0_0 : S3x128x128.Slices ![2, 0, 0] S1x128x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  bcast_S_S64x1 : S_.BroadcastsInDim S64x1 (![] : Fin 0 → Fin S64x1.rank)
  dot_S1000x128_S128x128_S1000x128_1_0_0_1_n_n_wf : DotDims.WF S1000x128 S128x128 S1000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x384_S1000x384_1_0_0_1_n_n_wf : DotDims.WF S1000x128 S128x384 S1000x384 [1] [0] [0] [1] [] []
  dot_S1000x128_S128x1_S1000x1_1_0_0_1_n_n_wf : DotDims.WF S1000x128 S128x1 S1000x1 [1] [0] [0] [1] [] []
  gather_S50000x1_S800000x1_S800000x1_1_0_n_n_0_1_11_wf : GatherDims.WF S50000x1 S800000x1 S800000x1 [1] [0] [] [0] [] 1 ![1, 1]
  scatter_S64x1_S800000x1_S800000x1_1_0_0_1_wf : ScatterDims.WF S64x1 S800000x1 S800000x1 [1] [0] [0] 1
  scatter_S64x1_S50000x1_S50000x1_1_0_0_1_wf : ScatterDims.WF S64x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .f32 = 32 ∨ (Rect.block (s := S50000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x128.size a ≤ S50000x128.size a
  hwx1_4 : ∀ i : grid1.Coords, EltTy.bits .f32 = 32 ∨ (Rect.block (s := S50000x128) S1000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S50000x128.size a
  hwx2_2 : ∀ i : grid2.Coords, EltTy.bits .f32 = 32 ∨ (Rect.block (s := S50000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S50000x128.size a
  hwx3_1 : ∀ i : grid3.Coords, EltTy.bits .f32 = 32 ∨ (Rect.block (s := S50000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x384.size a ≤ S128x384.size a
  hwx3_2 : ∀ i : grid3.Coords, EltTy.bits .f32 = 32 ∨ (Rect.block (s := S128x384) S128x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S50000x128.size a
  hwx3_6 : ∀ i : grid3.Coords, EltTy.bits .f32 = 32 ∨ (Rect.block (s := S50000x128) S1000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S50000x128.size a
  hwx4_2 : ∀ i : grid4.Coords, EltTy.bits .f32 = 32 ∨ (Rect.block (s := S50000x128) S1000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S50000x128.size a
  hwx5_0 : ∀ i : grid5.Coords, EltTy.bits .f32 = 32 ∨ (Rect.block (s := S50000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x128.size a ≤ S50000x128.size a
  hwx5_1 : ∀ i : grid5.Coords, EltTy.bits .f32 = 32 ∨ (Rect.block (s := S50000x128) S1000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x384.size a ≤ S128x384.size a
  hwx5_2 : ∀ i : grid5.Coords, EltTy.bits .f32 = 32 ∨ (Rect.block (s := S128x384) S128x384.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x384.size a ≤ S128x384.size a
  hwx5_3 : ∀ i : grid5.Coords, EltTy.bits .f32 = 32 ∨ (Rect.block (s := S128x384) S128x384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x384.size a ≤ S1x384.size a
  hwx5_4 : ∀ i : grid5.Coords, EltTy.bits .f32 = 32 ∨ (Rect.block (s := S1x384) S1x384.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x384.size a ≤ S1x384.size a
  hwx5_5 : ∀ i : grid5.Coords, EltTy.bits .f32 = 32 ∨ (Rect.block (s := S1x384) S1x384.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x128.size a ≤ S50000x128.size a
  hwx5_6 : ∀ i : grid5.Coords, EltTy.bits .f32 = 32 ∨ (Rect.block (s := S50000x128) S1000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S50000x128.size a
  hwx6_0 : ∀ i : grid6.Coords, EltTy.bits .f32 = 32 ∨ (Rect.block (s := S50000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x128.size a ≤ S50000x128.size a
  hwx6_2 : ∀ i : grid6.Coords, EltTy.bits .f32 = 32 ∨ (Rect.block (s := S50000x128) S1000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S50000x128.size a
  hwx7_0 : ∀ i : grid7.Coords, EltTy.bits .f32 = 32 ∨ (Rect.block (s := S50000x128) S1000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x128.size a ≤ S50000x128.size a
  hwx7_1 : ∀ i : grid7.Coords, EltTy.bits .f32 = 32 ∨ (Rect.block (s := S50000x128) S1000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x384.size a ≤ S128x384.size a
  hwx7_2 : ∀ i : grid7.Coords, EltTy.bits .f32 = 32 ∨ (Rect.block (s := S128x384) S128x384.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x384.size a ≤ S128x384.size a
  hwx7_3 : ∀ i : grid7.Coords, EltTy.bits .f32 = 32 ∨ (Rect.block (s := S128x384) S128x384.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x384.size a ≤ S1x384.size a
  hwx7_4 : ∀ i : grid7.Coords, EltTy.bits .f32 = 32 ∨ (Rect.block (s := S1x384) S1x384.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x384.size a ≤ S1x384.size a
  hwx7_5 : ∀ i : grid7.Coords, EltTy.bits .f32 = 32 ∨ (Rect.block (s := S1x384) S1x384.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1000x128.size a ≤ S50000x128.size a
  hwx7_6 : ∀ i : grid7.Coords, EltTy.bits .f32 = 32 ∨ (Rect.block (s := S50000x128) S1000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x128.size a ≤ S50000x128.size a
  hwx8_0 : ∀ i : grid8.Coords, EltTy.bits .f32 = 32 ∨ (Rect.block (s := S50000x128) S1000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1000x128.size a ≤ S50000x128.size a
  hwx8_1 : ∀ i : grid8.Coords, EltTy.bits .f32 = 32 ∨ (Rect.block (s := S50000x128) S1000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x1.size a ≤ S128x1.size a
  hwx8_4 : ∀ i : grid8.Coords, EltTy.bits .f32 = 32 ∨ (Rect.block (s := S128x1) S128x1.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x1.size a ≤ S1x1.size a
  hwx8_5 : ∀ i : grid8.Coords, EltTy.bits .f32 = 32 ∨ (Rect.block (s := S1x1) S1x1.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S1000x1.size a ≤ S50000x1.size a
  hwx8_6 : ∀ i : grid8.Coords, EltTy.bits .f32 = 32 ∨ (Rect.block (s := S50000x1) S1000x1.size (cc8_transform_6 i) (hinb8_6 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S64x1_S800000x1_S800000x1_1_0_0_1 : ScatterDims S64x1 S800000x1 S800000x1 where
  updateWindowDims := [1]
  insertedWindowDims := [0]
  scatterDimsToOperandDims := [0]
  indexVectorDim := 1
  wf := scatter_S64x1_S800000x1_S800000x1_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S128x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S1000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v61) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S1000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v44) S128x384.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S128x384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S1x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76) S1x384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v77) S1000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v77) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v79) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S1000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v90) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v77) S1000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v44) S128x384.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v45) S128x384.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v91) S1x384.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v92) S1x384.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v93) S1000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v93) S1000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v43) S1000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg10) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v94) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg12) S128x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v95) S1x1.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v96) S1000x1.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S384x128 : Shape := ⟨2, ![384, 128]⟩
abbrev S384 : Shape := ⟨1, ![384]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x128x128 : Shape := ⟨3, ![1, 128, 128]⟩
abbrev S128x384 : Shape := ⟨2, ![128, 384]⟩
abbrev S50000x384 : Shape := ⟨2, ![50000, 384]⟩
abbrev S1x384 : Shape := ⟨2, ![1, 384]⟩
abbrev S1x1 : Shape := ⟨2, ![1, 1]⟩
abbrev S64x1 : Shape := ⟨2, ![64, 1]⟩

abbrev nBuf : Space → Nat
  | .hbm => 339
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S3x128x128, .f32⟩
  | 6 => ⟨S384x128, .f32⟩
  | 7 => ⟨S384x128, .f32⟩
  | 8 => ⟨S384, .f32⟩
  | 9 => ⟨S384, .f32⟩
  | 10 => ⟨S128x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S50000x128, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000, .f32⟩
  | 65 => ⟨S50000x1, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S_, .f32⟩
  | 74 => ⟨S50000x128, .f32⟩
  | 75 => ⟨S50000x128, .i1⟩
  | 76 => ⟨S_, .f32⟩
  | 77 => ⟨S50000x128, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S128x384, .f32⟩
  | 97 => ⟨S50000x384, .f32⟩
  | 98 => ⟨S1x384, .f32⟩
  | 99 => ⟨S50000x384, .f32⟩
  | 100 => ⟨S50000x384, .f32⟩
  | 101 => ⟨S128x384, .f32⟩
  | 102 => ⟨S50000x384, .f32⟩
  | 103 => ⟨S1x384, .f32⟩
  | 104 => ⟨S50000x384, .f32⟩
  | 105 => ⟨S50000x384, .f32⟩
  | 106 => ⟨S50000x128, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S50000x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x128, .f32⟩
  | 9 => ⟨S50000x128, .f32⟩
  | 10 => ⟨S50000x128, .f32⟩
  | 11 => ⟨S1x128x128, .f32⟩
  | 12 => ⟨S128x128, .f32⟩
  | 13 => ⟨S50000x128, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S128x384, .f32⟩
  | 28 => ⟨S50000x384, .f32⟩
  | 29 => ⟨S1x384, .f32⟩
  | 30 => ⟨S50000x384, .f32⟩
  | 31 => ⟨S50000x384, .f32⟩
  | 32 => ⟨S128x384, .f32⟩
  | 33 => ⟨S50000x384, .f32⟩
  | 34 => ⟨S1x384, .f32⟩
  | 35 => ⟨S50000x384, .f32⟩
  | 36 => ⟨S50000x384, .f32⟩
  | 37 => ⟨S50000x128, .f32⟩
  | 38 => ⟨S50000x128, .f32⟩
  | 39 => ⟨S50000x128, .f32⟩
  | 40 => ⟨S50000x128, .f32⟩
  | 41 => ⟨S50000x128, .f32⟩
  | 42 => ⟨S50000x128, .f32⟩
  | 43 => ⟨S50000x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S50000x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S50000x128, .f32⟩
  | 63 => ⟨S50000x128, .f32⟩
  | 64 => ⟨S_, .f32⟩
  | 65 => ⟨S50000x128, .f32⟩
  | 66 => ⟨S50000x128, .f32⟩
  | 67 => ⟨S50000x128, .f32⟩
  | 68 => ⟨S50000x128, .f32⟩
  | 69 => ⟨S50000x128, .f32⟩
  | 70 => ⟨S1x128x128, .f32⟩
  | 71 => ⟨S128x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S128x384, .f32⟩
  | 87 => ⟨S50000x384, .f32⟩
  | 88 => ⟨S1x384, .f32⟩
  | 89 => ⟨S50000x384, .f32⟩
  | 90 => ⟨S50000x384, .f32⟩
  | 91 => ⟨S128x384, .f32⟩
  | 92 => ⟨S50000x384, .f32⟩
  | 93 => ⟨S1x384, .f32⟩
  | 94 => ⟨S50000x384, .f32⟩
  | 95 => ⟨S50000x384, .f32⟩
  | 96 => ⟨S50000x128, .f32⟩
  | 97 => ⟨S50000x128, .f32⟩
  | 98 => ⟨S50000x128, .f32⟩
  | 99 => ⟨S50000x128, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S50000x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x128, .f32⟩
  | 127 => ⟨S50000x128, .f32⟩
  | _ => ⟨S50000x128, .f32⟩

abbrev hbmTy0_2 (i : Nat) : BufTy := match i % 128 with
  | 0 => ⟨S50000x128, .f32⟩
  | 1 => ⟨S_, .f32⟩
  | 2 => ⟨S_, .f32⟩
  | 3 => ⟨S50000x128, .f32⟩
  | 4 => ⟨S50000x128, .i1⟩
  | 5 => ⟨S_, .f32⟩
  | 6 => ⟨S50000x128, .f32⟩
  | 7 => ⟨S50000x128, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S_, .f32⟩
  | 16 => ⟨S50000x128, .f32⟩
  | 17 => ⟨S50000x128, .i1⟩
  | 18 => ⟨S_, .f32⟩
  | 19 => ⟨S50000x128, .f32⟩
  | 20 => ⟨S50000x128, .f32⟩
  | 21 => ⟨S50000x128, .f32⟩
  | 22 => ⟨S50000x1, .f32⟩
  | 23 => ⟨S1x1, .f32⟩
  | 24 => ⟨S50000x1, .f32⟩
  | 25 => ⟨S50000x1, .f32⟩
  | 26 => ⟨S50000x1, .f32⟩
  | 27 => ⟨S50000x1, .f32⟩
  | 28 => ⟨S_, .f32⟩
  | 29 => ⟨S50000x1, .f32⟩
  | 30 => ⟨S50000x1, .f32⟩
  | 31 => ⟨S_, .f32⟩
  | 32 => ⟨S50000x1, .f32⟩
  | 33 => ⟨S50000x1, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S50000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x1, .f32⟩
  | 59 => ⟨S800000x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000, .i32⟩
  | 69 => ⟨S_, .f32⟩
  | 70 => ⟨S64x1, .f32⟩
  | 71 => ⟨S800000x1, .i32⟩
  | 72 => ⟨S64x1, .f32⟩
  | 73 => ⟨S50000x1, .f32⟩
  | 74 => ⟨S_, .f32⟩
  | 75 => ⟨S64x1, .f32⟩
  | 76 => ⟨S50000x1, .i32⟩
  | 77 => ⟨S64x1, .f32⟩
  | 78 => ⟨S64x1, .f32⟩
  | 79 => ⟨S64x1, .f32⟩
  | 80 => ⟨S_, .f32⟩
  | 81 => ⟨S64x1, .f32⟩
  | 82 => ⟨S64x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_12 : Ref sig .tc := ⟨.hbm, 115, rfl⟩
abbrev main_v81 : Ref sig .tc := ⟨.hbm, 116, rfl⟩
abbrev main_v82 : Ref sig .tc := ⟨.hbm, 117, rfl⟩
abbrev main_cst_13 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_14 : Ref sig .tc := ⟨.hbm, 124, rfl⟩
abbrev main_v88 : Ref sig .tc := ⟨.hbm, 125, rfl⟩
abbrev main_v89 : Ref sig .tc := ⟨.hbm, 126, rfl⟩
abbrev main_cst_15 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_16 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_c_17 : Ref sig .tc := ⟨.hbm, 142, rfl⟩
abbrev main_v103 : Ref sig .tc := ⟨.hbm, 143, rfl⟩
abbrev main_v104 : Ref sig .tc := ⟨.hbm, 144, rfl⟩
abbrev main_c_18 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_19 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_20 : Ref sig .tc := ⟨.hbm, 174, rfl⟩
abbrev main_v132 : Ref sig .tc := ⟨.hbm, 175, rfl⟩
abbrev main_v133 : Ref sig .tc := ⟨.hbm, 176, rfl⟩
abbrev main_cst_21 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_22 : Ref sig .tc := ⟨.hbm, 183, rfl⟩
abbrev main_v139 : Ref sig .tc := ⟨.hbm, 184, rfl⟩
abbrev main_v140 : Ref sig .tc := ⟨.hbm, 185, rfl⟩
abbrev main_cst_23 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_24 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_c_25 : Ref sig .tc := ⟨.hbm, 201, rfl⟩
abbrev main_v154 : Ref sig .tc := ⟨.hbm, 202, rfl⟩
abbrev main_v155 : Ref sig .tc := ⟨.hbm, 203, rfl⟩
abbrev main_c_26 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_cst_27 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_cst_28 : Ref sig .tc := ⟨.hbm, 233, rfl⟩
abbrev main_v183 : Ref sig .tc := ⟨.hbm, 234, rfl⟩
abbrev main_v184 : Ref sig .tc := ⟨.hbm, 235, rfl⟩
abbrev main_cst_29 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_cst_30 : Ref sig .tc := ⟨.hbm, 242, rfl⟩
abbrev main_v190 : Ref sig .tc := ⟨.hbm, 243, rfl⟩
abbrev main_v191 : Ref sig .tc := ⟨.hbm, 244, rfl⟩
abbrev main_cst_31 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_cst_32 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_cst_33 : Ref sig .tc := ⟨.hbm, 257, rfl⟩
abbrev main_call1_cst : Ref sig .tc := ⟨.hbm, 258, rfl⟩
abbrev main_call1_v0 : Ref sig .tc := ⟨.hbm, 259, rfl⟩
abbrev main_call1_v1 : Ref sig .tc := ⟨.hbm, 260, rfl⟩
abbrev main_call1_v2 : Ref sig .tc := ⟨.hbm, 261, rfl⟩
abbrev main_call1_v3 : Ref sig .tc := ⟨.hbm, 262, rfl⟩
abbrev main_call1_v4 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_cst_34 : Ref sig .tc := ⟨.hbm, 270, rfl⟩
abbrev main_call2_cst : Ref sig .tc := ⟨.hbm, 271, rfl⟩
abbrev main_call2_v0 : Ref sig .tc := ⟨.hbm, 272, rfl⟩
abbrev main_call2_v1 : Ref sig .tc := ⟨.hbm, 273, rfl⟩
abbrev main_call2_v2 : Ref sig .tc := ⟨.hbm, 274, rfl⟩
abbrev main_call2_v3 : Ref sig .tc := ⟨.hbm, 275, rfl⟩
abbrev main_call2_v4 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_cst_35 : Ref sig .tc := ⟨.hbm, 284, rfl⟩
abbrev main_v215 : Ref sig .tc := ⟨.hbm, 285, rfl⟩
abbrev main_v216 : Ref sig .tc := ⟨.hbm, 286, rfl⟩
abbrev main_cst_36 : Ref sig .tc := ⟨.hbm, 287, rfl⟩
abbrev main_v217 : Ref sig .tc := ⟨.hbm, 288, rfl⟩
abbrev main_v218 : Ref sig .tc := ⟨.hbm, 289, rfl⟩
abbrev main_cst_37 : Ref sig .tc := ⟨.hbm, 290, rfl⟩
abbrev main_v219 : Ref sig .tc := ⟨.hbm, 291, rfl⟩
abbrev main_cst_38 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_c_39 : Ref sig .tc := ⟨.hbm, 297, rfl⟩
abbrev main_v224 : Ref sig .tc := ⟨.hbm, 298, rfl⟩
abbrev main_v225 : Ref sig .tc := ⟨.hbm, 299, rfl⟩
abbrev main_c_40 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_c_41 : Ref sig .tc := ⟨.hbm, 306, rfl⟩
abbrev main_v231 : Ref sig .tc := ⟨.hbm, 307, rfl⟩
abbrev main_v232 : Ref sig .tc := ⟨.hbm, 308, rfl⟩
abbrev main_c_42 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_c_43 : Ref sig .tc := ⟨.hbm, 316, rfl⟩
abbrev main_v239 : Ref sig .tc := ⟨.hbm, 317, rfl⟩
abbrev main_v240 : Ref sig .tc := ⟨.hbm, 318, rfl⟩
abbrev main_c_44 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_cst_45 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_cst_46 : Ref sig .tc := ⟨.hbm, 330, rfl⟩
abbrev main_v250 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_cst_47 : Ref sig .tc := ⟨.hbm, 336, rfl⟩
abbrev main_v255 : Ref sig .tc := ⟨.hbm, 337, rfl⟩
abbrev main_v256 : Ref sig .tc := ⟨.hbm, 338, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S3x128x128_S1x128x128_1_0_0 : S3x128x128.Slices ![1, 0, 0] S1x128x128
  slices_S3x128x128_S1x128x128_2_0_0 : S3x128x128.Slices ![2, 0, 0] S1x128x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x384_S50000x384_1_0_0_1_n_n_wf : DotDims.WF S50000x128 S128x384 S50000x384 [1] [0] [0] [1] [] []
  dot_S50000x128_S128x1_S50000x1_1_0_0_1_n_n_wf : DotDims.WF S50000x128 S128x1 S50000x1 [1] [0] [0] [1] [] []
  gather_S50000x1_S800000x1_S800000x1_1_0_n_n_0_1_11_wf : GatherDims.WF S50000x1 S800000x1 S800000x1 [1] [0] [] [0] [] 1 ![1, 1]
  scatter_S64x1_S800000x1_S800000x1_1_0_0_1_wf : ScatterDims.WF S64x1 S800000x1 S800000x1 [1] [0] [0] 1
  scatter_S64x1_S50000x1_S50000x1_1_0_0_1_wf : ScatterDims.WF S64x1 S50000x1 S50000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S64x1_S800000x1_S800000x1_1_0_0_1 : ScatterDims S64x1 S800000x1 S800000x1 where
  updateWindowDims := [1]
  insertedWindowDims := [0]
  scatterDimsToOperandDims := [0]
  indexVectorDim := 1
  wf := scatter_S64x1_S800000x1_S800000x1_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

class Facts : Prop extends Facts₀ where

variable [Facts]
-- ==== Proof.KernelRun.lean ====
/-
  The idealized kernel's run with its result named.

  @main is nineteen segments: ten stretches of host operations alternating with nine pipelined regions.  The
  buffer contents at each boundary are a fold from the launch memory (`Gen.W0 … Gen.W19`: a stretch applies its
  operations, a region replaces its arrays by what its write-backs leave), and every weakly fair execution ends
  with every unscoped buffer at the last fold.  Read at the result buffer this names the result; read at the
  argument buffers it says they are as launched.
-/
import proofs.«142699_j1640677507203_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, its result buffer at the last fold of the
    boundary contents and its fourteen argument arrays as launched. -/
theorem run : θ_run defs (onTc (τ := τ) (main (F := F))) ⟨m, fun _ => 0, ρ⟩ (fun r => ∀ c : Dev nD,
      r.2.mem ((c.tc : Thread nD τ).loc main_v133) = W19 m ρ c (Proc.devRef .tc main_v133)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v133 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c)⟩)

end Cert.KernelIdeal.Run

end
-- ==== Proof.Keep.lean ====
/-
  Which buffers a segment of @main leaves alone.

  @main's values are in single-assignment form: each buffer is written by exactly one host operation or is the output
  array of exactly one region.  A stretch of host operations therefore leaves every buffer outside the list of its
  results as it found it, and a region leaves every buffer but its output array as it found it (an input array is
  only read through its window; a buffer that is no window's array is not touched at all).
-/
import proofs.«142699_j1640677507203_1_alg».proof.Proof.Gen.KernelIdeal.Frame

set_option maxRecDepth 16384

noncomputable section

namespace Cert.KernelIdeal.Keep

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The stretches of host operations -/

/-- The results of stretch 0. -/
def wr0 : List (Ref sig .tc) := [main_v0, main_v1, main_v2, main_v3]

theorem writes0 : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer stretch 0 does not write is after it as before it. -/
theorem hopS0 (c : Dev nD) (r : Ref sig .tc) (h : r ∉ wr0) :
    W1 m ρ c (Proc.devRef .tc r) = W0 m ρ c (Proc.devRef .tc r) :=
  StableHlo.after_of_writes_sub hostOps0 _ (writes0 (F := F)) h

/-- The results of stretch 1. -/
def wr1 : List (Ref sig .tc) := [main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42]

theorem writes1 : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer stretch 1 does not write is after it as before it. -/
theorem hopS1 (c : Dev nD) (r : Ref sig .tc) (h : r ∉ wr1) :
    W3 m ρ c (Proc.devRef .tc r) = W2 m ρ c (Proc.devRef .tc r) :=
  StableHlo.after_of_writes_sub hostOps1 _ (writes1 (F := F)) h

/-- The results of stretch 2. -/
def wr2 : List (Ref sig .tc) := [main_v44, main_v45, main_v46, main_v47]

theorem writes2 : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer stretch 2 does not write is after it as before it. -/
theorem hopS2 (c : Dev nD) (r : Ref sig .tc) (h : r ∉ wr2) :
    W5 m ρ c (Proc.devRef .tc r) = W4 m ρ c (Proc.devRef .tc r) :=
  StableHlo.after_of_writes_sub hostOps2 _ (writes2 (F := F)) h

/-- The results of stretch 3. -/
def wr3 : List (Ref sig .tc) := [main_c_8, main_v49, main_v50, main_c_9, main_v51, main_v52, main_v53, main_v54, main_v55, main_cst_10, main_v56, main_v57, main_v58, main_v59, main_v60]

theorem writes3 : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer stretch 3 does not write is after it as before it. -/
theorem hopS3 (c : Dev nD) (r : Ref sig .tc) (h : r ∉ wr3) :
    W7 m ρ c (Proc.devRef .tc r) = W6 m ρ c (Proc.devRef .tc r) :=
  StableHlo.after_of_writes_sub hostOps3 _ (writes3 (F := F)) h

/-- The results of stretch 4. -/
def wr4 : List (Ref sig .tc) := [main_v62, main_v63]

theorem writes4 : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer stretch 4 does not write is after it as before it. -/
theorem hopS4 (c : Dev nD) (r : Ref sig .tc) (h : r ∉ wr4) :
    W9 m ρ c (Proc.devRef .tc r) = W8 m ρ c (Proc.devRef .tc r) :=
  StableHlo.after_of_writes_sub hostOps4 _ (writes4 (F := F)) h

/-- The results of stretch 5. -/
def wr5 : List (Ref sig .tc) := [main_c_11, main_v65, main_v66, main_c_12, main_v67, main_v68, main_v69, main_v70, main_v71, main_cst_13, main_v72, main_v73, main_v74, main_v75, main_v76]

theorem writes5 : (hostOps5 : List (HloOp τ sig (Elt F))).Forall fun op => op.writes ⊆ (wr5.map (Proc.devRef (τ := τ) .tc)).toFinset := by
  simp only [hostOps5, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer stretch 5 does not write is after it as before it. -/
theorem hopS5 (c : Dev nD) (r : Ref sig .tc) (h : r ∉ wr5) :
    W11 m ρ c (Proc.devRef .tc r) = W10 m ρ c (Proc.devRef .tc r) :=
  StableHlo.after_of_writes_sub hostOps5 _ (writes5 (F := F)) h

/-- The results of stretch 6. -/
def wr6 : List (Ref sig .tc) := [main_v78, main_v79]

theorem writes6 : (hostOps6 : List (HloOp τ sig (Elt F))).Forall fun op => op.writes ⊆ (wr6.map (Proc.devRef (τ := τ) .tc)).toFinset := by
  simp only [hostOps6, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer stretch 6 does not write is after it as before it. -/
theorem hopS6 (c : Dev nD) (r : Ref sig .tc) (h : r ∉ wr6) :
    W13 m ρ c (Proc.devRef .tc r) = W12 m ρ c (Proc.devRef .tc r) :=
  StableHlo.after_of_writes_sub hostOps6 _ (writes6 (F := F)) h

/-- The results of stretch 7. -/
def wr7 : List (Ref sig .tc) := [main_c_14, main_v81, main_v82, main_c_15, main_v83, main_v84, main_v85, main_v86, main_v87, main_cst_16, main_v88, main_v89, main_v90, main_v91, main_v92]

theorem writes7 : (hostOps7 : List (HloOp τ sig (Elt F))).Forall fun op => op.writes ⊆ (wr7.map (Proc.devRef (τ := τ) .tc)).toFinset := by
  simp only [hostOps7, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer stretch 7 does not write is after it as before it. -/
theorem hopS7 (c : Dev nD) (r : Ref sig .tc) (h : r ∉ wr7) :
    W15 m ρ c (Proc.devRef .tc r) = W14 m ρ c (Proc.devRef .tc r) :=
  StableHlo.after_of_writes_sub hostOps7 _ (writes7 (F := F)) h

/-- The results of stretch 8. -/
def wr8 : List (Ref sig .tc) := [main_v94, main_v95]

theorem writes8 : (hostOps8 : List (HloOp τ sig (Elt F))).Forall fun op => op.writes ⊆ (wr8.map (Proc.devRef (τ := τ) .tc)).toFinset := by
  simp only [hostOps8, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer stretch 8 does not write is after it as before it. -/
theorem hopS8 (c : Dev nD) (r : Ref sig .tc) (h : r ∉ wr8) :
    W17 m ρ c (Proc.devRef .tc r) = W16 m ρ c (Proc.devRef .tc r) :=
  StableHlo.after_of_writes_sub hostOps8 _ (writes8 (F := F)) h

/-- The results of stretch 9. -/
def wr9 : List (Ref sig .tc) := [main_cst_17, main_v97, main_v98, main_v99, main_v100, main_c_18, main_v101, main_v102, main_c_19, main_v103, main_v104, main_v105, main_v106, main_v107, main_c_20, main_v108, main_v109, main_c_21, main_v110, main_v111, main_v112, main_v113, main_v114, main_v115, main_c_22, main_v116, main_v117, main_c_23, main_v118, main_v119, main_v120, main_v121, main_v122, main_cst_24, main_v123, main_v124, main_v125, main_v126, main_cst_25, main_v127, main_v128, main_v129, main_v130, main_v131, main_cst_26, main_v132, main_v133]

theorem writes9 : (hostOps9 : List (HloOp τ sig (Elt F))).Forall fun op => op.writes ⊆ (wr9.map (Proc.devRef (τ := τ) .tc)).toFinset := by
  simp only [hostOps9, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))

/-- A buffer stretch 9 does not write is after it as before it. -/
theorem hopS9 (c : Dev nD) (r : Ref sig .tc) (h : r ∉ wr9) :
    W19 m ρ c (Proc.devRef .tc r) = W18 m ρ c (Proc.devRef .tc r) :=
  StableHlo.after_of_writes_sub hostOps9 _ (writes9 (F := F)) h

/-! ## The regions -/

/-- Region 0 leaves every buffer but its output array as it found it. -/
theorem hopR0 (c : Dev nD) (r : Ref sig .tc) (h : r ≠ main_v4) :
    W2 m ρ c (Proc.devRef .tc r) = W1 m ρ c (Proc.devRef .tc r) := by
  by_cases h0 : r = main_arg0
  · subst h0; exact (W2_arr m ρ c 0).trans (((dat0 (V1 m ρ) c).arrAt_in 0 rfl _).trans (A_eq0 (V1 m ρ) c 0))
  by_cases h1 : r = main_arg3
  · subst h1; exact (W2_arr m ρ c 1).trans (((dat0 (V1 m ρ) c).arrAt_in 1 rfl _).trans (A_eq0 (V1 m ρ) c 1))
  exact W2_of_ne m ρ c r (fun w => by
    match w with
    | ⟨0, _⟩ => exact fun e => h0 e.symm
    | ⟨1, _⟩ => exact fun e => h1 e.symm
    | ⟨2, _⟩ => exact fun e => h e.symm
    | ⟨n + 3, hn⟩ => exact absurd hn (by show ¬ (n + 3 < 3); omega))

/-- Region 1 leaves every buffer but its output array as it found it. -/
theorem hopR1 (c : Dev nD) (r : Ref sig .tc) (h : r ≠ main_v43) :
    W4 m ρ c (Proc.devRef .tc r) = W3 m ρ c (Proc.devRef .tc r) := by
  by_cases h0 : r = main_v39
  · subst h0; exact (W4_arr m ρ c 0).trans (((dat1 (V3 m ρ) c).arrAt_in 0 rfl _).trans (A_eq1 (V3 m ρ) c 0))
  by_cases h1 : r = main_v4
  · subst h1; exact (W4_arr m ρ c 1).trans (((dat1 (V3 m ρ) c).arrAt_in 1 rfl _).trans (A_eq1 (V3 m ρ) c 1))
  by_cases h2 : r = main_v41
  · subst h2; exact (W4_arr m ρ c 2).trans (((dat1 (V3 m ρ) c).arrAt_in 2 rfl _).trans (A_eq1 (V3 m ρ) c 2))
  by_cases h3 : r = main_v42
  · subst h3; exact (W4_arr m ρ c 3).trans (((dat1 (V3 m ρ) c).arrAt_in 3 rfl _).trans (A_eq1 (V3 m ρ) c 3))
  exact W4_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h e.symm
    | ⟨n + 5, hn⟩ => exact absurd hn (by show ¬ (n + 5 < 5); omega))

/-- Region 2 leaves every buffer but its output array as it found it. -/
theorem hopR2 (c : Dev nD) (r : Ref sig .tc) (h : r ≠ main_v48) :
    W6 m ρ c (Proc.devRef .tc r) = W5 m ρ c (Proc.devRef .tc r) := by
  by_cases h0 : r = main_v43
  · subst h0; exact (W6_arr m ρ c 0).trans (((dat2 (V5 m ρ) c).arrAt_in 0 rfl _).trans (A_eq2 (V5 m ρ) c 0))
  by_cases h1 : r = main_v47
  · subst h1; exact (W6_arr m ρ c 1).trans (((dat2 (V5 m ρ) c).arrAt_in 1 rfl _).trans (A_eq2 (V5 m ρ) c 1))
  exact W6_of_ne m ρ c r (fun w => by
    match w with
    | ⟨0, _⟩ => exact fun e => h0 e.symm
    | ⟨1, _⟩ => exact fun e => h1 e.symm
    | ⟨2, _⟩ => exact fun e => h e.symm
    | ⟨n + 3, hn⟩ => exact absurd hn (by show ¬ (n + 3 < 3); omega))

/-- Region 3 leaves every buffer but its output array as it found it. -/
theorem hopR3 (c : Dev nD) (r : Ref sig .tc) (h : r ≠ main_v61) :
    W8 m ρ c (Proc.devRef .tc r) = W7 m ρ c (Proc.devRef .tc r) := by
  by_cases h0 : r = main_v58
  · subst h0; exact (W8_arr m ρ c 0).trans (((dat3 (V7 m ρ) c).arrAt_in 0 rfl _).trans (A_eq3 (V7 m ρ) c 0))
  by_cases h1 : r = main_v43
  · subst h1; exact (W8_arr m ρ c 1).trans (((dat3 (V7 m ρ) c).arrAt_in 1 rfl _).trans (A_eq3 (V7 m ρ) c 1))
  by_cases h2 : r = main_v44
  · subst h2; exact (W8_arr m ρ c 2).trans (((dat3 (V7 m ρ) c).arrAt_in 2 rfl _).trans (A_eq3 (V7 m ρ) c 2))
  by_cases h3 : r = main_v45
  · subst h3; exact (W8_arr m ρ c 3).trans (((dat3 (V7 m ρ) c).arrAt_in 3 rfl _).trans (A_eq3 (V7 m ρ) c 3))
  by_cases h4 : r = main_v59
  · subst h4; exact (W8_arr m ρ c 4).trans (((dat3 (V7 m ρ) c).arrAt_in 4 rfl _).trans (A_eq3 (V7 m ρ) c 4))
  by_cases h5 : r = main_v60
  · subst h5; exact (W8_arr m ρ c 5).trans (((dat3 (V7 m ρ) c).arrAt_in 5 rfl _).trans (A_eq3 (V7 m ρ) c 5))
  exact W8_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h5 e.symm
    | ⟨6, _⟩ => exact fun e => h e.symm
    | ⟨n + 7, hn⟩ => exact absurd hn (by show ¬ (n + 7 < 7); omega))

/-- Region 4 leaves every buffer but its output array as it found it. -/
theorem hopR4 (c : Dev nD) (r : Ref sig .tc) (h : r ≠ main_v64) :
    W10 m ρ c (Proc.devRef .tc r) = W9 m ρ c (Proc.devRef .tc r) := by
  by_cases h0 : r = main_v61
  · subst h0; exact (W10_arr m ρ c 0).trans (((dat4 (V9 m ρ) c).arrAt_in 0 rfl _).trans (A_eq4 (V9 m ρ) c 0))
  by_cases h1 : r = main_v63
  · subst h1; exact (W10_arr m ρ c 1).trans (((dat4 (V9 m ρ) c).arrAt_in 1 rfl _).trans (A_eq4 (V9 m ρ) c 1))
  exact W10_of_ne m ρ c r (fun w => by
    match w with
    | ⟨0, _⟩ => exact fun e => h0 e.symm
    | ⟨1, _⟩ => exact fun e => h1 e.symm
    | ⟨2, _⟩ => exact fun e => h e.symm
    | ⟨n + 3, hn⟩ => exact absurd hn (by show ¬ (n + 3 < 3); omega))

/-- Region 5 leaves every buffer but its output array as it found it. -/
theorem hopR5 (c : Dev nD) (r : Ref sig .tc) (h : r ≠ main_v77) :
    W12 m ρ c (Proc.devRef .tc r) = W11 m ρ c (Proc.devRef .tc r) := by
  by_cases h0 : r = main_v74
  · subst h0; exact (W12_arr m ρ c 0).trans (((dat5 (V11 m ρ) c).arrAt_in 0 rfl _).trans (A_eq5 (V11 m ρ) c 0))
  by_cases h1 : r = main_v61
  · subst h1; exact (W12_arr m ρ c 1).trans (((dat5 (V11 m ρ) c).arrAt_in 1 rfl _).trans (A_eq5 (V11 m ρ) c 1))
  by_cases h2 : r = main_v44
  · subst h2; exact (W12_arr m ρ c 2).trans (((dat5 (V11 m ρ) c).arrAt_in 2 rfl _).trans (A_eq5 (V11 m ρ) c 2))
  by_cases h3 : r = main_v45
  · subst h3; exact (W12_arr m ρ c 3).trans (((dat5 (V11 m ρ) c).arrAt_in 3 rfl _).trans (A_eq5 (V11 m ρ) c 3))
  by_cases h4 : r = main_v75
  · subst h4; exact (W12_arr m ρ c 4).trans (((dat5 (V11 m ρ) c).arrAt_in 4 rfl _).trans (A_eq5 (V11 m ρ) c 4))
  by_cases h5 : r = main_v76
  · subst h5; exact (W12_arr m ρ c 5).trans (((dat5 (V11 m ρ) c).arrAt_in 5 rfl _).trans (A_eq5 (V11 m ρ) c 5))
  exact W12_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h5 e.symm
    | ⟨6, _⟩ => exact fun e => h e.symm
    | ⟨n + 7, hn⟩ => exact absurd hn (by show ¬ (n + 7 < 7); omega))

/-- Region 6 leaves every buffer but its output array as it found it. -/
theorem hopR6 (c : Dev nD) (r : Ref sig .tc) (h : r ≠ main_v80) :
    W14 m ρ c (Proc.devRef .tc r) = W13 m ρ c (Proc.devRef .tc r) := by
  by_cases h0 : r = main_v77
  · subst h0; exact (W14_arr m ρ c 0).trans (((dat6 (V13 m ρ) c).arrAt_in 0 rfl _).trans (A_eq6 (V13 m ρ) c 0))
  by_cases h1 : r = main_v79
  · subst h1; exact (W14_arr m ρ c 1).trans (((dat6 (V13 m ρ) c).arrAt_in 1 rfl _).trans (A_eq6 (V13 m ρ) c 1))
  exact W14_of_ne m ρ c r (fun w => by
    match w with
    | ⟨0, _⟩ => exact fun e => h0 e.symm
    | ⟨1, _⟩ => exact fun e => h1 e.symm
    | ⟨2, _⟩ => exact fun e => h e.symm
    | ⟨n + 3, hn⟩ => exact absurd hn (by show ¬ (n + 3 < 3); omega))

/-- Region 7 leaves every buffer but its output array as it found it. -/
theorem hopR7 (c : Dev nD) (r : Ref sig .tc) (h : r ≠ main_v93) :
    W16 m ρ c (Proc.devRef .tc r) = W15 m ρ c (Proc.devRef .tc r) := by
  by_cases h0 : r = main_v90
  · subst h0; exact (W16_arr m ρ c 0).trans (((dat7 (V15 m ρ) c).arrAt_in 0 rfl _).trans (A_eq7 (V15 m ρ) c 0))
  by_cases h1 : r = main_v77
  · subst h1; exact (W16_arr m ρ c 1).trans (((dat7 (V15 m ρ) c).arrAt_in 1 rfl _).trans (A_eq7 (V15 m ρ) c 1))
  by_cases h2 : r = main_v44
  · subst h2; exact (W16_arr m ρ c 2).trans (((dat7 (V15 m ρ) c).arrAt_in 2 rfl _).trans (A_eq7 (V15 m ρ) c 2))
  by_cases h3 : r = main_v45
  · subst h3; exact (W16_arr m ρ c 3).trans (((dat7 (V15 m ρ) c).arrAt_in 3 rfl _).trans (A_eq7 (V15 m ρ) c 3))
  by_cases h4 : r = main_v91
  · subst h4; exact (W16_arr m ρ c 4).trans (((dat7 (V15 m ρ) c).arrAt_in 4 rfl _).trans (A_eq7 (V15 m ρ) c 4))
  by_cases h5 : r = main_v92
  · subst h5; exact (W16_arr m ρ c 5).trans (((dat7 (V15 m ρ) c).arrAt_in 5 rfl _).trans (A_eq7 (V15 m ρ) c 5))
  exact W16_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h5 e.symm
    | ⟨6, _⟩ => exact fun e => h e.symm
    | ⟨n + 7, hn⟩ => exact absurd hn (by show ¬ (n + 7 < 7); omega))

/-- Region 8 leaves every buffer but its output array as it found it. -/
theorem hopR8 (c : Dev nD) (r : Ref sig .tc) (h : r ≠ main_v96) :
    W18 m ρ c (Proc.devRef .tc r) = W17 m ρ c (Proc.devRef .tc r) := by
  by_cases h0 : r = main_v93
  · subst h0; exact (W18_arr m ρ c 0).trans (((dat8 (V17 m ρ) c).arrAt_in 0 rfl _).trans (A_eq8 (V17 m ρ) c 0))
  by_cases h1 : r = main_v43
  · subst h1; exact (W18_arr m ρ c 1).trans (((dat8 (V17 m ρ) c).arrAt_in 1 rfl _).trans (A_eq8 (V17 m ρ) c 1))
  by_cases h2 : r = main_arg10
  · subst h2; exact (W18_arr m ρ c 2).trans (((dat8 (V17 m ρ) c).arrAt_in 2 rfl _).trans (A_eq8 (V17 m ρ) c 2))
  by_cases h3 : r = main_v94
  · subst h3; exact (W18_arr m ρ c 3).trans (((dat8 (V17 m ρ) c).arrAt_in 3 rfl _).trans (A_eq8 (V17 m ρ) c 3))
  by_cases h4 : r = main_arg12
  · subst h4; exact (W18_arr m ρ c 4).trans (((dat8 (V17 m ρ) c).arrAt_in 4 rfl _).trans (A_eq8 (V17 m ρ) c 4))
  by_cases h5 : r = main_v95
  · subst h5; exact (W18_arr m ρ c 5).trans (((dat8 (V17 m ρ) c).arrAt_in 5 rfl _).trans (A_eq8 (V17 m ρ) c 5))
  exact W18_of_ne m ρ c r (fun w => by
    match w with
    | ⟨0, _⟩ => exact fun e => h0 e.symm
    | ⟨1, _⟩ => exact fun e => h1 e.symm
    | ⟨2, _⟩ => exact fun e => h2 e.symm
    | ⟨3, _⟩ => exact fun e => h3 e.symm
    | ⟨4, _⟩ => exact fun e => h4 e.symm
    | ⟨5, _⟩ => exact fun e => h5 e.symm
    | ⟨6, _⟩ => exact fun e => h e.symm
    | ⟨n + 7, hn⟩ => exact absurd hn (by show ¬ (n + 7 < 7); omega))

end Cert.KernelIdeal.Keep

end
-- ==== Proof.Spec.lean ====
/-
  The reference network, stage by stage, as whole-array functions of the argument arrays.

  Nodes carry 128 features; `ei` is the 2 × 800000 edge list (row 0 the source of each edge, row 1 its target),
  `batch` the graph of each node.  A node index is read the way jnp reads it: a negative one counts from the end.
  Sums over edges are scatter-additions into a zero array; the symmetric normalisation of the graph convolution is
  `dinv[src] · dinv[dst]` with `dinv = (1 + indegree)^(-1/2)`.

    h    = leaky (scatter(xw[src] · norm) + xw · dinv² + b)                       xw = x · W
    g'   = (1 - z) · n + z · g   with (r, z, n) the gates of  m · Wihᵀ + bih  and  g · Whhᵀ + bhh,
           m = scatter((g · W_l)[src])                                             three times
    p    = sigmoid (leaky ((leaky g + h) · W1 + b1) · W2 + b2)
    out  = -(Σ_graph p · outdegree  -  Σ_graph p[src] · p[dst]) / 2

  The dimension records and side conditions are the reference program's own, so that its run's term is this one.
-/
import proofs.«142699_j1640677507203_1_alg».proof.ReferenceIdeal

noncomputable section

namespace Cert.Spec

open Idealize.ShloMosaic Cert.ReferenceIdeal Cert.ReferenceIdeal.Facts₀

variable {F : FTy → Type} [FloatOps F] [Cert.ReferenceIdeal.Facts]

/-! ## Edges and indices -/

/-- The source node of every edge. -/
def src (ei : IVec S2x800000 32) : IVec S800000 32 :=
  shapeCast S800000 (extractStridedSlice S1x800000 ![0, 0] ei slices_S2x800000_S1x800000_0_0) shapeCasts_S1x800000_S800000

/-- The target node of every edge. -/
def dst (ei : IVec S2x800000 32) : IVec S800000 32 :=
  shapeCast S800000 (extractStridedSlice S1x800000 ![1, 0] ei slices_S2x800000_S1x800000_1_0) shapeCasts_S1x800000_S800000

/-- An index list as a one-column index array. -/
def asCol (i : IVec S800000 32) : IVec S800000x1 32 := broadcastInDim S800000x1 ![0] bcast_S800000_S800000x1_0 i

/-- A node index with a negative one counted from the end, as a one-column index array. -/
def wrap (i : IVec S800000 32) : IVec S800000x1 32 :=
  asCol (select (cmpi .slt i (broadcastInDim S800000 ![] bcast_S_S800000 (constantI S_ 32 0#32)))
    (addi i (broadcastInDim S800000 ![] bcast_S_S800000 (constantI S_ 32 50000#32))) i)

/-- One per edge. -/
def ones : FVec F S800000 .f32 := broadcastInDim S800000 ![] bcast_S_S800000 (constant S_ .f32 0x3F800000#32)

/-- How many edges name each node in the list `i`. -/
def countAt (i : IVec S800000 32) : FVec F S50000 .f32 :=
  Host.scatterAdd scatter_S50000_S800000x1_S800000_n_0_0_1
    (broadcastInDim S50000 ![] bcast_S_S50000 (constant S_ .f32 0x00000000#32)) (asCol i) ones

/-- `(1 + indegree)^(-1/2)` per node. -/
def dinv (ei : IVec S2x800000 32) : FVec F S50000 .f32 :=
  Host.rsqrt (addf (countAt (dst ei)) (broadcastInDim S50000 ![] bcast_S_S50000 (constant S_ .f32 0x3F800000#32)))

/-- The normalisation weight of every edge. -/
def norm (ei : IVec S2x800000 32) : FVec F S800000 .f32 :=
  mulf (Host.gather gather_S50000_S800000x1_S800000_n_0_n_n_0_1_1 (dinv ei) (wrap (src ei)))
    (Host.gather gather_S50000_S800000x1_S800000_n_0_n_n_0_1_1 (dinv ei) (wrap (dst ei)))

/-- The rows of a node array at the edges' sources. -/
def atSrc (t : FVec F S50000x128 .f32) (ei : IVec S2x800000 32) : FVec F S800000x128 .f32 :=
  Host.gather gather_S50000x128_S800000x1_S800000x128_1_0_n_n_0_1_1128 t (wrap (src ei))

/-- Per-edge rows summed at the edges' targets. -/
def sumAtDst (u : FVec F S800000x128 .f32) (ei : IVec S2x800000 32) : FVec F S50000x128 .f32 :=
  Host.scatterAdd scatter_S50000x128_S800000x1_S800000x128_1_0_0_1
    (broadcastInDim S50000x128 ![] bcast_S_S50000x128 (constant S_ .f32 0x00000000#32)) (asCol (dst ei)) u

/-! ## The graph convolution -/

/-- A plain product of a node array with a 128 × 128 weight. -/
def mm (x : FVec F S50000x128 .f32) (W : FVec F S128x128 .f32) : FVec F S50000x128 .f32 :=
  Host.dotGeneral dot_S50000x128_S128x128_S50000x128_1_0_0_1_n_n none x W

/-- The normalised neighbour sum. -/
def agg (t : FVec F S50000x128 .f32) (ei : IVec S2x800000 32) : FVec F S50000x128 .f32 :=
  sumAtDst (mulf (atSrc t ei) (broadcastInDim S800000x128 ![0, 1] bcast_S800000x1_S800000x128_0_1
    (broadcastInDim S800000x1 ![0] bcast_S800000_S800000x1_0 (norm ei)))) ei

/-- The self-loop weight of each node, as a column. -/
def scale (ei : IVec S2x800000 32) : FVec F S50000x1 .f32 :=
  broadcastInDim S50000x1 ![0] bcast_S50000_S50000x1_0 (mulf (dinv ei) (dinv ei))

/-- A length-128 bias spread over the nodes. -/
def bias128 (b : FVec F S128 .f32) : FVec F S50000x128 .f32 :=
  broadcastInDim S50000x128 ![0, 1] bcast_S1x128_S50000x128_0_1 (broadcastInDim S1x128 ![1] bcast_S128_S1x128_1 b)

/-- `x` where it is at least zero, a hundredth of it (the shared slope word) elsewhere. -/
def leaky (x : FVec F S50000x128 .f32) : FVec F S50000x128 .f32 :=
  select (cmpf .oge x (broadcastInDim S50000x128 ![] bcast_S_S50000x128 (constant S_ .f32 0x00000000#32))) x
    (mulf (broadcastInDim S50000x128 ![] bcast_S_S50000x128 (id (constant S_ .f32 0x3C23D70A#32))) x)

/-- The convolution's output from its neighbour sum, the projected features, the self-loop column and the bias. -/
def combine (a t : FVec F S50000x128 .f32) (sc : FVec F S50000x1 .f32) (b : FVec F S128 .f32) : FVec F S50000x128 .f32 :=
  leaky (addf (addf a (mulf t (broadcastInDim S50000x128 ![0, 1] bcast_S50000x1_S50000x128_0_1 sc))) (bias128 b))

/-! ## The gated layers -/

/-- Layer `l`'s message weight. -/
def W0 (Wgg : FVec F S3x128x128 .f32) : FVec F S128x128 .f32 :=
  shapeCast S128x128 (extractStridedSlice S1x128x128 ![0, 0, 0] Wgg slices_S3x128x128_S1x128x128_0_0_0) shapeCasts_S1x128x128_S128x128
def W1 (Wgg : FVec F S3x128x128 .f32) : FVec F S128x128 .f32 :=
  shapeCast S128x128 (extractStridedSlice S1x128x128 ![1, 0, 0] Wgg slices_S3x128x128_S1x128x128_1_0_0) shapeCasts_S1x128x128_S128x128
def W2 (Wgg : FVec F S3x128x128 .f32) : FVec F S128x128 .f32 :=
  shapeCast S128x128 (extractStridedSlice S1x128x128 ![2, 0, 0] Wgg slices_S3x128x128_S1x128x128_2_0_0) shapeCasts_S1x128x128_S128x128

/-- The messages `t[src]` summed at the targets. -/
def msg (t : FVec F S50000x128 .f32) (ei : IVec S2x800000 32) : FVec F S50000x128 .f32 := sumAtDst (atSrc t ei) ei

/-- A gate weight with its two axes exchanged. -/
def tr (W : FVec F S384x128 .f32) : FVec F S128x384 .f32 := transpose S128x384 [1, 0] W transposes_S384x128_S128x384_1_0

/-- The 384 gate pre-activations of every node: `x · Wᵀ + b`. -/
def gates (x : FVec F S50000x128 .f32) (Wt : FVec F S128x384 .f32) (b : FVec F S384 .f32) : FVec F S50000x384 .f32 :=
  addf (Host.dotGeneral dot_S50000x128_S128x384_S50000x384_1_0_0_1_n_n none x Wt)
    (broadcastInDim S50000x384 ![0, 1] bcast_S1x384_S50000x384_0_1 (broadcastInDim S1x384 ![1] bcast_S384_S1x384_1 b))

/-- One per node and feature. -/
def one128 : FVec F S50000x128 .f32 := broadcastInDim S50000x128 ![] bcast_S_S50000x128 (constant S_ .f32 0x3F800000#32)

/-- The logistic function written as the quotient `1 / (1 + exp (-x))`. -/
def sigm (x : FVec F S50000x128 .f32) : FVec F S50000x128 .f32 := Host.divf one128 (addf one128 (Host.exp (Host.negf x)))

/-- The reset, update and candidate thirds of a gate array. -/
def third0 (x : FVec F S50000x384 .f32) : FVec F S50000x128 .f32 := extractStridedSlice S50000x128 ![0, 0] x slices_S50000x384_S50000x128_0_0
def third1 (x : FVec F S50000x384 .f32) : FVec F S50000x128 .f32 := extractStridedSlice S50000x128 ![0, 128] x slices_S50000x384_S50000x128_0_128
def third2 (x : FVec F S50000x384 .f32) : FVec F S50000x128 .f32 := extractStridedSlice S50000x128 ![0, 256] x slices_S50000x384_S50000x128_0_256

/-- The recurrent cell from the two gate arrays and the state. -/
def cell (gi gh : FVec F S50000x384 .f32) (g : FVec F S50000x128 .f32) : FVec F S50000x128 .f32 :=
  addf (mulf (subf one128 (sigm (addf (third1 gi) (third1 gh))))
      (Host.tanh (addf (third2 gi) (mulf (sigm (addf (third0 gi) (third0 gh))) (third2 gh)))))
    (mulf (sigm (addf (third1 gi) (third1 gh))) g)

/-- One gated layer's update of the state `g` from the summed messages `m`. -/
def gru (m g : FVec F S50000x128 .f32) (WihT WhhT : FVec F S128x384 .f32) (bih bhh : FVec F S384 .f32) : FVec F S50000x128 .f32 :=
  cell (gates m WihT bih) (gates g WhhT bhh) g

/-! ## The head and the loss -/

/-- One per node. -/
def one1 : FVec F S50000x1 .f32 := broadcastInDim S50000x1 ![] bcast_S_S50000x1 (constant S_ .f32 0x3F800000#32)

/-- The probability of each node: the residual, two dense layers and the logistic quotient. -/
def probs (g h : FVec F S50000x128 .f32) (Wa : FVec F S128x128 .f32) (ba : FVec F S128 .f32)
    (Wb : FVec F S128x1 .f32) (bb : FVec F S1 .f32) : FVec F S50000x1 .f32 :=
  Host.divf one1 (addf one1 (Host.exp (Host.negf
    (addf (Host.dotGeneral dot_S50000x128_S128x1_S50000x1_1_0_0_1_n_n none (leaky (addf (mm (addf (leaky g) h) Wa) (bias128 ba))) Wb)
      (broadcastInDim S50000x1 ![0, 1] bcast_S1x1_S50000x1_0_1 (broadcastInDim S1x1 ![1] bcast_S1_S1x1_1 bb))))))

/-- A zero per graph. -/
def zero64 : FVec F S64x1 .f32 := broadcastInDim S64x1 ![] bcast_S_S64x1 (constant S_ .f32 0x00000000#32)

/-- Minus half of (expected degree − expected weight), per graph. -/
def loss (p : FVec F S50000x1 .f32) (ei : IVec S2x800000 32) (batch : IVec S50000 32) : FVec F S64x1 .f32 :=
  Host.divf (Host.negf (subf
      (Host.scatterAdd scatter_S64x1_S50000x1_S50000x1_1_0_0_1 zero64 (broadcastInDim S50000x1 ![0] bcast_S50000_S50000x1_0 batch)
        (mulf p (broadcastInDim S50000x1 ![0] bcast_S50000_S50000x1_0 (countAt (src ei)))))
      (Host.scatterAdd scatter_S64x1_S800000x1_S800000x1_1_0_0_1 zero64
        (asCol (Host.gather gather_S50000_S800000x1_S800000_n_0_n_n_0_1_1 batch (wrap (src ei))))
        (mulf (Host.gather gather_S50000x1_S800000x1_S800000x1_1_0_n_n_0_1_11 p (wrap (src ei)))
          (Host.gather gather_S50000x1_S800000x1_S800000x1_1_0_n_n_0_1_11 p (wrap (dst ei)))))))
    (broadcastInDim S64x1 ![] bcast_S_S64x1 (constant S_ .f32 0x40000000#32))

/-! ## The whole network -/

/-- The hidden state after the graph convolution. -/
def hid (x : FVec F S50000x128 .f32) (ei : IVec S2x800000 32) (W : FVec F S128x128 .f32) (b : FVec F S128 .f32) : FVec F S50000x128 .f32 :=
  combine (agg (mm x W) ei) (mm x W) (scale ei) b

/-- One gated layer with message weight `Wl`. -/
def layer (g : FVec F S50000x128 .f32) (ei : IVec S2x800000 32) (Wl : FVec F S128x128 .f32)
    (Wih Whh : FVec F S384x128 .f32) (bih bhh : FVec F S384 .f32) : FVec F S50000x128 .f32 :=
  gru (msg (mm g Wl) ei) g (tr Wih) (tr Whh) bih bhh

/-- The result of the network on its fourteen arguments. -/
def out (x : FVec F S50000x128 .f32) (ei : IVec S2x800000 32) (batch : IVec S50000 32) (Wg : FVec F S128x128 .f32) (bg : FVec F S128 .f32)
    (Wgg : FVec F S3x128x128 .f32) (Wih Whh : FVec F S384x128 .f32) (bih bhh : FVec F S384 .f32)
    (Wa : FVec F S128x128 .f32) (ba : FVec F S128 .f32) (Wb : FVec F S128x1 .f32) (bb : FVec F S1 .f32) : FVec F S64x1 .f32 :=
  loss (probs (layer (layer (layer (hid x ei Wg bg) ei (W0 Wgg) Wih Whh bih bhh) ei (W1 Wgg) Wih Whh bih bhh) ei (W2 Wgg) Wih Whh bih bhh)
    (hid x ei Wg bg) Wa ba Wb bb) ei batch

end Cert.Spec

end
-- ==== Proof.LibRowOps.lean ====
/-
  Rank-two arrays read at an index, over abstract extents.

  * A plain matrix product — rows by contraction times contraction by columns, no batch axis — read at
    `(p, q)` is the sum over the contraction axis of left `(p, k)` times right `(k, q)`: for a kernel's product
    into a zero accumulator and for the host's `dot_general` alike, at the ideal values.
  * A vector of length `N` spread over the rows of an `M × N` array, read at `(p, q)`, is the vector at `q`:
    spelt as a shape cast followed by a broadcast, or as two `broadcast_in_dim`s.
  * A unit-stride slice of columns (of entries, for a vector) read at an index is the operand at the shifted index.
  * A scalar constant spread over any shape reads as the constant's value.
-/
import Idealize.ShloMosaic.PureOps.Ideal.Laws
import Idealize.ShloMosaic.Lib.ValueIdx
import Idealize.ShloMosaic.Lib.Pipeline.Value

noncomputable section

open scoped BigOperators

namespace Cert.Lib.RowOps

open Idealize.ShloMosaic Idealize.ShloMosaic.ValueIdx

/-! ## Plain matrix products -/

/-- The contraction of a plain product at `(p, q)`, re-indexed by the contraction axis itself. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's plain product into the zero accumulator, at `(p, q)`. -/
theorem matmul_zero_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum M K N l r p q

/-- The host's plain `dot_general` at `(p, q)`. -/
theorem dotGeneral_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum M K N l r p q

/-! ## A vector spread over the rows -/

section Spread

variable {α : Type}

/-- Shape cast to one row, then broadcast over `M` rows. -/
theorem castRow_broadcast_apply (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)]
  rw [shapeCast_addUnit_apply ![N] b h1 (ix2 (0 : Fin 1) q)]
  exact congrArg b (funext fun a => by match a with | ⟨0, _⟩ => rfl)

/-- `broadcast_in_dim` to one row, then over `M` rows. -/
theorem bcastRow_bcast_apply (M N : Nat) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-! ## Slices -/

/-- Columns `o … o + N - 1` of an `M × N'` array. -/
theorem sliceCols_apply (M N' N o : Nat) (x : (⟨2, ![M, N']⟩ : Shape).Idx → α)
    (h : (⟨2, ![M, N']⟩ : Shape).Slices ![0, o] ⟨2, ![M, N]⟩) (p : Fin M) (q : Fin N) (hlt : o + q.val < N') :
    extractStridedSlice ⟨2, ![M, N]⟩ ![0, o] x h (ix2 p q) = x (ix2 p ⟨o + q.val, hlt⟩) :=
  extractStridedSlice_apply ![0, o] x h (ix2 p q) (ix2 p ⟨o + q.val, hlt⟩) (fun a => by
    match a with
    | ⟨0, _⟩ => show p.val = 0 + p.val; omega
    | ⟨1, _⟩ => rfl)

/-- Entries `o … o + N - 1` of a vector of length `N'`. -/
theorem sliceVec_apply (N' N o : Nat) (x : (⟨1, ![N']⟩ : Shape).Idx → α)
    (h : (⟨1, ![N']⟩ : Shape).Slices ![o] ⟨1, ![N]⟩) (q : Fin N) (hlt : o + q.val < N') :
    extractStridedSlice ⟨1, ![N]⟩ ![o] x h (ix1 q) = x (ix1 ⟨o + q.val, hlt⟩) :=
  extractStridedSlice_apply ![o] x h (ix1 q) (ix1 ⟨o + q.val, hlt⟩) (fun a => by
    match a with
    | ⟨0, _⟩ => rfl)

end Spread

/-! ## One-operand operations at an index (definitional at the ideal values) -/

section Pointwise

variable {s : Shape} {φ : FTy}

theorem hostDivf_apply (x y : FVec Ideal s φ) (i : s.Idx) : Host.divf x y i = Ideal.div (x i) (y i) := rfl
theorem hostExp_apply (x : FVec Ideal s φ) (i : s.Idx) : Host.exp x i = Ideal.exp (x i) := rfl
theorem hostNegf_apply (x : FVec Ideal s φ) (i : s.Idx) : Host.negf x i = -(x i) := rfl
theorem hostTanh_apply (x : FVec Ideal s φ) (i : s.Idx) : Host.tanh x i = Ideal.tanh (x i) := rfl
theorem tanh_apply (x : FVec Ideal s φ) (i : s.Idx) : tanh x i = Ideal.tanh (x i) := rfl
theorem logistic_apply (x : FVec Ideal s φ) (i : s.Idx) : logistic x i = Ideal.logistic (x i) := rfl

end Pointwise

/-! ## Scalar constants spread over a shape -/

/-- The host's `broadcast_in_dim` of a scalar constant. -/
theorem splat_apply {φ : FTy} (t : Shape) (h : (⟨0, ![]⟩ : Shape).BroadcastsInDim t ![]) (w : BitVec φ.bits) (i : t.Idx) :
    broadcastInDim t ![] h (constant (F := Ideal) ⟨0, ![]⟩ φ w) i = Ideal.ofBits φ w := by
  rw [broadcastInDim_apply ![] h _ i ix0 (fun a => a.elim0)]
  rfl

end Cert.Lib.RowOps

end
-- ==== Proof.LibGru.lean ====
/-
  One layer's arithmetic on a single node, on the extended reals.

  A node's aggregated features `row` (128 numbers) pass through: the bias and the rectifier,
  `h k = max (row k + b k) 0`; the input-to-gates product, `gi q = Σ k, h k · wt k q + bih q` for the 384 gate
  pre-activations (reset, update, candidate: three groups of 128); and the gated recurrent cell at a zero previous
  state, `out j = (1 − σ(gi (128 + j) + bhh (128 + j))) · tanh (gi (256 + j) + σ(gi j + bhh j) · bhh (256 + j))`,
  with `σ x = 1 / (1 + e⁻ˣ)`.  The zero and the one are kept as the values of their bit patterns.
-/
import Idealize.ShloMosaic.PureOps.Ideal.Laws

noncomputable section

open scoped BigOperators

namespace Cert.Lib.Gru

open Idealize.ShloMosaic

/-- The 384 gate pre-activations of one node. -/
def gates (row b : Fin 128 → EReal) (wt : Fin 128 → Fin 384 → EReal) (bih : Fin 384 → EReal) (q : Fin 384) : EReal :=
  (∑ k : Fin 128, max (row k + b k) (Ideal.ofBits .f32 0x00000000#32) * wt k q) + bih q

/-- The logistic function, as the quotient the host spells. -/
def sigm (x : EReal) : EReal :=
  Ideal.div (Ideal.ofBits .f32 0x3F800000#32) (Ideal.ofBits .f32 0x3F800000#32 + Ideal.exp (-x))

/-- The cell's output at hidden unit `j`, from the node's gate pre-activations and the hidden-side biases. -/
def cell (gi bhh : Fin 384 → EReal) (j : Fin 128) : EReal :=
  (Ideal.ofBits .f32 0x3F800000#32 - sigm (gi ⟨128 + j.val, by have := j.isLt; omega⟩ + bhh ⟨128 + j.val, by have := j.isLt; omega⟩))
    * Ideal.tanh (gi ⟨256 + j.val, by have := j.isLt; omega⟩
        + sigm (gi ⟨0 + j.val, by have := j.isLt; omega⟩ + bhh ⟨0 + j.val, by have := j.isLt; omega⟩) * bhh ⟨256 + j.val, by have := j.isLt; omega⟩)

/-- The bit pattern `0x3F800000` is the number one. -/
theorem ofBits_one : Ideal.ofBits .f32 0x3F800000#32 = (1 : EReal) := by
  simp [Ideal.ofBits, Ideal.ieee, -EReal.coe_mul]; norm_num

/-- The kernel's logistic operation is the host's quotient. -/
theorem logistic_eq_sigm (x : EReal) : Ideal.logistic x = sigm x := by
  unfold sigm Ideal.logistic
  rw [ofBits_one]

end Cert.Lib.Gru

end
-- ==== Proof.LibRowBlocks.lean ====
/-
  A long rank-two array against a block of consecutive rows of it.

  `RowsOf E M A o arr blk` says that `blk`, of `M` rows, holds rows `o, o + 1, …, o + M - 1` of the `E`-row array
  `arr` (each of `A` columns).  Every operation that acts on each row by itself carries the relation from its
  operands to its result, when the long side is spelt with the host's operations and the block side with a kernel's:

  * a plain matrix product with a matrix that both sides hold whole — the host's `dot_general` of the long array
    against a kernel's product of the block into a zero accumulator (row `r` of the product depends on row `r` of the
    left operand only);
  * the pointwise sum and product;
  * a vector spread over the rows — two `broadcast_in_dim`s on the long side, a shape cast and a broadcast on the block;
  * `z ↦ z · σ(z)` with `σ(z) = 1 / (1 + e⁻ᶻ)`: on the long side the quotient spelt out with the word of the number
    one, on the block the logistic operation;
  * a change of float format on the block, which does nothing to an extended real, and a shape cast of the block to
    its own shape.
-/
import Idealize.ShloMosaic.PureOps.Ideal.Laws
import Idealize.ShloMosaic.Lib.ValueIdx
import Idealize.ShloMosaic.Lib.Pipeline.Value
import proofs.«142699_j1640677507203_1_alg».proof.Proof.LibRowOps
import proofs.«142699_j1640677507203_1_alg».proof.Proof.LibGru

noncomputable section

open scoped BigOperators

namespace Cert.Lib.RowBlocks

open Idealize.ShloMosaic Idealize.ShloMosaic.ValueIdx Cert.Lib.RowOps

/-- `blk` holds rows `o … o + M - 1` of `arr`. -/
def RowsOf (E M A o : Nat) (arr : (⟨2, ![E, A]⟩ : Shape).Idx → EReal) (blk : (⟨2, ![M, A]⟩ : Shape).Idx → EReal) : Prop :=
  ∀ (y : Fin M) (k : Fin A) (h : o + y.val < E), blk (ix2 y k) = arr (ix2 ⟨o + y.val, h⟩ k)

variable {E M A o : Nat}

/-- A change of float format on the block side is the identity on extended reals. -/
theorem RowsOf.truncf {φ ψ : FTy} {X : (⟨2, ![E, A]⟩ : Shape).Idx → EReal} {Xb : FVec Ideal ⟨2, ![M, A]⟩ φ}
    (h : ψ.bits < φ.bits) (hX : RowsOf E M A o X Xb) : RowsOf E M A o X (truncf ψ Xb h) := hX

/-- A shape cast to the same shape on the block side is the identity. -/
theorem RowsOf.castSelf {X : (⟨2, ![E, A]⟩ : Shape).Idx → EReal} {Xb : (⟨2, ![M, A]⟩ : Shape).Idx → EReal}
    (h : (⟨2, ![M, A]⟩ : Shape).ShapeCasts ⟨2, ![M, A]⟩) (hX : RowsOf E M A o X Xb) :
    RowsOf E M A o X (shapeCast ⟨2, ![M, A]⟩ Xb h) := by
  rw [shapeCast_self]; exact hX

/-- An array equal to `W` entry by entry stays so under a shape cast to its own shape. -/
theorem castSelf_eq {s : Shape} (v W : s.Idx → EReal) (h : s.ShapeCasts s) (hv : ∀ i, v i = W i) :
    ∀ i, shapeCast s v h i = W i := by
  rw [shapeCast_self]; exact hv

/-- The host's plain product of the long array with `W` against a kernel's product of the block with `Wb` into a
    zero accumulator, when `Wb` is `W` entry by entry. -/
theorem RowsOf.dot {K N : Nat} {φ₁ φ₂ φ₃ φ₄ : FTy} {X : FVec Ideal ⟨2, ![E, K]⟩ φ₁} {Xb : FVec Ideal ⟨2, ![M, K]⟩ φ₃}
    (hX : RowsOf E M K o X Xb) (W : FVec Ideal ⟨2, ![K, N]⟩ φ₂) (Wb : FVec Ideal ⟨2, ![K, N]⟩ φ₄) (hW : ∀ i, Wb i = W i)
    (prec prec' : Option ContractPrecision) (sched : HostSchedule) :
    RowsOf E M N o (FloatOps.dotGeneral (DotDims.plain E K N) prec sched X W)
      (FloatOps.matmul (DotDims.plain M K N) prec' Xb Wb (constant ⟨2, ![M, N]⟩ .f32 0x00000000#32)) := fun y q h => by
  rw [matmul_zero_apply, dotGeneral_apply]
  exact Finset.sum_congr rfl fun k _ => by rw [hX y k h, hW]

/-- Pointwise sums. -/
theorem RowsOf.add {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (addf X Y) (addf Xb Yb) := fun y k h => by
  show (Xb (ix2 y k) : EReal) + Yb (ix2 y k) = X _ + Y _
  rw [hX y k h, hY y k h]

/-- Pointwise products. -/
theorem RowsOf.mul {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (mulf X Y) (mulf Xb Yb) := fun y k h => by
  show (Xb (ix2 y k) : EReal) * Yb (ix2 y k) = X _ * Y _
  rw [hX y k h, hY y k h]

/-- A vector spread over the rows: two `broadcast_in_dim`s of `b` on the long side, a shape cast and a broadcast of
    `bb` on the block, when `bb` is `b` entry by entry. -/
theorem RowsOf.bias {N : Nat} (b bb : (⟨1, ![N]⟩ : Shape).Idx → EReal) (hb : ∀ i, bb i = b i)
    (h1 : (⟨1, ![N]⟩ : Shape).BroadcastsInDim ⟨2, ![1, N]⟩ ![1])
    (h2 : (⟨2, ![1, N]⟩ : Shape).BroadcastsInDim ⟨2, ![E, N]⟩ ![0, 1])
    (h1' : (⟨1, ![N]⟩ : Shape).ShapeCasts ⟨2, ![1, N]⟩) (h2' : (⟨2, ![1, N]⟩ : Shape).Broadcasts ⟨2, ![M, N]⟩) :
    RowsOf E M N o (broadcastInDim ⟨2, ![E, N]⟩ ![0, 1] h2 (broadcastInDim ⟨2, ![1, N]⟩ ![1] h1 b))
      (broadcastTo ⟨2, ![M, N]⟩ (shapeCast ⟨2, ![1, N]⟩ bb h1') h2') := fun y q h => by
  rw [castRow_broadcast_apply, bcastRow_bcast_apply, hb]

/-- `z ↦ z · σ(z)`: the host's quotient `1 / (1 + e⁻ᶻ)` with the word of the number one on the long side, the logistic
    operation on the block. -/
theorem RowsOf.silu {Z : FVec Ideal ⟨2, ![E, A]⟩ .f32} {Zb : FVec Ideal ⟨2, ![M, A]⟩ .f32} (hZ : RowsOf E M A o Z Zb)
    (h1 h2 : (⟨0, ![]⟩ : Shape).BroadcastsInDim ⟨2, ![E, A]⟩ ![]) :
    RowsOf E M A o
      (mulf Z (Host.divf (broadcastInDim ⟨2, ![E, A]⟩ ![] h1 (constant (F := Ideal) ⟨0, ![]⟩ .f32 0x3F800000#32))
        (addf (broadcastInDim ⟨2, ![E, A]⟩ ![] h2 (constant (F := Ideal) ⟨0, ![]⟩ .f32 0x3F800000#32)) (Host.exp (Host.negf Z)))))
      (mulf Zb (logistic Zb)) := fun y k h => by
  show (Zb (ix2 y k) : EReal) * Ideal.logistic (Zb (ix2 y k))
    = Z _ * Ideal.div (Ideal.ofBits .f32 0x3F800000#32) (Ideal.ofBits .f32 0x3F800000#32 + Ideal.exp (-(Z _)))
  rw [hZ y k h, Cert.Lib.Gru.logistic_eq_sigm]
  rfl

end Cert.Lib.RowBlocks

end
-- ==== Proof.LibRowNorm.lean ====
/-
  Rows of a long rank-two array against a block of consecutive rows of it, continued: the operations of a
  normalisation over each row.

  With `RowsOf E M A o arr blk` — `blk`, of `M` rows, holds rows `o, …, o + M - 1` of the `E`-row array `arr` —
  each of the following carries the relation from operands to result, the long side spelt with the host's operations
  and the block side with a kernel's:

  * the pointwise difference, maximum and quotient, and the reciprocal square root;
  * a scalar constant spread over the whole array, and a scalar value held in a 1 × 1 block spread over it;
  * the sum of each row, as a one-column array (rows of the column are rows of the array): the host's reduction
    along axis 1 followed by a `broadcast_in_dim` to a column, against a lane reduction followed by a shape cast;
  * a one-column array spread over the columns.
-/
import Idealize.ShloMosaic.PureOps.Ideal.Laws
import Idealize.ShloMosaic.Lib.ValueIdx
import Idealize.ShloMosaic.Lib.Pipeline.Value
import Idealize.ShloMosaic.Lib.ValueLayout
import proofs.«142699_j1640677507203_1_alg».proof.Proof.LibRowBlocks

noncomputable section

open scoped BigOperators

namespace Cert.Lib.RowBlocks

open Idealize.ShloMosaic Idealize.ShloMosaic.ValueIdx Cert.Lib.RowOps

variable {E M A o : Nat}

/-- Pointwise differences. -/
theorem RowsOf.sub {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (subf X Y) (subf Xb Yb) := by
  intro y k h
  show (Xb (ix2 y k) : EReal) - Yb (ix2 y k) = X _ - Y _
  rw [hX y k h, hY y k h]

/-- Pointwise maxima. -/
theorem RowsOf.max {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (maximumf X Y) (maximumf Xb Yb) := by
  intro y k h
  show Max.max (Xb (ix2 y k) : EReal) (Yb (ix2 y k)) = Max.max (X _) (Y _)
  rw [hX y k h, hY y k h]

/-- Pointwise quotients: the host's division on the long side, a kernel's on the block. -/
theorem RowsOf.hostDiv {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (Host.divf X Y) (divf Xb Yb) := by
  intro y k h
  show Ideal.div (Xb (ix2 y k)) (Yb (ix2 y k)) = Ideal.div (X _) (Y _)
  rw [hX y k h, hY y k h]

/-- Reciprocal square roots: the host's on the long side, a kernel's on the block. -/
theorem RowsOf.rsqrt {φ φ' : FTy} {X : FVec Ideal ⟨2, ![E, A]⟩ φ} {Xb : FVec Ideal ⟨2, ![M, A]⟩ φ'}
    (hX : RowsOf E M A o X Xb) : RowsOf E M A o (Host.rsqrt X) (rsqrt Xb) := by
  intro y k h
  show Ideal.rsqrt (Xb (ix2 y k)) = Ideal.rsqrt (X _)
  rw [hX y k h]

/-- A scalar constant spread over the whole array: the host's `broadcast_in_dim` of a rank-zero constant on the long
    side, a kernel's splat of the same word on the block. -/
theorem RowsOf.splat (w : BitVec 32) (h : (⟨0, ![]⟩ : Shape).BroadcastsInDim ⟨2, ![E, A]⟩ ![]) :
    RowsOf E M A o (broadcastInDim ⟨2, ![E, A]⟩ ![] h (constant (F := Ideal) ⟨0, ![]⟩ .f32 w))
      (broadcast ⟨2, ![M, A]⟩ (Scalar.ofBits (F := Ideal) .f32 w)) := by
  intro y k hlt
  -- both sides read the value of the word `w` at every index
  rw [splat_apply]
  rfl

/-- A scalar value spread over the whole array: rank zero on the long side, held in a 1 × 1 block on the other. -/
theorem RowsOf.scalar (s : (⟨0, ![]⟩ : Shape).Idx → EReal) (sb : (⟨2, ![1, 1]⟩ : Shape).Idx → EReal)
    (hs : sb (ix2 (0 : Fin 1) (0 : Fin 1)) = s ix0)
    (h : (⟨0, ![]⟩ : Shape).BroadcastsInDim ⟨2, ![E, A]⟩ ![]) (h' : (⟨2, ![1, 1]⟩ : Shape).Broadcasts ⟨2, ![M, A]⟩) :
    RowsOf E M A o (broadcastInDim ⟨2, ![E, A]⟩ ![] h s) (broadcastTo ⟨2, ![M, A]⟩ sb h') := by
  intro y k hlt
  -- the long side reads `s` at its one index, the block side `sb` at `(0, 0)`
  rw [broadcastInDim_apply ![] h s _ ix0 (fun a => a.elim0)]
  rw [broadcastTo_apply sb h' (ix2 y k) (ix2 (0 : Fin 1) (0 : Fin 1)) (fun a => by
    match a with
    | ⟨0, _⟩ => simp
    | ⟨1, _⟩ => simp)]
  exact hs

/-- The sum of each row as a one-column array: row `r` of the column is the sum of row `r` of the array, so the
    block's column holds the rows of the long column that the block holds of the long array. -/
theorem RowsOf.rowSum {X : FVec Ideal ⟨2, ![E, A]⟩ .f32} {Xb : FVec Ideal ⟨2, ![M, A]⟩ .f32} (hX : RowsOf E M A o X Xb)
    (hr : (⟨2, ![E, A]⟩ : Shape).ReducesTo [1] ⟨1, ![E]⟩) (hu : 0 < (⟨0, ![]⟩ : Shape).numel)
    (hb : (⟨1, ![E]⟩ : Shape).BroadcastsInDim ⟨2, ![E, 1]⟩ ![0])
    (hred : (⟨2, ![M, A]⟩ : Shape).Reduces [1] ⟨1, ![M]⟩) (hφ : FKind.Formats .f32)
    (hacc : (0x00000000#32 : BitVec 32) = FKind.add.neutral .f32 hφ)
    (hc : (⟨1, ![M]⟩ : Shape).ShapeCasts ⟨2, ![M, 1]⟩) :
    RowsOf E M 1 o
      (broadcastInDim ⟨2, ![E, 1]⟩ ![0] hb (Host.reduceAdd X (constant (F := Ideal) ⟨0, ![]⟩ .f32 0x00000000#32) hr hu))
      (shapeCast ⟨2, ![M, 1]⟩ (multiReduction .add [1] ⟨1, ![M]⟩ Xb 0x00000000#32 hred hφ hacc) hc) := by
  intro y k hlt
  have hR : (⟨2, ![E, A]⟩ : Shape).Reduces [1] ⟨1, ![E]⟩ := ⟨hr.1, Nat.one_pos, hr.2⟩
  -- the long column at `(o + y, k)` is the host's sum at `o + y`
  rw [broadcastInDim_apply ![0] hb _ (ix2 ⟨o + y.val, hlt⟩ k) (ix1 ⟨o + y.val, hlt⟩) (fun a => by
    match a with
    | ⟨0, _⟩ =>
      show o + y.val = if E = 1 then 0 else o + y.val
      split
      · omega
      · rfl)]
  -- the block's column at `(y, k)` is the lane sum at `y`: the same row-major position, as `k = 0`
  rw [shapeCast_apply _ hc (ix2 y k) (ix1 y) (by
    rw [Shape.rowMajor_val_one, Shape.rowMajor_val_two]
    show y.val = y.val * 1 + k.val
    have := k.isLt
    omega)]
  refine (Ideal.multiReduction_add_single Xb _ hred hφ hacc (ix1 y)).trans ?_
  show _ = Ideal.hostReduceAdd hr X (Ideal.ofBits .f32 0x00000000#32) (ix1 ⟨o + y.val, hlt⟩)
  rw [Ideal.hostReduceAdd_single hr hR, Ideal.ofBits_zero_f32, zero_add]
  -- both are sums over the columns, equal term by term
  show ∑ q : Fin A, Xb (hred.lift (ix1 y) q) = ∑ q : Fin A, X (hR.lift (ix1 ⟨o + y.val, hlt⟩) q)
  refine Finset.sum_congr rfl fun q _ => ?_
  have eb : hred.lift (ix1 y) q = ix2 y q := funext fun a => Fin.ext (by
    match a with
    | ⟨0, _⟩ => rfl
    | ⟨1, _⟩ => rfl)
  have el : hR.lift (ix1 ⟨o + y.val, hlt⟩) q = ix2 ⟨o + y.val, hlt⟩ q := funext fun a => Fin.ext (by
    match a with
    | ⟨0, _⟩ => rfl
    | ⟨1, _⟩ => rfl)
  rw [eb, el]
  exact hX y q hlt

/-- A one-column array spread over the columns. -/
theorem RowsOf.spreadCol {φ φ' : FTy} {C : FVec Ideal ⟨2, ![E, 1]⟩ φ} {Cb : FVec Ideal ⟨2, ![M, 1]⟩ φ'}
    (hC : RowsOf E M 1 o C Cb)
    (h : (⟨2, ![E, 1]⟩ : Shape).BroadcastsInDim ⟨2, ![E, A]⟩ ![0, 1]) (h' : (⟨2, ![M, 1]⟩ : Shape).Broadcasts ⟨2, ![M, A]⟩) :
    RowsOf E M A o (broadcastInDim ⟨2, ![E, A]⟩ ![0, 1] h C) (broadcastTo ⟨2, ![M, A]⟩ Cb h') := by
  intro y k hlt
  -- the long side reads `C` at `(o + y, 0)`, the block side `Cb` at `(y, 0)`
  rw [broadcastInDim_apply ![0, 1] h C (ix2 ⟨o + y.val, hlt⟩ k) (ix2 ⟨o + y.val, hlt⟩ (0 : Fin 1)) (fun a => by
    match a with
    | ⟨0, _⟩ =>
      show o + y.val = if E = 1 then 0 else o + y.val
      split
      · omega
      · rfl
    | ⟨1, _⟩ => simp)]
  rw [broadcastTo_apply Cb h' (ix2 y k) (ix2 y (0 : Fin 1)) (fun a => by
    match a with
    | ⟨0, _⟩ =>
      show y.val = if M = 1 then 0 else y.val
      split
      · have := y.isLt; omega
      · rfl
    | ⟨1, _⟩ => simp)]
  exact hC y 0 hlt

end Cert.Lib.RowBlocks

end
-- ==== Proof.LibLayerRows.lean ====
/-
  One graph-network layer, row by row.

  A layer acts on every node (row) by itself once the neighbours' sum is given: with `h` the node's features and `a`
  the sum of its neighbours' features,

      z  = (1 + ε) · h + a
      u  = max (z · W₁ + b₁) 0 · W₂ + b₂                      (two-layer perceptron)
      LN(u) = (u − μ) · (σ² + δ)^(−1/2) · g + b,   μ = (Σₖ uₖ) / n,   σ² = (Σₖ (uₖ − μ)²) / n      (row normalisation)

  and the layer's output is `max (LN'(LN(u))) 0 + h` (or `LN(u) + h` for the last layer).  Because each step reads only
  the node's own row, a block of consecutive rows of the inputs gives the same block of rows of the output: this module
  carries `RowsOf` (a block holds rows `o … o + M − 1` of a long array) through the perceptron and the normalisation,
  the long side spelt with the host's operations and the block side with a kernel's.
-/
import proofs.«142699_j1640677507203_1_alg».proof.Proof.LibRowNorm

noncomputable section

open scoped BigOperators

namespace Cert.Lib.RowBlocks

open Idealize.ShloMosaic Idealize.ShloMosaic.ValueIdx Cert.Lib.RowOps

variable {E M A o : Nat}

/-- A one-element array reshaped to 1 × 1 holds that element. -/
theorem cast_scalar_apply {α : Type} (e : (⟨0, ![]⟩ : Shape).Idx → α) (h : (⟨0, ![]⟩ : Shape).ShapeCasts ⟨2, ![1, 1]⟩) :
    shapeCast ⟨2, ![1, 1]⟩ e h (ix2 (0 : Fin 1) (0 : Fin 1)) = e ix0 := by
  exact shapeCast_apply e h (ix2 (0 : Fin 1) (0 : Fin 1)) ix0 (by
    have h2 := (Shape.rowMajor (⟨2, ![1, 1]⟩ : Shape) (ix2 (0 : Fin 1) (0 : Fin 1))).isLt
    have h0 := (Shape.rowMajor (⟨0, ![]⟩ : Shape) ix0).isLt
    have e2 : (⟨2, ![1, 1]⟩ : Shape).numel = 1 := by decide
    have e0 : (⟨0, ![]⟩ : Shape).numel = 1 := by decide
    omega)

/-- A vector reshaped to one row holds the vector along that row. -/
theorem cast_row_apply {α : Type} {N : Nat} (b : (⟨1, ![N]⟩ : Shape).Idx → α) (h : (⟨1, ![N]⟩ : Shape).ShapeCasts ⟨2, ![1, N]⟩)
    (q : Fin N) : shapeCast ⟨2, ![1, N]⟩ b h (ix2 (0 : Fin 1) q) = b (ix1 q) := by
  rw [shapeCast_addUnit_apply ![N] b h (ix2 (0 : Fin 1) q)]
  exact congrArg b (funext fun a => by match a with | ⟨0, _⟩ => rfl)

/-- A vector spread over the rows, the block side holding it as one row: two `broadcast_in_dim`s of `b` on the long
    side, a broadcast of the 1 × N block `bb` (through a shape cast to its own shape) on the other. -/
theorem RowsOf.biasRow {N : Nat} (b : (⟨1, ![N]⟩ : Shape).Idx → EReal) (bb : (⟨2, ![1, N]⟩ : Shape).Idx → EReal)
    (hb : ∀ q : Fin N, bb (ix2 (0 : Fin 1) q) = b (ix1 q))
    (h1 : (⟨1, ![N]⟩ : Shape).BroadcastsInDim ⟨2, ![1, N]⟩ ![1])
    (h2 : (⟨2, ![1, N]⟩ : Shape).BroadcastsInDim ⟨2, ![E, N]⟩ ![0, 1])
    (h1' : (⟨2, ![1, N]⟩ : Shape).ShapeCasts ⟨2, ![1, N]⟩) (h2' : (⟨2, ![1, N]⟩ : Shape).Broadcasts ⟨2, ![M, N]⟩) :
    RowsOf E M N o (broadcastInDim ⟨2, ![E, N]⟩ ![0, 1] h2 (broadcastInDim ⟨2, ![1, N]⟩ ![1] h1 b))
      (broadcastTo ⟨2, ![M, N]⟩ (shapeCast ⟨2, ![1, N]⟩ bb h1') h2') := fun y q h => by
  rw [bcastRow_bcast_apply, shapeCast_self]
  rw [broadcastTo_apply _ h2' (ix2 y q) (ix2 (0 : Fin 1) q) (fun a => by
    match a with
    | ⟨0, _⟩ => simp
    | ⟨1, _⟩ =>
      show q.val = if N = 1 then 0 else q.val
      split
      · have := q.isLt; omega
      · rfl)]
  exact hb q

/-- THE PERCEPTRON.  `max (((1 + ε) · h + a) · W₁ + b₁) 0 · W₂ + b₂`: on the long side the host's two plain products,
    on the block two products into zero accumulators of operands narrowed to a shorter float format (which changes no
    extended real); `ε` a scalar on the long side, held in a 1 × 1 block on the other. -/
theorem RowsOf.perceptron {K N : Nat} {H Agg : FVec Ideal ⟨2, ![E, K]⟩ .f32} {Hb Aggb : FVec Ideal ⟨2, ![M, K]⟩ .f32}
    (hH : RowsOf E M K o H Hb) (hA : RowsOf E M K o Agg Aggb)
    (s : (⟨0, ![]⟩ : Shape).Idx → EReal) (sb : (⟨2, ![1, 1]⟩ : Shape).Idx → EReal) (hs : sb (ix2 (0 : Fin 1) (0 : Fin 1)) = s ix0)
    (W1 : FVec Ideal ⟨2, ![K, N]⟩ .f32) (W1b : FVec Ideal ⟨2, ![K, N]⟩ .bf16) (hW1 : ∀ i, W1b i = W1 i)
    (b1 : (⟨1, ![N]⟩ : Shape).Idx → EReal) (b1b : (⟨2, ![1, N]⟩ : Shape).Idx → EReal) (hb1 : ∀ q : Fin N, b1b (ix2 (0 : Fin 1) q) = b1 (ix1 q))
    (W2 : FVec Ideal ⟨2, ![N, N]⟩ .f32) (W2b : FVec Ideal ⟨2, ![N, N]⟩ .bf16) (hW2 : ∀ i, W2b i = W2 i)
    (b2 : (⟨1, ![N]⟩ : Shape).Idx → EReal) (b2b : (⟨2, ![1, N]⟩ : Shape).Idx → EReal) (hb2 : ∀ q : Fin N, b2b (ix2 (0 : Fin 1) q) = b2 (ix1 q))
    (hS : (⟨0, ![]⟩ : Shape).BroadcastsInDim ⟨2, ![E, K]⟩ ![]) (hS' : (⟨2, ![1, 1]⟩ : Shape).Broadcasts ⟨2, ![M, K]⟩)
    (hZ : (⟨0, ![]⟩ : Shape).BroadcastsInDim ⟨2, ![E, N]⟩ ![])
    (h1 : (⟨1, ![N]⟩ : Shape).BroadcastsInDim ⟨2, ![1, N]⟩ ![1]) (h2 : (⟨2, ![1, N]⟩ : Shape).BroadcastsInDim ⟨2, ![E, N]⟩ ![0, 1])
    (h1' : (⟨2, ![1, N]⟩ : Shape).ShapeCasts ⟨2, ![1, N]⟩) (h2' : (⟨2, ![1, N]⟩ : Shape).Broadcasts ⟨2, ![M, N]⟩)
    (ht : FTy.bf16.bits < FTy.f32.bits) :
    RowsOf E M N o
      (addf (FloatOps.dotGeneral (DotDims.plain E N N) none .single
          (maximumf (addf (FloatOps.dotGeneral (DotDims.plain E K N) none .single
              (addf (mulf (broadcastInDim ⟨2, ![E, K]⟩ ![] hS s) H) Agg) W1)
              (broadcastInDim ⟨2, ![E, N]⟩ ![0, 1] h2 (broadcastInDim ⟨2, ![1, N]⟩ ![1] h1 b1)))
            (broadcastInDim ⟨2, ![E, N]⟩ ![] hZ (constant (F := Ideal) ⟨0, ![]⟩ .f32 0x00000000#32))) W2)
        (broadcastInDim ⟨2, ![E, N]⟩ ![0, 1] h2 (broadcastInDim ⟨2, ![1, N]⟩ ![1] h1 b2)))
      (addf (FloatOps.matmul (DotDims.plain M N N) none
          (Idealize.ShloMosaic.truncf .bf16 (maximumf (addf (FloatOps.matmul (DotDims.plain M K N) none
              (Idealize.ShloMosaic.truncf .bf16 (addf (mulf (broadcastTo ⟨2, ![M, K]⟩ sb hS') Hb) Aggb) ht) W1b (constant ⟨2, ![M, N]⟩ .f32 0x00000000#32))
              (broadcastTo ⟨2, ![M, N]⟩ (shapeCast ⟨2, ![1, N]⟩ b1b h1') h2'))
            (broadcast ⟨2, ![M, N]⟩ (Scalar.ofBits (F := Ideal) .f32 0x00000000#32))) ht) W2b (constant ⟨2, ![M, N]⟩ .f32 0x00000000#32))
        (broadcastTo ⟨2, ![M, N]⟩ (shapeCast ⟨2, ![1, N]⟩ b2b h1') h2')) := by
  have hz := ((RowsOf.scalar s sb hs hS hS').mul hH).add hA
  have hu := (((hz.truncf ht).dot W1 W1b hW1 none none .single).add (RowsOf.biasRow b1 b1b hb1 h1 h2 h1' h2')).max (RowsOf.splat 0x00000000#32 hZ)
  exact ((hu.truncf ht).dot W2 W2b hW2 none none .single).add (RowsOf.biasRow b2 b2b hb2 h1 h2 h1' h2')

/-- THE ROW NORMALISATION.  `(u − μ) · (σ² + δ)^(−1/2) · g + b` with `μ` the mean of the row and `σ²` the mean of the
    squared deviations, the divisor `n` and the offset `δ` given by their words: on the long side the host's reductions,
    quotients and reciprocal square root, on the block the lane reductions and a kernel's. -/
theorem RowsOf.rowNorm {Z : FVec Ideal ⟨2, ![E, A]⟩ .f32} {Zb : FVec Ideal ⟨2, ![M, A]⟩ .f32} (hZ : RowsOf E M A o Z Zb)
    (g : (⟨1, ![A]⟩ : Shape).Idx → EReal) (gb : (⟨2, ![1, A]⟩ : Shape).Idx → EReal) (hg : ∀ q : Fin A, gb (ix2 (0 : Fin 1) q) = g (ix1 q))
    (b : (⟨1, ![A]⟩ : Shape).Idx → EReal) (bb : (⟨2, ![1, A]⟩ : Shape).Idx → EReal) (hb : ∀ q : Fin A, bb (ix2 (0 : Fin 1) q) = b (ix1 q))
    (wn wd : BitVec 32)
    (hr : (⟨2, ![E, A]⟩ : Shape).ReducesTo [1] ⟨1, ![E]⟩) (hu : 0 < (⟨0, ![]⟩ : Shape).numel)
    (hc0 : (⟨1, ![E]⟩ : Shape).BroadcastsInDim ⟨2, ![E, 1]⟩ ![0])
    (hS1 : (⟨0, ![]⟩ : Shape).BroadcastsInDim ⟨2, ![E, 1]⟩ ![])
    (hsp : (⟨2, ![E, 1]⟩ : Shape).BroadcastsInDim ⟨2, ![E, A]⟩ ![0, 1])
    (h1 : (⟨1, ![A]⟩ : Shape).BroadcastsInDim ⟨2, ![1, A]⟩ ![1]) (h2 : (⟨2, ![1, A]⟩ : Shape).BroadcastsInDim ⟨2, ![E, A]⟩ ![0, 1])
    (hred : (⟨2, ![M, A]⟩ : Shape).Reduces [1] ⟨1, ![M]⟩) (hφ : FKind.Formats .f32)
    (hacc : (0x00000000#32 : BitVec 32) = FKind.add.neutral .f32 hφ)
    (hcc : (⟨1, ![M]⟩ : Shape).ShapeCasts ⟨2, ![M, 1]⟩)
    (hsp' : (⟨2, ![M, 1]⟩ : Shape).Broadcasts ⟨2, ![M, A]⟩)
    (h1' : (⟨2, ![1, A]⟩ : Shape).ShapeCasts ⟨2, ![1, A]⟩) (h2' : (⟨2, ![1, A]⟩ : Shape).Broadcasts ⟨2, ![M, A]⟩) :
    RowsOf E M A o
      (addf (mulf (mulf
          (subf Z (broadcastInDim ⟨2, ![E, A]⟩ ![0, 1] hsp
            (Host.divf (broadcastInDim ⟨2, ![E, 1]⟩ ![0] hc0 (Host.reduceAdd Z (constant (F := Ideal) ⟨0, ![]⟩ .f32 0x00000000#32) hr hu))
              (broadcastInDim ⟨2, ![E, 1]⟩ ![] hS1 (constant (F := Ideal) ⟨0, ![]⟩ .f32 wn)))))
          (broadcastInDim ⟨2, ![E, A]⟩ ![0, 1] hsp (Host.rsqrt (addf
            (Host.divf (broadcastInDim ⟨2, ![E, 1]⟩ ![0] hc0 (Host.reduceAdd
                (mulf
                  (subf Z (broadcastInDim ⟨2, ![E, A]⟩ ![0, 1] hsp
                    (Host.divf (broadcastInDim ⟨2, ![E, 1]⟩ ![0] hc0 (Host.reduceAdd Z (constant (F := Ideal) ⟨0, ![]⟩ .f32 0x00000000#32) hr hu))
                      (broadcastInDim ⟨2, ![E, 1]⟩ ![] hS1 (constant (F := Ideal) ⟨0, ![]⟩ .f32 wn)))))
                  (subf Z (broadcastInDim ⟨2, ![E, A]⟩ ![0, 1] hsp
                    (Host.divf (broadcastInDim ⟨2, ![E, 1]⟩ ![0] hc0 (Host.reduceAdd Z (constant (F := Ideal) ⟨0, ![]⟩ .f32 0x00000000#32) hr hu))
                      (broadcastInDim ⟨2, ![E, 1]⟩ ![] hS1 (constant (F := Ideal) ⟨0, ![]⟩ .f32 wn))))))
                (constant (F := Ideal) ⟨0, ![]⟩ .f32 0x00000000#32) hr hu))
              (broadcastInDim ⟨2, ![E, 1]⟩ ![] hS1 (constant (F := Ideal) ⟨0, ![]⟩ .f32 wn)))
            (broadcastInDim ⟨2, ![E, 1]⟩ ![] hS1 (constant (F := Ideal) ⟨0, ![]⟩ .f32 wd))))))
          (broadcastInDim ⟨2, ![E, A]⟩ ![0, 1] h2 (broadcastInDim ⟨2, ![1, A]⟩ ![1] h1 g)))
        (broadcastInDim ⟨2, ![E, A]⟩ ![0, 1] h2 (broadcastInDim ⟨2, ![1, A]⟩ ![1] h1 b)))
      (addf (mulf (mulf
          (subf Zb (broadcastTo ⟨2, ![M, A]⟩
            (divf (shapeCast ⟨2, ![M, 1]⟩ (multiReduction .add [1] ⟨1, ![M]⟩ Zb 0x00000000#32 hred hφ hacc) hcc)
              (broadcast ⟨2, ![M, 1]⟩ (Scalar.ofBits (F := Ideal) .f32 wn))) hsp'))
          (broadcastTo ⟨2, ![M, A]⟩ (Idealize.ShloMosaic.rsqrt (addf
            (divf (shapeCast ⟨2, ![M, 1]⟩ (multiReduction .add [1] ⟨1, ![M]⟩
                (mulf
                  (subf Zb (broadcastTo ⟨2, ![M, A]⟩
                    (divf (shapeCast ⟨2, ![M, 1]⟩ (multiReduction .add [1] ⟨1, ![M]⟩ Zb 0x00000000#32 hred hφ hacc) hcc)
                      (broadcast ⟨2, ![M, 1]⟩ (Scalar.ofBits (F := Ideal) .f32 wn))) hsp'))
                  (subf Zb (broadcastTo ⟨2, ![M, A]⟩
                    (divf (shapeCast ⟨2, ![M, 1]⟩ (multiReduction .add [1] ⟨1, ![M]⟩ Zb 0x00000000#32 hred hφ hacc) hcc)
                      (broadcast ⟨2, ![M, 1]⟩ (Scalar.ofBits (F := Ideal) .f32 wn))) hsp')))
                0x00000000#32 hred hφ hacc) hcc)
              (broadcast ⟨2, ![M, 1]⟩ (Scalar.ofBits (F := Ideal) .f32 wn)))
            (broadcast ⟨2, ![M, 1]⟩ (Scalar.ofBits (F := Ideal) .f32 wd)))) hsp'))
          (broadcastTo ⟨2, ![M, A]⟩ (shapeCast ⟨2, ![1, A]⟩ gb h1') h2'))
        (broadcastTo ⟨2, ![M, A]⟩ (shapeCast ⟨2, ![1, A]⟩ bb h1') h2')) := by
  have hmean : RowsOf E M 1 o _ _ :=
    RowsOf.hostDiv (φ := .f32) (φ' := .f32) (hZ.rowSum hr hu hc0 hred hφ hacc hcc) (RowsOf.splat (E := E) (M := M) (A := 1) (o := o) wn hS1)
  have hdev : RowsOf E M A o _ _ := RowsOf.sub (φ := .f32) (φ' := .f32) hZ (RowsOf.spreadCol (φ := .f32) (φ' := .f32) hmean hsp hsp')
  have hvar : RowsOf E M 1 o _ _ :=
    RowsOf.hostDiv (φ := .f32) (φ' := .f32) ((RowsOf.mul (φ := .f32) (φ' := .f32) hdev hdev).rowSum hr hu hc0 hred hφ hacc hcc)
      (RowsOf.splat (E := E) (M := M) (A := 1) (o := o) wn hS1)
  have hinv : RowsOf E M 1 o _ _ :=
    RowsOf.rsqrt (φ := .f32) (φ' := .f32) (RowsOf.add (φ := .f32) (φ' := .f32) hvar (RowsOf.splat (E := E) (M := M) (A := 1) (o := o) wd hS1))
  exact RowsOf.add (φ := .f32) (φ' := .f32)
    (RowsOf.mul (φ := .f32) (φ' := .f32)
      (RowsOf.mul (φ := .f32) (φ' := .f32) hdev (RowsOf.spreadCol (φ := .f32) (φ' := .f32) hinv hsp hsp'))
      (RowsOf.biasRow g gb hg h1 h2 h1' h2'))
    (RowsOf.biasRow b bb hb h1 h2 h1' h2')

end Cert.Lib.RowBlocks

end
-- ==== Proof.LibRowGates.lean ====
/-
  Rows of a long rank-two array against a block of consecutive rows of it, continued: the operations of a gated
  recurrent cell and of a leaky rectifier.

  With `RowsOf E M A o arr blk` — `blk`, of `M` rows, holds rows `o, …, o + M - 1` of the `E`-row array `arr` —
  each of the following carries the relation from operands to result, the long side spelt with the host's operations
  and the block side with a kernel's:

  * a run of consecutive columns cut out of both (a row of the cut is the cut of the row);
  * the hyperbolic tangent;
  * the logistic function `σ(x) = 1 / (1 + e⁻ˣ)`: on the long side the quotient spelt out with the word of the number
    one, on the block the logistic operation;
  * a scalar constant minus an array;
  * a comparison followed by a selection, and with them the leaky rectifier `x ↦ x` where `x ≥ 0`, `s · x` elsewhere;
  * a single number spread over a one-column array: a length-one vector on the long side, a 1 × 1 block on the other.
-/
import proofs.«142699_j1640677507203_1_alg».proof.Proof.LibLayerRows

noncomputable section

open scoped BigOperators

namespace Cert.Lib.RowBlocks

open Idealize.ShloMosaic Idealize.ShloMosaic.ValueIdx Cert.Lib.RowOps

variable {E M A o : Nat}

/-- A block equal entry by entry to one that holds the rows holds them too. -/
theorem RowsOf.congr {X : (⟨2, ![E, A]⟩ : Shape).Idx → EReal} {Xb Xb' : (⟨2, ![M, A]⟩ : Shape).Idx → EReal}
    (hX : RowsOf E M A o X Xb) (h : ∀ i, Xb' i = Xb i) : RowsOf E M A o X Xb' := fun y k hlt => by
  rw [h]; exact hX y k hlt

/-- Columns `off … off + A - 1` of both: the columns of a row do not depend on which rows are held. -/
theorem RowsOf.sliceCols {A' off : Nat} {X : (⟨2, ![E, A']⟩ : Shape).Idx → EReal} {Xb : (⟨2, ![M, A']⟩ : Shape).Idx → EReal}
    (hX : RowsOf E M A' o X Xb)
    (h : (⟨2, ![E, A']⟩ : Shape).Slices ![0, off] ⟨2, ![E, A]⟩) (h' : (⟨2, ![M, A']⟩ : Shape).Slices ![0, off] ⟨2, ![M, A]⟩) :
    RowsOf E M A o (extractStridedSlice ⟨2, ![E, A]⟩ ![0, off] X h) (extractStridedSlice ⟨2, ![M, A]⟩ ![0, off] Xb h') := by
  intro y k hlt
  -- the cut stays inside the columns of the operand
  have hoff : off + A ≤ A' := h'.2 (1 : Fin 2)
  have hk : off + k.val < A' := by have := k.isLt; omega
  rw [sliceCols_apply M A' A off Xb h' y k hk, sliceCols_apply E A' A off X h ⟨o + y.val, hlt⟩ k hk]
  exact hX y ⟨off + k.val, hk⟩ hlt

/-- Hyperbolic tangents: the host's on the long side, a kernel's on the block. -/
theorem RowsOf.tanh {φ φ' : FTy} {X : FVec Ideal ⟨2, ![E, A]⟩ φ} {Xb : FVec Ideal ⟨2, ![M, A]⟩ φ'}
    (hX : RowsOf E M A o X Xb) : RowsOf E M A o (Host.tanh X) (Idealize.ShloMosaic.tanh Xb) := by
  intro y k h
  show Ideal.tanh (Xb (ix2 y k)) = Ideal.tanh (X _)
  rw [hX y k h]

/-- The logistic function `σ(x) = 1 / (1 + e⁻ˣ)`: the host's quotient with the word of the number one on the long side,
    the logistic operation on the block. -/
theorem RowsOf.logistic {X : FVec Ideal ⟨2, ![E, A]⟩ .f32} {Xb : FVec Ideal ⟨2, ![M, A]⟩ .f32} (hX : RowsOf E M A o X Xb)
    (h1 h2 : (⟨0, ![]⟩ : Shape).BroadcastsInDim ⟨2, ![E, A]⟩ ![]) :
    RowsOf E M A o
      (Host.divf (broadcastInDim ⟨2, ![E, A]⟩ ![] h1 (constant (F := Ideal) ⟨0, ![]⟩ .f32 0x3F800000#32))
        (addf (broadcastInDim ⟨2, ![E, A]⟩ ![] h2 (constant (F := Ideal) ⟨0, ![]⟩ .f32 0x3F800000#32)) (Host.exp (Host.negf X))))
      (Idealize.ShloMosaic.logistic Xb) := fun y k h => by
  show Ideal.logistic (Xb (ix2 y k))
    = Ideal.div (Ideal.ofBits .f32 0x3F800000#32) (Ideal.ofBits .f32 0x3F800000#32 + Ideal.exp (-(X _)))
  rw [hX y k h, Cert.Lib.Gru.logistic_eq_sigm]
  rfl

/-- A scalar constant minus an array: the host's difference from a spread rank-zero constant on the long side, a
    kernel's difference from a splat of the same word on the block. -/
theorem RowsOf.constSub (w : BitVec 32) {X : FVec Ideal ⟨2, ![E, A]⟩ .f32} {Xb : FVec Ideal ⟨2, ![M, A]⟩ .f32}
    (hX : RowsOf E M A o X Xb) (h : (⟨0, ![]⟩ : Shape).BroadcastsInDim ⟨2, ![E, A]⟩ ![]) :
    RowsOf E M A o (subf (broadcastInDim ⟨2, ![E, A]⟩ ![] h (constant (F := Ideal) ⟨0, ![]⟩ .f32 w)) X)
      (subf (broadcast ⟨2, ![M, A]⟩ (Scalar.ofBits (F := Ideal) .f32 w)) Xb) :=
  RowsOf.sub (φ := .f32) (φ' := .f32) (RowsOf.splat w h) hX

/-- A comparison followed by a selection, entry by entry: where `X` stands to `Y` as the predicate says take `P`,
    elsewhere `Q`.  The comparison and the selection are the same functions on the host and in a kernel. -/
theorem RowsOf.selectCmp (p : CmpFPredicate) {φ φ' : FTy} {X Y : FVec Ideal ⟨2, ![E, A]⟩ φ} {Xb Yb : FVec Ideal ⟨2, ![M, A]⟩ φ'}
    {P Q : (⟨2, ![E, A]⟩ : Shape).Idx → EReal} {Pb Qb : (⟨2, ![M, A]⟩ : Shape).Idx → EReal}
    (hX : RowsOf E M A o X Xb) (hY : RowsOf E M A o Y Yb) (hP : RowsOf E M A o P Pb) (hQ : RowsOf E M A o Q Qb) :
    RowsOf E M A o (select (cmpf p X Y) P Q) (select (cmpf p Xb Yb) Pb Qb) := by
  intro y k h
  show Scalar.select (Ideal.cmp p (Xb (ix2 y k)) (Yb (ix2 y k))) (Pb (ix2 y k)) (Qb (ix2 y k))
    = Scalar.select (Ideal.cmp p (X _) (Y _)) (P _) (Q _)
  rw [hX y k h, hY y k h, hP y k h, hQ y k h]

/-- THE LEAKY RECTIFIER.  `x` where `x` is at least the threshold (word `wz`), the slope (word `ws`) times `x`
    elsewhere: on the long side the threshold and the slope are rank-zero constants spread over the array, on the block
    splats of the same words. -/
theorem RowsOf.leakyRelu (wz ws : BitVec 32) {X : FVec Ideal ⟨2, ![E, A]⟩ .f32} {Xb : FVec Ideal ⟨2, ![M, A]⟩ .f32}
    (hX : RowsOf E M A o X Xb) (hz hs : (⟨0, ![]⟩ : Shape).BroadcastsInDim ⟨2, ![E, A]⟩ ![]) :
    RowsOf E M A o
      (select (cmpf .oge X (broadcastInDim ⟨2, ![E, A]⟩ ![] hz (constant (F := Ideal) ⟨0, ![]⟩ .f32 wz))) X
        (mulf (broadcastInDim ⟨2, ![E, A]⟩ ![] hs (constant (F := Ideal) ⟨0, ![]⟩ .f32 ws)) X))
      (select (cmpf .oge Xb (broadcast ⟨2, ![M, A]⟩ (Scalar.ofBits (F := Ideal) .f32 wz))) Xb
        (mulf (broadcast ⟨2, ![M, A]⟩ (Scalar.ofBits (F := Ideal) .f32 ws)) Xb)) :=
  RowsOf.selectCmp .oge (φ := .f32) (φ' := .f32) hX (RowsOf.splat wz hz) hX
    (RowsOf.mul (φ := .f32) (φ' := .f32) (RowsOf.splat ws hs) hX)

/-- A single number spread over a one-column array: two `broadcast_in_dim`s of a length-one vector on the long side, a
    broadcast of a 1 × 1 block (through a shape cast to its own shape) on the other. -/
theorem RowsOf.biasOne (b : (⟨1, ![1]⟩ : Shape).Idx → EReal) (bb : (⟨2, ![1, 1]⟩ : Shape).Idx → EReal)
    (hb : bb (ix2 (0 : Fin 1) (0 : Fin 1)) = b (ix1 (0 : Fin 1)))
    (h1 : (⟨1, ![1]⟩ : Shape).BroadcastsInDim ⟨2, ![1, 1]⟩ ![1])
    (h2 : (⟨2, ![1, 1]⟩ : Shape).BroadcastsInDim ⟨2, ![E, 1]⟩ ![0, 1])
    (h1' : (⟨2, ![1, 1]⟩ : Shape).ShapeCasts ⟨2, ![1, 1]⟩) (h2' : (⟨2, ![1, 1]⟩ : Shape).Broadcasts ⟨2, ![M, 1]⟩) :
    RowsOf E M 1 o (broadcastInDim ⟨2, ![E, 1]⟩ ![0, 1] h2 (broadcastInDim ⟨2, ![1, 1]⟩ ![1] h1 b))
      (broadcastTo ⟨2, ![M, 1]⟩ (shapeCast ⟨2, ![1, 1]⟩ bb h1') h2') :=
  RowsOf.biasRow b bb (fun q => by obtain rfl : q = 0 := Subsingleton.elim _ _; exact hb) h1 h2 h1' h2'

end Cert.Lib.RowBlocks

end
-- ==== Proof.BodyMatmul.lean ====
/-
  The projection kernels on a block of rows.

  Four of the nine regions multiply a block of 1000 node rows by a 128 × 128 weight held whole: the block of the
  product is the product of the block, because row `r` of `x · W` depends on row `r` of `x` only.  The kernel narrows
  both operands to a shorter float format first, which changes no extended real, and accumulates from zero; the host
  computes the plain product of the long array.  Region 0 reads its blocks as they are; regions 2, 4 and 6 pass each
  through a reshape to its own shape, which is the identity.
-/
import proofs.«142699_j1640677507203_1_alg».proof.Proof.Gen.KernelIdeal.Frame
import proofs.«142699_j1640677507203_1_alg».proof.Proof.Spec
import proofs.«142699_j1640677507203_1_alg».proof.Proof.LibRowGates

noncomputable section

namespace Cert.KernelIdeal.Body

open Idealize.ShloMosaic Idealize.ShloMosaic.ValueIdx Cert.Lib.RowBlocks Cert.KernelIdeal Cert.KernelIdeal.Facts₀

variable [Cert.ReferenceIdeal.Facts]

/-- The offsets of a whole-block access are zero on both axes. -/
theorem offsets_zero : (![0, 0] : Fin 2 → Nat) = fun _ => 0 := by
  funext a; match a with | ⟨0, _⟩ => rfl | ⟨1, _⟩ => rfl

/-- The kernel's 1000 × 128 by 128 × 128 product contracts the one inner axis: it is the plain product. -/
theorem kdot_128 : Cert.KernelIdeal.dot_S1000x128_S128x128_S1000x128_1_0_0_1_n_n = DotDims.plain 1000 128 128 := rfl

/-- So is the host's 50000 × 128 by 128 × 128 product. -/
theorem hdot_128 : Cert.ReferenceIdeal.dot_S50000x128_S128x128_S50000x128_1_0_0_1_n_n = DotDims.plain 50000 128 128 := rfl

/-- Region 0: the block of `x · W` from the block of `x` and the whole of `W`. -/
theorem matmul0_rows {o : Nat} (x0 : Vec Ideal S1000x128 .f32) (x1 : Vec Ideal S128x128 .f32)
    (X : FVec Ideal S50000x128 .f32) (W : FVec Ideal S128x128 .f32)
    (h0 : RowsOf 50000 1000 128 o X x0) (h1 : ∀ i, x1 i = W i) :
    RowsOf 50000 1000 128 o (Cert.Spec.mm X W) (Gen.out0_2 x0 x1) := by
  unfold Gen.out0_2
  rw [View.canon_unit_zero offsets_zero]
  simp only [View.ld_unit_zero (S := S1000x128) offsets_zero, View.ld_unit_zero (S := S128x128) offsets_zero]
  unfold Gen.k0_pay1 Cert.Spec.mm
  dsimp only
  rw [kdot_128, hdot_128]
  exact (h0.truncf bitsLt_bf16_f32).dot W _ h1 none none .single

/-- Region 2: the same product, each block first reshaped to its own shape. -/
theorem matmul2_rows {o : Nat} (x0 : Vec Ideal S1000x128 .f32) (x1 : Vec Ideal S128x128 .f32)
    (X : FVec Ideal S50000x128 .f32) (W : FVec Ideal S128x128 .f32)
    (h0 : RowsOf 50000 1000 128 o X x0) (h1 : ∀ i, x1 i = W i) :
    RowsOf 50000 1000 128 o (Cert.Spec.mm X W) (Gen.out2_2 x0 x1) := by
  unfold Gen.out2_2
  rw [View.canon_unit_zero offsets_zero]
  simp only [View.ld_unit_zero (S := S1000x128) offsets_zero, View.ld_unit_zero (S := S128x128) offsets_zero]
  unfold Gen.k2_pay1 Cert.Spec.mm
  dsimp only
  rw [kdot_128, hdot_128]
  exact ((h0.castSelf shapeCasts_S1000x128_S1000x128).truncf bitsLt_bf16_f32).dot W _
    (castSelf_eq x1 W shapeCasts_S128x128_S128x128 h1) none none .single

/-- Region 4: the same product, each block first reshaped to its own shape. -/
theorem matmul4_rows {o : Nat} (x0 : Vec Ideal S1000x128 .f32) (x1 : Vec Ideal S128x128 .f32)
    (X : FVec Ideal S50000x128 .f32) (W : FVec Ideal S128x128 .f32)
    (h0 : RowsOf 50000 1000 128 o X x0) (h1 : ∀ i, x1 i = W i) :
    RowsOf 50000 1000 128 o (Cert.Spec.mm X W) (Gen.out4_2 x0 x1) := by
  unfold Gen.out4_2
  rw [View.canon_unit_zero offsets_zero]
  simp only [View.ld_unit_zero (S := S1000x128) offsets_zero, View.ld_unit_zero (S := S128x128) offsets_zero]
  unfold Gen.k4_pay1 Cert.Spec.mm
  dsimp only
  rw [kdot_128, hdot_128]
  exact ((h0.castSelf shapeCasts_S1000x128_S1000x128).truncf bitsLt_bf16_f32).dot W _
    (castSelf_eq x1 W shapeCasts_S128x128_S128x128 h1) none none .single

/-- Region 6: the same product, each block first reshaped to its own shape. -/
theorem matmul6_rows {o : Nat} (x0 : Vec Ideal S1000x128 .f32) (x1 : Vec Ideal S128x128 .f32)
    (X : FVec Ideal S50000x128 .f32) (W : FVec Ideal S128x128 .f32)
    (h0 : RowsOf 50000 1000 128 o X x0) (h1 : ∀ i, x1 i = W i) :
    RowsOf 50000 1000 128 o (Cert.Spec.mm X W) (Gen.out6_2 x0 x1) := by
  unfold Gen.out6_2
  rw [View.canon_unit_zero offsets_zero]
  simp only [View.ld_unit_zero (S := S1000x128) offsets_zero, View.ld_unit_zero (S := S128x128) offsets_zero]
  unfold Gen.k6_pay1 Cert.Spec.mm
  dsimp only
  rw [kdot_128, hdot_128]
  exact ((h0.castSelf shapeCasts_S1000x128_S1000x128).truncf bitsLt_bf16_f32).dot W _
    (castSelf_eq x1 W shapeCasts_S128x128_S128x128 h1) none none .single

end Cert.KernelIdeal.Body

end
-- ==== Proof.RegionsMatmul.lean ====
/-
  From blocks to arrays, region by region.

  Every region runs its body at fifty grid points; point `t` reads rows `1000 t … 1000 t + 999` of each node array
  through a row-block window and each weight or bias through a window that is its whole array, and writes back rows
  `1000 t … 1000 t + 999` of its output.  The body's result on those blocks is the same rows of the stage's value on the
  whole arrays (the body lemmas), so what point `t` writes back is block `t` of that value; the fifty blocks tile the
  output array, which therefore ends holding the stage's value.  All of it is stated at the contents `V` the region
  finds, whatever they are.
-/
import proofs.«142699_j1640677507203_1_alg».proof.Proof.Gen.KernelIdeal.Frame
import proofs.«142699_j1640677507203_1_alg».proof.Proof.Spec
import proofs.«142699_j1640677507203_1_alg».proof.Proof.LibRowBlocks
import proofs.«142699_j1640677507203_1_alg».proof.Proof.BodyMatmul
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.SL.Sem
open Idealize.ShloMosaic.Pipeline (Dat)
open Idealize.ShloMosaic.ValueIdx
open Cert.KernelIdeal Cert.KernelIdeal.Gen Cert.Lib.RowBlocks

variable [Cert.ReferenceIdeal.Facts]
variable (V : (c : Dev nD) → (b : Ref sig .tc) → Buf (Elt Ideal) ((c : Thread nD τ).loc b))

/-! ## Region 0 -/

/-- The index maps of region 0's windows, decided over its fifty grid points: a row-block window is at block row `t`,
    a whole-array window at block (0, 0). -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Window 0's block at point `t` holds rows `1000 t … 1000 t + 999` of its array. -/
theorem rows0_0 (c : Dev nD) (t : Fin cfg0.N) :
    RowsOf 50000 1000 128 (1000 * t.val) (V c main_arg0) (iblk0 V c 0 t) := by
  intro y k h
  obtain ⟨e0_0, e0_1, e1_0, e1_1, e2_0, e2_1⟩ := idx0 t
  unfold iblk0
  rw [View.read_apply]
  show V c main_arg0 _ = V c main_arg0 _
  congr 1
  funext a; apply Fin.ext
  match a with
  | ⟨0, _⟩ => show win0_0.index t (0 : Fin 2) * 1000 + 1 * y.val = 1000 * t.val + y.val; rw [e0_0]; omega
  | ⟨1, _⟩ => show win0_0.index t (1 : Fin 2) * 128 + 1 * k.val = k.val; rw [e0_1]; omega

/-- Window 1's block at every point is its whole array. -/
theorem whole0_1 (c : Dev nD) (t : Fin cfg0.N) (i : S128x128.Idx) : iblk0 V c 1 t i = V c main_arg3 i := by
  obtain ⟨e0_0, e0_1, e1_0, e1_1, e2_0, e2_1⟩ := idx0 t
  unfold iblk0
  rw [View.read_apply]
  show V c main_arg3 _ = V c main_arg3 _
  congr 1
  funext a; apply Fin.ext
  match a with
  | ⟨0, _⟩ => show win0_1.index t (0 : Fin 2) * 128 + 1 * (i 0).val = (i 0).val; rw [e1_0]; omega
  | ⟨1, _⟩ => show win0_1.index t (1 : Fin 2) * 128 + 1 * (i 1).val = (i 1).val; rw [e1_1]; omega

/-- What point `t` writes back is block `t` of the stage's whole-array value. -/
theorem flushed0 (c : Dev nD)  (t : Fin cfg0.N) :
    (dat0 V c).flushed 2 t = ((cfg0.win 2).blk t).view.read (Elt Ideal) (Cert.Spec.mm (F := Ideal) (V c main_arg0) (V c main_arg3)) := by
  show (cfg0.win 2).cut (grid0.coords t) ((dat0 V c).after 2 t) = _
  rw [after0_2]
  obtain ⟨e0_0, e0_1, e1_0, e1_1, e2_0, e2_1⟩ := idx0 t
  have ht : t.val < 50 := by have h := t.isLt; have e : cfg0.N = 50 := N_0; omega
  funext j
  obtain ⟨y, k, rfl⟩ : ∃ (y : Fin 1000) (k : Fin 128), j = ix2 y k := ⟨j 0, j 1, eq_ix2 j⟩
  have hy : y.val < 1000 := y.isLt
  refine (Cert.KernelIdeal.Body.matmul0_rows (iblk0 V c 0 t) (iblk0 V c 1 t)
    (V c main_arg0) (V c main_arg3)
    (rows0_0 V c t) (whole0_1 V c t)
    y k (by omega)).trans ?_
  rw [View.read_apply]
  congr 1
  funext a; apply Fin.ext
  match a with
  | ⟨0, _⟩ => show 1000 * t.val + y.val = win0_2.index t (0 : Fin 2) * 1000 + 1 * y.val; rw [e2_0]; omega
  | ⟨1, _⟩ => show k.val = win0_2.index t (1 : Fin 2) * 128 + 1 * k.val; rw [e2_1]; omega

/-- The fifty blocks tile the output array, so after the region it holds the stage's value. -/
theorem final0 (c : Dev nD)  :
    (dat0 V c).arrAt 2 cfg0.N = Cert.Spec.mm (F := Ideal) (V c main_arg0) (V c main_arg3) :=
  (dat0 V c).arrAt_eq_of_cover 2 _ (fun t _ => flushed0 V c  t) fun i => by
    have hi0 : (i 0).val < 50000 := (i 0).isLt
    have hi1 : (i 1).val < 128 := (i 1).isLt
    let t : Fin cfg0.N := ⟨(i 0).val / 1000, by have e : cfg0.N = 50 := N_0; omega⟩
    obtain ⟨e0_0, e0_1, e1_0, e1_1, e2_0, e2_1⟩ := idx0 t
    refine ⟨t, flush0_2 t, ?_⟩
    show i ∈ ((View.whole main_v4).slice (win0_2.rect t)).set
    rw [View.set_slice_whole, Rect.mem_set_unit]
    intro a
    match a with
    | ⟨0, _⟩ => show win0_2.index t (0 : Fin 2) * 1000 ≤ (i 0).val ∧ (i 0).val < win0_2.index t (0 : Fin 2) * 1000 + 1000; rw [e2_0]; show (i 0).val / 1000 * 1000 ≤ (i 0).val ∧ (i 0).val < (i 0).val / 1000 * 1000 + 1000; omega
    | ⟨1, _⟩ => show win0_2.index t (1 : Fin 2) * 128 ≤ (i 1).val ∧ (i 1).val < win0_2.index t (1 : Fin 2) * 128 + 128; rw [e2_1]; omega

/-! ## Region 2 -/

/-- The index maps of region 2's windows, decided over its fifty grid points: a row-block window is at block row `t`,
    a whole-array window at block (0, 0). -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Window 0's block at point `t` holds rows `1000 t … 1000 t + 999` of its array. -/
theorem rows2_0 (c : Dev nD) (t : Fin cfg2.N) :
    RowsOf 50000 1000 128 (1000 * t.val) (V c main_v43) (iblk2 V c 0 t) := by
  intro y k h
  obtain ⟨e0_0, e0_1, e1_0, e1_1, e2_0, e2_1⟩ := idx2 t
  unfold iblk2
  rw [View.read_apply]
  show V c main_v43 _ = V c main_v43 _
  congr 1
  funext a; apply Fin.ext
  match a with
  | ⟨0, _⟩ => show win2_0.index t (0 : Fin 2) * 1000 + 1 * y.val = 1000 * t.val + y.val; rw [e0_0]; omega
  | ⟨1, _⟩ => show win2_0.index t (1 : Fin 2) * 128 + 1 * k.val = k.val; rw [e0_1]; omega

/-- Window 1's block at every point is its whole array. -/
theorem whole2_1 (c : Dev nD) (t : Fin cfg2.N) (i : S128x128.Idx) : iblk2 V c 1 t i = V c main_v47 i := by
  obtain ⟨e0_0, e0_1, e1_0, e1_1, e2_0, e2_1⟩ := idx2 t
  unfold iblk2
  rw [View.read_apply]
  show V c main_v47 _ = V c main_v47 _
  congr 1
  funext a; apply Fin.ext
  match a with
  | ⟨0, _⟩ => show win2_1.index t (0 : Fin 2) * 128 + 1 * (i 0).val = (i 0).val; rw [e1_0]; omega
  | ⟨1, _⟩ => show win2_1.index t (1 : Fin 2) * 128 + 1 * (i 1).val = (i 1).val; rw [e1_1]; omega

/-- What point `t` writes back is block `t` of the stage's whole-array value. -/
theorem flushed2 (c : Dev nD)  (t : Fin cfg2.N) :
    (dat2 V c).flushed 2 t = ((cfg2.win 2).blk t).view.read (Elt Ideal) (Cert.Spec.mm (F := Ideal) (V c main_v43) (V c main_v47)) := by
  show (cfg2.win 2).cut (grid2.coords t) ((dat2 V c).after 2 t) = _
  rw [after2_2]
  obtain ⟨e0_0, e0_1, e1_0, e1_1, e2_0, e2_1⟩ := idx2 t
  have ht : t.val < 50 := by have h := t.isLt; have e : cfg2.N = 50 := N_2; omega
  funext j
  obtain ⟨y, k, rfl⟩ : ∃ (y : Fin 1000) (k : Fin 128), j = ix2 y k := ⟨j 0, j 1, eq_ix2 j⟩
  have hy : y.val < 1000 := y.isLt
  refine (Cert.KernelIdeal.Body.matmul2_rows (iblk2 V c 0 t) (iblk2 V c 1 t)
    (V c main_v43) (V c main_v47)
    (rows2_0 V c t) (whole2_1 V c t)
    y k (by omega)).trans ?_
  rw [View.read_apply]
  congr 1
  funext a; apply Fin.ext
  match a with
  | ⟨0, _⟩ => show 1000 * t.val + y.val = win2_2.index t (0 : Fin 2) * 1000 + 1 * y.val; rw [e2_0]; omega
  | ⟨1, _⟩ => show k.val = win2_2.index t (1 : Fin 2) * 128 + 1 * k.val; rw [e2_1]; omega

/-- The fifty blocks tile the output array, so after the region it holds the stage's value. -/
theorem final2 (c : Dev nD)  :
    (dat2 V c).arrAt 2 cfg2.N = Cert.Spec.mm (F := Ideal) (V c main_v43) (V c main_v47) :=
  (dat2 V c).arrAt_eq_of_cover 2 _ (fun t _ => flushed2 V c  t) fun i => by
    have hi0 : (i 0).val < 50000 := (i 0).isLt
    have hi1 : (i 1).val < 128 := (i 1).isLt
    let t : Fin cfg2.N := ⟨(i 0).val / 1000, by have e : cfg2.N = 50 := N_2; omega⟩
    obtain ⟨e0_0, e0_1, e1_0, e1_1, e2_0, e2_1⟩ := idx2 t
    refine ⟨t, flush2_2 t, ?_⟩
    show i ∈ ((View.whole main_v48).slice (win2_2.rect t)).set
    rw [View.set_slice_whole, Rect.mem_set_unit]
    intro a
    match a with
    | ⟨0, _⟩ => show win2_2.index t (0 : Fin 2) * 1000 ≤ (i 0).val ∧ (i 0).val < win2_2.index t (0 : Fin 2) * 1000 + 1000; rw [e2_0]; show (i 0).val / 1000 * 1000 ≤ (i 0).val ∧ (i 0).val < (i 0).val / 1000 * 1000 + 1000; omega
    | ⟨1, _⟩ => show win2_2.index t (1 : Fin 2) * 128 ≤ (i 1).val ∧ (i 1).val < win2_2.index t (1 : Fin 2) * 128 + 128; rw [e2_1]; omega

/-! ## Region 4 -/

/-- The index maps of region 4's windows, decided over its fifty grid points: a row-block window is at block row `t`,
    a whole-array window at block (0, 0). -/
theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- Window 0's block at point `t` holds rows `1000 t … 1000 t + 999` of its array. -/
theorem rows4_0 (c : Dev nD) (t : Fin cfg4.N) :
    RowsOf 50000 1000 128 (1000 * t.val) (V c main_v61) (iblk4 V c 0 t) := by
  intro y k h
  obtain ⟨e0_0, e0_1, e1_0, e1_1, e2_0, e2_1⟩ := idx4 t
  unfold iblk4
  rw [View.read_apply]
  show V c main_v61 _ = V c main_v61 _
  congr 1
  funext a; apply Fin.ext
  match a with
  | ⟨0, _⟩ => show win4_0.index t (0 : Fin 2) * 1000 + 1 * y.val = 1000 * t.val + y.val; rw [e0_0]; omega
  | ⟨1, _⟩ => show win4_0.index t (1 : Fin 2) * 128 + 1 * k.val = k.val; rw [e0_1]; omega

/-- Window 1's block at every point is its whole array. -/
theorem whole4_1 (c : Dev nD) (t : Fin cfg4.N) (i : S128x128.Idx) : iblk4 V c 1 t i = V c main_v63 i := by
  obtain ⟨e0_0, e0_1, e1_0, e1_1, e2_0, e2_1⟩ := idx4 t
  unfold iblk4
  rw [View.read_apply]
  show V c main_v63 _ = V c main_v63 _
  congr 1
  funext a; apply Fin.ext
  match a with
  | ⟨0, _⟩ => show win4_1.index t (0 : Fin 2) * 128 + 1 * (i 0).val = (i 0).val; rw [e1_0]; omega
  | ⟨1, _⟩ => show win4_1.index t (1 : Fin 2) * 128 + 1 * (i 1).val = (i 1).val; rw [e1_1]; omega

/-- What point `t` writes back is block `t` of the stage's whole-array value. -/
theorem flushed4 (c : Dev nD)  (t : Fin cfg4.N) :
    (dat4 V c).flushed 2 t = ((cfg4.win 2).blk t).view.read (Elt Ideal) (Cert.Spec.mm (F := Ideal) (V c main_v61) (V c main_v63)) := by
  show (cfg4.win 2).cut (grid4.coords t) ((dat4 V c).after 2 t) = _
  rw [after4_2]
  obtain ⟨e0_0, e0_1, e1_0, e1_1, e2_0, e2_1⟩ := idx4 t
  have ht : t.val < 50 := by have h := t.isLt; have e : cfg4.N = 50 := N_4; omega
  funext j
  obtain ⟨y, k, rfl⟩ : ∃ (y : Fin 1000) (k : Fin 128), j = ix2 y k := ⟨j 0, j 1, eq_ix2 j⟩
  have hy : y.val < 1000 := y.isLt
  refine (Cert.KernelIdeal.Body.matmul4_rows (iblk4 V c 0 t) (iblk4 V c 1 t)
    (V c main_v61) (V c main_v63)
    (rows4_0 V c t) (whole4_1 V c t)
    y k (by omega)).trans ?_
  rw [View.read_apply]
  congr 1
  funext a; apply Fin.ext
  match a with
  | ⟨0, _⟩ => show 1000 * t.val + y.val = win4_2.index t (0 : Fin 2) * 1000 + 1 * y.val; rw [e2_0]; omega
  | ⟨1, _⟩ => show k.val = win4_2.index t (1 : Fin 2) * 128 + 1 * k.val; rw [e2_1]; omega

/-- The fifty blocks tile the output array, so after the region it holds the stage's value. -/
theorem final4 (c : Dev nD)  :
    (dat4 V c).arrAt 2 cfg4.N = Cert.Spec.mm (F := Ideal) (V c main_v61) (V c main_v63) :=
  (dat4 V c).arrAt_eq_of_cover 2 _ (fun t _ => flushed4 V c  t) fun i => by
    have hi0 : (i 0).val < 50000 := (i 0).isLt
    have hi1 : (i 1).val < 128 := (i 1).isLt
    let t : Fin cfg4.N := ⟨(i 0).val / 1000, by have e : cfg4.N = 50 := N_4; omega⟩
    obtain ⟨e0_0, e0_1, e1_0, e1_1, e2_0, e2_1⟩ := idx4 t
    refine ⟨t, flush4_2 t, ?_⟩
    show i ∈ ((View.whole main_v64).slice (win4_2.rect t)).set
    rw [View.set_slice_whole, Rect.mem_set_unit]
    intro a
    match a with
    | ⟨0, _⟩ => show win4_2.index t (0 : Fin 2) * 1000 ≤ (i 0).val ∧ (i 0).val < win4_2.index t (0 : Fin 2) * 1000 + 1000; rw [e2_0]; show (i 0).val / 1000 * 1000 ≤ (i 0).val ∧ (i 0).val < (i 0).val / 1000 * 1000 + 1000; omega
    | ⟨1, _⟩ => show win4_2.index t (1 : Fin 2) * 128 ≤ (i 1).val ∧ (i 1).val < win4_2.index t (1 : Fin 2) * 128 + 128; rw [e2_1]; omega

/-! ## Region 6 -/

/-- The index maps of region 6's windows, decided over its fifty grid points: a row-block window is at block row `t`,
    a whole-array window at block (0, 0). -/
theorem idx6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- Window 0's block at point `t` holds rows `1000 t … 1000 t + 999` of its array. -/
theorem rows6_0 (c : Dev nD) (t : Fin cfg6.N) :
    RowsOf 50000 1000 128 (1000 * t.val) (V c main_v77) (iblk6 V c 0 t) := by
  intro y k h
  obtain ⟨e0_0, e0_1, e1_0, e1_1, e2_0, e2_1⟩ := idx6 t
  unfold iblk6
  rw [View.read_apply]
  show V c main_v77 _ = V c main_v77 _
  congr 1
  funext a; apply Fin.ext
  match a with
  | ⟨0, _⟩ => show win6_0.index t (0 : Fin 2) * 1000 + 1 * y.val = 1000 * t.val + y.val; rw [e0_0]; omega
  | ⟨1, _⟩ => show win6_0.index t (1 : Fin 2) * 128 + 1 * k.val = k.val; rw [e0_1]; omega

/-- Window 1's block at every point is its whole array. -/
theorem whole6_1 (c : Dev nD) (t : Fin cfg6.N) (i : S128x128.Idx) : iblk6 V c 1 t i = V c main_v79 i := by
  obtain ⟨e0_0, e0_1, e1_0, e1_1, e2_0, e2_1⟩ := idx6 t
  unfold iblk6
  rw [View.read_apply]
  show V c main_v79 _ = V c main_v79 _
  congr 1
  funext a; apply Fin.ext
  match a with
  | ⟨0, _⟩ => show win6_1.index t (0 : Fin 2) * 128 + 1 * (i 0).val = (i 0).val; rw [e1_0]; omega
  | ⟨1, _⟩ => show win6_1.index t (1 : Fin 2) * 128 + 1 * (i 1).val = (i 1).val; rw [e1_1]; omega

/-- What point `t` writes back is block `t` of the stage's whole-array value. -/
theorem flushed6 (c : Dev nD)  (t : Fin cfg6.N) :
    (dat6 V c).flushed 2 t = ((cfg6.win 2).blk t).view.read (Elt Ideal) (Cert.Spec.mm (F := Ideal) (V c main_v77) (V c main_v79)) := by
  show (cfg6.win 2).cut (grid6.coords t) ((dat6 V c).after 2 t) = _
  rw [after6_2]
  obtain ⟨e0_0, e0_1, e1_0, e1_1, e2_0, e2_1⟩ := idx6 t
  have ht : t.val < 50 := by have h := t.isLt; have e : cfg6.N = 50 := N_6; omega
  funext j
  obtain ⟨y, k, rfl⟩ : ∃ (y : Fin 1000) (k : Fin 128), j = ix2 y k := ⟨j 0, j 1, eq_ix2 j⟩
  have hy : y.val < 1000 := y.isLt
  refine (Cert.KernelIdeal.Body.matmul6_rows (iblk6 V c 0 t) (iblk6 V c 1 t)
    (V c main_v77) (V c main_v79)
    (rows6_0 V c t) (whole6_1 V c t)
    y k (by omega)).trans ?_
  rw [View.read_apply]
  congr 1
  funext a; apply Fin.ext
  match a with
  | ⟨0, _⟩ => show 1000 * t.val + y.val = win6_2.index t (0 : Fin 2) * 1000 + 1 * y.val; rw [e2_0]; omega
  | ⟨1, _⟩ => show k.val = win6_2.index t (1 : Fin 2) * 128 + 1 * k.val; rw [e2_1]; omega

/-- The fifty blocks tile the output array, so after the region it holds the stage's value. -/
theorem final6 (c : Dev nD)  :
    (dat6 V c).arrAt 2 cfg6.N = Cert.Spec.mm (F := Ideal) (V c main_v77) (V c main_v79) :=
  (dat6 V c).arrAt_eq_of_cover 2 _ (fun t _ => flushed6 V c  t) fun i => by
    have hi0 : (i 0).val < 50000 := (i 0).isLt
    have hi1 : (i 1).val < 128 := (i 1).isLt
    let t : Fin cfg6.N := ⟨(i 0).val / 1000, by have e : cfg6.N = 50 := N_6; omega⟩
    obtain ⟨e0_0, e0_1, e1_0, e1_1, e2_0, e2_1⟩ := idx6 t
    refine ⟨t, flush6_2 t, ?_⟩
    show i ∈ ((View.whole main_v80).slice (win6_2.rect t)).set
    rw [View.set_slice_whole, Rect.mem_set_unit]
    intro a
    match a with
    | ⟨0, _⟩ => show win6_2.index t (0 : Fin 2) * 1000 ≤ (i 0).val ∧ (i 0).val < win6_2.index t (0 : Fin 2) * 1000 + 1000; rw [e2_0]; show (i 0).val / 1000 * 1000 ≤ (i 0).val ∧ (i 0).val < (i 0).val / 1000 * 1000 + 1000; omega
    | ⟨1, _⟩ => show win6_2.index t (1 : Fin 2) * 128 ≤ (i 1).val ∧ (i 1).val < win6_2.index t (1 : Fin 2) * 128 + 128; rw [e2_1]; omega

end Cert.KernelIdeal.Regions

end
-- ==== Proof.BodyCombine.lean ====
/-
  The graph convolution's last step on a block of rows.

  With `a` the normalised neighbour sum, `t` the projected features, `sc` the self-loop weight of each node (one column) and
  `b` the bias, the convolution's output is `leaky (a + t · sc + b)` with `leaky x = x` where `x ≥ 0` and a hundredth of
  `x` elsewhere.  Every step acts on each row by itself, so the block of the output is the same function of the blocks
  of `a`, `t` and `sc` (and the whole bias).
-/
import proofs.«142699_j1640677507203_1_alg».proof.Proof.Gen.KernelIdeal.Frame
import proofs.«142699_j1640677507203_1_alg».proof.Proof.Spec
import proofs.«142699_j1640677507203_1_alg».proof.Proof.LibRowGates
import proofs.«142699_j1640677507203_1_alg».proof.Proof.BodyMatmul

noncomputable section

namespace Cert.KernelIdeal.Body

open Idealize.ShloMosaic Idealize.ShloMosaic.ValueIdx Cert.Lib.RowBlocks Cert.KernelIdeal Cert.KernelIdeal.Facts₀

variable [Cert.ReferenceIdeal.Facts]

/-- Region 1: the block of `leaky (a + t · sc + b)` from the blocks of `a`, `t`, `sc` and the bias held as one row. -/
theorem combine_rows {o : Nat} (x0 x1 : Vec Ideal S1000x128 .f32) (x2 : Vec Ideal S1000x1 .f32) (x3 : Vec Ideal S1x128 .f32)
    (A T : FVec Ideal S50000x128 .f32) (SC : FVec Ideal S50000x1 .f32) (B : FVec Ideal S128 .f32)
    (h0 : RowsOf 50000 1000 128 o A x0) (h1 : RowsOf 50000 1000 128 o T x1) (h2 : RowsOf 50000 1000 1 o SC x2)
    (h3 : ∀ q : Fin 128, x3 (ix2 (0 : Fin 1) q) = B (ix1 q)) :
    RowsOf 50000 1000 128 o (Cert.Spec.combine A T SC B) (Gen.out1_4 x0 x1 x2 x3) := by
  unfold Gen.out1_4
  rw [View.canon_unit_zero offsets_zero]
  simp only [View.ld_unit_zero (S := S1000x128) offsets_zero, View.ld_unit_zero (S := S1000x1) offsets_zero,
    View.ld_unit_zero (S := S1x128) offsets_zero]
  unfold Gen.k1_pay1 Cert.Spec.combine Cert.Spec.leaky Cert.Spec.bias128
  dsimp only
  refine RowsOf.leakyRelu _ _ ?_ _ _
  exact RowsOf.add (φ := .f32) (φ' := .f32)
    (RowsOf.add (φ := .f32) (φ' := .f32) (h0.castSelf shapeCasts_S1000x128_S1000x128)
      (RowsOf.mul (φ := .f32) (φ' := .f32) (h1.castSelf shapeCasts_S1000x128_S1000x128)
        (RowsOf.spreadCol (φ := .f32) (φ' := .f32) (h2.castSelf shapeCasts_S1000x1_S1000x1) _ _)))
    (RowsOf.biasRow B x3 h3 _ _ _ _)

end Cert.KernelIdeal.Body

end
-- ==== Proof.BodyGru.lean ====
/-
  The gated recurrent cell on a block of rows.

  With `m` the summed messages and `g` the state of every node, the two gate arrays are `gi = m · Wihᵀ + bih` and
  `gh = g · Whhᵀ + bhh` (384 columns: reset, update and candidate thirds), and the new state is

      r = σ(gi₀ + gh₀),   z = σ(gi₁ + gh₁),   n = tanh (gi₂ + r · gh₂),   g' = (1 - z) · n + z · g,

  `σ(x) = 1 / (1 + e⁻ˣ)`.  A row of the gate arrays depends on the same row of `m` or `g` only, a third of a row is cut out
  of that row, and the rest acts entry by entry: so the block of `g'` is the same function of the blocks of `m` and `g`.
  The kernel narrows the operands of its two products to a shorter float format, which changes no extended real.
-/
import proofs.«142699_j1640677507203_1_alg».proof.Proof.Gen.KernelIdeal.Frame
import proofs.«142699_j1640677507203_1_alg».proof.Proof.Spec
import proofs.«142699_j1640677507203_1_alg».proof.Proof.LibRowGates
import proofs.«142699_j1640677507203_1_alg».proof.Proof.BodyMatmul

noncomputable section

namespace Cert.KernelIdeal.Body

open Idealize.ShloMosaic Idealize.ShloMosaic.ValueIdx Cert.Lib.RowBlocks Cert.KernelIdeal Cert.KernelIdeal.Facts₀

variable [Cert.ReferenceIdeal.Facts]

/-- The kernel's 1000 × 128 by 128 × 384 product contracts the one inner axis: it is the plain product. -/
theorem kdot_384 : Cert.KernelIdeal.dot_S1000x128_S128x384_S1000x384_1_0_0_1_n_n = DotDims.plain 1000 128 384 := rfl

/-- So is the host's 50000 × 128 by 128 × 384 product. -/
theorem hdot_384 : Cert.ReferenceIdeal.dot_S50000x128_S128x384_S50000x384_1_0_0_1_n_n = DotDims.plain 50000 128 384 := rfl

/-- A gate array `x · Wᵀ + b` on a block: the block of `x`, the transposed weight held whole, the bias held as one row. -/
theorem gates_rows {o : Nat} (xb : Vec Ideal S1000x128 .f32) (wb : Vec Ideal S128x384 .f32) (bb : Vec Ideal S1x384 .f32)
    (X : FVec Ideal S50000x128 .f32) (Wt : FVec Ideal S128x384 .f32) (b : FVec Ideal S384 .f32)
    (hx : RowsOf 50000 1000 128 o X xb) (hw : ∀ i, wb i = Wt i) (hb : ∀ q : Fin 384, bb (ix2 (0 : Fin 1) q) = b (ix1 q)) :
    RowsOf 50000 1000 384 o (Cert.Spec.gates X Wt b)
      (addf
        (matmul Cert.KernelIdeal.dot_S1000x128_S128x384_S1000x384_1_0_0_1_n_n none
          (truncf .bf16 (shapeCast S1000x128 xb shapeCasts_S1000x128_S1000x128) bitsLt_bf16_f32)
          (truncf .bf16 (shapeCast S128x384 wb shapeCasts_S128x384_S128x384) bitsLt_bf16_f32)
          (constant (F := Ideal) S1000x384 .f32 0x00000000#32))
        (broadcastTo S1000x384 (shapeCast S1x384 bb shapeCasts_S1x384_S1x384) broadcasts_S1x384_S1000x384)) := by
  unfold Cert.Spec.gates
  rw [kdot_384, hdot_384]
  exact RowsOf.add (φ := .f32) (φ' := .f32)
    (((hx.castSelf shapeCasts_S1000x128_S1000x128).truncf bitsLt_bf16_f32).dot Wt _
      (castSelf_eq wb Wt shapeCasts_S128x384_S128x384 hw) none none .single)
    (RowsOf.biasRow b bb hb _ _ _ _)

/-- The reset third of a gate array on a block. -/
theorem third0_rows {o : Nat} {X : FVec Ideal Cert.ReferenceIdeal.S50000x384 .f32} {xb : FVec Ideal S1000x384 .f32} (h : RowsOf 50000 1000 384 o X xb) :
    RowsOf 50000 1000 128 o (Cert.Spec.third0 X) (extractStridedSlice S1000x128 ![0, 0] xb slices_S1000x384_o0_0_S1000x128) := by
  unfold Cert.Spec.third0; exact h.sliceCols _ _

/-- The update third. -/
theorem third1_rows {o : Nat} {X : FVec Ideal Cert.ReferenceIdeal.S50000x384 .f32} {xb : FVec Ideal S1000x384 .f32} (h : RowsOf 50000 1000 384 o X xb) :
    RowsOf 50000 1000 128 o (Cert.Spec.third1 X) (extractStridedSlice S1000x128 ![0, 128] xb slices_S1000x384_o0_128_S1000x128) := by
  unfold Cert.Spec.third1; exact h.sliceCols _ _

/-- The candidate third. -/
theorem third2_rows {o : Nat} {X : FVec Ideal Cert.ReferenceIdeal.S50000x384 .f32} {xb : FVec Ideal S1000x384 .f32} (h : RowsOf 50000 1000 384 o X xb) :
    RowsOf 50000 1000 128 o (Cert.Spec.third2 X) (extractStridedSlice S1000x128 ![0, 256] xb slices_S1000x384_o0_256_S1000x128) := by
  unfold Cert.Spec.third2; exact h.sliceCols _ _

/-- The logistic function on a block: the host's quotient against the kernel's logistic operation. -/
theorem sigm_rows {o : Nat} {X : FVec Ideal S50000x128 .f32} {xb : FVec Ideal S1000x128 .f32} (h : RowsOf 50000 1000 128 o X xb) :
    RowsOf 50000 1000 128 o (Cert.Spec.sigm X) (Idealize.ShloMosaic.logistic xb) := by
  unfold Cert.Spec.sigm Cert.Spec.one128
  exact RowsOf.logistic h _ _

/-- The cell `(1 - z) · n + z · g` on a block, from the blocks of the two gate arrays and of the state. -/
theorem cell_rows {o : Nat} {GI GH : FVec Ideal Cert.ReferenceIdeal.S50000x384 .f32} {G : FVec Ideal S50000x128 .f32}
    {gi gh : FVec Ideal S1000x384 .f32} {g : FVec Ideal S1000x128 .f32}
    (hgi : RowsOf 50000 1000 384 o GI gi) (hgh : RowsOf 50000 1000 384 o GH gh) (hg : RowsOf 50000 1000 128 o G g) :
    RowsOf 50000 1000 128 o (Cert.Spec.cell GI GH G)
      (addf
        (mulf
          (subf (broadcast S1000x128 (Scalar.ofBits (F := Ideal) .f32 0x3F800000#32))
            (Idealize.ShloMosaic.logistic
              (addf (extractStridedSlice S1000x128 ![0, 128] gi slices_S1000x384_o0_128_S1000x128)
                (extractStridedSlice S1000x128 ![0, 128] gh slices_S1000x384_o0_128_S1000x128))))
          (Idealize.ShloMosaic.tanh
            (addf (extractStridedSlice S1000x128 ![0, 256] gi slices_S1000x384_o0_256_S1000x128)
              (mulf
                (Idealize.ShloMosaic.logistic
                  (addf (extractStridedSlice S1000x128 ![0, 0] gi slices_S1000x384_o0_0_S1000x128)
                    (extractStridedSlice S1000x128 ![0, 0] gh slices_S1000x384_o0_0_S1000x128)))
                (extractStridedSlice S1000x128 ![0, 256] gh slices_S1000x384_o0_256_S1000x128)))))
        (mulf
          (Idealize.ShloMosaic.logistic
            (addf (extractStridedSlice S1000x128 ![0, 128] gi slices_S1000x384_o0_128_S1000x128)
              (extractStridedSlice S1000x128 ![0, 128] gh slices_S1000x384_o0_128_S1000x128)))
          g)) := by
  unfold Cert.Spec.cell
  -- the reset and update gates, then the candidate
  have hr := sigm_rows (RowsOf.add (φ := .f32) (φ' := .f32) (third0_rows hgi) (third0_rows hgh))
  have hz := sigm_rows (RowsOf.add (φ := .f32) (φ' := .f32) (third1_rows hgi) (third1_rows hgh))
  have hn := RowsOf.tanh (φ := .f32) (φ' := .f32)
    (RowsOf.add (φ := .f32) (φ' := .f32) (third2_rows hgi) (RowsOf.mul (φ := .f32) (φ' := .f32) hr (third2_rows hgh)))
  unfold Cert.Spec.one128
  exact RowsOf.add (φ := .f32) (φ' := .f32) (RowsOf.mul (φ := .f32) (φ' := .f32) (RowsOf.constSub _ hz _) hn)
    (RowsOf.mul (φ := .f32) (φ' := .f32) hz hg)

/-- Region 3: the block of the updated state from the blocks of the messages and of the state, the two gate weights
    held whole and the two gate biases held as one row each. -/
theorem gru3_rows {o : Nat} (x0 x1 : Vec Ideal S1000x128 .f32) (x2 x3 : Vec Ideal S128x384 .f32) (x4 x5 : Vec Ideal S1x384 .f32)
    (M G : FVec Ideal S50000x128 .f32) (WihT WhhT : FVec Ideal S128x384 .f32) (bih bhh : FVec Ideal S384 .f32)
    (h0 : RowsOf 50000 1000 128 o M x0) (h1 : RowsOf 50000 1000 128 o G x1)
    (h2 : ∀ i, x2 i = WihT i) (h3 : ∀ i, x3 i = WhhT i)
    (h4 : ∀ q : Fin 384, x4 (ix2 (0 : Fin 1) q) = bih (ix1 q)) (h5 : ∀ q : Fin 384, x5 (ix2 (0 : Fin 1) q) = bhh (ix1 q)) :
    RowsOf 50000 1000 128 o (Cert.Spec.gru M G WihT WhhT bih bhh) (Gen.out3_6 x0 x1 x2 x3 x4 x5) := by
  unfold Gen.out3_6
  rw [View.canon_unit_zero offsets_zero]
  simp only [View.ld_unit_zero (S := S1000x128) offsets_zero, View.ld_unit_zero (S := S128x384) offsets_zero,
    View.ld_unit_zero (S := S1x384) offsets_zero]
  unfold Gen.k3_pay1 Cert.Spec.gru
  dsimp only
  exact cell_rows (gates_rows x0 x2 x4 M WihT bih h0 h2 h4) (gates_rows x1 x3 x5 G WhhT bhh h1 h3 h5)
    (h1.castSelf shapeCasts_S1000x128_S1000x128)

/-- Region 5: the block of the updated state from the blocks of the messages and of the state, the two gate weights
    held whole and the two gate biases held as one row each. -/
theorem gru5_rows {o : Nat} (x0 x1 : Vec Ideal S1000x128 .f32) (x2 x3 : Vec Ideal S128x384 .f32) (x4 x5 : Vec Ideal S1x384 .f32)
    (M G : FVec Ideal S50000x128 .f32) (WihT WhhT : FVec Ideal S128x384 .f32) (bih bhh : FVec Ideal S384 .f32)
    (h0 : RowsOf 50000 1000 128 o M x0) (h1 : RowsOf 50000 1000 128 o G x1)
    (h2 : ∀ i, x2 i = WihT i) (h3 : ∀ i, x3 i = WhhT i)
    (h4 : ∀ q : Fin 384, x4 (ix2 (0 : Fin 1) q) = bih (ix1 q)) (h5 : ∀ q : Fin 384, x5 (ix2 (0 : Fin 1) q) = bhh (ix1 q)) :
    RowsOf 50000 1000 128 o (Cert.Spec.gru M G WihT WhhT bih bhh) (Gen.out5_6 x0 x1 x2 x3 x4 x5) := by
  unfold Gen.out5_6
  rw [View.canon_unit_zero offsets_zero]
  simp only [View.ld_unit_zero (S := S1000x128) offsets_zero, View.ld_unit_zero (S := S128x384) offsets_zero,
    View.ld_unit_zero (S := S1x384) offsets_zero]
  unfold Gen.k5_pay1 Cert.Spec.gru
  dsimp only
  exact cell_rows (gates_rows x0 x2 x4 M WihT bih h0 h2 h4) (gates_rows x1 x3 x5 G WhhT bhh h1 h3 h5)
    (h1.castSelf shapeCasts_S1000x128_S1000x128)

/-- Region 7: the block of the updated state from the blocks of the messages and of the state, the two gate weights
    held whole and the two gate biases held as one row each. -/
theorem gru7_rows {o : Nat} (x0 x1 : Vec Ideal S1000x128 .f32) (x2 x3 : Vec Ideal S128x384 .f32) (x4 x5 : Vec Ideal S1x384 .f32)
    (M G : FVec Ideal S50000x128 .f32) (WihT WhhT : FVec Ideal S128x384 .f32) (bih bhh : FVec Ideal S384 .f32)
    (h0 : RowsOf 50000 1000 128 o M x0) (h1 : RowsOf 50000 1000 128 o G x1)
    (h2 : ∀ i, x2 i = WihT i) (h3 : ∀ i, x3 i = WhhT i)
    (h4 : ∀ q : Fin 384, x4 (ix2 (0 : Fin 1) q) = bih (ix1 q)) (h5 : ∀ q : Fin 384, x5 (ix2 (0 : Fin 1) q) = bhh (ix1 q)) :
    RowsOf 50000 1000 128 o (Cert.Spec.gru M G WihT WhhT bih bhh) (Gen.out7_6 x0 x1 x2 x3 x4 x5) := by
  unfold Gen.out7_6
  rw [View.canon_unit_zero offsets_zero]
  simp only [View.ld_unit_zero (S := S1000x128) offsets_zero, View.ld_unit_zero (S := S128x384) offsets_zero,
    View.ld_unit_zero (S := S1x384) offsets_zero]
  unfold Gen.k7_pay1 Cert.Spec.gru
  dsimp only
  exact cell_rows (gates_rows x0 x2 x4 M WihT bih h0 h2 h4) (gates_rows x1 x3 x5 G WhhT bhh h1 h3 h5)
    (h1.castSelf shapeCasts_S1000x128_S1000x128)

end Cert.KernelIdeal.Body

end
-- ==== Proof.BodyHead.lean ====
/-
  The head on a block of rows.

  With `g` the last gated state and `h` the convolution's output, the probability of each node is

      p = σ (leaky ((leaky g + h) · Wa + ba) · Wb + bb),      σ(x) = 1 / (1 + e⁻ˣ),

  `Wa` a 128 × 128 weight, `Wb` a 128 × 1 weight, `bb` a single number.  Each product's row depends on the same row of its left
  operand only and the rest acts entry by entry, so the block of `p` (one column) is the same function of the blocks of
  `g` and `h`.  The kernel narrows the operands of its two products to a shorter float format, which changes no
  extended real.
-/
import proofs.«142699_j1640677507203_1_alg».proof.Proof.Gen.KernelIdeal.Frame
import proofs.«142699_j1640677507203_1_alg».proof.Proof.Spec
import proofs.«142699_j1640677507203_1_alg».proof.Proof.LibRowGates
import proofs.«142699_j1640677507203_1_alg».proof.Proof.BodyMatmul

noncomputable section

namespace Cert.KernelIdeal.Body

open Idealize.ShloMosaic Idealize.ShloMosaic.ValueIdx Cert.Lib.RowBlocks Cert.KernelIdeal Cert.KernelIdeal.Facts₀

variable [Cert.ReferenceIdeal.Facts]

/-- The kernel's 1000 × 128 by 128 × 1 product contracts the one inner axis: it is the plain product. -/
theorem kdot_128x1 : Cert.KernelIdeal.dot_S1000x128_S128x1_S1000x1_1_0_0_1_n_n = DotDims.plain 1000 128 1 := rfl

/-- So is the host's 50000 × 128 by 128 × 1 product. -/
theorem hdot_128x1 : Cert.ReferenceIdeal.dot_S50000x128_S128x1_S50000x1_1_0_0_1_n_n = DotDims.plain 50000 128 1 := rfl

/-- The leaky rectifier on a block: `x` where it is at least zero, the slope times `x` elsewhere. -/
theorem leaky_rows {o : Nat} {X : FVec Ideal S50000x128 .f32} {xb : FVec Ideal S1000x128 .f32} (h : RowsOf 50000 1000 128 o X xb) :
    RowsOf 50000 1000 128 o (Cert.Spec.leaky X)
      (select (cmpf .oge xb (broadcast S1000x128 (Scalar.ofBits (F := Ideal) .f32 0x00000000#32))) xb
        (mulf (broadcast S1000x128 (Scalar.ofBits (F := Ideal) .f32 0x3C23D70A#32)) xb)) := by
  unfold Cert.Spec.leaky
  exact RowsOf.leakyRelu _ _ h _ _

/-- Region 8: the block of the probabilities from the blocks of the state and of the convolution's output, the two
    weights held whole, the first bias held as one row and the second as a single entry. -/
theorem head_rows {o : Nat} (x0 x1 : Vec Ideal S1000x128 .f32) (x2 : Vec Ideal S128x128 .f32) (x3 : Vec Ideal S1x128 .f32)
    (x4 : Vec Ideal S128x1 .f32) (x5 : Vec Ideal S1x1 .f32)
    (G H : FVec Ideal S50000x128 .f32) (Wa : FVec Ideal S128x128 .f32) (ba : FVec Ideal S128 .f32)
    (Wb : FVec Ideal S128x1 .f32) (bb : FVec Ideal S1 .f32)
    (h0 : RowsOf 50000 1000 128 o G x0) (h1 : RowsOf 50000 1000 128 o H x1)
    (h2 : ∀ i, x2 i = Wa i) (h3 : ∀ q : Fin 128, x3 (ix2 (0 : Fin 1) q) = ba (ix1 q))
    (h4 : ∀ i, x4 i = Wb i) (h5 : x5 (ix2 (0 : Fin 1) (0 : Fin 1)) = bb (ix1 (0 : Fin 1))) :
    RowsOf 50000 1000 1 o (Cert.Spec.probs G H Wa ba Wb bb) (Gen.out8_6 x0 x1 x2 x3 x4 x5) := by
  unfold Gen.out8_6
  rw [View.canon_unit_zero offsets_zero]
  simp only [View.ld_unit_zero (S := S1000x128) offsets_zero, View.ld_unit_zero (S := S128x128) offsets_zero,
    View.ld_unit_zero (S := S1x128) offsets_zero, View.ld_unit_zero (S := S128x1) offsets_zero,
    View.ld_unit_zero (S := S1x1) offsets_zero]
  unfold Gen.k8_pay1 Cert.Spec.probs Cert.Spec.one1
  dsimp only
  -- the logistic quotient of the second dense layer
  refine RowsOf.logistic ?_ _ _
  rw [kdot_128x1, hdot_128x1]
  refine RowsOf.add (φ := .f32) (φ' := .f32)
    (RowsOf.dot (RowsOf.truncf bitsLt_bf16_f32 ?_) Wb _ h4 none none .single) (RowsOf.biasOne bb x5 h5 _ _ _ _)
  -- the rectified first dense layer
  refine leaky_rows ?_
  unfold Cert.Spec.mm Cert.Spec.bias128
  rw [kdot_128, hdot_128]
  refine RowsOf.add (φ := .f32) (φ' := .f32)
    (RowsOf.dot (RowsOf.truncf bitsLt_bf16_f32 ?_) Wa _ h2 none none .single) (RowsOf.biasRow ba x3 h3 _ _ _ _)
  -- the residual sum
  exact RowsOf.add (φ := .f32) (φ' := .f32) (leaky_rows (h0.castSelf shapeCasts_S1000x128_S1000x128))
    (h1.castSelf shapeCasts_S1000x128_S1000x128)

end Cert.KernelIdeal.Body

end
-- ==== Proof.RegionsGated.lean ====
/-
  From blocks to arrays, region by region.

  Every region runs its body at fifty grid points; point `t` reads rows `1000 t … 1000 t + 999` of each node array
  through a row-block window and each weight or bias through a window that is its whole array, and writes back rows
  `1000 t … 1000 t + 999` of its output.  The body's result on those blocks is the same rows of the stage's value on the
  whole arrays (the body lemmas), so what point `t` writes back is block `t` of that value; the fifty blocks tile the
  output array, which therefore ends holding the stage's value.  All of it is stated at the contents `V` the region
  finds, whatever they are.
-/
import proofs.«142699_j1640677507203_1_alg».proof.Proof.Gen.KernelIdeal.Frame
import proofs.«142699_j1640677507203_1_alg».proof.Proof.Spec
import proofs.«142699_j1640677507203_1_alg».proof.Proof.LibRowBlocks
import proofs.«142699_j1640677507203_1_alg».proof.Proof.BodyCombine
import proofs.«142699_j1640677507203_1_alg».proof.Proof.BodyGru
import proofs.«142699_j1640677507203_1_alg».proof.Proof.BodyHead
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.SL.Sem
open Idealize.ShloMosaic.Pipeline (Dat)
open Idealize.ShloMosaic.ValueIdx
open Cert.KernelIdeal Cert.KernelIdeal.Gen Cert.Lib.RowBlocks

variable [Cert.ReferenceIdeal.Facts]
variable (V : (c : Dev nD) → (b : Ref sig .tc) → Buf (Elt Ideal) ((c : Thread nD τ).loc b))

/-! ## Region 1 -/

/-- The index maps of region 1's windows, decided over its fifty grid points: a row-block window is at block row `t`,
    a whole-array window at block (0, 0). -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- Window 0's block at point `t` holds rows `1000 t … 1000 t + 999` of its array. -/
theorem rows1_0 (c : Dev nD) (t : Fin cfg1.N) :
    RowsOf 50000 1000 128 (1000 * t.val) (V c main_v39) (iblk1 V c 0 t) := by
  intro y k h
  obtain ⟨e0_0, e0_1, e1_0, e1_1, e2_0, e2_1, e3_0, e3_1, e4_0, e4_1⟩ := idx1 t
  unfold iblk1
  rw [View.read_apply]
  show V c main_v39 _ = V c main_v39 _
  congr 1
  funext a; apply Fin.ext
  match a with
  | ⟨0, _⟩ => show win1_0.index t (0 : Fin 2) * 1000 + 1 * y.val = 1000 * t.val + y.val; rw [e0_0]; omega
  | ⟨1, _⟩ => show win1_0.index t (1 : Fin 2) * 128 + 1 * k.val = k.val; rw [e0_1]; omega

/-- Window 1's block at point `t` holds rows `1000 t … 1000 t + 999` of its array. -/
theorem rows1_1 (c : Dev nD) (t : Fin cfg1.N) :
    RowsOf 50000 1000 128 (1000 * t.val) (V c main_v4) (iblk1 V c 1 t) := by
  intro y k h
  obtain ⟨e0_0, e0_1, e1_0, e1_1, e2_0, e2_1, e3_0, e3_1, e4_0, e4_1⟩ := idx1 t
  unfold iblk1
  rw [View.read_apply]
  show V c main_v4 _ = V c main_v4 _
  congr 1
  funext a; apply Fin.ext
  match a with
  | ⟨0, _⟩ => show win1_1.index t (0 : Fin 2) * 1000 + 1 * y.val = 1000 * t.val + y.val; rw [e1_0]; omega
  | ⟨1, _⟩ => show win1_1.index t (1 : Fin 2) * 128 + 1 * k.val = k.val; rw [e1_1]; omega

/-- Window 2's block at point `t` holds rows `1000 t … 1000 t + 999` of its array. -/
theorem rows1_2 (c : Dev nD) (t : Fin cfg1.N) :
    RowsOf 50000 1000 1 (1000 * t.val) (V c main_v41) (iblk1 V c 2 t) := by
  intro y k h
  obtain ⟨e0_0, e0_1, e1_0, e1_1, e2_0, e2_1, e3_0, e3_1, e4_0, e4_1⟩ := idx1 t
  unfold iblk1
  rw [View.read_apply]
  show V c main_v41 _ = V c main_v41 _
  congr 1
  funext a; apply Fin.ext
  match a with
  | ⟨0, _⟩ => show win1_2.index t (0 : Fin 2) * 1000 + 1 * y.val = 1000 * t.val + y.val; rw [e2_0]; omega
  | ⟨1, _⟩ => show win1_2.index t (1 : Fin 2) * 1 + 1 * k.val = k.val; rw [e2_1]; omega

/-- Window 3's block at every point is its whole array. -/
theorem whole1_3 (c : Dev nD) (t : Fin cfg1.N) (i : S1x128.Idx) : iblk1 V c 3 t i = V c main_v42 i := by
  obtain ⟨e0_0, e0_1, e1_0, e1_1, e2_0, e2_1, e3_0, e3_1, e4_0, e4_1⟩ := idx1 t
  unfold iblk1
  rw [View.read_apply]
  show V c main_v42 _ = V c main_v42 _
  congr 1
  funext a; apply Fin.ext
  match a with
  | ⟨0, _⟩ => show win1_3.index t (0 : Fin 2) * 1 + 1 * (i 0).val = (i 0).val; rw [e3_0]; omega
  | ⟨1, _⟩ => show win1_3.index t (1 : Fin 2) * 128 + 1 * (i 1).val = (i 1).val; rw [e3_1]; omega

/-- What point `t` writes back is block `t` of the stage's whole-array value. -/
theorem flushed1 (c : Dev nD) (b3 : FVec Ideal Cert.ReferenceIdeal.S128 .f32) (hb3 : ∀ q : Fin 128, V c main_v42 (ix2 (0 : Fin 1) q) = b3 (ix1 q)) (t : Fin cfg1.N) :
    (dat1 V c).flushed 4 t = ((cfg1.win 4).blk t).view.read (Elt Ideal) (Cert.Spec.combine (F := Ideal) (V c main_v39) (V c main_v4) (V c main_v41) b3) := by
  show (cfg1.win 4).cut (grid1.coords t) ((dat1 V c).after 4 t) = _
  rw [after1_4]
  obtain ⟨e0_0, e0_1, e1_0, e1_1, e2_0, e2_1, e3_0, e3_1, e4_0, e4_1⟩ := idx1 t
  have ht : t.val < 50 := by have h := t.isLt; have e : cfg1.N = 50 := N_1; omega
  funext j
  obtain ⟨y, k, rfl⟩ : ∃ (y : Fin 1000) (k : Fin 128), j = ix2 y k := ⟨j 0, j 1, eq_ix2 j⟩
  have hy : y.val < 1000 := y.isLt
  refine (Cert.KernelIdeal.Body.combine_rows (iblk1 V c 0 t) (iblk1 V c 1 t) (iblk1 V c 2 t) (iblk1 V c 3 t)
    (V c main_v39) (V c main_v4) (V c main_v41) b3
    (rows1_0 V c t) (rows1_1 V c t) (rows1_2 V c t) (fun q => (whole1_3 V c t (ix2 (0 : Fin 1) q)).trans (hb3 q))
    y k (by omega)).trans ?_
  rw [View.read_apply]
  congr 1
  funext a; apply Fin.ext
  match a with
  | ⟨0, _⟩ => show 1000 * t.val + y.val = win1_4.index t (0 : Fin 2) * 1000 + 1 * y.val; rw [e4_0]; omega
  | ⟨1, _⟩ => show k.val = win1_4.index t (1 : Fin 2) * 128 + 1 * k.val; rw [e4_1]; omega

/-- The fifty blocks tile the output array, so after the region it holds the stage's value. -/
theorem final1 (c : Dev nD) (b3 : FVec Ideal Cert.ReferenceIdeal.S128 .f32) (hb3 : ∀ q : Fin 128, V c main_v42 (ix2 (0 : Fin 1) q) = b3 (ix1 q)) :
    (dat1 V c).arrAt 4 cfg1.N = Cert.Spec.combine (F := Ideal) (V c main_v39) (V c main_v4) (V c main_v41) b3 :=
  (dat1 V c).arrAt_eq_of_cover 4 _ (fun t _ => flushed1 V c b3 hb3 t) fun i => by
    have hi0 : (i 0).val < 50000 := (i 0).isLt
    have hi1 : (i 1).val < 128 := (i 1).isLt
    let t : Fin cfg1.N := ⟨(i 0).val / 1000, by have e : cfg1.N = 50 := N_1; omega⟩
    obtain ⟨e0_0, e0_1, e1_0, e1_1, e2_0, e2_1, e3_0, e3_1, e4_0, e4_1⟩ := idx1 t
    refine ⟨t, flush1_4 t, ?_⟩
    show i ∈ ((View.whole main_v43).slice (win1_4.rect t)).set
    rw [View.set_slice_whole, Rect.mem_set_unit]
    intro a
    match a with
    | ⟨0, _⟩ => show win1_4.index t (0 : Fin 2) * 1000 ≤ (i 0).val ∧ (i 0).val < win1_4.index t (0 : Fin 2) * 1000 + 1000; rw [e4_0]; show (i 0).val / 1000 * 1000 ≤ (i 0).val ∧ (i 0).val < (i 0).val / 1000 * 1000 + 1000; omega
    | ⟨1, _⟩ => show win1_4.index t (1 : Fin 2) * 128 ≤ (i 1).val ∧ (i 1).val < win1_4.index t (1 : Fin 2) * 128 + 128; rw [e4_1]; omega

/-! ## Region 3 -/

/-- The index maps of region 3's windows, decided over its fifty grid points: a row-block window is at block row `t`,
    a whole-array window at block (0, 0). -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- Window 0's block at point `t` holds rows `1000 t … 1000 t + 999` of its array. -/
theorem rows3_0 (c : Dev nD) (t : Fin cfg3.N) :
    RowsOf 50000 1000 128 (1000 * t.val) (V c main_v58) (iblk3 V c 0 t) := by
  intro y k h
  obtain ⟨e0_0, e0_1, e1_0, e1_1, e2_0, e2_1, e3_0, e3_1, e4_0, e4_1, e5_0, e5_1, e6_0, e6_1⟩ := idx3 t
  unfold iblk3
  rw [View.read_apply]
  show V c main_v58 _ = V c main_v58 _
  congr 1
  funext a; apply Fin.ext
  match a with
  | ⟨0, _⟩ => show win3_0.index t (0 : Fin 2) * 1000 + 1 * y.val = 1000 * t.val + y.val; rw [e0_0]; omega
  | ⟨1, _⟩ => show win3_0.index t (1 : Fin 2) * 128 + 1 * k.val = k.val; rw [e0_1]; omega

/-- Window 1's block at point `t` holds rows `1000 t … 1000 t + 999` of its array. -/
theorem rows3_1 (c : Dev nD) (t : Fin cfg3.N) :
    RowsOf 50000 1000 128 (1000 * t.val) (V c main_v43) (iblk3 V c 1 t) := by
  intro y k h
  obtain ⟨e0_0, e0_1, e1_0, e1_1, e2_0, e2_1, e3_0, e3_1, e4_0, e4_1, e5_0, e5_1, e6_0, e6_1⟩ := idx3 t
  unfold iblk3
  rw [View.read_apply]
  show V c main_v43 _ = V c main_v43 _
  congr 1
  funext a; apply Fin.ext
  match a with
  | ⟨0, _⟩ => show win3_1.index t (0 : Fin 2) * 1000 + 1 * y.val = 1000 * t.val + y.val; rw [e1_0]; omega
  | ⟨1, _⟩ => show win3_1.index t (1 : Fin 2) * 128 + 1 * k.val = k.val; rw [e1_1]; omega

/-- Window 2's block at every point is its whole array. -/
theorem whole3_2 (c : Dev nD) (t : Fin cfg3.N) (i : S128x384.Idx) : iblk3 V c 2 t i = V c main_v44 i := by
  obtain ⟨e0_0, e0_1, e1_0, e1_1, e2_0, e2_1, e3_0, e3_1, e4_0, e4_1, e5_0, e5_1, e6_0, e6_1⟩ := idx3 t
  unfold iblk3
  rw [View.read_apply]
  show V c main_v44 _ = V c main_v44 _
  congr 1
  funext a; apply Fin.ext
  match a with
  | ⟨0, _⟩ => show win3_2.index t (0 : Fin 2) * 128 + 1 * (i 0).val = (i 0).val; rw [e2_0]; omega
  | ⟨1, _⟩ => show win3_2.index t (1 : Fin 2) * 384 + 1 * (i 1).val = (i 1).val; rw [e2_1]; omega

/-- Window 3's block at every point is its whole array. -/
theorem whole3_3 (c : Dev nD) (t : Fin cfg3.N) (i : S128x384.Idx) : iblk3 V c 3 t i = V c main_v45 i := by
  obtain ⟨e0_0, e0_1, e1_0, e1_1, e2_0, e2_1, e3_0, e3_1, e4_0, e4_1, e5_0, e5_1, e6_0, e6_1⟩ := idx3 t
  unfold iblk3
  rw [View.read_apply]
  show V c main_v45 _ = V c main_v45 _
  congr 1
  funext a; apply Fin.ext
  match a with
  | ⟨0, _⟩ => show win3_3.index t (0 : Fin 2) * 128 + 1 * (i 0).val = (i 0).val; rw [e3_0]; omega
  | ⟨1, _⟩ => show win3_3.index t (1 : Fin 2) * 384 + 1 * (i 1).val = (i 1).val; rw [e3_1]; omega

/-- Window 4's block at every point is its whole array. -/
theorem whole3_4 (c : Dev nD) (t : Fin cfg3.N) (i : S1x384.Idx) : iblk3 V c 4 t i = V c main_v59 i := by
  obtain ⟨e0_0, e0_1, e1_0, e1_1, e2_0, e2_1, e3_0, e3_1, e4_0, e4_1, e5_0, e5_1, e6_0, e6_1⟩ := idx3 t
  unfold iblk3
  rw [View.read_apply]
  show V c main_v59 _ = V c main_v59 _
  congr 1
  funext a; apply Fin.ext
  match a with
  | ⟨0, _⟩ => show win3_4.index t (0 : Fin 2) * 1 + 1 * (i 0).val = (i 0).val; rw [e4_0]; omega
  | ⟨1, _⟩ => show win3_4.index t (1 : Fin 2) * 384 + 1 * (i 1).val = (i 1).val; rw [e4_1]; omega

/-- Window 5's block at every point is its whole array. -/
theorem whole3_5 (c : Dev nD) (t : Fin cfg3.N) (i : S1x384.Idx) : iblk3 V c 5 t i = V c main_v60 i := by
  obtain ⟨e0_0, e0_1, e1_0, e1_1, e2_0, e2_1, e3_0, e3_1, e4_0, e4_1, e5_0, e5_1, e6_0, e6_1⟩ := idx3 t
  unfold iblk3
  rw [View.read_apply]
  show V c main_v60 _ = V c main_v60 _
  congr 1
  funext a; apply Fin.ext
  match a with
  | ⟨0, _⟩ => show win3_5.index t (0 : Fin 2) * 1 + 1 * (i 0).val = (i 0).val; rw [e5_0]; omega
  | ⟨1, _⟩ => show win3_5.index t (1 : Fin 2) * 384 + 1 * (i 1).val = (i 1).val; rw [e5_1]; omega

/-- What point `t` writes back is block `t` of the stage's whole-array value. -/
theorem flushed3 (c : Dev nD) (b4 : FVec Ideal Cert.ReferenceIdeal.S384 .f32) (b5 : FVec Ideal Cert.ReferenceIdeal.S384 .f32) (hb4 : ∀ q : Fin 384, V c main_v59 (ix2 (0 : Fin 1) q) = b4 (ix1 q)) (hb5 : ∀ q : Fin 384, V c main_v60 (ix2 (0 : Fin 1) q) = b5 (ix1 q)) (t : Fin cfg3.N) :
    (dat3 V c).flushed 6 t = ((cfg3.win 6).blk t).view.read (Elt Ideal) (Cert.Spec.gru (F := Ideal) (V c main_v58) (V c main_v43) (V c main_v44) (V c main_v45) b4 b5) := by
  show (cfg3.win 6).cut (grid3.coords t) ((dat3 V c).after 6 t) = _
  rw [after3_6]
  obtain ⟨e0_0, e0_1, e1_0, e1_1, e2_0, e2_1, e3_0, e3_1, e4_0, e4_1, e5_0, e5_1, e6_0, e6_1⟩ := idx3 t
  have ht : t.val < 50 := by have h := t.isLt; have e : cfg3.N = 50 := N_3; omega
  funext j
  obtain ⟨y, k, rfl⟩ : ∃ (y : Fin 1000) (k : Fin 128), j = ix2 y k := ⟨j 0, j 1, eq_ix2 j⟩
  have hy : y.val < 1000 := y.isLt
  refine (Cert.KernelIdeal.Body.gru3_rows (iblk3 V c 0 t) (iblk3 V c 1 t) (iblk3 V c 2 t) (iblk3 V c 3 t) (iblk3 V c 4 t) (iblk3 V c 5 t)
    (V c main_v58) (V c main_v43) (V c main_v44) (V c main_v45) b4 b5
    (rows3_0 V c t) (rows3_1 V c t) (whole3_2 V c t) (whole3_3 V c t) (fun q => (whole3_4 V c t (ix2 (0 : Fin 1) q)).trans (hb4 q)) (fun q => (whole3_5 V c t (ix2 (0 : Fin 1) q)).trans (hb5 q))
    y k (by omega)).trans ?_
  rw [View.read_apply]
  congr 1
  funext a; apply Fin.ext
  match a with
  | ⟨0, _⟩ => show 1000 * t.val + y.val = win3_6.index t (0 : Fin 2) * 1000 + 1 * y.val; rw [e6_0]; omega
  | ⟨1, _⟩ => show k.val = win3_6.index t (1 : Fin 2) * 128 + 1 * k.val; rw [e6_1]; omega

/-- The fifty blocks tile the output array, so after the region it holds the stage's value. -/
theorem final3 (c : Dev nD) (b4 : FVec Ideal Cert.ReferenceIdeal.S384 .f32) (b5 : FVec Ideal Cert.ReferenceIdeal.S384 .f32) (hb4 : ∀ q : Fin 384, V c main_v59 (ix2 (0 : Fin 1) q) = b4 (ix1 q)) (hb5 : ∀ q : Fin 384, V c main_v60 (ix2 (0 : Fin 1) q) = b5 (ix1 q)) :
    (dat3 V c).arrAt 6 cfg3.N = Cert.Spec.gru (F := Ideal) (V c main_v58) (V c main_v43) (V c main_v44) (V c main_v45) b4 b5 :=
  (dat3 V c).arrAt_eq_of_cover 6 _ (fun t _ => flushed3 V c b4 b5 hb4 hb5 t) fun i => by
    have hi0 : (i 0).val < 50000 := (i 0).isLt
    have hi1 : (i 1).val < 128 := (i 1).isLt
    let t : Fin cfg3.N := ⟨(i 0).val / 1000, by have e : cfg3.N = 50 := N_3; omega⟩
    obtain ⟨e0_0, e0_1, e1_0, e1_1, e2_0, e2_1, e3_0, e3_1, e4_0, e4_1, e5_0, e5_1, e6_0, e6_1⟩ := idx3 t
    refine ⟨t, flush3_6 t, ?_⟩
    show i ∈ ((View.whole main_v61).slice (win3_6.rect t)).set
    rw [View.set_slice_whole, Rect.mem_set_unit]
    intro a
    match a with
    | ⟨0, _⟩ => show win3_6.index t (0 : Fin 2) * 1000 ≤ (i 0).val ∧ (i 0).val < win3_6.index t (0 : Fin 2) * 1000 + 1000; rw [e6_0]; show (i 0).val / 1000 * 1000 ≤ (i 0).val ∧ (i 0).val < (i 0).val / 1000 * 1000 + 1000; omega
    | ⟨1, _⟩ => show win3_6.index t (1 : Fin 2) * 128 ≤ (i 1).val ∧ (i 1).val < win3_6.index t (1 : Fin 2) * 128 + 128; rw [e6_1]; omega

/-! ## Region 5 -/

/-- The index maps of region 5's windows, decided over its fifty grid points: a row-block window is at block row `t`,
    a whole-array window at block (0, 0). -/
theorem idx5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = t.val
    ∧ win5_6.index t (1 : Fin 2) = 0 :=
  (by decide +kernel : ∀ t : Fin grid5.N, _)

/-- Window 0's block at point `t` holds rows `1000 t … 1000 t + 999` of its array. -/
theorem rows5_0 (c : Dev nD) (t : Fin cfg5.N) :
    RowsOf 50000 1000 128 (1000 * t.val) (V c main_v74) (iblk5 V c 0 t) := by
  intro y k h
  obtain ⟨e0_0, e0_1, e1_0, e1_1, e2_0, e2_1, e3_0, e3_1, e4_0, e4_1, e5_0, e5_1, e6_0, e6_1⟩ := idx5 t
  unfold iblk5
  rw [View.read_apply]
  show V c main_v74 _ = V c main_v74 _
  congr 1
  funext a; apply Fin.ext
  match a with
  | ⟨0, _⟩ => show win5_0.index t (0 : Fin 2) * 1000 + 1 * y.val = 1000 * t.val + y.val; rw [e0_0]; omega
  | ⟨1, _⟩ => show win5_0.index t (1 : Fin 2) * 128 + 1 * k.val = k.val; rw [e0_1]; omega

/-- Window 1's block at point `t` holds rows `1000 t … 1000 t + 999` of its array. -/
theorem rows5_1 (c : Dev nD) (t : Fin cfg5.N) :
    RowsOf 50000 1000 128 (1000 * t.val) (V c main_v61) (iblk5 V c 1 t) := by
  intro y k h
  obtain ⟨e0_0, e0_1, e1_0, e1_1, e2_0, e2_1, e3_0, e3_1, e4_0, e4_1, e5_0, e5_1, e6_0, e6_1⟩ := idx5 t
  unfold iblk5
  rw [View.read_apply]
  show V c main_v61 _ = V c main_v61 _
  congr 1
  funext a; apply Fin.ext
  match a with
  | ⟨0, _⟩ => show win5_1.index t (0 : Fin 2) * 1000 + 1 * y.val = 1000 * t.val + y.val; rw [e1_0]; omega
  | ⟨1, _⟩ => show win5_1.index t (1 : Fin 2) * 128 + 1 * k.val = k.val; rw [e1_1]; omega

/-- Window 2's block at every point is its whole array. -/
theorem whole5_2 (c : Dev nD) (t : Fin cfg5.N) (i : S128x384.Idx) : iblk5 V c 2 t i = V c main_v44 i := by
  obtain ⟨e0_0, e0_1, e1_0, e1_1, e2_0, e2_1, e3_0, e3_1, e4_0, e4_1, e5_0, e5_1, e6_0, e6_1⟩ := idx5 t
  unfold iblk5
  rw [View.read_apply]
  show V c main_v44 _ = V c main_v44 _
  congr 1
  funext a; apply Fin.ext
  match a with
  | ⟨0, _⟩ => show win5_2.index t (0 : Fin 2) * 128 + 1 * (i 0).val = (i 0).val; rw [e2_0]; omega
  | ⟨1, _⟩ => show win5_2.index t (1 : Fin 2) * 384 + 1 * (i 1).val = (i 1).val; rw [e2_1]; omega

/-- Window 3's block at every point is its whole array. -/
theorem whole5_3 (c : Dev nD) (t : Fin cfg5.N) (i : S128x384.Idx) : iblk5 V c 3 t i = V c main_v45 i := by
  obtain ⟨e0_0, e0_1, e1_0, e1_1, e2_0, e2_1, e3_0, e3_1, e4_0, e4_1, e5_0, e5_1, e6_0, e6_1⟩ := idx5 t
  unfold iblk5
  rw [View.read_apply]
  show V c main_v45 _ = V c main_v45 _
  congr 1
  funext a; apply Fin.ext
  match a with
  | ⟨0, _⟩ => show win5_3.index t (0 : Fin 2) * 128 + 1 * (i 0).val = (i 0).val; rw [e3_0]; omega
  | ⟨1, _⟩ => show win5_3.index t (1 : Fin 2) * 384 + 1 * (i 1).val = (i 1).val; rw [e3_1]; omega

/-- Window 4's block at every point is its whole array. -/
theorem whole5_4 (c : Dev nD) (t : Fin cfg5.N) (i : S1x384.Idx) : iblk5 V c 4 t i = V c main_v75 i := by
  obtain ⟨e0_0, e0_1, e1_0, e1_1, e2_0, e2_1, e3_0, e3_1, e4_0, e4_1, e5_0, e5_1, e6_0, e6_1⟩ := idx5 t
  unfold iblk5
  rw [View.read_apply]
  show V c main_v75 _ = V c main_v75 _
  congr 1
  funext a; apply Fin.ext
  match a with
  | ⟨0, _⟩ => show win5_4.index t (0 : Fin 2) * 1 + 1 * (i 0).val = (i 0).val; rw [e4_0]; omega
  | ⟨1, _⟩ => show win5_4.index t (1 : Fin 2) * 384 + 1 * (i 1).val = (i 1).val; rw [e4_1]; omega

/-- Window 5's block at every point is its whole array. -/
theorem whole5_5 (c : Dev nD) (t : Fin cfg5.N) (i : S1x384.Idx) : iblk5 V c 5 t i = V c main_v76 i := by
  obtain ⟨e0_0, e0_1, e1_0, e1_1, e2_0, e2_1, e3_0, e3_1, e4_0, e4_1, e5_0, e5_1, e6_0, e6_1⟩ := idx5 t
  unfold iblk5
  rw [View.read_apply]
  show V c main_v76 _ = V c main_v76 _
  congr 1
  funext a; apply Fin.ext
  match a with
  | ⟨0, _⟩ => show win5_5.index t (0 : Fin 2) * 1 + 1 * (i 0).val = (i 0).val; rw [e5_0]; omega
  | ⟨1, _⟩ => show win5_5.index t (1 : Fin 2) * 384 + 1 * (i 1).val = (i 1).val; rw [e5_1]; omega

/-- What point `t` writes back is block `t` of the stage's whole-array value. -/
theorem flushed5 (c : Dev nD) (b4 : FVec Ideal Cert.ReferenceIdeal.S384 .f32) (b5 : FVec Ideal Cert.ReferenceIdeal.S384 .f32) (hb4 : ∀ q : Fin 384, V c main_v75 (ix2 (0 : Fin 1) q) = b4 (ix1 q)) (hb5 : ∀ q : Fin 384, V c main_v76 (ix2 (0 : Fin 1) q) = b5 (ix1 q)) (t : Fin cfg5.N) :
    (dat5 V c).flushed 6 t = ((cfg5.win 6).blk t).view.read (Elt Ideal) (Cert.Spec.gru (F := Ideal) (V c main_v74) (V c main_v61) (V c main_v44) (V c main_v45) b4 b5) := by
  show (cfg5.win 6).cut (grid5.coords t) ((dat5 V c).after 6 t) = _
  rw [after5_6]
  obtain ⟨e0_0, e0_1, e1_0, e1_1, e2_0, e2_1, e3_0, e3_1, e4_0, e4_1, e5_0, e5_1, e6_0, e6_1⟩ := idx5 t
  have ht : t.val < 50 := by have h := t.isLt; have e : cfg5.N = 50 := N_5; omega
  funext j
  obtain ⟨y, k, rfl⟩ : ∃ (y : Fin 1000) (k : Fin 128), j = ix2 y k := ⟨j 0, j 1, eq_ix2 j⟩
  have hy : y.val < 1000 := y.isLt
  refine (Cert.KernelIdeal.Body.gru5_rows (iblk5 V c 0 t) (iblk5 V c 1 t) (iblk5 V c 2 t) (iblk5 V c 3 t) (iblk5 V c 4 t) (iblk5 V c 5 t)
    (V c main_v74) (V c main_v61) (V c main_v44) (V c main_v45) b4 b5
    (rows5_0 V c t) (rows5_1 V c t) (whole5_2 V c t) (whole5_3 V c t) (fun q => (whole5_4 V c t (ix2 (0 : Fin 1) q)).trans (hb4 q)) (fun q => (whole5_5 V c t (ix2 (0 : Fin 1) q)).trans (hb5 q))
    y k (by omega)).trans ?_
  rw [View.read_apply]
  congr 1
  funext a; apply Fin.ext
  match a with
  | ⟨0, _⟩ => show 1000 * t.val + y.val = win5_6.index t (0 : Fin 2) * 1000 + 1 * y.val; rw [e6_0]; omega
  | ⟨1, _⟩ => show k.val = win5_6.index t (1 : Fin 2) * 128 + 1 * k.val; rw [e6_1]; omega

/-- The fifty blocks tile the output array, so after the region it holds the stage's value. -/
theorem final5 (c : Dev nD) (b4 : FVec Ideal Cert.ReferenceIdeal.S384 .f32) (b5 : FVec Ideal Cert.ReferenceIdeal.S384 .f32) (hb4 : ∀ q : Fin 384, V c main_v75 (ix2 (0 : Fin 1) q) = b4 (ix1 q)) (hb5 : ∀ q : Fin 384, V c main_v76 (ix2 (0 : Fin 1) q) = b5 (ix1 q)) :
    (dat5 V c).arrAt 6 cfg5.N = Cert.Spec.gru (F := Ideal) (V c main_v74) (V c main_v61) (V c main_v44) (V c main_v45) b4 b5 :=
  (dat5 V c).arrAt_eq_of_cover 6 _ (fun t _ => flushed5 V c b4 b5 hb4 hb5 t) fun i => by
    have hi0 : (i 0).val < 50000 := (i 0).isLt
    have hi1 : (i 1).val < 128 := (i 1).isLt
    let t : Fin cfg5.N := ⟨(i 0).val / 1000, by have e : cfg5.N = 50 := N_5; omega⟩
    obtain ⟨e0_0, e0_1, e1_0, e1_1, e2_0, e2_1, e3_0, e3_1, e4_0, e4_1, e5_0, e5_1, e6_0, e6_1⟩ := idx5 t
    refine ⟨t, flush5_6 t, ?_⟩
    show i ∈ ((View.whole main_v77).slice (win5_6.rect t)).set
    rw [View.set_slice_whole, Rect.mem_set_unit]
    intro a
    match a with
    | ⟨0, _⟩ => show win5_6.index t (0 : Fin 2) * 1000 ≤ (i 0).val ∧ (i 0).val < win5_6.index t (0 : Fin 2) * 1000 + 1000; rw [e6_0]; show (i 0).val / 1000 * 1000 ≤ (i 0).val ∧ (i 0).val < (i 0).val / 1000 * 1000 + 1000; omega
    | ⟨1, _⟩ => show win5_6.index t (1 : Fin 2) * 128 ≤ (i 1).val ∧ (i 1).val < win5_6.index t (1 : Fin 2) * 128 + 128; rw [e6_1]; omega

/-! ## Region 7 -/

/-- The index maps of region 7's windows, decided over its fifty grid points: a row-block window is at block row `t`,
    a whole-array window at block (0, 0). -/
theorem idx7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = t.val
    ∧ win7_6.index t (1 : Fin 2) = 0 :=
  (by decide +kernel : ∀ t : Fin grid7.N, _)

/-- Window 0's block at point `t` holds rows `1000 t … 1000 t + 999` of its array. -/
theorem rows7_0 (c : Dev nD) (t : Fin cfg7.N) :
    RowsOf 50000 1000 128 (1000 * t.val) (V c main_v90) (iblk7 V c 0 t) := by
  intro y k h
  obtain ⟨e0_0, e0_1, e1_0, e1_1, e2_0, e2_1, e3_0, e3_1, e4_0, e4_1, e5_0, e5_1, e6_0, e6_1⟩ := idx7 t
  unfold iblk7
  rw [View.read_apply]
  show V c main_v90 _ = V c main_v90 _
  congr 1
  funext a; apply Fin.ext
  match a with
  | ⟨0, _⟩ => show win7_0.index t (0 : Fin 2) * 1000 + 1 * y.val = 1000 * t.val + y.val; rw [e0_0]; omega
  | ⟨1, _⟩ => show win7_0.index t (1 : Fin 2) * 128 + 1 * k.val = k.val; rw [e0_1]; omega

/-- Window 1's block at point `t` holds rows `1000 t … 1000 t + 999` of its array. -/
theorem rows7_1 (c : Dev nD) (t : Fin cfg7.N) :
    RowsOf 50000 1000 128 (1000 * t.val) (V c main_v77) (iblk7 V c 1 t) := by
  intro y k h
  obtain ⟨e0_0, e0_1, e1_0, e1_1, e2_0, e2_1, e3_0, e3_1, e4_0, e4_1, e5_0, e5_1, e6_0, e6_1⟩ := idx7 t
  unfold iblk7
  rw [View.read_apply]
  show V c main_v77 _ = V c main_v77 _
  congr 1
  funext a; apply Fin.ext
  match a with
  | ⟨0, _⟩ => show win7_1.index t (0 : Fin 2) * 1000 + 1 * y.val = 1000 * t.val + y.val; rw [e1_0]; omega
  | ⟨1, _⟩ => show win7_1.index t (1 : Fin 2) * 128 + 1 * k.val = k.val; rw [e1_1]; omega

/-- Window 2's block at every point is its whole array. -/
theorem whole7_2 (c : Dev nD) (t : Fin cfg7.N) (i : S128x384.Idx) : iblk7 V c 2 t i = V c main_v44 i := by
  obtain ⟨e0_0, e0_1, e1_0, e1_1, e2_0, e2_1, e3_0, e3_1, e4_0, e4_1, e5_0, e5_1, e6_0, e6_1⟩ := idx7 t
  unfold iblk7
  rw [View.read_apply]
  show V c main_v44 _ = V c main_v44 _
  congr 1
  funext a; apply Fin.ext
  match a with
  | ⟨0, _⟩ => show win7_2.index t (0 : Fin 2) * 128 + 1 * (i 0).val = (i 0).val; rw [e2_0]; omega
  | ⟨1, _⟩ => show win7_2.index t (1 : Fin 2) * 384 + 1 * (i 1).val = (i 1).val; rw [e2_1]; omega

/-- Window 3's block at every point is its whole array. -/
theorem whole7_3 (c : Dev nD) (t : Fin cfg7.N) (i : S128x384.Idx) : iblk7 V c 3 t i = V c main_v45 i := by
  obtain ⟨e0_0, e0_1, e1_0, e1_1, e2_0, e2_1, e3_0, e3_1, e4_0, e4_1, e5_0, e5_1, e6_0, e6_1⟩ := idx7 t
  unfold iblk7
  rw [View.read_apply]
  show V c main_v45 _ = V c main_v45 _
  congr 1
  funext a; apply Fin.ext
  match a with
  | ⟨0, _⟩ => show win7_3.index t (0 : Fin 2) * 128 + 1 * (i 0).val = (i 0).val; rw [e3_0]; omega
  | ⟨1, _⟩ => show win7_3.index t (1 : Fin 2) * 384 + 1 * (i 1).val = (i 1).val; rw [e3_1]; omega

/-- Window 4's block at every point is its whole array. -/
theorem whole7_4 (c : Dev nD) (t : Fin cfg7.N) (i : S1x384.Idx) : iblk7 V c 4 t i = V c main_v91 i := by
  obtain ⟨e0_0, e0_1, e1_0, e1_1, e2_0, e2_1, e3_0, e3_1, e4_0, e4_1, e5_0, e5_1, e6_0, e6_1⟩ := idx7 t
  unfold iblk7
  rw [View.read_apply]
  show V c main_v91 _ = V c main_v91 _
  congr 1
  funext a; apply Fin.ext
  match a with
  | ⟨0, _⟩ => show win7_4.index t (0 : Fin 2) * 1 + 1 * (i 0).val = (i 0).val; rw [e4_0]; omega
  | ⟨1, _⟩ => show win7_4.index t (1 : Fin 2) * 384 + 1 * (i 1).val = (i 1).val; rw [e4_1]; omega

/-- Window 5's block at every point is its whole array. -/
theorem whole7_5 (c : Dev nD) (t : Fin cfg7.N) (i : S1x384.Idx) : iblk7 V c 5 t i = V c main_v92 i := by
  obtain ⟨e0_0, e0_1, e1_0, e1_1, e2_0, e2_1, e3_0, e3_1, e4_0, e4_1, e5_0, e5_1, e6_0, e6_1⟩ := idx7 t
  unfold iblk7
  rw [View.read_apply]
  show V c main_v92 _ = V c main_v92 _
  congr 1
  funext a; apply Fin.ext
  match a with
  | ⟨0, _⟩ => show win7_5.index t (0 : Fin 2) * 1 + 1 * (i 0).val = (i 0).val; rw [e5_0]; omega
  | ⟨1, _⟩ => show win7_5.index t (1 : Fin 2) * 384 + 1 * (i 1).val = (i 1).val; rw [e5_1]; omega

/-- What point `t` writes back is block `t` of the stage's whole-array value. -/
theorem flushed7 (c : Dev nD) (b4 : FVec Ideal Cert.ReferenceIdeal.S384 .f32) (b5 : FVec Ideal Cert.ReferenceIdeal.S384 .f32) (hb4 : ∀ q : Fin 384, V c main_v91 (ix2 (0 : Fin 1) q) = b4 (ix1 q)) (hb5 : ∀ q : Fin 384, V c main_v92 (ix2 (0 : Fin 1) q) = b5 (ix1 q)) (t : Fin cfg7.N) :
    (dat7 V c).flushed 6 t = ((cfg7.win 6).blk t).view.read (Elt Ideal) (Cert.Spec.gru (F := Ideal) (V c main_v90) (V c main_v77) (V c main_v44) (V c main_v45) b4 b5) := by
  show (cfg7.win 6).cut (grid7.coords t) ((dat7 V c).after 6 t) = _
  rw [after7_6]
  obtain ⟨e0_0, e0_1, e1_0, e1_1, e2_0, e2_1, e3_0, e3_1, e4_0, e4_1, e5_0, e5_1, e6_0, e6_1⟩ := idx7 t
  have ht : t.val < 50 := by have h := t.isLt; have e : cfg7.N = 50 := N_7; omega
  funext j
  obtain ⟨y, k, rfl⟩ : ∃ (y : Fin 1000) (k : Fin 128), j = ix2 y k := ⟨j 0, j 1, eq_ix2 j⟩
  have hy : y.val < 1000 := y.isLt
  refine (Cert.KernelIdeal.Body.gru7_rows (iblk7 V c 0 t) (iblk7 V c 1 t) (iblk7 V c 2 t) (iblk7 V c 3 t) (iblk7 V c 4 t) (iblk7 V c 5 t)
    (V c main_v90) (V c main_v77) (V c main_v44) (V c main_v45) b4 b5
    (rows7_0 V c t) (rows7_1 V c t) (whole7_2 V c t) (whole7_3 V c t) (fun q => (whole7_4 V c t (ix2 (0 : Fin 1) q)).trans (hb4 q)) (fun q => (whole7_5 V c t (ix2 (0 : Fin 1) q)).trans (hb5 q))
    y k (by omega)).trans ?_
  rw [View.read_apply]
  congr 1
  funext a; apply Fin.ext
  match a with
  | ⟨0, _⟩ => show 1000 * t.val + y.val = win7_6.index t (0 : Fin 2) * 1000 + 1 * y.val; rw [e6_0]; omega
  | ⟨1, _⟩ => show k.val = win7_6.index t (1 : Fin 2) * 128 + 1 * k.val; rw [e6_1]; omega

/-- The fifty blocks tile the output array, so after the region it holds the stage's value. -/
theorem final7 (c : Dev nD) (b4 : FVec Ideal Cert.ReferenceIdeal.S384 .f32) (b5 : FVec Ideal Cert.ReferenceIdeal.S384 .f32) (hb4 : ∀ q : Fin 384, V c main_v91 (ix2 (0 : Fin 1) q) = b4 (ix1 q)) (hb5 : ∀ q : Fin 384, V c main_v92 (ix2 (0 : Fin 1) q) = b5 (ix1 q)) :
    (dat7 V c).arrAt 6 cfg7.N = Cert.Spec.gru (F := Ideal) (V c main_v90) (V c main_v77) (V c main_v44) (V c main_v45) b4 b5 :=
  (dat7 V c).arrAt_eq_of_cover 6 _ (fun t _ => flushed7 V c b4 b5 hb4 hb5 t) fun i => by
    have hi0 : (i 0).val < 50000 := (i 0).isLt
    have hi1 : (i 1).val < 128 := (i 1).isLt
    let t : Fin cfg7.N := ⟨(i 0).val / 1000, by have e : cfg7.N = 50 := N_7; omega⟩
    obtain ⟨e0_0, e0_1, e1_0, e1_1, e2_0, e2_1, e3_0, e3_1, e4_0, e4_1, e5_0, e5_1, e6_0, e6_1⟩ := idx7 t
    refine ⟨t, flush7_6 t, ?_⟩
    show i ∈ ((View.whole main_v93).slice (win7_6.rect t)).set
    rw [View.set_slice_whole, Rect.mem_set_unit]
    intro a
    match a with
    | ⟨0, _⟩ => show win7_6.index t (0 : Fin 2) * 1000 ≤ (i 0).val ∧ (i 0).val < win7_6.index t (0 : Fin 2) * 1000 + 1000; rw [e6_0]; show (i 0).val / 1000 * 1000 ≤ (i 0).val ∧ (i 0).val < (i 0).val / 1000 * 1000 + 1000; omega
    | ⟨1, _⟩ => show win7_6.index t (1 : Fin 2) * 128 ≤ (i 1).val ∧ (i 1).val < win7_6.index t (1 : Fin 2) * 128 + 128; rw [e6_1]; omega

/-! ## Region 8 -/

/-- The index maps of region 8's windows, decided over its fifty grid points: a row-block window is at block row `t`,
    a whole-array window at block (0, 0). -/
theorem idx8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = 0
    ∧ win8_5.index t (1 : Fin 2) = 0
    ∧ win8_6.index t (0 : Fin 2) = t.val
    ∧ win8_6.index t (1 : Fin 2) = 0 :=
  (by decide +kernel : ∀ t : Fin grid8.N, _)

/-- Window 0's block at point `t` holds rows `1000 t … 1000 t + 999` of its array. -/
theorem rows8_0 (c : Dev nD) (t : Fin cfg8.N) :
    RowsOf 50000 1000 128 (1000 * t.val) (V c main_v93) (iblk8 V c 0 t) := by
  intro y k h
  obtain ⟨e0_0, e0_1, e1_0, e1_1, e2_0, e2_1, e3_0, e3_1, e4_0, e4_1, e5_0, e5_1, e6_0, e6_1⟩ := idx8 t
  unfold iblk8
  rw [View.read_apply]
  show V c main_v93 _ = V c main_v93 _
  congr 1
  funext a; apply Fin.ext
  match a with
  | ⟨0, _⟩ => show win8_0.index t (0 : Fin 2) * 1000 + 1 * y.val = 1000 * t.val + y.val; rw [e0_0]; omega
  | ⟨1, _⟩ => show win8_0.index t (1 : Fin 2) * 128 + 1 * k.val = k.val; rw [e0_1]; omega

/-- Window 1's block at point `t` holds rows `1000 t … 1000 t + 999` of its array. -/
theorem rows8_1 (c : Dev nD) (t : Fin cfg8.N) :
    RowsOf 50000 1000 128 (1000 * t.val) (V c main_v43) (iblk8 V c 1 t) := by
  intro y k h
  obtain ⟨e0_0, e0_1, e1_0, e1_1, e2_0, e2_1, e3_0, e3_1, e4_0, e4_1, e5_0, e5_1, e6_0, e6_1⟩ := idx8 t
  unfold iblk8
  rw [View.read_apply]
  show V c main_v43 _ = V c main_v43 _
  congr 1
  funext a; apply Fin.ext
  match a with
  | ⟨0, _⟩ => show win8_1.index t (0 : Fin 2) * 1000 + 1 * y.val = 1000 * t.val + y.val; rw [e1_0]; omega
  | ⟨1, _⟩ => show win8_1.index t (1 : Fin 2) * 128 + 1 * k.val = k.val; rw [e1_1]; omega

/-- Window 2's block at every point is its whole array. -/
theorem whole8_2 (c : Dev nD) (t : Fin cfg8.N) (i : S128x128.Idx) : iblk8 V c 2 t i = V c main_arg10 i := by
  obtain ⟨e0_0, e0_1, e1_0, e1_1, e2_0, e2_1, e3_0, e3_1, e4_0, e4_1, e5_0, e5_1, e6_0, e6_1⟩ := idx8 t
  unfold iblk8
  rw [View.read_apply]
  show V c main_arg10 _ = V c main_arg10 _
  congr 1
  funext a; apply Fin.ext
  match a with
  | ⟨0, _⟩ => show win8_2.index t (0 : Fin 2) * 128 + 1 * (i 0).val = (i 0).val; rw [e2_0]; omega
  | ⟨1, _⟩ => show win8_2.index t (1 : Fin 2) * 128 + 1 * (i 1).val = (i 1).val; rw [e2_1]; omega

/-- Window 3's block at every point is its whole array. -/
theorem whole8_3 (c : Dev nD) (t : Fin cfg8.N) (i : S1x128.Idx) : iblk8 V c 3 t i = V c main_v94 i := by
  obtain ⟨e0_0, e0_1, e1_0, e1_1, e2_0, e2_1, e3_0, e3_1, e4_0, e4_1, e5_0, e5_1, e6_0, e6_1⟩ := idx8 t
  unfold iblk8
  rw [View.read_apply]
  show V c main_v94 _ = V c main_v94 _
  congr 1
  funext a; apply Fin.ext
  match a with
  | ⟨0, _⟩ => show win8_3.index t (0 : Fin 2) * 1 + 1 * (i 0).val = (i 0).val; rw [e3_0]; omega
  | ⟨1, _⟩ => show win8_3.index t (1 : Fin 2) * 128 + 1 * (i 1).val = (i 1).val; rw [e3_1]; omega

/-- Window 4's block at every point is its whole array. -/
theorem whole8_4 (c : Dev nD) (t : Fin cfg8.N) (i : S128x1.Idx) : iblk8 V c 4 t i = V c main_arg12 i := by
  obtain ⟨e0_0, e0_1, e1_0, e1_1, e2_0, e2_1, e3_0, e3_1, e4_0, e4_1, e5_0, e5_1, e6_0, e6_1⟩ := idx8 t
  unfold iblk8
  rw [View.read_apply]
  show V c main_arg12 _ = V c main_arg12 _
  congr 1
  funext a; apply Fin.ext
  match a with
  | ⟨0, _⟩ => show win8_4.index t (0 : Fin 2) * 128 + 1 * (i 0).val = (i 0).val; rw [e4_0]; omega
  | ⟨1, _⟩ => show win8_4.index t (1 : Fin 2) * 1 + 1 * (i 1).val = (i 1).val; rw [e4_1]; omega

/-- Window 5's block at every point is its whole array. -/
theorem whole8_5 (c : Dev nD) (t : Fin cfg8.N) (i : S1x1.Idx) : iblk8 V c 5 t i = V c main_v95 i := by
  obtain ⟨e0_0, e0_1, e1_0, e1_1, e2_0, e2_1, e3_0, e3_1, e4_0, e4_1, e5_0, e5_1, e6_0, e6_1⟩ := idx8 t
  unfold iblk8
  rw [View.read_apply]
  show V c main_v95 _ = V c main_v95 _
  congr 1
  funext a; apply Fin.ext
  match a with
  | ⟨0, _⟩ => show win8_5.index t (0 : Fin 2) * 1 + 1 * (i 0).val = (i 0).val; rw [e5_0]; omega
  | ⟨1, _⟩ => show win8_5.index t (1 : Fin 2) * 1 + 1 * (i 1).val = (i 1).val; rw [e5_1]; omega

/-- What point `t` writes back is block `t` of the stage's whole-array value. -/
theorem flushed8 (c : Dev nD) (b3 : FVec Ideal Cert.ReferenceIdeal.S128 .f32) (b5 : FVec Ideal Cert.ReferenceIdeal.S1 .f32) (hb3 : ∀ q : Fin 128, V c main_v94 (ix2 (0 : Fin 1) q) = b3 (ix1 q)) (hb5 : V c main_v95 (ix2 (0 : Fin 1) (0 : Fin 1)) = b5 (ix1 (0 : Fin 1))) (t : Fin cfg8.N) :
    (dat8 V c).flushed 6 t = ((cfg8.win 6).blk t).view.read (Elt Ideal) (Cert.Spec.probs (F := Ideal) (V c main_v93) (V c main_v43) (V c main_arg10) b3 (V c main_arg12) b5) := by
  show (cfg8.win 6).cut (grid8.coords t) ((dat8 V c).after 6 t) = _
  rw [after8_6]
  obtain ⟨e0_0, e0_1, e1_0, e1_1, e2_0, e2_1, e3_0, e3_1, e4_0, e4_1, e5_0, e5_1, e6_0, e6_1⟩ := idx8 t
  have ht : t.val < 50 := by have h := t.isLt; have e : cfg8.N = 50 := N_8; omega
  funext j
  obtain ⟨y, k, rfl⟩ : ∃ (y : Fin 1000) (k : Fin 1), j = ix2 y k := ⟨j 0, j 1, eq_ix2 j⟩
  have hy : y.val < 1000 := y.isLt
  refine (Cert.KernelIdeal.Body.head_rows (iblk8 V c 0 t) (iblk8 V c 1 t) (iblk8 V c 2 t) (iblk8 V c 3 t) (iblk8 V c 4 t) (iblk8 V c 5 t)
    (V c main_v93) (V c main_v43) (V c main_arg10) b3 (V c main_arg12) b5
    (rows8_0 V c t) (rows8_1 V c t) (whole8_2 V c t) (fun q => (whole8_3 V c t (ix2 (0 : Fin 1) q)).trans (hb3 q)) (whole8_4 V c t) ((whole8_5 V c t (ix2 (0 : Fin 1) (0 : Fin 1))).trans hb5)
    y k (by omega)).trans ?_
  rw [View.read_apply]
  congr 1
  funext a; apply Fin.ext
  match a with
  | ⟨0, _⟩ => show 1000 * t.val + y.val = win8_6.index t (0 : Fin 2) * 1000 + 1 * y.val; rw [e6_0]; omega
  | ⟨1, _⟩ => show k.val = win8_6.index t (1 : Fin 2) * 1 + 1 * k.val; rw [e6_1]; omega

/-- The fifty blocks tile the output array, so after the region it holds the stage's value. -/
theorem final8 (c : Dev nD) (b3 : FVec Ideal Cert.ReferenceIdeal.S128 .f32) (b5 : FVec Ideal Cert.ReferenceIdeal.S1 .f32) (hb3 : ∀ q : Fin 128, V c main_v94 (ix2 (0 : Fin 1) q) = b3 (ix1 q)) (hb5 : V c main_v95 (ix2 (0 : Fin 1) (0 : Fin 1)) = b5 (ix1 (0 : Fin 1))) :
    (dat8 V c).arrAt 6 cfg8.N = Cert.Spec.probs (F := Ideal) (V c main_v93) (V c main_v43) (V c main_arg10) b3 (V c main_arg12) b5 :=
  (dat8 V c).arrAt_eq_of_cover 6 _ (fun t _ => flushed8 V c b3 b5 hb3 hb5 t) fun i => by
    have hi0 : (i 0).val < 50000 := (i 0).isLt
    have hi1 : (i 1).val < 1 := (i 1).isLt
    let t : Fin cfg8.N := ⟨(i 0).val / 1000, by have e : cfg8.N = 50 := N_8; omega⟩
    obtain ⟨e0_0, e0_1, e1_0, e1_1, e2_0, e2_1, e3_0, e3_1, e4_0, e4_1, e5_0, e5_1, e6_0, e6_1⟩ := idx8 t
    refine ⟨t, flush8_6 t, ?_⟩
    show i ∈ ((View.whole main_v96).slice (win8_6.rect t)).set
    rw [View.set_slice_whole, Rect.mem_set_unit]
    intro a
    match a with
    | ⟨0, _⟩ => show win8_6.index t (0 : Fin 2) * 1000 ≤ (i 0).val ∧ (i 0).val < win8_6.index t (0 : Fin 2) * 1000 + 1000; rw [e6_0]; show (i 0).val / 1000 * 1000 ≤ (i 0).val ∧ (i 0).val < (i 0).val / 1000 * 1000 + 1000; omega
    | ⟨1, _⟩ => show win8_6.index t (1 : Fin 2) * 1 ≤ (i 1).val ∧ (i 1).val < win8_6.index t (1 : Fin 2) * 1 + 1; rw [e6_1]; omega

end Cert.KernelIdeal.Regions

end
-- ==== Proof.ChainA.lean ====
/-
  The idealized kernel's buffers at the first four boundaries of @main.

  After the first stretch the two rows of the edge list are the source and target lists.  The first region leaves
  x · W in its output array; the second stretch builds from it the normalised neighbour sum, the self-loop column and
  the bias as one row; the second region combines them into the hidden state of the graph convolution.  Each lemma
  reads one buffer at one boundary as a function of the launch contents.
-/
import proofs.«142699_j1640677507203_1_alg».proof.Proof.Keep
import proofs.«142699_j1640677507203_1_alg».proof.Proof.Spec
import proofs.«142699_j1640677507203_1_alg».proof.Proof.RegionsMatmul
import proofs.«142699_j1640677507203_1_alg».proof.Proof.RegionsGated
import proofs.«142699_j1640677507203_1_alg».proof.Proof.LibLayerRows
import Idealize.ShloMosaic.Lib.StableHlo.Run
import Idealize.ShloMosaic.Lib.ValueIdx

set_option maxRecDepth 16384

noncomputable section

namespace Cert.KernelIdeal.Chain

open Idealize.ShloMosaic Idealize.ShloMosaic.TcCoe Idealize.SL.Sem
open Idealize.ShloMosaic.ValueIdx
open Cert.KernelIdeal Cert.KernelIdeal.Gen Cert.KernelIdeal.Facts₀

variable [Cert.ReferenceIdeal.Facts]
variable (m : (ℓ : Loc nD τ sig) → Buf (Elt Ideal) ℓ) (ρ : Dev nD → PrngReg)

theorem v1_at1 (c : Dev nD) : W1 m ρ c (Proc.devRef .tc main_v1) = (Cert.Spec.src (m ((c : Thread nD τ).loc main_arg1))) := by
  show StableHlo.after hostOps0 (W0 m ρ c) (Proc.devRef .tc main_v1) = _
  after_results_simp
  rfl

theorem v3_at1 (c : Dev nD) : W1 m ρ c (Proc.devRef .tc main_v3) = (Cert.Spec.dst (m ((c : Thread nD τ).loc main_arg1))) := by
  show StableHlo.after hostOps0 (W0 m ρ c) (Proc.devRef .tc main_v3) = _
  after_results_simp
  rfl

theorem arg0_at1 (c : Dev nD) : W1 m ρ c (Proc.devRef .tc main_arg0) = (m ((c : Thread nD τ).loc main_arg0)) :=
  (Keep.hopS0 m ρ c main_arg0 (by decide)).trans rfl

theorem arg3_at1 (c : Dev nD) : W1 m ρ c (Proc.devRef .tc main_arg3) = (m ((c : Thread nD τ).loc main_arg3)) :=
  (Keep.hopS0 m ρ c main_arg3 (by decide)).trans rfl

theorem v4_at2 (c : Dev nD) : W2 m ρ c (Proc.devRef .tc main_v4) = (Cert.Spec.mm (F := Ideal) (m ((c : Thread nD τ).loc main_arg0)) (m ((c : Thread nD τ).loc main_arg3))) := by
  have h := Regions.final0 (V1 m ρ) c
  rw [show V1 m ρ c main_arg0 = (m ((c : Thread nD τ).loc main_arg0)) from arg0_at1 m ρ c,
    show V1 m ρ c main_arg3 = (m ((c : Thread nD τ).loc main_arg3)) from arg3_at1 m ρ c] at h
  exact (W2_arr m ρ c 2).trans h

theorem v1_at2 (c : Dev nD) : W2 m ρ c (Proc.devRef .tc main_v1) = (Cert.Spec.src (m ((c : Thread nD τ).loc main_arg1))) :=
  (Keep.hopR0 m ρ c main_v1 (by decide)).trans (v1_at1 m ρ c)

theorem v3_at2 (c : Dev nD) : W2 m ρ c (Proc.devRef .tc main_v3) = (Cert.Spec.dst (m ((c : Thread nD τ).loc main_arg1))) :=
  (Keep.hopR0 m ρ c main_v3 (by decide)).trans (v3_at1 m ρ c)

set_option maxHeartbeats 1600000 in
theorem v39_at3 (c : Dev nD) : W3 m ρ c (Proc.devRef .tc main_v39) = Cert.Spec.agg (F := Ideal) (Cert.Spec.mm (F := Ideal) (m ((c : Thread nD τ).loc main_arg0)) (m ((c : Thread nD τ).loc main_arg3))) (m ((c : Thread nD τ).loc main_arg1)) := by
  show StableHlo.after hostOps1 (W2 m ρ c) (Proc.devRef .tc main_v39) = _
  after_results_simp
  simp only [v1_at2 m ρ c, v3_at2 m ρ c, v4_at2 m ρ c]
  rfl

set_option maxHeartbeats 1600000 in
theorem v41_at3 (c : Dev nD) : W3 m ρ c (Proc.devRef .tc main_v41) = Cert.Spec.scale (F := Ideal) (m ((c : Thread nD τ).loc main_arg1)) := by
  show StableHlo.after hostOps1 (W2 m ρ c) (Proc.devRef .tc main_v41) = _
  after_results_simp
  simp only [v3_at2 m ρ c]
  rfl

set_option maxHeartbeats 1600000 in
theorem v5_at3 (c : Dev nD) : W3 m ρ c (Proc.devRef .tc main_v5) = Cert.Spec.ones (F := Ideal) := by
  show StableHlo.after hostOps1 (W2 m ρ c) (Proc.devRef .tc main_v5) = _
  after_results_simp
  rfl

theorem arg4_at2 (c : Dev nD) : W2 m ρ c (Proc.devRef .tc main_arg4) = (m ((c : Thread nD τ).loc main_arg4)) :=
  ((Keep.hopR0 m ρ c main_arg4 (by decide)).trans (Keep.hopS0 m ρ c main_arg4 (by decide))).trans rfl

theorem v42_at3 (c : Dev nD) (q : Fin 128) : W3 m ρ c (Proc.devRef .tc main_v42) (ix2 (0 : Fin 1) q) = (m ((c : Thread nD τ).loc main_arg4)) (ix1 q) := by
  have h : W3 m ρ c (Proc.devRef .tc main_v42) = fun i => shapeCast S1x128 (m ((c : Thread nD τ).loc main_arg4)) Gen.shapeCasts_S128_S1x128 i := by
    show StableHlo.after hostOps1 (W2 m ρ c) (Proc.devRef .tc main_v42) = _
    after_results_simp
    simp only [arg4_at2 m ρ c]
    try rfl
  rw [h]; exact Cert.Lib.RowBlocks.cast_row_apply _ _ q

theorem v4_at3 (c : Dev nD) : W3 m ρ c (Proc.devRef .tc main_v4) = (Cert.Spec.mm (F := Ideal) (m ((c : Thread nD τ).loc main_arg0)) (m ((c : Thread nD τ).loc main_arg3))) :=
  (Keep.hopS1 m ρ c main_v4 (by decide)).trans (v4_at2 m ρ c)

theorem v43_at4 (c : Dev nD) : W4 m ρ c (Proc.devRef .tc main_v43) = (Cert.Spec.hid (F := Ideal) (m ((c : Thread nD τ).loc main_arg0)) (m ((c : Thread nD τ).loc main_arg1)) (m ((c : Thread nD τ).loc main_arg3)) (m ((c : Thread nD τ).loc main_arg4))) := by
  have h := Regions.final1 (V3 m ρ) c (m ((c : Thread nD τ).loc main_arg4)) (fun q => v42_at3 m ρ c q)
  rw [show V3 m ρ c main_v39 = Cert.Spec.agg (F := Ideal) (Cert.Spec.mm (F := Ideal) (m ((c : Thread nD τ).loc main_arg0)) (m ((c : Thread nD τ).loc main_arg3))) (m ((c : Thread nD τ).loc main_arg1)) from v39_at3 m ρ c,
    show V3 m ρ c main_v4 = (Cert.Spec.mm (F := Ideal) (m ((c : Thread nD τ).loc main_arg0)) (m ((c : Thread nD τ).loc main_arg3))) from v4_at3 m ρ c,
    show V3 m ρ c main_v41 = Cert.Spec.scale (F := Ideal) (m ((c : Thread nD τ).loc main_arg1)) from v41_at3 m ρ c] at h
  exact (W4_arr m ρ c 4).trans h

theorem v1_at4 (c : Dev nD) : W4 m ρ c (Proc.devRef .tc main_v1) = (Cert.Spec.src (m ((c : Thread nD τ).loc main_arg1))) :=
  ((Keep.hopR1 m ρ c main_v1 (by decide)).trans (Keep.hopS1 m ρ c main_v1 (by decide))).trans (v1_at2 m ρ c)

theorem v3_at4 (c : Dev nD) : W4 m ρ c (Proc.devRef .tc main_v3) = (Cert.Spec.dst (m ((c : Thread nD τ).loc main_arg1))) :=
  ((Keep.hopR1 m ρ c main_v3 (by decide)).trans (Keep.hopS1 m ρ c main_v3 (by decide))).trans (v3_at2 m ρ c)

theorem v5_at4 (c : Dev nD) : W4 m ρ c (Proc.devRef .tc main_v5) = Cert.Spec.ones (F := Ideal) :=
  (Keep.hopR1 m ρ c main_v5 (by decide)).trans (v5_at3 m ρ c)

end Cert.KernelIdeal.Chain

end
-- ==== Proof.ChainB.lean ====
/-
  The first gated layer: boundaries five to eight of @main.

  A stretch transposes the two gate weights and takes the first message weight; a region multiplies the hidden state
  by it; a stretch sums the product's rows at the edges' sources into their targets and shapes the two gate biases as
  rows; a region applies the recurrent cell.  Its output is the state after one gated layer.
-/
import proofs.«142699_j1640677507203_1_alg».proof.Proof.ChainA
import Idealize.ShloMosaic.Lib.StableHlo.Run
import Idealize.ShloMosaic.Lib.ValueIdx

set_option maxRecDepth 16384

noncomputable section

namespace Cert.KernelIdeal.Chain

open Idealize.ShloMosaic Idealize.ShloMosaic.TcCoe Idealize.SL.Sem
open Idealize.ShloMosaic.ValueIdx
open Cert.KernelIdeal Cert.KernelIdeal.Gen Cert.KernelIdeal.Facts₀

variable [Cert.ReferenceIdeal.Facts]
variable (m : (ℓ : Loc nD τ sig) → Buf (Elt Ideal) ℓ) (ρ : Dev nD → PrngReg)

theorem arg5_at4 (c : Dev nD) : W4 m ρ c (Proc.devRef .tc main_arg5) = (m ((c : Thread nD τ).loc main_arg5)) :=
  ((Keep.hopR1 m ρ c main_arg5 (by decide)).trans ((Keep.hopS1 m ρ c main_arg5 (by decide)).trans ((Keep.hopR0 m ρ c main_arg5 (by decide)).trans (Keep.hopS0 m ρ c main_arg5 (by decide))))).trans rfl

theorem arg6_at4 (c : Dev nD) : W4 m ρ c (Proc.devRef .tc main_arg6) = (m ((c : Thread nD τ).loc main_arg6)) :=
  ((Keep.hopR1 m ρ c main_arg6 (by decide)).trans ((Keep.hopS1 m ρ c main_arg6 (by decide)).trans ((Keep.hopR0 m ρ c main_arg6 (by decide)).trans (Keep.hopS0 m ρ c main_arg6 (by decide))))).trans rfl

theorem arg7_at4 (c : Dev nD) : W4 m ρ c (Proc.devRef .tc main_arg7) = (m ((c : Thread nD τ).loc main_arg7)) :=
  ((Keep.hopR1 m ρ c main_arg7 (by decide)).trans ((Keep.hopS1 m ρ c main_arg7 (by decide)).trans ((Keep.hopR0 m ρ c main_arg7 (by decide)).trans (Keep.hopS0 m ρ c main_arg7 (by decide))))).trans rfl

theorem v44_at5 (c : Dev nD) : W5 m ρ c (Proc.devRef .tc main_v44) = (Cert.Spec.tr (F := Ideal) (m ((c : Thread nD τ).loc main_arg6))) := by
  show StableHlo.after hostOps2 (W4 m ρ c) (Proc.devRef .tc main_v44) = _
  after_results_simp
  simp only [arg6_at4 m ρ c]
  rfl

theorem v45_at5 (c : Dev nD) : W5 m ρ c (Proc.devRef .tc main_v45) = (Cert.Spec.tr (F := Ideal) (m ((c : Thread nD τ).loc main_arg7))) := by
  show StableHlo.after hostOps2 (W4 m ρ c) (Proc.devRef .tc main_v45) = _
  after_results_simp
  simp only [arg7_at4 m ρ c]
  rfl

theorem v47_at5 (c : Dev nD) : W5 m ρ c (Proc.devRef .tc main_v47) = (Cert.Spec.W0 (F := Ideal) (m ((c : Thread nD τ).loc main_arg5))) := by
  show StableHlo.after hostOps2 (W4 m ρ c) (Proc.devRef .tc main_v47) = _
  after_results_simp
  simp only [arg5_at4 m ρ c]
  rfl

theorem v43_at5 (c : Dev nD) : W5 m ρ c (Proc.devRef .tc main_v43) = (Cert.Spec.hid (F := Ideal) (m ((c : Thread nD τ).loc main_arg0)) (m ((c : Thread nD τ).loc main_arg1)) (m ((c : Thread nD τ).loc main_arg3)) (m ((c : Thread nD τ).loc main_arg4))) :=
  (Keep.hopS2 m ρ c main_v43 (by decide)).trans (v43_at4 m ρ c)

theorem v48_at6 (c : Dev nD) : W6 m ρ c (Proc.devRef .tc main_v48) = (Cert.Spec.mm (F := Ideal) (Cert.Spec.hid (F := Ideal) (m ((c : Thread nD τ).loc main_arg0)) (m ((c : Thread nD τ).loc main_arg1)) (m ((c : Thread nD τ).loc main_arg3)) (m ((c : Thread nD τ).loc main_arg4))) (Cert.Spec.W0 (F := Ideal) (m ((c : Thread nD τ).loc main_arg5)))) := by
  have h := Regions.final2 (V5 m ρ) c
  rw [show V5 m ρ c main_v43 = (Cert.Spec.hid (F := Ideal) (m ((c : Thread nD τ).loc main_arg0)) (m ((c : Thread nD τ).loc main_arg1)) (m ((c : Thread nD τ).loc main_arg3)) (m ((c : Thread nD τ).loc main_arg4))) from v43_at5 m ρ c,
    show V5 m ρ c main_v47 = (Cert.Spec.W0 (F := Ideal) (m ((c : Thread nD τ).loc main_arg5))) from v47_at5 m ρ c] at h
  exact (W6_arr m ρ c 2).trans h

theorem v1_at6 (c : Dev nD) : W6 m ρ c (Proc.devRef .tc main_v1) = (Cert.Spec.src (m ((c : Thread nD τ).loc main_arg1))) :=
  ((Keep.hopR2 m ρ c main_v1 (by decide)).trans (Keep.hopS2 m ρ c main_v1 (by decide))).trans (v1_at4 m ρ c)

theorem v3_at6 (c : Dev nD) : W6 m ρ c (Proc.devRef .tc main_v3) = (Cert.Spec.dst (m ((c : Thread nD τ).loc main_arg1))) :=
  ((Keep.hopR2 m ρ c main_v3 (by decide)).trans (Keep.hopS2 m ρ c main_v3 (by decide))).trans (v3_at4 m ρ c)

theorem v58_at7 (c : Dev nD) : W7 m ρ c (Proc.devRef .tc main_v58) = (Cert.Spec.msg (F := Ideal) (Cert.Spec.mm (F := Ideal) (Cert.Spec.hid (F := Ideal) (m ((c : Thread nD τ).loc main_arg0)) (m ((c : Thread nD τ).loc main_arg1)) (m ((c : Thread nD τ).loc main_arg3)) (m ((c : Thread nD τ).loc main_arg4))) (Cert.Spec.W0 (F := Ideal) (m ((c : Thread nD τ).loc main_arg5)))) (m ((c : Thread nD τ).loc main_arg1))) := by
  show StableHlo.after hostOps3 (W6 m ρ c) (Proc.devRef .tc main_v58) = _
  after_results_simp
  simp only [v1_at6 m ρ c, v3_at6 m ρ c, v48_at6 m ρ c]
  rfl

theorem arg8_at6 (c : Dev nD) : W6 m ρ c (Proc.devRef .tc main_arg8) = (m ((c : Thread nD τ).loc main_arg8)) :=
  ((Keep.hopR2 m ρ c main_arg8 (by decide)).trans ((Keep.hopS2 m ρ c main_arg8 (by decide)).trans ((Keep.hopR1 m ρ c main_arg8 (by decide)).trans ((Keep.hopS1 m ρ c main_arg8 (by decide)).trans ((Keep.hopR0 m ρ c main_arg8 (by decide)).trans (Keep.hopS0 m ρ c main_arg8 (by decide))))))).trans rfl

theorem arg9_at6 (c : Dev nD) : W6 m ρ c (Proc.devRef .tc main_arg9) = (m ((c : Thread nD τ).loc main_arg9)) :=
  ((Keep.hopR2 m ρ c main_arg9 (by decide)).trans ((Keep.hopS2 m ρ c main_arg9 (by decide)).trans ((Keep.hopR1 m ρ c main_arg9 (by decide)).trans ((Keep.hopS1 m ρ c main_arg9 (by decide)).trans ((Keep.hopR0 m ρ c main_arg9 (by decide)).trans (Keep.hopS0 m ρ c main_arg9 (by decide))))))).trans rfl

theorem v59_at7 (c : Dev nD) (q : Fin 384) : W7 m ρ c (Proc.devRef .tc main_v59) (ix2 (0 : Fin 1) q) = (m ((c : Thread nD τ).loc main_arg8)) (ix1 q) := by
  have h : W7 m ρ c (Proc.devRef .tc main_v59) = fun i => shapeCast S1x384 (m ((c : Thread nD τ).loc main_arg8)) Gen.shapeCasts_S384_S1x384 i := by
    show StableHlo.after hostOps3 (W6 m ρ c) (Proc.devRef .tc main_v59) = _
    after_results_simp
    simp only [arg8_at6 m ρ c]
    try rfl
  rw [h]; exact Cert.Lib.RowBlocks.cast_row_apply _ _ q

theorem v60_at7 (c : Dev nD) (q : Fin 384) : W7 m ρ c (Proc.devRef .tc main_v60) (ix2 (0 : Fin 1) q) = (m ((c : Thread nD τ).loc main_arg9)) (ix1 q) := by
  have h : W7 m ρ c (Proc.devRef .tc main_v60) = fun i => shapeCast S1x384 (m ((c : Thread nD τ).loc main_arg9)) Gen.shapeCasts_S384_S1x384 i := by
    show StableHlo.after hostOps3 (W6 m ρ c) (Proc.devRef .tc main_v60) = _
    after_results_simp
    simp only [arg9_at6 m ρ c]
    try rfl
  rw [h]; exact Cert.Lib.RowBlocks.cast_row_apply _ _ q

theorem v43_at7 (c : Dev nD) : W7 m ρ c (Proc.devRef .tc main_v43) = (Cert.Spec.hid (F := Ideal) (m ((c : Thread nD τ).loc main_arg0)) (m ((c : Thread nD τ).loc main_arg1)) (m ((c : Thread nD τ).loc main_arg3)) (m ((c : Thread nD τ).loc main_arg4))) :=
  ((Keep.hopS3 m ρ c main_v43 (by decide)).trans (Keep.hopR2 m ρ c main_v43 (by decide))).trans (v43_at5 m ρ c)

theorem v44_at7 (c : Dev nD) : W7 m ρ c (Proc.devRef .tc main_v44) = (Cert.Spec.tr (F := Ideal) (m ((c : Thread nD τ).loc main_arg6))) :=
  ((Keep.hopS3 m ρ c main_v44 (by decide)).trans (Keep.hopR2 m ρ c main_v44 (by decide))).trans (v44_at5 m ρ c)

theorem v45_at7 (c : Dev nD) : W7 m ρ c (Proc.devRef .tc main_v45) = (Cert.Spec.tr (F := Ideal) (m ((c : Thread nD τ).loc main_arg7))) :=
  ((Keep.hopS3 m ρ c main_v45 (by decide)).trans (Keep.hopR2 m ρ c main_v45 (by decide))).trans (v45_at5 m ρ c)

theorem v61_at8 (c : Dev nD) : W8 m ρ c (Proc.devRef .tc main_v61) = (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) := by
  have h := Regions.final3 (V7 m ρ) c (m ((c : Thread nD τ).loc main_arg8)) (m ((c : Thread nD τ).loc main_arg9)) (fun q => v59_at7 m ρ c q) (fun q => v60_at7 m ρ c q)
  rw [show V7 m ρ c main_v58 = (Cert.Spec.msg (F := Ideal) (Cert.Spec.mm (F := Ideal) (Cert.Spec.hid (F := Ideal) (m ((c : Thread nD τ).loc main_arg0)) (m ((c : Thread nD τ).loc main_arg1)) (m ((c : Thread nD τ).loc main_arg3)) (m ((c : Thread nD τ).loc main_arg4))) (Cert.Spec.W0 (F := Ideal) (m ((c : Thread nD τ).loc main_arg5)))) (m ((c : Thread nD τ).loc main_arg1))) from v58_at7 m ρ c,
    show V7 m ρ c main_v43 = (Cert.Spec.hid (F := Ideal) (m ((c : Thread nD τ).loc main_arg0)) (m ((c : Thread nD τ).loc main_arg1)) (m ((c : Thread nD τ).loc main_arg3)) (m ((c : Thread nD τ).loc main_arg4))) from v43_at7 m ρ c,
    show V7 m ρ c main_v44 = (Cert.Spec.tr (F := Ideal) (m ((c : Thread nD τ).loc main_arg6))) from v44_at7 m ρ c,
    show V7 m ρ c main_v45 = (Cert.Spec.tr (F := Ideal) (m ((c : Thread nD τ).loc main_arg7))) from v45_at7 m ρ c] at h
  exact (W8_arr m ρ c 6).trans h

theorem v1_at8 (c : Dev nD) : W8 m ρ c (Proc.devRef .tc main_v1) = (Cert.Spec.src (m ((c : Thread nD τ).loc main_arg1))) :=
  ((Keep.hopR3 m ρ c main_v1 (by decide)).trans (Keep.hopS3 m ρ c main_v1 (by decide))).trans (v1_at6 m ρ c)

theorem v3_at8 (c : Dev nD) : W8 m ρ c (Proc.devRef .tc main_v3) = (Cert.Spec.dst (m ((c : Thread nD τ).loc main_arg1))) :=
  ((Keep.hopR3 m ρ c main_v3 (by decide)).trans (Keep.hopS3 m ρ c main_v3 (by decide))).trans (v3_at6 m ρ c)

theorem v5_at8 (c : Dev nD) : W8 m ρ c (Proc.devRef .tc main_v5) = Cert.Spec.ones (F := Ideal) :=
  ((Keep.hopR3 m ρ c main_v5 (by decide)).trans ((Keep.hopS3 m ρ c main_v5 (by decide)).trans ((Keep.hopR2 m ρ c main_v5 (by decide)).trans (Keep.hopS2 m ρ c main_v5 (by decide))))).trans (v5_at4 m ρ c)

theorem v44_at8 (c : Dev nD) : W8 m ρ c (Proc.devRef .tc main_v44) = (Cert.Spec.tr (F := Ideal) (m ((c : Thread nD τ).loc main_arg6))) :=
  (Keep.hopR3 m ρ c main_v44 (by decide)).trans (v44_at7 m ρ c)

theorem v45_at8 (c : Dev nD) : W8 m ρ c (Proc.devRef .tc main_v45) = (Cert.Spec.tr (F := Ideal) (m ((c : Thread nD τ).loc main_arg7))) :=
  (Keep.hopR3 m ρ c main_v45 (by decide)).trans (v45_at7 m ρ c)

theorem v43_at8 (c : Dev nD) : W8 m ρ c (Proc.devRef .tc main_v43) = (Cert.Spec.hid (F := Ideal) (m ((c : Thread nD τ).loc main_arg0)) (m ((c : Thread nD τ).loc main_arg1)) (m ((c : Thread nD τ).loc main_arg3)) (m ((c : Thread nD τ).loc main_arg4))) :=
  (Keep.hopR3 m ρ c main_v43 (by decide)).trans (v43_at7 m ρ c)

end Cert.KernelIdeal.Chain

end
-- ==== Proof.ChainC.lean ====
/-
  The second gated layer: boundaries nine to twelve of @main, the first layer's steps with the second message weight
  and the state after one layer in place of the hidden state.
-/
import proofs.«142699_j1640677507203_1_alg».proof.Proof.ChainB
import Idealize.ShloMosaic.Lib.StableHlo.Run
import Idealize.ShloMosaic.Lib.ValueIdx

set_option maxRecDepth 16384

noncomputable section

namespace Cert.KernelIdeal.Chain

open Idealize.ShloMosaic Idealize.ShloMosaic.TcCoe Idealize.SL.Sem
open Idealize.ShloMosaic.ValueIdx
open Cert.KernelIdeal Cert.KernelIdeal.Gen Cert.KernelIdeal.Facts₀

variable [Cert.ReferenceIdeal.Facts]
variable (m : (ℓ : Loc nD τ sig) → Buf (Elt Ideal) ℓ) (ρ : Dev nD → PrngReg)

theorem arg5_at8 (c : Dev nD) : W8 m ρ c (Proc.devRef .tc main_arg5) = (m ((c : Thread nD τ).loc main_arg5)) :=
  ((Keep.hopR3 m ρ c main_arg5 (by decide)).trans ((Keep.hopS3 m ρ c main_arg5 (by decide)).trans ((Keep.hopR2 m ρ c main_arg5 (by decide)).trans ((Keep.hopS2 m ρ c main_arg5 (by decide)).trans ((Keep.hopR1 m ρ c main_arg5 (by decide)).trans ((Keep.hopS1 m ρ c main_arg5 (by decide)).trans ((Keep.hopR0 m ρ c main_arg5 (by decide)).trans (Keep.hopS0 m ρ c main_arg5 (by decide))))))))).trans rfl

theorem v63_at9 (c : Dev nD) : W9 m ρ c (Proc.devRef .tc main_v63) = (Cert.Spec.W1 (F := Ideal) (m ((c : Thread nD τ).loc main_arg5))) := by
  show StableHlo.after hostOps4 (W8 m ρ c) (Proc.devRef .tc main_v63) = _
  after_results_simp
  simp only [arg5_at8 m ρ c]
  rfl

theorem v61_at9 (c : Dev nD) : W9 m ρ c (Proc.devRef .tc main_v61) = (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) :=
  (Keep.hopS4 m ρ c main_v61 (by decide)).trans (v61_at8 m ρ c)

theorem v64_at10 (c : Dev nD) : W10 m ρ c (Proc.devRef .tc main_v64) = (Cert.Spec.mm (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (Cert.Spec.W1 (F := Ideal) (m ((c : Thread nD τ).loc main_arg5)))) := by
  have h := Regions.final4 (V9 m ρ) c
  rw [show V9 m ρ c main_v61 = (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) from v61_at9 m ρ c,
    show V9 m ρ c main_v63 = (Cert.Spec.W1 (F := Ideal) (m ((c : Thread nD τ).loc main_arg5))) from v63_at9 m ρ c] at h
  exact (W10_arr m ρ c 2).trans h

theorem v1_at10 (c : Dev nD) : W10 m ρ c (Proc.devRef .tc main_v1) = (Cert.Spec.src (m ((c : Thread nD τ).loc main_arg1))) :=
  ((Keep.hopR4 m ρ c main_v1 (by decide)).trans (Keep.hopS4 m ρ c main_v1 (by decide))).trans (v1_at8 m ρ c)

theorem v3_at10 (c : Dev nD) : W10 m ρ c (Proc.devRef .tc main_v3) = (Cert.Spec.dst (m ((c : Thread nD τ).loc main_arg1))) :=
  ((Keep.hopR4 m ρ c main_v3 (by decide)).trans (Keep.hopS4 m ρ c main_v3 (by decide))).trans (v3_at8 m ρ c)

theorem v74_at11 (c : Dev nD) : W11 m ρ c (Proc.devRef .tc main_v74) = (Cert.Spec.msg (F := Ideal) (Cert.Spec.mm (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (Cert.Spec.W1 (F := Ideal) (m ((c : Thread nD τ).loc main_arg5)))) (m ((c : Thread nD τ).loc main_arg1))) := by
  show StableHlo.after hostOps5 (W10 m ρ c) (Proc.devRef .tc main_v74) = _
  after_results_simp
  simp only [v1_at10 m ρ c, v3_at10 m ρ c, v64_at10 m ρ c]
  rfl

theorem arg8_at10 (c : Dev nD) : W10 m ρ c (Proc.devRef .tc main_arg8) = (m ((c : Thread nD τ).loc main_arg8)) :=
  ((Keep.hopR4 m ρ c main_arg8 (by decide)).trans ((Keep.hopS4 m ρ c main_arg8 (by decide)).trans ((Keep.hopR3 m ρ c main_arg8 (by decide)).trans ((Keep.hopS3 m ρ c main_arg8 (by decide)).trans ((Keep.hopR2 m ρ c main_arg8 (by decide)).trans ((Keep.hopS2 m ρ c main_arg8 (by decide)).trans ((Keep.hopR1 m ρ c main_arg8 (by decide)).trans ((Keep.hopS1 m ρ c main_arg8 (by decide)).trans ((Keep.hopR0 m ρ c main_arg8 (by decide)).trans (Keep.hopS0 m ρ c main_arg8 (by decide))))))))))).trans rfl

theorem arg9_at10 (c : Dev nD) : W10 m ρ c (Proc.devRef .tc main_arg9) = (m ((c : Thread nD τ).loc main_arg9)) :=
  ((Keep.hopR4 m ρ c main_arg9 (by decide)).trans ((Keep.hopS4 m ρ c main_arg9 (by decide)).trans ((Keep.hopR3 m ρ c main_arg9 (by decide)).trans ((Keep.hopS3 m ρ c main_arg9 (by decide)).trans ((Keep.hopR2 m ρ c main_arg9 (by decide)).trans ((Keep.hopS2 m ρ c main_arg9 (by decide)).trans ((Keep.hopR1 m ρ c main_arg9 (by decide)).trans ((Keep.hopS1 m ρ c main_arg9 (by decide)).trans ((Keep.hopR0 m ρ c main_arg9 (by decide)).trans (Keep.hopS0 m ρ c main_arg9 (by decide))))))))))).trans rfl

theorem v75_at11 (c : Dev nD) (q : Fin 384) : W11 m ρ c (Proc.devRef .tc main_v75) (ix2 (0 : Fin 1) q) = (m ((c : Thread nD τ).loc main_arg8)) (ix1 q) := by
  have h : W11 m ρ c (Proc.devRef .tc main_v75) = fun i => shapeCast S1x384 (m ((c : Thread nD τ).loc main_arg8)) Gen.shapeCasts_S384_S1x384 i := by
    show StableHlo.after hostOps5 (W10 m ρ c) (Proc.devRef .tc main_v75) = _
    after_results_simp
    simp only [arg8_at10 m ρ c]
    try rfl
  rw [h]; exact Cert.Lib.RowBlocks.cast_row_apply _ _ q

theorem v76_at11 (c : Dev nD) (q : Fin 384) : W11 m ρ c (Proc.devRef .tc main_v76) (ix2 (0 : Fin 1) q) = (m ((c : Thread nD τ).loc main_arg9)) (ix1 q) := by
  have h : W11 m ρ c (Proc.devRef .tc main_v76) = fun i => shapeCast S1x384 (m ((c : Thread nD τ).loc main_arg9)) Gen.shapeCasts_S384_S1x384 i := by
    show StableHlo.after hostOps5 (W10 m ρ c) (Proc.devRef .tc main_v76) = _
    after_results_simp
    simp only [arg9_at10 m ρ c]
    try rfl
  rw [h]; exact Cert.Lib.RowBlocks.cast_row_apply _ _ q

theorem v61_at11 (c : Dev nD) : W11 m ρ c (Proc.devRef .tc main_v61) = (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) :=
  ((Keep.hopS5 m ρ c main_v61 (by decide)).trans (Keep.hopR4 m ρ c main_v61 (by decide))).trans (v61_at9 m ρ c)

theorem v44_at11 (c : Dev nD) : W11 m ρ c (Proc.devRef .tc main_v44) = (Cert.Spec.tr (F := Ideal) (m ((c : Thread nD τ).loc main_arg6))) :=
  ((Keep.hopS5 m ρ c main_v44 (by decide)).trans ((Keep.hopR4 m ρ c main_v44 (by decide)).trans (Keep.hopS4 m ρ c main_v44 (by decide)))).trans (v44_at8 m ρ c)

theorem v45_at11 (c : Dev nD) : W11 m ρ c (Proc.devRef .tc main_v45) = (Cert.Spec.tr (F := Ideal) (m ((c : Thread nD τ).loc main_arg7))) :=
  ((Keep.hopS5 m ρ c main_v45 (by decide)).trans ((Keep.hopR4 m ρ c main_v45 (by decide)).trans (Keep.hopS4 m ρ c main_v45 (by decide)))).trans (v45_at8 m ρ c)

theorem v77_at12 (c : Dev nD) : W12 m ρ c (Proc.devRef .tc main_v77) = (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) := by
  have h := Regions.final5 (V11 m ρ) c (m ((c : Thread nD τ).loc main_arg8)) (m ((c : Thread nD τ).loc main_arg9)) (fun q => v75_at11 m ρ c q) (fun q => v76_at11 m ρ c q)
  rw [show V11 m ρ c main_v74 = (Cert.Spec.msg (F := Ideal) (Cert.Spec.mm (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (Cert.Spec.W1 (F := Ideal) (m ((c : Thread nD τ).loc main_arg5)))) (m ((c : Thread nD τ).loc main_arg1))) from v74_at11 m ρ c,
    show V11 m ρ c main_v61 = (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) from v61_at11 m ρ c,
    show V11 m ρ c main_v44 = (Cert.Spec.tr (F := Ideal) (m ((c : Thread nD τ).loc main_arg6))) from v44_at11 m ρ c,
    show V11 m ρ c main_v45 = (Cert.Spec.tr (F := Ideal) (m ((c : Thread nD τ).loc main_arg7))) from v45_at11 m ρ c] at h
  exact (W12_arr m ρ c 6).trans h

theorem v1_at12 (c : Dev nD) : W12 m ρ c (Proc.devRef .tc main_v1) = (Cert.Spec.src (m ((c : Thread nD τ).loc main_arg1))) :=
  ((Keep.hopR5 m ρ c main_v1 (by decide)).trans (Keep.hopS5 m ρ c main_v1 (by decide))).trans (v1_at10 m ρ c)

theorem v3_at12 (c : Dev nD) : W12 m ρ c (Proc.devRef .tc main_v3) = (Cert.Spec.dst (m ((c : Thread nD τ).loc main_arg1))) :=
  ((Keep.hopR5 m ρ c main_v3 (by decide)).trans (Keep.hopS5 m ρ c main_v3 (by decide))).trans (v3_at10 m ρ c)

theorem v5_at12 (c : Dev nD) : W12 m ρ c (Proc.devRef .tc main_v5) = Cert.Spec.ones (F := Ideal) :=
  ((Keep.hopR5 m ρ c main_v5 (by decide)).trans ((Keep.hopS5 m ρ c main_v5 (by decide)).trans ((Keep.hopR4 m ρ c main_v5 (by decide)).trans (Keep.hopS4 m ρ c main_v5 (by decide))))).trans (v5_at8 m ρ c)

theorem v44_at12 (c : Dev nD) : W12 m ρ c (Proc.devRef .tc main_v44) = (Cert.Spec.tr (F := Ideal) (m ((c : Thread nD τ).loc main_arg6))) :=
  (Keep.hopR5 m ρ c main_v44 (by decide)).trans (v44_at11 m ρ c)

theorem v45_at12 (c : Dev nD) : W12 m ρ c (Proc.devRef .tc main_v45) = (Cert.Spec.tr (F := Ideal) (m ((c : Thread nD τ).loc main_arg7))) :=
  (Keep.hopR5 m ρ c main_v45 (by decide)).trans (v45_at11 m ρ c)

theorem v43_at12 (c : Dev nD) : W12 m ρ c (Proc.devRef .tc main_v43) = (Cert.Spec.hid (F := Ideal) (m ((c : Thread nD τ).loc main_arg0)) (m ((c : Thread nD τ).loc main_arg1)) (m ((c : Thread nD τ).loc main_arg3)) (m ((c : Thread nD τ).loc main_arg4))) :=
  ((Keep.hopR5 m ρ c main_v43 (by decide)).trans ((Keep.hopS5 m ρ c main_v43 (by decide)).trans ((Keep.hopR4 m ρ c main_v43 (by decide)).trans (Keep.hopS4 m ρ c main_v43 (by decide))))).trans (v43_at8 m ρ c)

end Cert.KernelIdeal.Chain

end
-- ==== Proof.ChainD.lean ====
/-
  The third gated layer: boundaries thirteen to sixteen of @main, the same steps with the third message weight and the
  state after two layers.
-/
import proofs.«142699_j1640677507203_1_alg».proof.Proof.ChainC
import Idealize.ShloMosaic.Lib.StableHlo.Run
import Idealize.ShloMosaic.Lib.ValueIdx

set_option maxRecDepth 16384

noncomputable section

namespace Cert.KernelIdeal.Chain

open Idealize.ShloMosaic Idealize.ShloMosaic.TcCoe Idealize.SL.Sem
open Idealize.ShloMosaic.ValueIdx
open Cert.KernelIdeal Cert.KernelIdeal.Gen Cert.KernelIdeal.Facts₀

variable [Cert.ReferenceIdeal.Facts]
variable (m : (ℓ : Loc nD τ sig) → Buf (Elt Ideal) ℓ) (ρ : Dev nD → PrngReg)

theorem arg5_at12 (c : Dev nD) : W12 m ρ c (Proc.devRef .tc main_arg5) = (m ((c : Thread nD τ).loc main_arg5)) :=
  ((Keep.hopR5 m ρ c main_arg5 (by decide)).trans ((Keep.hopS5 m ρ c main_arg5 (by decide)).trans ((Keep.hopR4 m ρ c main_arg5 (by decide)).trans ((Keep.hopS4 m ρ c main_arg5 (by decide)).trans ((Keep.hopR3 m ρ c main_arg5 (by decide)).trans ((Keep.hopS3 m ρ c main_arg5 (by decide)).trans ((Keep.hopR2 m ρ c main_arg5 (by decide)).trans ((Keep.hopS2 m ρ c main_arg5 (by decide)).trans ((Keep.hopR1 m ρ c main_arg5 (by decide)).trans ((Keep.hopS1 m ρ c main_arg5 (by decide)).trans ((Keep.hopR0 m ρ c main_arg5 (by decide)).trans (Keep.hopS0 m ρ c main_arg5 (by decide))))))))))))).trans rfl

theorem v79_at13 (c : Dev nD) : W13 m ρ c (Proc.devRef .tc main_v79) = (Cert.Spec.W2 (F := Ideal) (m ((c : Thread nD τ).loc main_arg5))) := by
  show StableHlo.after hostOps6 (W12 m ρ c) (Proc.devRef .tc main_v79) = _
  after_results_simp
  simp only [arg5_at12 m ρ c]
  rfl

theorem v77_at13 (c : Dev nD) : W13 m ρ c (Proc.devRef .tc main_v77) = (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) :=
  (Keep.hopS6 m ρ c main_v77 (by decide)).trans (v77_at12 m ρ c)

theorem v80_at14 (c : Dev nD) : W14 m ρ c (Proc.devRef .tc main_v80) = (Cert.Spec.mm (F := Ideal) (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (Cert.Spec.W2 (F := Ideal) (m ((c : Thread nD τ).loc main_arg5)))) := by
  have h := Regions.final6 (V13 m ρ) c
  rw [show V13 m ρ c main_v77 = (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) from v77_at13 m ρ c,
    show V13 m ρ c main_v79 = (Cert.Spec.W2 (F := Ideal) (m ((c : Thread nD τ).loc main_arg5))) from v79_at13 m ρ c] at h
  exact (W14_arr m ρ c 2).trans h

theorem v1_at14 (c : Dev nD) : W14 m ρ c (Proc.devRef .tc main_v1) = (Cert.Spec.src (m ((c : Thread nD τ).loc main_arg1))) :=
  ((Keep.hopR6 m ρ c main_v1 (by decide)).trans (Keep.hopS6 m ρ c main_v1 (by decide))).trans (v1_at12 m ρ c)

theorem v3_at14 (c : Dev nD) : W14 m ρ c (Proc.devRef .tc main_v3) = (Cert.Spec.dst (m ((c : Thread nD τ).loc main_arg1))) :=
  ((Keep.hopR6 m ρ c main_v3 (by decide)).trans (Keep.hopS6 m ρ c main_v3 (by decide))).trans (v3_at12 m ρ c)

theorem v90_at15 (c : Dev nD) : W15 m ρ c (Proc.devRef .tc main_v90) = (Cert.Spec.msg (F := Ideal) (Cert.Spec.mm (F := Ideal) (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (Cert.Spec.W2 (F := Ideal) (m ((c : Thread nD τ).loc main_arg5)))) (m ((c : Thread nD τ).loc main_arg1))) := by
  show StableHlo.after hostOps7 (W14 m ρ c) (Proc.devRef .tc main_v90) = _
  after_results_simp
  simp only [v1_at14 m ρ c, v3_at14 m ρ c, v80_at14 m ρ c]
  rfl

theorem arg8_at14 (c : Dev nD) : W14 m ρ c (Proc.devRef .tc main_arg8) = (m ((c : Thread nD τ).loc main_arg8)) :=
  ((Keep.hopR6 m ρ c main_arg8 (by decide)).trans ((Keep.hopS6 m ρ c main_arg8 (by decide)).trans ((Keep.hopR5 m ρ c main_arg8 (by decide)).trans ((Keep.hopS5 m ρ c main_arg8 (by decide)).trans ((Keep.hopR4 m ρ c main_arg8 (by decide)).trans ((Keep.hopS4 m ρ c main_arg8 (by decide)).trans ((Keep.hopR3 m ρ c main_arg8 (by decide)).trans ((Keep.hopS3 m ρ c main_arg8 (by decide)).trans ((Keep.hopR2 m ρ c main_arg8 (by decide)).trans ((Keep.hopS2 m ρ c main_arg8 (by decide)).trans ((Keep.hopR1 m ρ c main_arg8 (by decide)).trans ((Keep.hopS1 m ρ c main_arg8 (by decide)).trans ((Keep.hopR0 m ρ c main_arg8 (by decide)).trans (Keep.hopS0 m ρ c main_arg8 (by decide))))))))))))))).trans rfl

theorem arg9_at14 (c : Dev nD) : W14 m ρ c (Proc.devRef .tc main_arg9) = (m ((c : Thread nD τ).loc main_arg9)) :=
  ((Keep.hopR6 m ρ c main_arg9 (by decide)).trans ((Keep.hopS6 m ρ c main_arg9 (by decide)).trans ((Keep.hopR5 m ρ c main_arg9 (by decide)).trans ((Keep.hopS5 m ρ c main_arg9 (by decide)).trans ((Keep.hopR4 m ρ c main_arg9 (by decide)).trans ((Keep.hopS4 m ρ c main_arg9 (by decide)).trans ((Keep.hopR3 m ρ c main_arg9 (by decide)).trans ((Keep.hopS3 m ρ c main_arg9 (by decide)).trans ((Keep.hopR2 m ρ c main_arg9 (by decide)).trans ((Keep.hopS2 m ρ c main_arg9 (by decide)).trans ((Keep.hopR1 m ρ c main_arg9 (by decide)).trans ((Keep.hopS1 m ρ c main_arg9 (by decide)).trans ((Keep.hopR0 m ρ c main_arg9 (by decide)).trans (Keep.hopS0 m ρ c main_arg9 (by decide))))))))))))))).trans rfl

theorem v91_at15 (c : Dev nD) (q : Fin 384) : W15 m ρ c (Proc.devRef .tc main_v91) (ix2 (0 : Fin 1) q) = (m ((c : Thread nD τ).loc main_arg8)) (ix1 q) := by
  have h : W15 m ρ c (Proc.devRef .tc main_v91) = fun i => shapeCast S1x384 (m ((c : Thread nD τ).loc main_arg8)) Gen.shapeCasts_S384_S1x384 i := by
    show StableHlo.after hostOps7 (W14 m ρ c) (Proc.devRef .tc main_v91) = _
    after_results_simp
    simp only [arg8_at14 m ρ c]
    try rfl
  rw [h]; exact Cert.Lib.RowBlocks.cast_row_apply _ _ q

theorem v92_at15 (c : Dev nD) (q : Fin 384) : W15 m ρ c (Proc.devRef .tc main_v92) (ix2 (0 : Fin 1) q) = (m ((c : Thread nD τ).loc main_arg9)) (ix1 q) := by
  have h : W15 m ρ c (Proc.devRef .tc main_v92) = fun i => shapeCast S1x384 (m ((c : Thread nD τ).loc main_arg9)) Gen.shapeCasts_S384_S1x384 i := by
    show StableHlo.after hostOps7 (W14 m ρ c) (Proc.devRef .tc main_v92) = _
    after_results_simp
    simp only [arg9_at14 m ρ c]
    try rfl
  rw [h]; exact Cert.Lib.RowBlocks.cast_row_apply _ _ q

theorem v77_at15 (c : Dev nD) : W15 m ρ c (Proc.devRef .tc main_v77) = (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) :=
  ((Keep.hopS7 m ρ c main_v77 (by decide)).trans (Keep.hopR6 m ρ c main_v77 (by decide))).trans (v77_at13 m ρ c)

theorem v44_at15 (c : Dev nD) : W15 m ρ c (Proc.devRef .tc main_v44) = (Cert.Spec.tr (F := Ideal) (m ((c : Thread nD τ).loc main_arg6))) :=
  ((Keep.hopS7 m ρ c main_v44 (by decide)).trans ((Keep.hopR6 m ρ c main_v44 (by decide)).trans (Keep.hopS6 m ρ c main_v44 (by decide)))).trans (v44_at12 m ρ c)

theorem v45_at15 (c : Dev nD) : W15 m ρ c (Proc.devRef .tc main_v45) = (Cert.Spec.tr (F := Ideal) (m ((c : Thread nD τ).loc main_arg7))) :=
  ((Keep.hopS7 m ρ c main_v45 (by decide)).trans ((Keep.hopR6 m ρ c main_v45 (by decide)).trans (Keep.hopS6 m ρ c main_v45 (by decide)))).trans (v45_at12 m ρ c)

theorem v93_at16 (c : Dev nD) : W16 m ρ c (Proc.devRef .tc main_v93) = (Cert.Spec.layer (F := Ideal) (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W2 (F := Ideal) (m ((c : Thread nD τ).loc main_arg5))) (m ((c : Thread nD τ).loc main_arg6)) (m ((c : Thread nD τ).loc main_arg7)) (m ((c : Thread nD τ).loc main_arg8)) (m ((c : Thread nD τ).loc main_arg9))) := by
  have h := Regions.final7 (V15 m ρ) c (m ((c : Thread nD τ).loc main_arg8)) (m ((c : Thread nD τ).loc main_arg9)) (fun q => v91_at15 m ρ c q) (fun q => v92_at15 m ρ c q)
  rw [show V15 m ρ c main_v90 = (Cert.Spec.msg (F := Ideal) (Cert.Spec.mm (F := Ideal) (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (Cert.Spec.W2 (F := Ideal) (m ((c : Thread nD τ).loc main_arg5)))) (m ((c : Thread nD τ).loc main_arg1))) from v90_at15 m ρ c,
    show V15 m ρ c main_v77 = (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) from v77_at15 m ρ c,
    show V15 m ρ c main_v44 = (Cert.Spec.tr (F := Ideal) (m ((c : Thread nD τ).loc main_arg6))) from v44_at15 m ρ c,
    show V15 m ρ c main_v45 = (Cert.Spec.tr (F := Ideal) (m ((c : Thread nD τ).loc main_arg7))) from v45_at15 m ρ c] at h
  exact (W16_arr m ρ c 6).trans h

theorem v1_at16 (c : Dev nD) : W16 m ρ c (Proc.devRef .tc main_v1) = (Cert.Spec.src (m ((c : Thread nD τ).loc main_arg1))) :=
  ((Keep.hopR7 m ρ c main_v1 (by decide)).trans (Keep.hopS7 m ρ c main_v1 (by decide))).trans (v1_at14 m ρ c)

theorem v3_at16 (c : Dev nD) : W16 m ρ c (Proc.devRef .tc main_v3) = (Cert.Spec.dst (m ((c : Thread nD τ).loc main_arg1))) :=
  ((Keep.hopR7 m ρ c main_v3 (by decide)).trans (Keep.hopS7 m ρ c main_v3 (by decide))).trans (v3_at14 m ρ c)

theorem v5_at16 (c : Dev nD) : W16 m ρ c (Proc.devRef .tc main_v5) = Cert.Spec.ones (F := Ideal) :=
  ((Keep.hopR7 m ρ c main_v5 (by decide)).trans ((Keep.hopS7 m ρ c main_v5 (by decide)).trans ((Keep.hopR6 m ρ c main_v5 (by decide)).trans (Keep.hopS6 m ρ c main_v5 (by decide))))).trans (v5_at12 m ρ c)

theorem v44_at16 (c : Dev nD) : W16 m ρ c (Proc.devRef .tc main_v44) = (Cert.Spec.tr (F := Ideal) (m ((c : Thread nD τ).loc main_arg6))) :=
  (Keep.hopR7 m ρ c main_v44 (by decide)).trans (v44_at15 m ρ c)

theorem v45_at16 (c : Dev nD) : W16 m ρ c (Proc.devRef .tc main_v45) = (Cert.Spec.tr (F := Ideal) (m ((c : Thread nD τ).loc main_arg7))) :=
  (Keep.hopR7 m ρ c main_v45 (by decide)).trans (v45_at15 m ρ c)

theorem v43_at16 (c : Dev nD) : W16 m ρ c (Proc.devRef .tc main_v43) = (Cert.Spec.hid (F := Ideal) (m ((c : Thread nD τ).loc main_arg0)) (m ((c : Thread nD τ).loc main_arg1)) (m ((c : Thread nD τ).loc main_arg3)) (m ((c : Thread nD τ).loc main_arg4))) :=
  ((Keep.hopR7 m ρ c main_v43 (by decide)).trans ((Keep.hopS7 m ρ c main_v43 (by decide)).trans ((Keep.hopR6 m ρ c main_v43 (by decide)).trans (Keep.hopS6 m ρ c main_v43 (by decide))))).trans (v43_at12 m ρ c)

end Cert.KernelIdeal.Chain

end
-- ==== Proof.ChainE.lean ====
/-
  The head and the loss: the last three boundaries of @main.

  A stretch shapes the two head biases as a row and as a single entry; the last region turns the state after three
  gated layers and the hidden state into each node's probability; the last stretch sums, per graph, the probability
  times the out-degree and the product of the probabilities at each edge's ends, and halves the negated difference.
  Read at the result buffer this is the network's value on the launch contents of the fourteen arguments.
-/
import proofs.«142699_j1640677507203_1_alg».proof.Proof.ChainD
import Idealize.ShloMosaic.Lib.StableHlo.Run
import Idealize.ShloMosaic.Lib.ValueIdx

set_option maxRecDepth 16384

noncomputable section

namespace Cert.KernelIdeal.Chain

open Idealize.ShloMosaic Idealize.ShloMosaic.TcCoe Idealize.SL.Sem
open Idealize.ShloMosaic.ValueIdx
open Cert.KernelIdeal Cert.KernelIdeal.Gen Cert.KernelIdeal.Facts₀

variable [Cert.ReferenceIdeal.Facts]
variable (m : (ℓ : Loc nD τ sig) → Buf (Elt Ideal) ℓ) (ρ : Dev nD → PrngReg)

theorem arg11_at16 (c : Dev nD) : W16 m ρ c (Proc.devRef .tc main_arg11) = (m ((c : Thread nD τ).loc main_arg11)) :=
  ((Keep.hopR7 m ρ c main_arg11 (by decide)).trans ((Keep.hopS7 m ρ c main_arg11 (by decide)).trans ((Keep.hopR6 m ρ c main_arg11 (by decide)).trans ((Keep.hopS6 m ρ c main_arg11 (by decide)).trans ((Keep.hopR5 m ρ c main_arg11 (by decide)).trans ((Keep.hopS5 m ρ c main_arg11 (by decide)).trans ((Keep.hopR4 m ρ c main_arg11 (by decide)).trans ((Keep.hopS4 m ρ c main_arg11 (by decide)).trans ((Keep.hopR3 m ρ c main_arg11 (by decide)).trans ((Keep.hopS3 m ρ c main_arg11 (by decide)).trans ((Keep.hopR2 m ρ c main_arg11 (by decide)).trans ((Keep.hopS2 m ρ c main_arg11 (by decide)).trans ((Keep.hopR1 m ρ c main_arg11 (by decide)).trans ((Keep.hopS1 m ρ c main_arg11 (by decide)).trans ((Keep.hopR0 m ρ c main_arg11 (by decide)).trans (Keep.hopS0 m ρ c main_arg11 (by decide))))))))))))))))).trans rfl

theorem arg13_at16 (c : Dev nD) : W16 m ρ c (Proc.devRef .tc main_arg13) = (m ((c : Thread nD τ).loc main_arg13)) :=
  ((Keep.hopR7 m ρ c main_arg13 (by decide)).trans ((Keep.hopS7 m ρ c main_arg13 (by decide)).trans ((Keep.hopR6 m ρ c main_arg13 (by decide)).trans ((Keep.hopS6 m ρ c main_arg13 (by decide)).trans ((Keep.hopR5 m ρ c main_arg13 (by decide)).trans ((Keep.hopS5 m ρ c main_arg13 (by decide)).trans ((Keep.hopR4 m ρ c main_arg13 (by decide)).trans ((Keep.hopS4 m ρ c main_arg13 (by decide)).trans ((Keep.hopR3 m ρ c main_arg13 (by decide)).trans ((Keep.hopS3 m ρ c main_arg13 (by decide)).trans ((Keep.hopR2 m ρ c main_arg13 (by decide)).trans ((Keep.hopS2 m ρ c main_arg13 (by decide)).trans ((Keep.hopR1 m ρ c main_arg13 (by decide)).trans ((Keep.hopS1 m ρ c main_arg13 (by decide)).trans ((Keep.hopR0 m ρ c main_arg13 (by decide)).trans (Keep.hopS0 m ρ c main_arg13 (by decide))))))))))))))))).trans rfl

theorem v94_at17 (c : Dev nD) (q : Fin 128) : W17 m ρ c (Proc.devRef .tc main_v94) (ix2 (0 : Fin 1) q) = (m ((c : Thread nD τ).loc main_arg11)) (ix1 q) := by
  have h : W17 m ρ c (Proc.devRef .tc main_v94) = fun i => shapeCast S1x128 (m ((c : Thread nD τ).loc main_arg11)) Gen.shapeCasts_S128_S1x128 i := by
    show StableHlo.after hostOps8 (W16 m ρ c) (Proc.devRef .tc main_v94) = _
    after_results_simp
    simp only [arg11_at16 m ρ c]
    try rfl
  rw [h]; exact Cert.Lib.RowBlocks.cast_row_apply _ _ q

theorem v95_at17 (c : Dev nD) : W17 m ρ c (Proc.devRef .tc main_v95) (ix2 (0 : Fin 1) (0 : Fin 1)) = (m ((c : Thread nD τ).loc main_arg13)) (ix1 (0 : Fin 1)) := by
  have h : W17 m ρ c (Proc.devRef .tc main_v95) = fun i => shapeCast S1x1 (m ((c : Thread nD τ).loc main_arg13)) Gen.shapeCasts_S1_S1x1 i := by
    show StableHlo.after hostOps8 (W16 m ρ c) (Proc.devRef .tc main_v95) = _
    after_results_simp
    simp only [arg13_at16 m ρ c]
    try rfl
  rw [h]; exact Cert.Lib.RowBlocks.cast_row_apply _ _ (0 : Fin 1)

theorem v93_at17 (c : Dev nD) : W17 m ρ c (Proc.devRef .tc main_v93) = (Cert.Spec.layer (F := Ideal) (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W2 (F := Ideal) (m ((c : Thread nD τ).loc main_arg5))) (m ((c : Thread nD τ).loc main_arg6)) (m ((c : Thread nD τ).loc main_arg7)) (m ((c : Thread nD τ).loc main_arg8)) (m ((c : Thread nD τ).loc main_arg9))) :=
  (Keep.hopS8 m ρ c main_v93 (by decide)).trans (v93_at16 m ρ c)

theorem v43_at17 (c : Dev nD) : W17 m ρ c (Proc.devRef .tc main_v43) = (Cert.Spec.hid (F := Ideal) (m ((c : Thread nD τ).loc main_arg0)) (m ((c : Thread nD τ).loc main_arg1)) (m ((c : Thread nD τ).loc main_arg3)) (m ((c : Thread nD τ).loc main_arg4))) :=
  (Keep.hopS8 m ρ c main_v43 (by decide)).trans (v43_at16 m ρ c)

theorem arg10_at17 (c : Dev nD) : W17 m ρ c (Proc.devRef .tc main_arg10) = (m ((c : Thread nD τ).loc main_arg10)) :=
  ((Keep.hopS8 m ρ c main_arg10 (by decide)).trans ((Keep.hopR7 m ρ c main_arg10 (by decide)).trans ((Keep.hopS7 m ρ c main_arg10 (by decide)).trans ((Keep.hopR6 m ρ c main_arg10 (by decide)).trans ((Keep.hopS6 m ρ c main_arg10 (by decide)).trans ((Keep.hopR5 m ρ c main_arg10 (by decide)).trans ((Keep.hopS5 m ρ c main_arg10 (by decide)).trans ((Keep.hopR4 m ρ c main_arg10 (by decide)).trans ((Keep.hopS4 m ρ c main_arg10 (by decide)).trans ((Keep.hopR3 m ρ c main_arg10 (by decide)).trans ((Keep.hopS3 m ρ c main_arg10 (by decide)).trans ((Keep.hopR2 m ρ c main_arg10 (by decide)).trans ((Keep.hopS2 m ρ c main_arg10 (by decide)).trans ((Keep.hopR1 m ρ c main_arg10 (by decide)).trans ((Keep.hopS1 m ρ c main_arg10 (by decide)).trans ((Keep.hopR0 m ρ c main_arg10 (by decide)).trans (Keep.hopS0 m ρ c main_arg10 (by decide)))))))))))))))))).trans rfl

theorem arg12_at17 (c : Dev nD) : W17 m ρ c (Proc.devRef .tc main_arg12) = (m ((c : Thread nD τ).loc main_arg12)) :=
  ((Keep.hopS8 m ρ c main_arg12 (by decide)).trans ((Keep.hopR7 m ρ c main_arg12 (by decide)).trans ((Keep.hopS7 m ρ c main_arg12 (by decide)).trans ((Keep.hopR6 m ρ c main_arg12 (by decide)).trans ((Keep.hopS6 m ρ c main_arg12 (by decide)).trans ((Keep.hopR5 m ρ c main_arg12 (by decide)).trans ((Keep.hopS5 m ρ c main_arg12 (by decide)).trans ((Keep.hopR4 m ρ c main_arg12 (by decide)).trans ((Keep.hopS4 m ρ c main_arg12 (by decide)).trans ((Keep.hopR3 m ρ c main_arg12 (by decide)).trans ((Keep.hopS3 m ρ c main_arg12 (by decide)).trans ((Keep.hopR2 m ρ c main_arg12 (by decide)).trans ((Keep.hopS2 m ρ c main_arg12 (by decide)).trans ((Keep.hopR1 m ρ c main_arg12 (by decide)).trans ((Keep.hopS1 m ρ c main_arg12 (by decide)).trans ((Keep.hopR0 m ρ c main_arg12 (by decide)).trans (Keep.hopS0 m ρ c main_arg12 (by decide)))))))))))))))))).trans rfl

theorem v96_at18 (c : Dev nD) : W18 m ρ c (Proc.devRef .tc main_v96) = (Cert.Spec.probs (F := Ideal) (Cert.Spec.layer (F := Ideal) (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W2 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg10)) (m ((c : Thread nD τ).loc main_arg11)) (m ((c : Thread nD τ).loc main_arg12)) (m ((c : Thread nD τ).loc main_arg13))) := by
  have h := Regions.final8 (V17 m ρ) c (m ((c : Thread nD τ).loc main_arg11)) (m ((c : Thread nD τ).loc main_arg13)) (fun q => v94_at17 m ρ c q) (v95_at17 m ρ c)
  rw [show V17 m ρ c main_v93 = (Cert.Spec.layer (F := Ideal) (Cert.Spec.layer (F := Ideal) (Cert.Spec.layer (F := Ideal) (Cert.Spec.hid (F := Ideal) (m ((c : Thread nD τ).loc main_arg0)) (m ((c : Thread nD τ).loc main_arg1)) (m ((c : Thread nD τ).loc main_arg3)) (m ((c : Thread nD τ).loc main_arg4))) (m ((c : Thread nD τ).loc main_arg1)) (Cert.Spec.W0 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W1 (F := Ideal) (m ((c : Thread nD τ).loc main_arg5))) (m ((c : Thread nD τ).loc main_arg6)) (m ((c : Thread nD τ).loc main_arg7)) (m ((c : Thread nD τ).loc main_arg8)) (m ((c : Thread nD τ).loc main_arg9))) (m ((c : Thread nD τ).loc main_arg1)) (Cert.Spec.W2 (F := Ideal) (m ((c : Thread nD τ).loc main_arg5))) (m ((c : Thread nD τ).loc main_arg6)) (m ((c : Thread nD τ).loc main_arg7)) (m ((c : Thread nD τ).loc main_arg8)) (m ((c : Thread nD τ).loc main_arg9))) from v93_at17 m ρ c,
    show V17 m ρ c main_v43 = (Cert.Spec.hid (F := Ideal) (m ((c : Thread nD τ).loc main_arg0)) (m ((c : Thread nD τ).loc main_arg1)) (m ((c : Thread nD τ).loc main_arg3)) (m ((c : Thread nD τ).loc main_arg4))) from v43_at17 m ρ c,
    show V17 m ρ c main_arg10 = (m ((c : Thread nD τ).loc main_arg10)) from arg10_at17 m ρ c,
    show V17 m ρ c main_arg12 = (m ((c : Thread nD τ).loc main_arg12)) from arg12_at17 m ρ c] at h
  exact (W18_arr m ρ c 6).trans h

theorem v1_at18 (c : Dev nD) : W18 m ρ c (Proc.devRef .tc main_v1) = (Cert.Spec.src (m ((c : Thread nD τ).loc main_arg1))) :=
  ((Keep.hopR8 m ρ c main_v1 (by decide)).trans (Keep.hopS8 m ρ c main_v1 (by decide))).trans (v1_at16 m ρ c)

theorem v3_at18 (c : Dev nD) : W18 m ρ c (Proc.devRef .tc main_v3) = (Cert.Spec.dst (m ((c : Thread nD τ).loc main_arg1))) :=
  ((Keep.hopR8 m ρ c main_v3 (by decide)).trans (Keep.hopS8 m ρ c main_v3 (by decide))).trans (v3_at16 m ρ c)

theorem v5_at18 (c : Dev nD) : W18 m ρ c (Proc.devRef .tc main_v5) = Cert.Spec.ones (F := Ideal) :=
  ((Keep.hopR8 m ρ c main_v5 (by decide)).trans (Keep.hopS8 m ρ c main_v5 (by decide))).trans (v5_at16 m ρ c)

theorem arg2_at18 (c : Dev nD) : W18 m ρ c (Proc.devRef .tc main_arg2) = (m ((c : Thread nD τ).loc main_arg2)) :=
  ((Keep.hopR8 m ρ c main_arg2 (by decide)).trans ((Keep.hopS8 m ρ c main_arg2 (by decide)).trans ((Keep.hopR7 m ρ c main_arg2 (by decide)).trans ((Keep.hopS7 m ρ c main_arg2 (by decide)).trans ((Keep.hopR6 m ρ c main_arg2 (by decide)).trans ((Keep.hopS6 m ρ c main_arg2 (by decide)).trans ((Keep.hopR5 m ρ c main_arg2 (by decide)).trans ((Keep.hopS5 m ρ c main_arg2 (by decide)).trans ((Keep.hopR4 m ρ c main_arg2 (by decide)).trans ((Keep.hopS4 m ρ c main_arg2 (by decide)).trans ((Keep.hopR3 m ρ c main_arg2 (by decide)).trans ((Keep.hopS3 m ρ c main_arg2 (by decide)).trans ((Keep.hopR2 m ρ c main_arg2 (by decide)).trans ((Keep.hopS2 m ρ c main_arg2 (by decide)).trans ((Keep.hopR1 m ρ c main_arg2 (by decide)).trans ((Keep.hopS1 m ρ c main_arg2 (by decide)).trans ((Keep.hopR0 m ρ c main_arg2 (by decide)).trans (Keep.hopS0 m ρ c main_arg2 (by decide))))))))))))))))))).trans rfl

set_option maxHeartbeats 1600000 in
/-- The result buffer after the last stretch is the network's value on the launch contents. -/
theorem v133_at19 (c : Dev nD) : W19 m ρ c (Proc.devRef .tc main_v133) = (Cert.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  show StableHlo.after hostOps9 (W18 m ρ c) (Proc.devRef .tc main_v133) = _
  after_results_simp
  simp only [v1_at18 m ρ c, v3_at18 m ρ c, v5_at18 m ρ c, v96_at18 m ρ c, arg2_at18 m ρ c]
  rfl

end Cert.KernelIdeal.Chain

end
-- ==== Proof.RefRunOps.lean ====
/- The reference program's @main written as one straight line of host operations.

   @main is printed in six consecutive windows; three of its statements are calls of the
   outlined leaky-relu, whose body in turn calls the outlined select.  Inlining a call
   substitutes the callee's operations, over the call's own buffers, for the call; doing so at
   each of the three call sites turns every window into a plain list of operations.  For each
   window this module gives that list, proves the window equal to the list run in order, shows
   that every operation touches TensorCore buffers only, and names the buffers the window
   writes (none of them an argument of @main). -/
import proofs.«142699_j1640677507203_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 66 of the line: window 0 of @main, the leaky-relu call (main_call0) replaced by the seven operations of its body and of the select it calls. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v5 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S800000x1 ![0] bcast_S800000_S800000x1_0 : (⟨S800000, .i32⟩ : BufTy).Contents (Elt F) → (⟨S800000x1, .i32⟩ : BufTy).Contents (Elt F)),
    ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v11 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v27 (broadcastInDim S800000 ![] bcast_S_S800000 : (⟨S_, .i32⟩ : BufTy).Contents (Elt F) → (⟨S800000, .i32⟩ : BufTy).Contents (Elt F)),
    binary main_v1 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v29 (broadcastInDim S800000 ![] bcast_S_S800000 : (⟨S_, .i32⟩ : BufTy).Contents (Elt F) → (⟨S800000, .i32⟩ : BufTy).Contents (Elt F)),
    binary main_v1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v4 main_v32 main_v33 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v34 (broadcastInDim S800000x1 ![0] bcast_S800000_S800000x1_0 : (⟨S800000, .f32⟩ : BufTy).Contents (Elt F) → (⟨S800000x1, .f32⟩ : BufTy).Contents (Elt F)),
    unary main_v34 main_v35 (broadcastInDim S800000x128 ![0, 1] bcast_S800000x1_S800000x128_0_1 : (⟨S800000x1, .f32⟩ : BufTy).Contents (Elt F) → (⟨S800000x128, .f32⟩ : BufTy).Contents (Elt F)),
    binary main_v33 main_v35 main_v36 (mulf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v37 (broadcastInDim S50000x128 ![] bcast_S_S50000x128 : (⟨S_, .f32⟩ : BufTy).Contents (Elt F) → (⟨S50000x128, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v11 main_v11 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v4 main_v42 main_v43 (mulf : (⟨S50000x128, .f32⟩ : BufTy).Contents (Elt F) → (⟨S50000x128, .f32⟩ : BufTy).Contents (Elt F) → (⟨S50000x128, .f32⟩ : BufTy).Contents (Elt F)),
    binary main_v39 main_v43 main_v44 (addf : (⟨S50000x128, .f32⟩ : BufTy).Contents (Elt F) → (⟨S50000x128, .f32⟩ : BufTy).Contents (Elt F) → (⟨S50000x128, .f32⟩ : BufTy).Contents (Elt F)),
    unary main_arg4 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3C23D70A#32),
    TRef.nullary main_call0.cst (constant S_ .f32 0x00000000#32),
    TRef.unary main_call0.cst main_call0.v0 (broadcastInDim S50000x128 ![] bcast_S_S50000x128),
    TRef.binary (.of main_v47 : TRef sig ⟨S50000x128, .f32⟩) main_call0.v0 main_call0.v1 (cmpf .oge),
    TRef.unary (.of main_cst_8 : TRef sig ⟨S_, .f32⟩) main_call0.v2 id,
    TRef.unary main_call0.v2 main_call0.v3 (broadcastInDim S50000x128 ![] bcast_S_S50000x128),
    TRef.binary main_call0.v3 (.of main_v47 : TRef sig ⟨S50000x128, .f32⟩) main_call0.v4 mulf,
    TRef.ternary main_call0.v1 (.of main_v47 : TRef sig ⟨S50000x128, .f32⟩) main_call0.v4 main_call0.call0.v0 select ]

/-- Operations 67 … 126 of the line: window 1 of @main. -/
abbrev ops1 : List (HloOp τ sig (Elt F)) :=
  [ unary main_arg5 main_v49 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v49 main_v50 rfl shapeCasts_S1x128x128_S128x128,
    binary main_v48 main_v50 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v52 (broadcastInDim S800000 ![] bcast_S_S800000 : (⟨S_, .i32⟩ : BufTy).Contents (Elt F) → (⟨S800000, .i32⟩ : BufTy).Contents (Elt F)),
    binary main_v1 main_v52 main_v53 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v54 (broadcastInDim S800000 ![] bcast_S_S800000 : (⟨S_, .i32⟩ : BufTy).Contents (Elt F) → (⟨S800000, .i32⟩ : BufTy).Contents (Elt F)),
    binary main_v1 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_v1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v51 main_v57 main_v58 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v3 main_v60 (broadcastInDim S800000x1 ![0] bcast_S800000_S800000x1_0 : (⟨S800000, .i32⟩ : BufTy).Contents (Elt F) → (⟨S800000x1, .i32⟩ : BufTy).Contents (Elt F)),
    ternary main_v59 main_v60 main_v58 main_v61 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v62 ((transpose S128x384 [1, 0] · transposes_S384x128_S128x384_1_0) : (⟨S384x128, .f32⟩ : BufTy).Contents (Elt F) → (⟨S128x384, .f32⟩ : BufTy).Contents (Elt F)),
    binary main_v61 main_v62 main_v63 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg8 main_v64 (broadcastInDim S1x384 ![1] bcast_S384_S1x384_1 : (⟨S384, .f32⟩ : BufTy).Contents (Elt F) → (⟨S1x384, .f32⟩ : BufTy).Contents (Elt F)),
    unary main_v64 main_v65 (broadcastInDim S50000x384 ![0, 1] bcast_S1x384_S50000x384_0_1 : (⟨S1x384, .f32⟩ : BufTy).Contents (Elt F) → (⟨S50000x384, .f32⟩ : BufTy).Contents (Elt F)),
    binary main_v63 main_v65 main_v66 (addf : (⟨S50000x384, .f32⟩ : BufTy).Contents (Elt F) → (⟨S50000x384, .f32⟩ : BufTy).Contents (Elt F) → (⟨S50000x384, .f32⟩ : BufTy).Contents (Elt F)),
    unary main_arg7 main_v67 ((transpose S128x384 [1, 0] · transposes_S384x128_S128x384_1_0) : (⟨S384x128, .f32⟩ : BufTy).Contents (Elt F) → (⟨S128x384, .f32⟩ : BufTy).Contents (Elt F)),
    binary main_v48 main_v67 main_v68 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg9 main_v69 (broadcastInDim S1x384 ![1] bcast_S384_S1x384_1 : (⟨S384, .f32⟩ : BufTy).Contents (Elt F) → (⟨S1x384, .f32⟩ : BufTy).Contents (Elt F)),
    unary main_v69 main_v70 (broadcastInDim S50000x384 ![0, 1] bcast_S1x384_S50000x384_0_1 : (⟨S1x384, .f32⟩ : BufTy).Contents (Elt F) → (⟨S50000x384, .f32⟩ : BufTy).Contents (Elt F)),
    binary main_v68 main_v70 main_v71 (addf : (⟨S50000x384, .f32⟩ : BufTy).Contents (Elt F) → (⟨S50000x384, .f32⟩ : BufTy).Contents (Elt F) → (⟨S50000x384, .f32⟩ : BufTy).Contents (Elt F)),
    unary main_v66 main_v72 ((extractStridedSlice S50000x128 ![0, 0] · slices_S50000x384_S50000x128_0_0) : (⟨S50000x384, .f32⟩ : BufTy).Contents (Elt F) → (⟨S50000x128, .f32⟩ : BufTy).Contents (Elt F)),
    unary main_v66 main_v73 ((extractStridedSlice S50000x128 ![0, 128] · slices_S50000x384_S50000x128_0_128) : (⟨S50000x384, .f32⟩ : BufTy).Contents (Elt F) → (⟨S50000x128, .f32⟩ : BufTy).Contents (Elt F)),
    unary main_v66 main_v74 ((extractStridedSlice S50000x128 ![0, 256] · slices_S50000x384_S50000x128_0_256) : (⟨S50000x384, .f32⟩ : BufTy).Contents (Elt F) → (⟨S50000x128, .f32⟩ : BufTy).Contents (Elt F)),
    unary main_v71 main_v75 ((extractStridedSlice S50000x128 ![0, 0] · slices_S50000x384_S50000x128_0_0) : (⟨S50000x384, .f32⟩ : BufTy).Contents (Elt F) → (⟨S50000x128, .f32⟩ : BufTy).Contents (Elt F)),
    unary main_v71 main_v76 ((extractStridedSlice S50000x128 ![0, 128] · slices_S50000x384_S50000x128_0_128) : (⟨S50000x384, .f32⟩ : BufTy).Contents (Elt F) → (⟨S50000x128, .f32⟩ : BufTy).Contents (Elt F)),
    unary main_v71 main_v77 ((extractStridedSlice S50000x128 ![0, 256] · slices_S50000x384_S50000x128_0_256) : (⟨S50000x384, .f32⟩ : BufTy).Contents (Elt F) → (⟨S50000x128, .f32⟩ : BufTy).Contents (Elt F)),
    binary main_v72 main_v75 main_v78 (addf : (⟨S50000x128, .f32⟩ : BufTy).Contents (Elt F) → (⟨S50000x128, .f32⟩ : BufTy).Contents (Elt F) → (⟨S50000x128, .f32⟩ : BufTy).Contents (Elt F)),
    unary main_v78 main_v79 (Host.negf : (⟨S50000x128, .f32⟩ : BufTy).Contents (Elt F) → (⟨S50000x128, .f32⟩ : BufTy).Contents (Elt F)),
    unary main_v79 main_v80 (Host.exp : (⟨S50000x128, .f32⟩ : BufTy).Contents (Elt F) → (⟨S50000x128, .f32⟩ : BufTy).Contents (Elt F)),
    nullary main_cst_12 (constant S_ .f32 0x3F800000#32),
    unary main_cst_12 main_v81 (broadcastInDim S50000x128 ![] bcast_S_S50000x128 : (⟨S_, .f32⟩ : BufTy).Contents (Elt F) → (⟨S50000x128, .f32⟩ : BufTy).Contents (Elt F)),
    binary main_v81 main_v80 main_v82 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3F800000#32),
    unary main_cst_13 main_v83 (broadcastInDim S50000x128 ![] bcast_S_S50000x128 : (⟨S_, .f32⟩ : BufTy).Contents (Elt F) → (⟨S50000x128, .f32⟩ : BufTy).Contents (Elt F)),
    binary main_v83 main_v82 main_v84 (Host.divf : (⟨S50000x128, .f32⟩ : BufTy).Contents (Elt F) → (⟨S50000x128, .f32⟩ : BufTy).Contents (Elt F) → (⟨S50000x128, .f32⟩ : BufTy).Contents (Elt F)),
    binary main_v73 main_v76 main_v85 (addf : (⟨S50000x128, .f32⟩ : BufTy).Contents (Elt F) → (⟨S50000x128, .f32⟩ : BufTy).Contents (Elt F) → (⟨S50000x128, .f32⟩ : BufTy).Contents (Elt F)),
    unary main_v85 main_v86 (Host.negf : (⟨S50000x128, .f32⟩ : BufTy).Contents (Elt F) → (⟨S50000x128, .f32⟩ : BufTy).Contents (Elt F)),
    unary main_v86 main_v87 (Host.exp : (⟨S50000x128, .f32⟩ : BufTy).Contents (Elt F) → (⟨S50000x128, .f32⟩ : BufTy).Contents (Elt F)),
    nullary main_cst_14 (constant S_ .f32 0x3F800000#32),
    unary main_cst_14 main_v88 (broadcastInDim S50000x128 ![] bcast_S_S50000x128 : (⟨S_, .f32⟩ : BufTy).Contents (Elt F) → (⟨S50000x128, .f32⟩ : BufTy).Contents (Elt F)),
    binary main_v88 main_v87 main_v89 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3F800000#32),
    unary main_cst_15 main_v90 (broadcastInDim S50000x128 ![] bcast_S_S50000x128 : (⟨S_, .f32⟩ : BufTy).Contents (Elt F) → (⟨S50000x128, .f32⟩ : BufTy).Contents (Elt F)),
    binary main_v90 main_v89 main_v91 (Host.divf : (⟨S50000x128, .f32⟩ : BufTy).Contents (Elt F) → (⟨S50000x128, .f32⟩ : BufTy).Contents (Elt F) → (⟨S50000x128, .f32⟩ : BufTy).Contents (Elt F)),
    binary main_v84 main_v77 main_v92 (mulf : (⟨S50000x128, .f32⟩ : BufTy).Contents (Elt F) → (⟨S50000x128, .f32⟩ : BufTy).Contents (Elt F) → (⟨S50000x128, .f32⟩ : BufTy).Contents (Elt F)),
    binary main_v74 main_v92 main_v93 (addf : (⟨S50000x128, .f32⟩ : BufTy).Contents (Elt F) → (⟨S50000x128, .f32⟩ : BufTy).Contents (Elt F) → (⟨S50000x128, .f32⟩ : BufTy).Contents (Elt F)),
    unary main_v93 main_v94 (Host.tanh : (⟨S50000x128, .f32⟩ : BufTy).Contents (Elt F) → (⟨S50000x128, .f32⟩ : BufTy).Contents (Elt F)),
    nullary main_cst_16 (constant S_ .f32 0x3F800000#32),
    unary main_cst_16 main_v95 (broadcastInDim S50000x128 ![] bcast_S_S50000x128 : (⟨S_, .f32⟩ : BufTy).Contents (Elt F) → (⟨S50000x128, .f32⟩ : BufTy).Contents (Elt F)),
    binary main_v95 main_v91 main_v96 (subf : (⟨S50000x128, .f32⟩ : BufTy).Contents (Elt F) → (⟨S50000x128, .f32⟩ : BufTy).Contents (Elt F) → (⟨S50000x128, .f32⟩ : BufTy).Contents (Elt F)),
    binary main_v96 main_v94 main_v97 (mulf : (⟨S50000x128, .f32⟩ : BufTy).Contents (Elt F) → (⟨S50000x128, .f32⟩ : BufTy).Contents (Elt F) → (⟨S50000x128, .f32⟩ : BufTy).Contents (Elt F)),
    binary main_v91 main_v48 main_v98 (mulf : (⟨S50000x128, .f32⟩ : BufTy).Contents (Elt F) → (⟨S50000x128, .f32⟩ : BufTy).Contents (Elt F) → (⟨S50000x128, .f32⟩ : BufTy).Contents (Elt F)),
    binary main_v97 main_v98 main_v99 (addf : (⟨S50000x128, .f32⟩ : BufTy).Contents (Elt F) → (⟨S50000x128, .f32⟩ : BufTy).Contents (Elt F) → (⟨S50000x128, .f32⟩ : BufTy).Contents (Elt F)),
    unary main_arg5 main_v100 ((extractStridedSlice S1x128x128 ![1, 0, 0] · slices_S3x128x128_S1x128x128_1_0_0) : (⟨S3x128x128, .f32⟩ : BufTy).Contents (Elt F) → (⟨S1x128x128, .f32⟩ : BufTy).Contents (Elt F)) ]

/-- Operations 127 … 186 of the line: window 2 of @main. -/
abbrev ops2 : List (HloOp τ sig (Elt F)) :=
  [ reshape main_v100 main_v101 rfl shapeCasts_S1x128x128_S128x128,
    binary main_v99 main_v101 main_v102 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_17 (constantI S_ 32 0#32),
    unary main_c_17 main_v103 (broadcastInDim S800000 ![] bcast_S_S800000 : (⟨S_, .i32⟩ : BufTy).Contents (Elt F) → (⟨S800000, .i32⟩ : BufTy).Contents (Elt F)),
    binary main_v1 main_v103 main_v104 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v105 (broadcastInDim S800000 ![] bcast_S_S800000 : (⟨S_, .i32⟩ : BufTy).Contents (Elt F) → (⟨S800000, .i32⟩ : BufTy).Contents (Elt F)),
    binary main_v1 main_v105 main_v106 (addi : (⟨S800000, .i32⟩ : BufTy).Contents (Elt F) → (⟨S800000, .i32⟩ : BufTy).Contents (Elt F) → (⟨S800000, .i32⟩ : BufTy).Contents (Elt F)),
    ternary main_v104 main_v106 main_v1 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v107 main_v108 (broadcastInDim S800000x1 ![0] bcast_S800000_S800000x1_0 : (⟨S800000, .i32⟩ : BufTy).Contents (Elt F) → (⟨S800000x1, .i32⟩ : BufTy).Contents (Elt F)),
    binary main_v102 main_v108 main_v109 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_19 (constant S_ .f32 0x00000000#32),
    unary main_cst_19 main_v110 (broadcastInDim S50000x128 ![] bcast_S_S50000x128 : (⟨S_, .f32⟩ : BufTy).Contents (Elt F) → (⟨S50000x128, .f32⟩ : BufTy).Contents (Elt F)),
    unary main_v3 main_v111 (broadcastInDim S800000x1 ![0] bcast_S800000_S800000x1_0 : (⟨S800000, .i32⟩ : BufTy).Contents (Elt F) → (⟨S800000x1, .i32⟩ : BufTy).Contents (Elt F)),
    ternary main_v110 main_v111 main_v109 main_v112 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v113 ((transpose S128x384 [1, 0] · transposes_S384x128_S128x384_1_0) : (⟨S384x128, .f32⟩ : BufTy).Contents (Elt F) → (⟨S128x384, .f32⟩ : BufTy).Contents (Elt F)),
    binary main_v112 main_v113 main_v114 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg8 main_v115 (broadcastInDim S1x384 ![1] bcast_S384_S1x384_1 : (⟨S384, .f32⟩ : BufTy).Contents (Elt F) → (⟨S1x384, .f32⟩ : BufTy).Contents (Elt F)),
    unary main_v115 main_v116 (broadcastInDim S50000x384 ![0, 1] bcast_S1x384_S50000x384_0_1 : (⟨S1x384, .f32⟩ : BufTy).Contents (Elt F) → (⟨S50000x384, .f32⟩ : BufTy).Contents (Elt F)),
    binary main_v114 main_v116 main_v117 (addf : (⟨S50000x384, .f32⟩ : BufTy).Contents (Elt F) → (⟨S50000x384, .f32⟩ : BufTy).Contents (Elt F) → (⟨S50000x384, .f32⟩ : BufTy).Contents (Elt F)),
    unary main_arg7 main_v118 ((transpose S128x384 [1, 0] · transposes_S384x128_S128x384_1_0) : (⟨S384x128, .f32⟩ : BufTy).Contents (Elt F) → (⟨S128x384, .f32⟩ : BufTy).Contents (Elt F)),
    binary main_v99 main_v118 main_v119 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg9 main_v120 (broadcastInDim S1x384 ![1] bcast_S384_S1x384_1 : (⟨S384, .f32⟩ : BufTy).Contents (Elt F) → (⟨S1x384, .f32⟩ : BufTy).Contents (Elt F)),
    unary main_v120 main_v121 (broadcastInDim S50000x384 ![0, 1] bcast_S1x384_S50000x384_0_1 : (⟨S1x384, .f32⟩ : BufTy).Contents (Elt F) → (⟨S50000x384, .f32⟩ : BufTy).Contents (Elt F)),
    binary main_v119 main_v121 main_v122 (addf : (⟨S50000x384, .f32⟩ : BufTy).Contents (Elt F) → (⟨S50000x384, .f32⟩ : BufTy).Contents (Elt F) → (⟨S50000x384, .f32⟩ : BufTy).Contents (Elt F)),
    unary main_v117 main_v123 ((extractStridedSlice S50000x128 ![0, 0] · slices_S50000x384_S50000x128_0_0) : (⟨S50000x384, .f32⟩ : BufTy).Contents (Elt F) → (⟨S50000x128, .f32⟩ : BufTy).Contents (Elt F)),
    unary main_v117 main_v124 ((extractStridedSlice S50000x128 ![0, 128] · slices_S50000x384_S50000x128_0_128) : (⟨S50000x384, .f32⟩ : BufTy).Contents (Elt F) → (⟨S50000x128, .f32⟩ : BufTy).Contents (Elt F)),
    unary main_v117 main_v125 ((extractStridedSlice S50000x128 ![0, 256] · slices_S50000x384_S50000x128_0_256) : (⟨S50000x384, .f32⟩ : BufTy).Contents (Elt F) → (⟨S50000x128, .f32⟩ : BufTy).Contents (Elt F)),
    unary main_v122 main_v126 ((extractStridedSlice S50000x128 ![0, 0] · slices_S50000x384_S50000x128_0_0) : (⟨S50000x384, .f32⟩ : BufTy).Contents (Elt F) → (⟨S50000x128, .f32⟩ : BufTy).Contents (Elt F)),
    unary main_v122 main_v127 ((extractStridedSlice S50000x128 ![0, 128] · slices_S50000x384_S50000x128_0_128) : (⟨S50000x384, .f32⟩ : BufTy).Contents (Elt F) → (⟨S50000x128, .f32⟩ : BufTy).Contents (Elt F)),
    unary main_v122 main_v128 ((extractStridedSlice S50000x128 ![0, 256] · slices_S50000x384_S50000x128_0_256) : (⟨S50000x384, .f32⟩ : BufTy).Contents (Elt F) → (⟨S50000x128, .f32⟩ : BufTy).Contents (Elt F)),
    binary main_v123 main_v126 main_v129 (addf : (⟨S50000x128, .f32⟩ : BufTy).Contents (Elt F) → (⟨S50000x128, .f32⟩ : BufTy).Contents (Elt F) → (⟨S50000x128, .f32⟩ : BufTy).Contents (Elt F)),
    unary main_v129 main_v130 (Host.negf : (⟨S50000x128, .f32⟩ : BufTy).Contents (Elt F) → (⟨S50000x128, .f32⟩ : BufTy).Contents (Elt F)),
    unary main_v130 main_v131 (Host.exp : (⟨S50000x128, .f32⟩ : BufTy).Contents (Elt F) → (⟨S50000x128, .f32⟩ : BufTy).Contents (Elt F)),
    nullary main_cst_20 (constant S_ .f32 0x3F800000#32),
    unary main_cst_20 main_v132 (broadcastInDim S50000x128 ![] bcast_S_S50000x128 : (⟨S_, .f32⟩ : BufTy).Contents (Elt F) → (⟨S50000x128, .f32⟩ : BufTy).Contents (Elt F)),
    binary main_v132 main_v131 main_v133 (addf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3F800000#32),
    unary main_cst_21 main_v134 (broadcastInDim S50000x128 ![] bcast_S_S50000x128 : (⟨S_, .f32⟩ : BufTy).Contents (Elt F) → (⟨S50000x128, .f32⟩ : BufTy).Contents (Elt F)),
    binary main_v134 main_v133 main_v135 (Host.divf : (⟨S50000x128, .f32⟩ : BufTy).Contents (Elt F) → (⟨S50000x128, .f32⟩ : BufTy).Contents (Elt F) → (⟨S50000x128, .f32⟩ : BufTy).Contents (Elt F)),
    binary main_v124 main_v127 main_v136 (addf : (⟨S50000x128, .f32⟩ : BufTy).Contents (Elt F) → (⟨S50000x128, .f32⟩ : BufTy).Contents (Elt F) → (⟨S50000x128, .f32⟩ : BufTy).Contents (Elt F)),
    unary main_v136 main_v137 (Host.negf : (⟨S50000x128, .f32⟩ : BufTy).Contents (Elt F) → (⟨S50000x128, .f32⟩ : BufTy).Contents (Elt F)),
    unary main_v137 main_v138 (Host.exp : (⟨S50000x128, .f32⟩ : BufTy).Contents (Elt F) → (⟨S50000x128, .f32⟩ : BufTy).Contents (Elt F)),
    nullary main_cst_22 (constant S_ .f32 0x3F800000#32),
    unary main_cst_22 main_v139 (broadcastInDim S50000x128 ![] bcast_S_S50000x128 : (⟨S_, .f32⟩ : BufTy).Contents (Elt F) → (⟨S50000x128, .f32⟩ : BufTy).Contents (Elt F)),
    binary main_v139 main_v138 main_v140 (addf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3F800000#32),
    unary main_cst_23 main_v141 (broadcastInDim S50000x128 ![] bcast_S_S50000x128 : (⟨S_, .f32⟩ : BufTy).Contents (Elt F) → (⟨S50000x128, .f32⟩ : BufTy).Contents (Elt F)),
    binary main_v141 main_v140 main_v142 (Host.divf : (⟨S50000x128, .f32⟩ : BufTy).Contents (Elt F) → (⟨S50000x128, .f32⟩ : BufTy).Contents (Elt F) → (⟨S50000x128, .f32⟩ : BufTy).Contents (Elt F)),
    binary main_v135 main_v128 main_v143 (mulf : (⟨S50000x128, .f32⟩ : BufTy).Contents (Elt F) → (⟨S50000x128, .f32⟩ : BufTy).Contents (Elt F) → (⟨S50000x128, .f32⟩ : BufTy).Contents (Elt F)),
    binary main_v125 main_v143 main_v144 (addf : (⟨S50000x128, .f32⟩ : BufTy).Contents (Elt F) → (⟨S50000x128, .f32⟩ : BufTy).Contents (Elt F) → (⟨S50000x128, .f32⟩ : BufTy).Contents (Elt F)),
    unary main_v144 main_v145 (Host.tanh : (⟨S50000x128, .f32⟩ : BufTy).Contents (Elt F) → (⟨S50000x128, .f32⟩ : BufTy).Contents (Elt F)),
    nullary main_cst_24 (constant S_ .f32 0x3F800000#32),
    unary main_cst_24 main_v146 (broadcastInDim S50000x128 ![] bcast_S_S50000x128 : (⟨S_, .f32⟩ : BufTy).Contents (Elt F) → (⟨S50000x128, .f32⟩ : BufTy).Contents (Elt F)),
    binary main_v146 main_v142 main_v147 (subf : (⟨S50000x128, .f32⟩ : BufTy).Contents (Elt F) → (⟨S50000x128, .f32⟩ : BufTy).Contents (Elt F) → (⟨S50000x128, .f32⟩ : BufTy).Contents (Elt F)),
    binary main_v147 main_v145 main_v148 (mulf : (⟨S50000x128, .f32⟩ : BufTy).Contents (Elt F) → (⟨S50000x128, .f32⟩ : BufTy).Contents (Elt F) → (⟨S50000x128, .f32⟩ : BufTy).Contents (Elt F)),
    binary main_v142 main_v99 main_v149 (mulf : (⟨S50000x128, .f32⟩ : BufTy).Contents (Elt F) → (⟨S50000x128, .f32⟩ : BufTy).Contents (Elt F) → (⟨S50000x128, .f32⟩ : BufTy).Contents (Elt F)),
    binary main_v148 main_v149 main_v150 (addf : (⟨S50000x128, .f32⟩ : BufTy).Contents (Elt F) → (⟨S50000x128, .f32⟩ : BufTy).Contents (Elt F) → (⟨S50000x128, .f32⟩ : BufTy).Contents (Elt F)),
    unary main_arg5 main_v151 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v151 main_v152 rfl shapeCasts_S1x128x128_S128x128 ]

/-- Operations 187 … 252 of the line: window 3 of @main, the leaky-relu call (main_call1) replaced by the seven operations of its body and of the select it calls. -/
abbrev ops3 : List (HloOp τ sig (Elt F)) :=
  [ binary main_v150 main_v152 main_v153 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_25 (constantI S_ 32 0#32),
    unary main_c_25 main_v154 (broadcastInDim S800000 ![] bcast_S_S800000 : (⟨S_, .i32⟩ : BufTy).Contents (Elt F) → (⟨S800000, .i32⟩ : BufTy).Contents (Elt F)),
    binary main_v1 main_v154 main_v155 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v156 (broadcastInDim S800000 ![] bcast_S_S800000 : (⟨S_, .i32⟩ : BufTy).Contents (Elt F) → (⟨S800000, .i32⟩ : BufTy).Contents (Elt F)),
    binary main_v1 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v153 main_v159 main_v160 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_27 (constant S_ .f32 0x00000000#32),
    unary main_cst_27 main_v161 (broadcastInDim S50000x128 ![] bcast_S_S50000x128 : (⟨S_, .f32⟩ : BufTy).Contents (Elt F) → (⟨S50000x128, .f32⟩ : BufTy).Contents (Elt F)),
    unary main_v3 main_v162 (broadcastInDim S800000x1 ![0] bcast_S800000_S800000x1_0 : (⟨S800000, .i32⟩ : BufTy).Contents (Elt F) → (⟨S800000x1, .i32⟩ : BufTy).Contents (Elt F)),
    ternary main_v161 main_v162 main_v160 main_v163 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v164 ((transpose S128x384 [1, 0] · transposes_S384x128_S128x384_1_0) : (⟨S384x128, .f32⟩ : BufTy).Contents (Elt F) → (⟨S128x384, .f32⟩ : BufTy).Contents (Elt F)),
    binary main_v163 main_v164 main_v165 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg8 main_v166 (broadcastInDim S1x384 ![1] bcast_S384_S1x384_1 : (⟨S384, .f32⟩ : BufTy).Contents (Elt F) → (⟨S1x384, .f32⟩ : BufTy).Contents (Elt F)),
    unary main_v166 main_v167 (broadcastInDim S50000x384 ![0, 1] bcast_S1x384_S50000x384_0_1 : (⟨S1x384, .f32⟩ : BufTy).Contents (Elt F) → (⟨S50000x384, .f32⟩ : BufTy).Contents (Elt F)),
    binary main_v165 main_v167 main_v168 (addf : (⟨S50000x384, .f32⟩ : BufTy).Contents (Elt F) → (⟨S50000x384, .f32⟩ : BufTy).Contents (Elt F) → (⟨S50000x384, .f32⟩ : BufTy).Contents (Elt F)),
    unary main_arg7 main_v169 ((transpose S128x384 [1, 0] · transposes_S384x128_S128x384_1_0) : (⟨S384x128, .f32⟩ : BufTy).Contents (Elt F) → (⟨S128x384, .f32⟩ : BufTy).Contents (Elt F)),
    binary main_v150 main_v169 main_v170 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg9 main_v171 (broadcastInDim S1x384 ![1] bcast_S384_S1x384_1 : (⟨S384, .f32⟩ : BufTy).Contents (Elt F) → (⟨S1x384, .f32⟩ : BufTy).Contents (Elt F)),
    unary main_v171 main_v172 (broadcastInDim S50000x384 ![0, 1] bcast_S1x384_S50000x384_0_1 : (⟨S1x384, .f32⟩ : BufTy).Contents (Elt F) → (⟨S50000x384, .f32⟩ : BufTy).Contents (Elt F)),
    binary main_v170 main_v172 main_v173 (addf : (⟨S50000x384, .f32⟩ : BufTy).Contents (Elt F) → (⟨S50000x384, .f32⟩ : BufTy).Contents (Elt F) → (⟨S50000x384, .f32⟩ : BufTy).Contents (Elt F)),
    unary main_v168 main_v174 ((extractStridedSlice S50000x128 ![0, 0] · slices_S50000x384_S50000x128_0_0) : (⟨S50000x384, .f32⟩ : BufTy).Contents (Elt F) → (⟨S50000x128, .f32⟩ : BufTy).Contents (Elt F)),
    unary main_v168 main_v175 ((extractStridedSlice S50000x128 ![0, 128] · slices_S50000x384_S50000x128_0_128) : (⟨S50000x384, .f32⟩ : BufTy).Contents (Elt F) → (⟨S50000x128, .f32⟩ : BufTy).Contents (Elt F)),
    unary main_v168 main_v176 ((extractStridedSlice S50000x128 ![0, 256] · slices_S50000x384_S50000x128_0_256) : (⟨S50000x384, .f32⟩ : BufTy).Contents (Elt F) → (⟨S50000x128, .f32⟩ : BufTy).Contents (Elt F)),
    unary main_v173 main_v177 ((extractStridedSlice S50000x128 ![0, 0] · slices_S50000x384_S50000x128_0_0) : (⟨S50000x384, .f32⟩ : BufTy).Contents (Elt F) → (⟨S50000x128, .f32⟩ : BufTy).Contents (Elt F)),
    unary main_v173 main_v178 ((extractStridedSlice S50000x128 ![0, 128] · slices_S50000x384_S50000x128_0_128) : (⟨S50000x384, .f32⟩ : BufTy).Contents (Elt F) → (⟨S50000x128, .f32⟩ : BufTy).Contents (Elt F)),
    unary main_v173 main_v179 ((extractStridedSlice S50000x128 ![0, 256] · slices_S50000x384_S50000x128_0_256) : (⟨S50000x384, .f32⟩ : BufTy).Contents (Elt F) → (⟨S50000x128, .f32⟩ : BufTy).Contents (Elt F)),
    binary main_v174 main_v177 main_v180 (addf : (⟨S50000x128, .f32⟩ : BufTy).Contents (Elt F) → (⟨S50000x128, .f32⟩ : BufTy).Contents (Elt F) → (⟨S50000x128, .f32⟩ : BufTy).Contents (Elt F)),
    unary main_v180 main_v181 (Host.negf : (⟨S50000x128, .f32⟩ : BufTy).Contents (Elt F) → (⟨S50000x128, .f32⟩ : BufTy).Contents (Elt F)),
    unary main_v181 main_v182 (Host.exp : (⟨S50000x128, .f32⟩ : BufTy).Contents (Elt F) → (⟨S50000x128, .f32⟩ : BufTy).Contents (Elt F)),
    nullary main_cst_28 (constant S_ .f32 0x3F800000#32),
    unary main_cst_28 main_v183 (broadcastInDim S50000x128 ![] bcast_S_S50000x128 : (⟨S_, .f32⟩ : BufTy).Contents (Elt F) → (⟨S50000x128, .f32⟩ : BufTy).Contents (Elt F)),
    binary main_v183 main_v182 main_v184 (addf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x3F800000#32),
    unary main_cst_29 main_v185 (broadcastInDim S50000x128 ![] bcast_S_S50000x128 : (⟨S_, .f32⟩ : BufTy).Contents (Elt F) → (⟨S50000x128, .f32⟩ : BufTy).Contents (Elt F)),
    binary main_v185 main_v184 main_v186 (Host.divf : (⟨S50000x128, .f32⟩ : BufTy).Contents (Elt F) → (⟨S50000x128, .f32⟩ : BufTy).Contents (Elt F) → (⟨S50000x128, .f32⟩ : BufTy).Contents (Elt F)),
    binary main_v175 main_v178 main_v187 (addf : (⟨S50000x128, .f32⟩ : BufTy).Contents (Elt F) → (⟨S50000x128, .f32⟩ : BufTy).Contents (Elt F) → (⟨S50000x128, .f32⟩ : BufTy).Contents (Elt F)),
    unary main_v187 main_v188 (Host.negf : (⟨S50000x128, .f32⟩ : BufTy).Contents (Elt F) → (⟨S50000x128, .f32⟩ : BufTy).Contents (Elt F)),
    unary main_v188 main_v189 (Host.exp : (⟨S50000x128, .f32⟩ : BufTy).Contents (Elt F) → (⟨S50000x128, .f32⟩ : BufTy).Contents (Elt F)),
    nullary main_cst_30 (constant S_ .f32 0x3F800000#32),
    unary main_cst_30 main_v190 (broadcastInDim S50000x128 ![] bcast_S_S50000x128 : (⟨S_, .f32⟩ : BufTy).Contents (Elt F) → (⟨S50000x128, .f32⟩ : BufTy).Contents (Elt F)),
    binary main_v190 main_v189 main_v191 (addf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x3F800000#32),
    unary main_cst_31 main_v192 (broadcastInDim S50000x128 ![] bcast_S_S50000x128 : (⟨S_, .f32⟩ : BufTy).Contents (Elt F) → (⟨S50000x128, .f32⟩ : BufTy).Contents (Elt F)),
    binary main_v192 main_v191 main_v193 (Host.divf : (⟨S50000x128, .f32⟩ : BufTy).Contents (Elt F) → (⟨S50000x128, .f32⟩ : BufTy).Contents (Elt F) → (⟨S50000x128, .f32⟩ : BufTy).Contents (Elt F)),
    binary main_v186 main_v179 main_v194 (mulf : (⟨S50000x128, .f32⟩ : BufTy).Contents (Elt F) → (⟨S50000x128, .f32⟩ : BufTy).Contents (Elt F) → (⟨S50000x128, .f32⟩ : BufTy).Contents (Elt F)),
    binary main_v176 main_v194 main_v195 (addf : (⟨S50000x128, .f32⟩ : BufTy).Contents (Elt F) → (⟨S50000x128, .f32⟩ : BufTy).Contents (Elt F) → (⟨S50000x128, .f32⟩ : BufTy).Contents (Elt F)),
    unary main_v195 main_v196 (Host.tanh : (⟨S50000x128, .f32⟩ : BufTy).Contents (Elt F) → (⟨S50000x128, .f32⟩ : BufTy).Contents (Elt F)),
    nullary main_cst_32 (constant S_ .f32 0x3F800000#32),
    unary main_cst_32 main_v197 (broadcastInDim S50000x128 ![] bcast_S_S50000x128 : (⟨S_, .f32⟩ : BufTy).Contents (Elt F) → (⟨S50000x128, .f32⟩ : BufTy).Contents (Elt F)),
    binary main_v197 main_v193 main_v198 (subf : (⟨S50000x128, .f32⟩ : BufTy).Contents (Elt F) → (⟨S50000x128, .f32⟩ : BufTy).Contents (Elt F) → (⟨S50000x128, .f32⟩ : BufTy).Contents (Elt F)),
    binary main_v198 main_v196 main_v199 (mulf : (⟨S50000x128, .f32⟩ : BufTy).Contents (Elt F) → (⟨S50000x128, .f32⟩ : BufTy).Contents (Elt F) → (⟨S50000x128, .f32⟩ : BufTy).Contents (Elt F)),
    binary main_v193 main_v150 main_v200 (mulf : (⟨S50000x128, .f32⟩ : BufTy).Contents (Elt F) → (⟨S50000x128, .f32⟩ : BufTy).Contents (Elt F) → (⟨S50000x128, .f32⟩ : BufTy).Contents (Elt F)),
    binary main_v199 main_v200 main_v201 (addf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3C23D70A#32),
    TRef.nullary main_call1.cst (constant S_ .f32 0x00000000#32),
    TRef.unary main_call1.cst main_call1.v0 (broadcastInDim S50000x128 ![] bcast_S_S50000x128),
    TRef.binary (.of main_v201 : TRef sig ⟨S50000x128, .f32⟩) main_call1.v0 main_call1.v1 (cmpf .oge),
    TRef.unary (.of main_cst_33 : TRef sig ⟨S_, .f32⟩) main_call1.v2 id,
    TRef.unary main_call1.v2 main_call1.v3 (broadcastInDim S50000x128 ![] bcast_S_S50000x128),
    TRef.binary main_call1.v3 (.of main_v201 : TRef sig ⟨S50000x128, .f32⟩) main_call1.v4 mulf,
    TRef.ternary main_call1.v1 (.of main_v201 : TRef sig ⟨S50000x128, .f32⟩) main_call1.v4 main_call1.call0.v0 select,
    binary main_v202 main_v48 main_v203 (addf : (⟨S50000x128, .f32⟩ : BufTy).Contents (Elt F) → (⟨S50000x128, .f32⟩ : BufTy).Contents (Elt F) → (⟨S50000x128, .f32⟩ : BufTy).Contents (Elt F)) ]

/-- Operations 253 … 318 of the line: window 4 of @main, the leaky-relu call (main_call2) replaced by the seven operations of its body and of the select it calls. -/
abbrev ops4 : List (HloOp τ sig (Elt F)) :=
  [ binary main_v203 main_arg10 main_v204 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v205 (broadcastInDim S1x128 ![1] bcast_S128_S1x128_1 : (⟨S128, .f32⟩ : BufTy).Contents (Elt F) → (⟨S1x128, .f32⟩ : BufTy).Contents (Elt F)),
    unary main_v205 main_v206 (broadcastInDim S50000x128 ![0, 1] bcast_S1x128_S50000x128_0_1 : (⟨S1x128, .f32⟩ : BufTy).Contents (Elt F) → (⟨S50000x128, .f32⟩ : BufTy).Contents (Elt F)),
    binary main_v204 main_v206 main_v207 (addf : (⟨S50000x128, .f32⟩ : BufTy).Contents (Elt F) → (⟨S50000x128, .f32⟩ : BufTy).Contents (Elt F) → (⟨S50000x128, .f32⟩ : BufTy).Contents (Elt F)),
    nullary main_cst_34 (constant S_ .f32 0x3C23D70A#32),
    TRef.nullary main_call2.cst (constant S_ .f32 0x00000000#32),
    TRef.unary main_call2.cst main_call2.v0 (broadcastInDim S50000x128 ![] bcast_S_S50000x128),
    TRef.binary (.of main_v207 : TRef sig ⟨S50000x128, .f32⟩) main_call2.v0 main_call2.v1 (cmpf .oge),
    TRef.unary (.of main_cst_34 : TRef sig ⟨S_, .f32⟩) main_call2.v2 id,
    TRef.unary main_call2.v2 main_call2.v3 (broadcastInDim S50000x128 ![] bcast_S_S50000x128),
    TRef.binary main_call2.v3 (.of main_v207 : TRef sig ⟨S50000x128, .f32⟩) main_call2.v4 mulf,
    TRef.ternary main_call2.v1 (.of main_v207 : TRef sig ⟨S50000x128, .f32⟩) main_call2.v4 main_call2.call0.v0 select,
    binary main_v208 main_arg12 main_v209 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg13 main_v210 (broadcastInDim S1x1 ![1] bcast_S1_S1x1_1 : (⟨S1, .f32⟩ : BufTy).Contents (Elt F) → (⟨S1x1, .f32⟩ : BufTy).Contents (Elt F)),
    unary main_v210 main_v211 (broadcastInDim S50000x1 ![0, 1] bcast_S1x1_S50000x1_0_1 : (⟨S1x1, .f32⟩ : BufTy).Contents (Elt F) → (⟨S50000x1, .f32⟩ : BufTy).Contents (Elt F)),
    binary main_v209 main_v211 main_v212 (addf : (⟨S50000x1, .f32⟩ : BufTy).Contents (Elt F) → (⟨S50000x1, .f32⟩ : BufTy).Contents (Elt F) → (⟨S50000x1, .f32⟩ : BufTy).Contents (Elt F)),
    unary main_v212 main_v213 (Host.negf : (⟨S50000x1, .f32⟩ : BufTy).Contents (Elt F) → (⟨S50000x1, .f32⟩ : BufTy).Contents (Elt F)),
    unary main_v213 main_v214 (Host.exp : (⟨S50000x1, .f32⟩ : BufTy).Contents (Elt F) → (⟨S50000x1, .f32⟩ : BufTy).Contents (Elt F)),
    nullary main_cst_35 (constant S_ .f32 0x3F800000#32),
    unary main_cst_35 main_v215 (broadcastInDim S50000x1 ![] bcast_S_S50000x1 : (⟨S_, .f32⟩ : BufTy).Contents (Elt F) → (⟨S50000x1, .f32⟩ : BufTy).Contents (Elt F)),
    binary main_v215 main_v214 main_v216 (addf : (⟨S50000x1, .f32⟩ : BufTy).Contents (Elt F) → (⟨S50000x1, .f32⟩ : BufTy).Contents (Elt F) → (⟨S50000x1, .f32⟩ : BufTy).Contents (Elt F)),
    nullary main_cst_36 (constant S_ .f32 0x3F800000#32),
    unary main_cst_36 main_v217 (broadcastInDim S50000x1 ![] bcast_S_S50000x1 : (⟨S_, .f32⟩ : BufTy).Contents (Elt F) → (⟨S50000x1, .f32⟩ : BufTy).Contents (Elt F)),
    binary main_v217 main_v216 main_v218 (Host.divf : (⟨S50000x1, .f32⟩ : BufTy).Contents (Elt F) → (⟨S50000x1, .f32⟩ : BufTy).Contents (Elt F) → (⟨S50000x1, .f32⟩ : BufTy).Contents (Elt F)),
    nullary main_cst_37 (constant S_ .f32 0x3F800000#32),
    unary main_cst_37 main_v219 (broadcastInDim S800000 ![] bcast_S_S800000 : (⟨S_, .f32⟩ : BufTy).Contents (Elt F) → (⟨S800000, .f32⟩ : BufTy).Contents (Elt F)),
    nullary main_cst_38 (constant S_ .f32 0x00000000#32),
    unary main_cst_38 main_v220 (broadcastInDim S50000 ![] bcast_S_S50000 : (⟨S_, .f32⟩ : BufTy).Contents (Elt F) → (⟨S50000, .f32⟩ : BufTy).Contents (Elt F)),
    unary main_v1 main_v221 (broadcastInDim S800000x1 ![0] bcast_S800000_S800000x1_0 : (⟨S800000, .i32⟩ : BufTy).Contents (Elt F) → (⟨S800000x1, .i32⟩ : BufTy).Contents (Elt F)),
    ternary main_v220 main_v221 main_v219 main_v222 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    unary main_v222 main_v223 (broadcastInDim S50000x1 ![0] bcast_S50000_S50000x1_0 : (⟨S50000, .f32⟩ : BufTy).Contents (Elt F) → (⟨S50000x1, .f32⟩ : BufTy).Contents (Elt F)),
    nullary main_c_39 (constantI S_ 32 0#32),
    unary main_c_39 main_v224 (broadcastInDim S800000 ![] bcast_S_S800000 : (⟨S_, .i32⟩ : BufTy).Contents (Elt F) → (⟨S800000, .i32⟩ : BufTy).Contents (Elt F)),
    binary main_v1 main_v224 main_v225 (cmpi .slt : (⟨S800000, .i32⟩ : BufTy).Contents (Elt F) → (⟨S800000, .i32⟩ : BufTy).Contents (Elt F) → (⟨S800000, .i1⟩ : BufTy).Contents (Elt F)),
    nullary main_c_40 (constantI S_ 32 50000#32),
    unary main_c_40 main_v226 (broadcastInDim S800000 ![] bcast_S_S800000 : (⟨S_, .i32⟩ : BufTy).Contents (Elt F) → (⟨S800000, .i32⟩ : BufTy).Contents (Elt F)),
    binary main_v1 main_v226 main_v227 (addi : (⟨S800000, .i32⟩ : BufTy).Contents (Elt F) → (⟨S800000, .i32⟩ : BufTy).Contents (Elt F) → (⟨S800000, .i32⟩ : BufTy).Contents (Elt F)),
    ternary main_v225 main_v227 main_v1 main_v228 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v228 main_v229 (broadcastInDim S800000x1 ![0] bcast_S800000_S800000x1_0 : (⟨S800000, .i32⟩ : BufTy).Contents (Elt F) → (⟨S800000x1, .i32⟩ : BufTy).Contents (Elt F)),
    binary main_v218 main_v229 main_v230 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    nullary main_c_41 (constantI S_ 32 0#32),
    unary main_c_41 main_v231 (broadcastInDim S800000 ![] bcast_S_S800000 : (⟨S_, .i32⟩ : BufTy).Contents (Elt F) → (⟨S800000, .i32⟩ : BufTy).Contents (Elt F)),
    binary main_v3 main_v231 main_v232 (cmpi .slt : (⟨S800000, .i32⟩ : BufTy).Contents (Elt F) → (⟨S800000, .i32⟩ : BufTy).Contents (Elt F) → (⟨S800000, .i1⟩ : BufTy).Contents (Elt F)),
    nullary main_c_42 (constantI S_ 32 50000#32),
    unary main_c_42 main_v233 (broadcastInDim S800000 ![] bcast_S_S800000 : (⟨S_, .i32⟩ : BufTy).Contents (Elt F) → (⟨S800000, .i32⟩ : BufTy).Contents (Elt F)),
    binary main_v3 main_v233 main_v234 (addi : (⟨S800000, .i32⟩ : BufTy).Contents (Elt F) → (⟨S800000, .i32⟩ : BufTy).Contents (Elt F) → (⟨S800000, .i32⟩ : BufTy).Contents (Elt F)),
    ternary main_v232 main_v234 main_v3 main_v235 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v235 main_v236 (broadcastInDim S800000x1 ![0] bcast_S800000_S800000x1_0 : (⟨S800000, .i32⟩ : BufTy).Contents (Elt F) → (⟨S800000x1, .i32⟩ : BufTy).Contents (Elt F)),
    binary main_v218 main_v236 main_v237 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    binary main_v230 main_v237 main_v238 (mulf : (⟨S800000x1, .f32⟩ : BufTy).Contents (Elt F) → (⟨S800000x1, .f32⟩ : BufTy).Contents (Elt F) → (⟨S800000x1, .f32⟩ : BufTy).Contents (Elt F)),
    nullary main_c_43 (constantI S_ 32 0#32),
    unary main_c_43 main_v239 (broadcastInDim S800000 ![] bcast_S_S800000 : (⟨S_, .i32⟩ : BufTy).Contents (Elt F) → (⟨S800000, .i32⟩ : BufTy).Contents (Elt F)),
    binary main_v1 main_v239 main_v240 (cmpi .slt : (⟨S800000, .i32⟩ : BufTy).Contents (Elt F) → (⟨S800000, .i32⟩ : BufTy).Contents (Elt F) → (⟨S800000, .i1⟩ : BufTy).Contents (Elt F)),
    nullary main_c_44 (constantI S_ 32 50000#32),
    unary main_c_44 main_v241 (broadcastInDim S800000 ![] bcast_S_S800000 : (⟨S_, .i32⟩ : BufTy).Contents (Elt F) → (⟨S800000, .i32⟩ : BufTy).Contents (Elt F)),
    binary main_v1 main_v241 main_v242 (addi : (⟨S800000, .i32⟩ : BufTy).Contents (Elt F) → (⟨S800000, .i32⟩ : BufTy).Contents (Elt F) → (⟨S800000, .i32⟩ : BufTy).Contents (Elt F)),
    ternary main_v240 main_v242 main_v1 main_v243 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v243 main_v244 (broadcastInDim S800000x1 ![0] bcast_S800000_S800000x1_0 : (⟨S800000, .i32⟩ : BufTy).Contents (Elt F) → (⟨S800000x1, .i32⟩ : BufTy).Contents (Elt F)),
    binary main_arg2 main_v244 main_v245 ((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)),
    nullary main_cst_45 (constant S_ .f32 0x00000000#32),
    unary main_cst_45 main_v246 (broadcastInDim S64x1 ![] bcast_S_S64x1 : (⟨S_, .f32⟩ : BufTy).Contents (Elt F) → (⟨S64x1, .f32⟩ : BufTy).Contents (Elt F)),
    unary main_v245 main_v247 (broadcastInDim S800000x1 ![0] bcast_S800000_S800000x1_0 : (⟨S800000, .i32⟩ : BufTy).Contents (Elt F) → (⟨S800000x1, .i32⟩ : BufTy).Contents (Elt F)),
    ternary main_v246 main_v247 main_v238 main_v248 ((fun x i u => Host.scatterAdd scatter_S64x1_S800000x1_S800000x1_1_0_0_1 x i u) : (⟨S64x1, .f32⟩ : BufTy).Contents (Elt F) → (⟨S800000x1, .i32⟩ : BufTy).Contents (Elt F) → (⟨S800000x1, .f32⟩ : BufTy).Contents (Elt F) → (⟨S64x1, .f32⟩ : BufTy).Contents (Elt F)),
    binary main_v218 main_v223 main_v249 (mulf : (⟨S50000x1, .f32⟩ : BufTy).Contents (Elt F) → (⟨S50000x1, .f32⟩ : BufTy).Contents (Elt F) → (⟨S50000x1, .f32⟩ : BufTy).Contents (Elt F)),
    nullary main_cst_46 (constant S_ .f32 0x00000000#32),
    unary main_cst_46 main_v250 (broadcastInDim S64x1 ![] bcast_S_S64x1 : (⟨S_, .f32⟩ : BufTy).Contents (Elt F) → (⟨S64x1, .f32⟩ : BufTy).Contents (Elt F)) ]

/-- Operations 319 … 325 of the line: window 5 of @main. -/
abbrev ops5 : List (HloOp τ sig (Elt F)) :=
  [ unary main_arg2 main_v251 (broadcastInDim S50000x1 ![0] bcast_S50000_S50000x1_0 : (⟨S50000, .i32⟩ : BufTy).Contents (Elt F) → (⟨S50000x1, .i32⟩ : BufTy).Contents (Elt F)),
    ternary main_v250 main_v251 main_v249 main_v252 ((fun x i u => Host.scatterAdd scatter_S64x1_S50000x1_S50000x1_1_0_0_1 x i u) : (⟨S64x1, .f32⟩ : BufTy).Contents (Elt F) → (⟨S50000x1, .i32⟩ : BufTy).Contents (Elt F) → (⟨S50000x1, .f32⟩ : BufTy).Contents (Elt F) → (⟨S64x1, .f32⟩ : BufTy).Contents (Elt F)),
    binary main_v252 main_v248 main_v253 (subf : (⟨S64x1, .f32⟩ : BufTy).Contents (Elt F) → (⟨S64x1, .f32⟩ : BufTy).Contents (Elt F) → (⟨S64x1, .f32⟩ : BufTy).Contents (Elt F)),
    unary main_v253 main_v254 (Host.negf : (⟨S64x1, .f32⟩ : BufTy).Contents (Elt F) → (⟨S64x1, .f32⟩ : BufTy).Contents (Elt F)),
    nullary main_cst_47 (constant S_ .f32 0x40000000#32),
    unary main_cst_47 main_v255 (broadcastInDim S64x1 ![] bcast_S_S64x1 : (⟨S_, .f32⟩ : BufTy).Contents (Elt F) → (⟨S64x1, .f32⟩ : BufTy).Contents (Elt F)),
    binary main_v254 main_v255 main_v256 (Host.divf : (⟨S64x1, .f32⟩ : BufTy).Contents (Elt F) → (⟨S64x1, .f32⟩ : BufTy).Contents (Elt F) → (⟨S64x1, .f32⟩ : BufTy).Contents (Elt F)) ]

/-- The whole line: the six windows' operations in order, 325 in all. -/
abbrev ops : List (HloOp τ sig (Elt F)) :=
  ops0 ++ (ops1 ++ (ops2 ++ (ops3 ++ (ops4 ++ ops5))))

/-! ## Each window is its list run in order

A window without a call is its list by unfolding.  In a window with a call the callee's body is
a nested sequence; unfolding the two callees and re-associating the sequencing gives the flat line. -/

set_option maxRecDepth 8192 in
set_option maxHeartbeats 4000000 in
theorem main_part0_eq (c : Dev nD) : main_part0 (F := F) c = seq ops0 := by
  simp only [main_part0, fn_leaky_relu.body, fn_where.body, seq, bind_assoc, pure_bind]

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

set_option maxRecDepth 8192 in
set_option maxHeartbeats 4000000 in
theorem main_part3_eq (c : Dev nD) : main_part3 (F := F) c = seq ops3 := by
  simp only [main_part3, fn_leaky_relu.body, fn_where.body, seq, bind_assoc, pure_bind]
  rfl

set_option maxRecDepth 8192 in
set_option maxHeartbeats 4000000 in
theorem main_part4_eq (c : Dev nD) : main_part4 (F := F) c = seq ops4 := by
  simp only [main_part4, fn_leaky_relu.body, fn_where.body, seq, bind_assoc, pure_bind]
  rfl

set_option maxRecDepth 8192 in
set_option maxHeartbeats 4000000 in
theorem main_part5_eq (c : Dev nD) : main_part5 (F := F) c = seq ops5 := rfl

/-! ## Every operation touches TensorCore buffers only -/

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., binary_bufs_sub ..,
    nullary_bufs_sub .., unary_bufs_sub .., nullary_bufs_sub .., unary_bufs_sub .., unary_bufs_sub ..,
    ternary_bufs_sub .., nullary_bufs_sub .., unary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., unary_bufs_sub .., unary_bufs_sub ..,
    binary_bufs_sub .., nullary_bufs_sub .., unary_bufs_sub .., unary_bufs_sub .., ternary_bufs_sub ..,
    binary_bufs_sub .., unary_bufs_sub .., unary_bufs_sub .., binary_bufs_sub .., binary_bufs_sub ..,
    unary_bufs_sub .., unary_bufs_sub .., binary_bufs_sub .., nullary_bufs_sub .., nullary_bufs_sub ..,
    unary_bufs_sub .., binary_bufs_sub .., unary_bufs_sub .., unary_bufs_sub .., binary_bufs_sub ..,
    ternary_bufs_sub ..⟩

set_option maxRecDepth 8192 in
theorem ops1_sub : (ops1 : List (HloOp τ sig (Elt F))).Forall fun op => op.bufs ⊆ tcRefs τ sig :=
  ⟨unary_bufs_sub .., reshape_bufs_sub .., binary_bufs_sub .., nullary_bufs_sub .., unary_bufs_sub ..,
    binary_bufs_sub .., nullary_bufs_sub .., unary_bufs_sub .., binary_bufs_sub .., ternary_bufs_sub ..,
    unary_bufs_sub .., binary_bufs_sub .., nullary_bufs_sub .., unary_bufs_sub .., unary_bufs_sub ..,
    ternary_bufs_sub .., unary_bufs_sub .., binary_bufs_sub .., unary_bufs_sub .., unary_bufs_sub ..,
    binary_bufs_sub .., unary_bufs_sub .., binary_bufs_sub .., unary_bufs_sub .., unary_bufs_sub ..,
    binary_bufs_sub .., unary_bufs_sub .., unary_bufs_sub .., unary_bufs_sub .., unary_bufs_sub ..,
    unary_bufs_sub .., unary_bufs_sub .., binary_bufs_sub .., unary_bufs_sub .., unary_bufs_sub ..,
    nullary_bufs_sub .., unary_bufs_sub .., binary_bufs_sub .., nullary_bufs_sub .., unary_bufs_sub ..,
    binary_bufs_sub .., binary_bufs_sub .., unary_bufs_sub .., unary_bufs_sub .., nullary_bufs_sub ..,
    unary_bufs_sub .., binary_bufs_sub .., nullary_bufs_sub .., unary_bufs_sub .., binary_bufs_sub ..,
    binary_bufs_sub .., binary_bufs_sub .., unary_bufs_sub .., nullary_bufs_sub .., unary_bufs_sub ..,
    binary_bufs_sub .., binary_bufs_sub .., binary_bufs_sub .., binary_bufs_sub .., unary_bufs_sub ..⟩

set_option maxRecDepth 8192 in
theorem ops2_sub : (ops2 : List (HloOp τ sig (Elt F))).Forall fun op => op.bufs ⊆ tcRefs τ sig :=
  ⟨reshape_bufs_sub .., binary_bufs_sub .., nullary_bufs_sub .., unary_bufs_sub .., binary_bufs_sub ..,
    nullary_bufs_sub .., unary_bufs_sub .., binary_bufs_sub .., ternary_bufs_sub .., unary_bufs_sub ..,
    binary_bufs_sub .., nullary_bufs_sub .., unary_bufs_sub .., unary_bufs_sub .., ternary_bufs_sub ..,
    unary_bufs_sub .., binary_bufs_sub .., unary_bufs_sub .., unary_bufs_sub .., binary_bufs_sub ..,
    unary_bufs_sub .., binary_bufs_sub .., unary_bufs_sub .., unary_bufs_sub .., binary_bufs_sub ..,
    unary_bufs_sub .., unary_bufs_sub .., unary_bufs_sub .., unary_bufs_sub .., unary_bufs_sub .., unary_bufs_sub ..,
    binary_bufs_sub .., unary_bufs_sub .., unary_bufs_sub .., nullary_bufs_sub .., unary_bufs_sub ..,
    binary_bufs_sub .., nullary_bufs_sub .., unary_bufs_sub .., binary_bufs_sub .., binary_bufs_sub ..,
    unary_bufs_sub .., unary_bufs_sub .., nullary_bufs_sub .., unary_bufs_sub .., binary_bufs_sub ..,
    nullary_bufs_sub .., unary_bufs_sub .., binary_bufs_sub .., binary_bufs_sub .., binary_bufs_sub ..,
    unary_bufs_sub .., nullary_bufs_sub .., unary_bufs_sub .., binary_bufs_sub .., binary_bufs_sub ..,
    binary_bufs_sub .., binary_bufs_sub .., unary_bufs_sub .., reshape_bufs_sub ..⟩

set_option maxRecDepth 8192 in
theorem ops3_sub : (ops3 : List (HloOp τ sig (Elt F))).Forall fun op => op.bufs ⊆ tcRefs τ sig :=
  ⟨binary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., unary_bufs_sub .., ternary_bufs_sub .., unary_bufs_sub ..,
    binary_bufs_sub .., unary_bufs_sub .., unary_bufs_sub .., binary_bufs_sub .., unary_bufs_sub ..,
    binary_bufs_sub .., unary_bufs_sub .., unary_bufs_sub .., binary_bufs_sub .., unary_bufs_sub ..,
    unary_bufs_sub .., unary_bufs_sub .., unary_bufs_sub .., unary_bufs_sub .., unary_bufs_sub ..,
    binary_bufs_sub .., unary_bufs_sub .., unary_bufs_sub .., nullary_bufs_sub .., unary_bufs_sub ..,
    binary_bufs_sub .., nullary_bufs_sub .., unary_bufs_sub .., binary_bufs_sub .., binary_bufs_sub ..,
    unary_bufs_sub .., unary_bufs_sub .., nullary_bufs_sub .., unary_bufs_sub .., binary_bufs_sub ..,
    nullary_bufs_sub .., unary_bufs_sub .., binary_bufs_sub .., binary_bufs_sub .., binary_bufs_sub ..,
    unary_bufs_sub .., nullary_bufs_sub .., unary_bufs_sub .., binary_bufs_sub .., binary_bufs_sub ..,
    binary_bufs_sub .., binary_bufs_sub .., nullary_bufs_sub .., nullary_bufs_sub .., unary_bufs_sub ..,
    binary_bufs_sub .., unary_bufs_sub .., unary_bufs_sub .., binary_bufs_sub .., ternary_bufs_sub ..,
    binary_bufs_sub ..⟩

set_option maxRecDepth 8192 in
theorem ops4_sub : (ops4 : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub ..,
    binary_bufs_sub .., ternary_bufs_sub .., binary_bufs_sub .., unary_bufs_sub .., unary_bufs_sub ..,
    binary_bufs_sub .., unary_bufs_sub .., unary_bufs_sub .., nullary_bufs_sub .., unary_bufs_sub ..,
    binary_bufs_sub .., nullary_bufs_sub .., unary_bufs_sub .., binary_bufs_sub .., nullary_bufs_sub ..,
    unary_bufs_sub .., nullary_bufs_sub .., unary_bufs_sub .., unary_bufs_sub .., ternary_bufs_sub ..,
    unary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., binary_bufs_sub ..,
    nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., ternary_bufs_sub .., binary_bufs_sub .., nullary_bufs_sub ..,
    unary_bufs_sub ..⟩

set_option maxRecDepth 8192 in
theorem ops5_sub : (ops5 : List (HloOp τ sig (Elt F))).Forall fun op => op.bufs ⊆ tcRefs τ sig :=
  ⟨unary_bufs_sub .., ternary_bufs_sub .., binary_bufs_sub .., unary_bufs_sub .., nullary_bufs_sub ..,
    unary_bufs_sub .., binary_bufs_sub ..⟩

/-! ## The buffers each window writes

One buffer per operation: its result.  A buffer outside a window's list keeps its contents through the window. -/

/-- The buffers window 0 writes, in order. -/
abbrev ops0_W : List (Ref sig .tc) := [main_v0, main_v1, main_v2, main_v3, main_v4, main_cst, main_v5, main_cst_0,
    main_v6, main_v7, main_v8, main_cst_1, main_v9, main_v10, main_v11, main_c, main_v12, main_v13, main_c_2,
    main_v14, main_v15, main_v16, main_v17, main_v18, main_c_3, main_v19, main_v20, main_c_4, main_v21, main_v22,
    main_v23, main_v24, main_v25, main_v26, main_c_5, main_v27, main_v28, main_c_6, main_v29, main_v30, main_v31,
    main_v32, main_v33, main_v34, main_v35, main_v36, main_cst_7, main_v37, main_v38, main_v39, main_v40, main_v41,
    main_v42, main_v43, main_v44, main_v45, main_v46, main_v47, main_cst_8, main_call0_cst, main_call0_v0,
    main_call0_v1, main_call0_v2, main_call0_v3, main_call0_v4, main_v48]
set_option maxRecDepth 8192 in
set_option maxHeartbeats 4000000 in
theorem ops0_writes : (ops0 : List (HloOp τ sig (Elt F))).Forall fun op =>
    op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- The buffers window 1 writes, in order. -/
abbrev ops1_W : List (Ref sig .tc) := [main_v49, main_v50, main_v51, main_c_9, main_v52, main_v53, main_c_10,
    main_v54, main_v55, main_v56, main_v57, main_v58, main_cst_11, main_v59, main_v60, main_v61, main_v62, main_v63,
    main_v64, main_v65, main_v66, main_v67, main_v68, main_v69, main_v70, main_v71, main_v72, main_v73, main_v74,
    main_v75, main_v76, main_v77, main_v78, main_v79, main_v80, main_cst_12, main_v81, main_v82, main_cst_13,
    main_v83, main_v84, main_v85, main_v86, main_v87, main_cst_14, main_v88, main_v89, main_cst_15, main_v90,
    main_v91, main_v92, main_v93, main_v94, main_cst_16, main_v95, main_v96, main_v97, main_v98, main_v99, main_v100]
set_option maxRecDepth 8192 in
set_option maxHeartbeats 4000000 in
theorem ops1_writes : (ops1 : List (HloOp τ sig (Elt F))).Forall fun op =>
    op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- The buffers window 2 writes, in order. -/
abbrev ops2_W : List (Ref sig .tc) := [main_v101, main_v102, main_c_17, main_v103, main_v104, main_c_18, main_v105,
    main_v106, main_v107, main_v108, main_v109, main_cst_19, main_v110, main_v111, main_v112, main_v113, main_v114,
    main_v115, main_v116, main_v117, main_v118, main_v119, main_v120, main_v121, main_v122, main_v123, main_v124,
    main_v125, main_v126, main_v127, main_v128, main_v129, main_v130, main_v131, main_cst_20, main_v132, main_v133,
    main_cst_21, main_v134, main_v135, main_v136, main_v137, main_v138, main_cst_22, main_v139, main_v140,
    main_cst_23, main_v141, main_v142, main_v143, main_v144, main_v145, main_cst_24, main_v146, main_v147, main_v148,
    main_v149, main_v150, main_v151, main_v152]
set_option maxRecDepth 8192 in
set_option maxHeartbeats 4000000 in
theorem ops2_writes : (ops2 : List (HloOp τ sig (Elt F))).Forall fun op =>
    op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- The buffers window 3 writes, in order. -/
abbrev ops3_W : List (Ref sig .tc) := [main_v153, main_c_25, main_v154, main_v155, main_c_26, main_v156, main_v157,
    main_v158, main_v159, main_v160, main_cst_27, main_v161, main_v162, main_v163, main_v164, main_v165, main_v166,
    main_v167, main_v168, main_v169, main_v170, main_v171, main_v172, main_v173, main_v174, main_v175, main_v176,
    main_v177, main_v178, main_v179, main_v180, main_v181, main_v182, main_cst_28, main_v183, main_v184, main_cst_29,
    main_v185, main_v186, main_v187, main_v188, main_v189, main_cst_30, main_v190, main_v191, main_cst_31, main_v192,
    main_v193, main_v194, main_v195, main_v196, main_cst_32, main_v197, main_v198, main_v199, main_v200, main_v201,
    main_cst_33, main_call1_cst, main_call1_v0, main_call1_v1, main_call1_v2, main_call1_v3, main_call1_v4,
    main_v202, main_v203]
set_option maxRecDepth 8192 in
set_option maxHeartbeats 4000000 in
theorem ops3_writes : (ops3 : List (HloOp τ sig (Elt F))).Forall fun op =>
    op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- The buffers window 4 writes, in order. -/
abbrev ops4_W : List (Ref sig .tc) := [main_v204, main_v205, main_v206, main_v207, main_cst_34, main_call2_cst,
    main_call2_v0, main_call2_v1, main_call2_v2, main_call2_v3, main_call2_v4, main_v208, main_v209, main_v210,
    main_v211, main_v212, main_v213, main_v214, main_cst_35, main_v215, main_v216, main_cst_36, main_v217, main_v218,
    main_cst_37, main_v219, main_cst_38, main_v220, main_v221, main_v222, main_v223, main_c_39, main_v224, main_v225,
    main_c_40, main_v226, main_v227, main_v228, main_v229, main_v230, main_c_41, main_v231, main_v232, main_c_42,
    main_v233, main_v234, main_v235, main_v236, main_v237, main_v238, main_c_43, main_v239, main_v240, main_c_44,
    main_v241, main_v242, main_v243, main_v244, main_v245, main_cst_45, main_v246, main_v247, main_v248, main_v249,
    main_cst_46, main_v250]
set_option maxRecDepth 8192 in
set_option maxHeartbeats 4000000 in
theorem ops4_writes : (ops4 : List (HloOp τ sig (Elt F))).Forall fun op =>
    op.writes ⊆ (ops4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))

/-- The buffers window 5 writes, in order. -/
abbrev ops5_W : List (Ref sig .tc) := [main_v251, main_v252, main_v253, main_v254, main_cst_47, main_v255, main_v256]
set_option maxRecDepth 8192 in
set_option maxHeartbeats 4000000 in
theorem ops5_writes : (ops5 : List (HloOp τ sig (Elt F))).Forall fun op =>
    op.writes ⊆ (ops5_W.map (Proc.devRef (τ := τ) .tc)).toFinset := by
  simp only [List.Forall]
  refine ⟨?_, ?_, ?_, ?_, ?_, ?_, ?_⟩ <;>
    (simp only [nullary_writes, unary_writes, binary_writes, ternary_writes, reshape_writes, Finset.singleton_subset_iff, List.mem_toFinset]; exact List.mem_map_of_mem (by decide))

/-! ## Every operation determines its result

None of them leaves a buffer to the machine's choice: read off each literal operation in turn. -/

set_option maxRecDepth 8192 in
set_option maxHeartbeats 4000000 in
theorem ops0_fresh : ∀ op ∈ (ops0 : List (HloOp τ sig (Elt F))), op.fresh = ∅ := by
  intro _ h; (repeat (cases h with | head => rfl | tail _ h => ?_)); exact nomatch h

set_option maxRecDepth 8192 in
set_option maxHeartbeats 4000000 in
theorem ops1_fresh : ∀ op ∈ (ops1 : List (HloOp τ sig (Elt F))), op.fresh = ∅ := by
  intro _ h; (repeat (cases h with | head => rfl | tail _ h => ?_)); exact nomatch h

set_option maxRecDepth 8192 in
set_option maxHeartbeats 4000000 in
theorem ops2_fresh : ∀ op ∈ (ops2 : List (HloOp τ sig (Elt F))), op.fresh = ∅ := by
  intro _ h; (repeat (cases h with | head => rfl | tail _ h => ?_)); exact nomatch h

set_option maxRecDepth 8192 in
set_option maxHeartbeats 4000000 in
theorem ops3_fresh : ∀ op ∈ (ops3 : List (HloOp τ sig (Elt F))), op.fresh = ∅ := by
  intro _ h; (repeat (cases h with | head => rfl | tail _ h => ?_)); exact nomatch h

set_option maxRecDepth 8192 in
set_option maxHeartbeats 4000000 in
theorem ops4_fresh : ∀ op ∈ (ops4 : List (HloOp τ sig (Elt F))), op.fresh = ∅ := by
  intro _ h; (repeat (cases h with | head => rfl | tail _ h => ?_)); exact nomatch h

set_option maxRecDepth 8192 in
set_option maxHeartbeats 4000000 in
theorem ops5_fresh : ∀ op ∈ (ops5 : List (HloOp τ sig (Elt F))), op.fresh = ∅ := by
  intro _ h; (repeat (cases h with | head => rfl | tail _ h => ?_)); exact nomatch h

end Cert.ReferenceIdeal.RefRun

end
-- ==== Proof.RefRun.lean ====
/- The reference program's run, read off its line of operations.

   @main equals the six windows' lists run in order, so (the signature scoping nothing, every
   operation touching TensorCore buffers only and determining its result) every weakly fair
   execution terminates with each buffer at the fold of the operations over the launch contents.
   The fourteen arguments are written by no operation and so end as they began; the result buffer
   ends at the fold, which is left unexpanded here. -/
import proofs.«142699_j1640677507203_1_alg».proof.Proof.RefRunOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main is the whole line: window by window, joined by the rule for a concatenation. -/
theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h]

/-- Every operation of the line determines its result: none leaves a buffer to the machine's choice. -/
theorem ops_fresh : ∀ op ∈ (ops : List (HloOp τ sig (Elt F))), op.fresh = ∅ := by
  intro op h
  simp only [ops, List.mem_append] at h
  rcases h with h | h | h | h | h | h
  exacts [ops0_fresh op h, ops1_fresh op h, ops2_fresh op h, ops3_fresh op h, ops4_fresh op h, ops5_fresh op h]

/-- The fold over the whole line is the windows' folds, one after the other. -/
theorem after_ops (V : Valuation τ sig (Elt F)) :
    after ops V = after ops5 (after ops4 (after ops3 (after ops2 (after ops1 (after ops0 V))))) := by
  simp only [ops, after_append]

/-- A buffer no window writes keeps its contents through the whole line. -/
theorem keep (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) :
    after ops V (Proc.devRef .tc r) = V (Proc.devRef .tc r) := by
  rw [after_ops]
  exact (after_of_writes_sub ops5 _ ops5_writes h5).trans <|
    (after_of_writes_sub ops4 _ ops4_writes h4).trans <|
    (after_of_writes_sub ops3 _ ops3_writes h3).trans <|
    (after_of_writes_sub ops2 _ ops2_writes h2).trans <|
    (after_of_writes_sub ops1 _ ops1_writes h1).trans <|
    after_of_writes_sub ops0 _ ops0_writes h0

theorem keep_arg0 (V : Valuation τ sig (Elt F)) : after ops V (Proc.devRef .tc main_arg0) = V (Proc.devRef .tc main_arg0) :=
  keep V main_arg0 (by decide) (by decide) (by decide) (by decide) (by decide) (by decide)
theorem keep_arg1 (V : Valuation τ sig (Elt F)) : after ops V (Proc.devRef .tc main_arg1) = V (Proc.devRef .tc main_arg1) :=
  keep V main_arg1 (by decide) (by decide) (by decide) (by decide) (by decide) (by decide)
theorem keep_arg2 (V : Valuation τ sig (Elt F)) : after ops V (Proc.devRef .tc main_arg2) = V (Proc.devRef .tc main_arg2) :=
  keep V main_arg2 (by decide) (by decide) (by decide) (by decide) (by decide) (by decide)
theorem keep_arg3 (V : Valuation τ sig (Elt F)) : after ops V (Proc.devRef .tc main_arg3) = V (Proc.devRef .tc main_arg3) :=
  keep V main_arg3 (by decide) (by decide) (by decide) (by decide) (by decide) (by decide)
theorem keep_arg4 (V : Valuation τ sig (Elt F)) : after ops V (Proc.devRef .tc main_arg4) = V (Proc.devRef .tc main_arg4) :=
  keep V main_arg4 (by decide) (by decide) (by decide) (by decide) (by decide) (by decide)
theorem keep_arg5 (V : Valuation τ sig (Elt F)) : after ops V (Proc.devRef .tc main_arg5) = V (Proc.devRef .tc main_arg5) :=
  keep V main_arg5 (by decide) (by decide) (by decide) (by decide) (by decide) (by decide)
theorem keep_arg6 (V : Valuation τ sig (Elt F)) : after ops V (Proc.devRef .tc main_arg6) = V (Proc.devRef .tc main_arg6) :=
  keep V main_arg6 (by decide) (by decide) (by decide) (by decide) (by decide) (by decide)
theorem keep_arg7 (V : Valuation τ sig (Elt F)) : after ops V (Proc.devRef .tc main_arg7) = V (Proc.devRef .tc main_arg7) :=
  keep V main_arg7 (by decide) (by decide) (by decide) (by decide) (by decide) (by decide)
theorem keep_arg8 (V : Valuation τ sig (Elt F)) : after ops V (Proc.devRef .tc main_arg8) = V (Proc.devRef .tc main_arg8) :=
  keep V main_arg8 (by decide) (by decide) (by decide) (by decide) (by decide) (by decide)
theorem keep_arg9 (V : Valuation τ sig (Elt F)) : after ops V (Proc.devRef .tc main_arg9) = V (Proc.devRef .tc main_arg9) :=
  keep V main_arg9 (by decide) (by decide) (by decide) (by decide) (by decide) (by decide)
theorem keep_arg10 (V : Valuation τ sig (Elt F)) : after ops V (Proc.devRef .tc main_arg10) = V (Proc.devRef .tc main_arg10) :=
  keep V main_arg10 (by decide) (by decide) (by decide) (by decide) (by decide) (by decide)
theorem keep_arg11 (V : Valuation τ sig (Elt F)) : after ops V (Proc.devRef .tc main_arg11) = V (Proc.devRef .tc main_arg11) :=
  keep V main_arg11 (by decide) (by decide) (by decide) (by decide) (by decide) (by decide)
theorem keep_arg12 (V : Valuation τ sig (Elt F)) : after ops V (Proc.devRef .tc main_arg12) = V (Proc.devRef .tc main_arg12) :=
  keep V main_arg12 (by decide) (by decide) (by decide) (by decide) (by decide) (by decide)
theorem keep_arg13 (V : Valuation τ sig (Elt F)) : after ops V (Proc.devRef .tc main_arg13) = V (Proc.devRef .tc main_arg13) :=
  keep V main_arg13 (by decide) (by decide) (by decide) (by decide) (by decide) (by decide)

/-- On every device, for any float values, from any memory with zero counters: every weakly fair execution of
    @main terminates with the result buffer at the fold of the line's operations over the launch contents and
    the fourteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v256) = after ops (launchContents m c) (Proc.devRef .tc main_v256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨h c main_v256,
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c)),
      (h c main_arg10).trans (keep_arg10 (launchContents m c)),
      (h c main_arg11).trans (keep_arg11 (launchContents m c)),
      (h c main_arg12).trans (keep_arg12 (launchContents m c)),
      (h c main_arg13).trans (keep_arg13 (launchContents m c))⟩)
    (run_seq scopedRefs_eq scopedSems_eq defs main (fun _ => ops) main_eq (fun _ => ops_sub) m ρ (fun _ => ops_fresh))

end Cert.ReferenceIdeal.RefRun

end
-- ==== Proof.RefRunVal.lean ====
/- The reference's result as the network's stages.

   The line of operations is cut where the network's stages end: the graph convolution, the three gated
   layers, the head, the loss.  Each stage's operations, folded over any buffer contents, leave the stage's
   output buffer at the stage's function of the buffers it reads; the argument arrays, the two edge rows and
   the earlier stages' outputs pass through the later stages untouched.  Chaining the six stages gives the
   result buffer as the whole network applied to the fourteen argument arrays. -/
import proofs.«142699_j1640677507203_1_alg».proof.Proof.RefRunOps
import proofs.«142699_j1640677507203_1_alg».proof.Proof.Spec
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages' operations -/

/-- The graph convolution: the edge rows, the degree normalisation, the normalised neighbour sum, the self-loop term, the bias and the leaky rectifier (operations 1 … 66 of the line). -/
def stA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v5 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S800000x1 ![0] bcast_S800000_S800000x1_0 : (⟨S800000, .i32⟩ : BufTy).Contents (Elt F) → (⟨S800000x1, .i32⟩ : BufTy).Contents (Elt F)),
    ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v11 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v27 (broadcastInDim S800000 ![] bcast_S_S800000 : (⟨S_, .i32⟩ : BufTy).Contents (Elt F) → (⟨S800000, .i32⟩ : BufTy).Contents (Elt F)),
    binary main_v1 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v29 (broadcastInDim S800000 ![] bcast_S_S800000 : (⟨S_, .i32⟩ : BufTy).Contents (Elt F) → (⟨S800000, .i32⟩ : BufTy).Contents (Elt F)),
    binary main_v1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v4 main_v32 main_v33 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v34 (broadcastInDim S800000x1 ![0] bcast_S800000_S800000x1_0 : (⟨S800000, .f32⟩ : BufTy).Contents (Elt F) → (⟨S800000x1, .f32⟩ : BufTy).Contents (Elt F)),
    unary main_v34 main_v35 (broadcastInDim S800000x128 ![0, 1] bcast_S800000x1_S800000x128_0_1 : (⟨S800000x1, .f32⟩ : BufTy).Contents (Elt F) → (⟨S800000x128, .f32⟩ : BufTy).Contents (Elt F)),
    binary main_v33 main_v35 main_v36 (mulf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v37 (broadcastInDim S50000x128 ![] bcast_S_S50000x128 : (⟨S_, .f32⟩ : BufTy).Contents (Elt F) → (⟨S50000x128, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v11 main_v11 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v4 main_v42 main_v43 (mulf : (⟨S50000x128, .f32⟩ : BufTy).Contents (Elt F) → (⟨S50000x128, .f32⟩ : BufTy).Contents (Elt F) → (⟨S50000x128, .f32⟩ : BufTy).Contents (Elt F)),
    binary main_v39 main_v43 main_v44 (addf : (⟨S50000x128, .f32⟩ : BufTy).Contents (Elt F) → (⟨S50000x128, .f32⟩ : BufTy).Contents (Elt F) → (⟨S50000x128, .f32⟩ : BufTy).Contents (Elt F)),
    unary main_arg4 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3C23D70A#32),
    TRef.nullary main_call0.cst (constant S_ .f32 0x00000000#32),
    TRef.unary main_call0.cst main_call0.v0 (broadcastInDim S50000x128 ![] bcast_S_S50000x128),
    TRef.binary (.of main_v47 : TRef sig ⟨S50000x128, .f32⟩) main_call0.v0 main_call0.v1 (cmpf .oge),
    TRef.unary (.of main_cst_8 : TRef sig ⟨S_, .f32⟩) main_call0.v2 id,
    TRef.unary main_call0.v2 main_call0.v3 (broadcastInDim S50000x128 ![] bcast_S_S50000x128),
    TRef.binary main_call0.v3 (.of main_v47 : TRef sig ⟨S50000x128, .f32⟩) main_call0.v4 mulf,
    TRef.ternary main_call0.v1 (.of main_v47 : TRef sig ⟨S50000x128, .f32⟩) main_call0.v4 main_call0.call0.v0 select ]

/-- The first gated layer: the messages summed at the targets and the recurrent cell (operations 67 … 125 of the line). -/
def stB1 : List (HloOp τ sig (Elt F)) :=
  [ unary main_arg5 main_v49 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v49 main_v50 rfl shapeCasts_S1x128x128_S128x128,
    binary main_v48 main_v50 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_9 (constantI S_ 32 0#32),
    unary main_c_9 main_v52 (broadcastInDim S800000 ![] bcast_S_S800000 : (⟨S_, .i32⟩ : BufTy).Contents (Elt F) → (⟨S800000, .i32⟩ : BufTy).Contents (Elt F)),
    binary main_v1 main_v52 main_v53 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v54 (broadcastInDim S800000 ![] bcast_S_S800000 : (⟨S_, .i32⟩ : BufTy).Contents (Elt F) → (⟨S800000, .i32⟩ : BufTy).Contents (Elt F)),
    binary main_v1 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_v1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v51 main_v57 main_v58 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v3 main_v60 (broadcastInDim S800000x1 ![0] bcast_S800000_S800000x1_0 : (⟨S800000, .i32⟩ : BufTy).Contents (Elt F) → (⟨S800000x1, .i32⟩ : BufTy).Contents (Elt F)),
    ternary main_v59 main_v60 main_v58 main_v61 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v62 ((transpose S128x384 [1, 0] · transposes_S384x128_S128x384_1_0) : (⟨S384x128, .f32⟩ : BufTy).Contents (Elt F) → (⟨S128x384, .f32⟩ : BufTy).Contents (Elt F)),
    binary main_v61 main_v62 main_v63 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg8 main_v64 (broadcastInDim S1x384 ![1] bcast_S384_S1x384_1 : (⟨S384, .f32⟩ : BufTy).Contents (Elt F) → (⟨S1x384, .f32⟩ : BufTy).Contents (Elt F)),
    unary main_v64 main_v65 (broadcastInDim S50000x384 ![0, 1] bcast_S1x384_S50000x384_0_1 : (⟨S1x384, .f32⟩ : BufTy).Contents (Elt F) → (⟨S50000x384, .f32⟩ : BufTy).Contents (Elt F)),
    binary main_v63 main_v65 main_v66 (addf : (⟨S50000x384, .f32⟩ : BufTy).Contents (Elt F) → (⟨S50000x384, .f32⟩ : BufTy).Contents (Elt F) → (⟨S50000x384, .f32⟩ : BufTy).Contents (Elt F)),
    unary main_arg7 main_v67 ((transpose S128x384 [1, 0] · transposes_S384x128_S128x384_1_0) : (⟨S384x128, .f32⟩ : BufTy).Contents (Elt F) → (⟨S128x384, .f32⟩ : BufTy).Contents (Elt F)),
    binary main_v48 main_v67 main_v68 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg9 main_v69 (broadcastInDim S1x384 ![1] bcast_S384_S1x384_1 : (⟨S384, .f32⟩ : BufTy).Contents (Elt F) → (⟨S1x384, .f32⟩ : BufTy).Contents (Elt F)),
    unary main_v69 main_v70 (broadcastInDim S50000x384 ![0, 1] bcast_S1x384_S50000x384_0_1 : (⟨S1x384, .f32⟩ : BufTy).Contents (Elt F) → (⟨S50000x384, .f32⟩ : BufTy).Contents (Elt F)),
    binary main_v68 main_v70 main_v71 (addf : (⟨S50000x384, .f32⟩ : BufTy).Contents (Elt F) → (⟨S50000x384, .f32⟩ : BufTy).Contents (Elt F) → (⟨S50000x384, .f32⟩ : BufTy).Contents (Elt F)),
    unary main_v66 main_v72 ((extractStridedSlice S50000x128 ![0, 0] · slices_S50000x384_S50000x128_0_0) : (⟨S50000x384, .f32⟩ : BufTy).Contents (Elt F) → (⟨S50000x128, .f32⟩ : BufTy).Contents (Elt F)),
    unary main_v66 main_v73 ((extractStridedSlice S50000x128 ![0, 128] · slices_S50000x384_S50000x128_0_128) : (⟨S50000x384, .f32⟩ : BufTy).Contents (Elt F) → (⟨S50000x128, .f32⟩ : BufTy).Contents (Elt F)),
    unary main_v66 main_v74 ((extractStridedSlice S50000x128 ![0, 256] · slices_S50000x384_S50000x128_0_256) : (⟨S50000x384, .f32⟩ : BufTy).Contents (Elt F) → (⟨S50000x128, .f32⟩ : BufTy).Contents (Elt F)),
    unary main_v71 main_v75 ((extractStridedSlice S50000x128 ![0, 0] · slices_S50000x384_S50000x128_0_0) : (⟨S50000x384, .f32⟩ : BufTy).Contents (Elt F) → (⟨S50000x128, .f32⟩ : BufTy).Contents (Elt F)),
    unary main_v71 main_v76 ((extractStridedSlice S50000x128 ![0, 128] · slices_S50000x384_S50000x128_0_128) : (⟨S50000x384, .f32⟩ : BufTy).Contents (Elt F) → (⟨S50000x128, .f32⟩ : BufTy).Contents (Elt F)),
    unary main_v71 main_v77 ((extractStridedSlice S50000x128 ![0, 256] · slices_S50000x384_S50000x128_0_256) : (⟨S50000x384, .f32⟩ : BufTy).Contents (Elt F) → (⟨S50000x128, .f32⟩ : BufTy).Contents (Elt F)),
    binary main_v72 main_v75 main_v78 (addf : (⟨S50000x128, .f32⟩ : BufTy).Contents (Elt F) → (⟨S50000x128, .f32⟩ : BufTy).Contents (Elt F) → (⟨S50000x128, .f32⟩ : BufTy).Contents (Elt F)),
    unary main_v78 main_v79 (Host.negf : (⟨S50000x128, .f32⟩ : BufTy).Contents (Elt F) → (⟨S50000x128, .f32⟩ : BufTy).Contents (Elt F)),
    unary main_v79 main_v80 (Host.exp : (⟨S50000x128, .f32⟩ : BufTy).Contents (Elt F) → (⟨S50000x128, .f32⟩ : BufTy).Contents (Elt F)),
    nullary main_cst_12 (constant S_ .f32 0x3F800000#32),
    unary main_cst_12 main_v81 (broadcastInDim S50000x128 ![] bcast_S_S50000x128 : (⟨S_, .f32⟩ : BufTy).Contents (Elt F) → (⟨S50000x128, .f32⟩ : BufTy).Contents (Elt F)),
    binary main_v81 main_v80 main_v82 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3F800000#32),
    unary main_cst_13 main_v83 (broadcastInDim S50000x128 ![] bcast_S_S50000x128 : (⟨S_, .f32⟩ : BufTy).Contents (Elt F) → (⟨S50000x128, .f32⟩ : BufTy).Contents (Elt F)),
    binary main_v83 main_v82 main_v84 (Host.divf : (⟨S50000x128, .f32⟩ : BufTy).Contents (Elt F) → (⟨S50000x128, .f32⟩ : BufTy).Contents (Elt F) → (⟨S50000x128, .f32⟩ : BufTy).Contents (Elt F)),
    binary main_v73 main_v76 main_v85 (addf : (⟨S50000x128, .f32⟩ : BufTy).Contents (Elt F) → (⟨S50000x128, .f32⟩ : BufTy).Contents (Elt F) → (⟨S50000x128, .f32⟩ : BufTy).Contents (Elt F)),
    unary main_v85 main_v86 (Host.negf : (⟨S50000x128, .f32⟩ : BufTy).Contents (Elt F) → (⟨S50000x128, .f32⟩ : BufTy).Contents (Elt F)),
    unary main_v86 main_v87 (Host.exp : (⟨S50000x128, .f32⟩ : BufTy).Contents (Elt F) → (⟨S50000x128, .f32⟩ : BufTy).Contents (Elt F)),
    nullary main_cst_14 (constant S_ .f32 0x3F800000#32),
    unary main_cst_14 main_v88 (broadcastInDim S50000x128 ![] bcast_S_S50000x128 : (⟨S_, .f32⟩ : BufTy).Contents (Elt F) → (⟨S50000x128, .f32⟩ : BufTy).Contents (Elt F)),
    binary main_v88 main_v87 main_v89 (addf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3F800000#32),
    unary main_cst_15 main_v90 (broadcastInDim S50000x128 ![] bcast_S_S50000x128 : (⟨S_, .f32⟩ : BufTy).Contents (Elt F) → (⟨S50000x128, .f32⟩ : BufTy).Contents (Elt F)),
    binary main_v90 main_v89 main_v91 (Host.divf : (⟨S50000x128, .f32⟩ : BufTy).Contents (Elt F) → (⟨S50000x128, .f32⟩ : BufTy).Contents (Elt F) → (⟨S50000x128, .f32⟩ : BufTy).Contents (Elt F)),
    binary main_v84 main_v77 main_v92 (mulf : (⟨S50000x128, .f32⟩ : BufTy).Contents (Elt F) → (⟨S50000x128, .f32⟩ : BufTy).Contents (Elt F) → (⟨S50000x128, .f32⟩ : BufTy).Contents (Elt F)),
    binary main_v74 main_v92 main_v93 (addf : (⟨S50000x128, .f32⟩ : BufTy).Contents (Elt F) → (⟨S50000x128, .f32⟩ : BufTy).Contents (Elt F) → (⟨S50000x128, .f32⟩ : BufTy).Contents (Elt F)),
    unary main_v93 main_v94 (Host.tanh : (⟨S50000x128, .f32⟩ : BufTy).Contents (Elt F) → (⟨S50000x128, .f32⟩ : BufTy).Contents (Elt F)),
    nullary main_cst_16 (constant S_ .f32 0x3F800000#32),
    unary main_cst_16 main_v95 (broadcastInDim S50000x128 ![] bcast_S_S50000x128 : (⟨S_, .f32⟩ : BufTy).Contents (Elt F) → (⟨S50000x128, .f32⟩ : BufTy).Contents (Elt F)),
    binary main_v95 main_v91 main_v96 (subf : (⟨S50000x128, .f32⟩ : BufTy).Contents (Elt F) → (⟨S50000x128, .f32⟩ : BufTy).Contents (Elt F) → (⟨S50000x128, .f32⟩ : BufTy).Contents (Elt F)),
    binary main_v96 main_v94 main_v97 (mulf : (⟨S50000x128, .f32⟩ : BufTy).Contents (Elt F) → (⟨S50000x128, .f32⟩ : BufTy).Contents (Elt F) → (⟨S50000x128, .f32⟩ : BufTy).Contents (Elt F)),
    binary main_v91 main_v48 main_v98 (mulf : (⟨S50000x128, .f32⟩ : BufTy).Contents (Elt F) → (⟨S50000x128, .f32⟩ : BufTy).Contents (Elt F) → (⟨S50000x128, .f32⟩ : BufTy).Contents (Elt F)),
    binary main_v97 main_v98 main_v99 (addf : (⟨S50000x128, .f32⟩ : BufTy).Contents (Elt F) → (⟨S50000x128, .f32⟩ : BufTy).Contents (Elt F) → (⟨S50000x128, .f32⟩ : BufTy).Contents (Elt F)) ]

/-- The second gated layer (operations 126 … 184 of the line). -/
def stB2 : List (HloOp τ sig (Elt F)) :=
  [ unary main_arg5 main_v100 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v100 main_v101 rfl shapeCasts_S1x128x128_S128x128,
    binary main_v99 main_v101 main_v102 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_17 (constantI S_ 32 0#32),
    unary main_c_17 main_v103 (broadcastInDim S800000 ![] bcast_S_S800000 : (⟨S_, .i32⟩ : BufTy).Contents (Elt F) → (⟨S800000, .i32⟩ : BufTy).Contents (Elt F)),
    binary main_v1 main_v103 main_v104 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v105 (broadcastInDim S800000 ![] bcast_S_S800000 : (⟨S_, .i32⟩ : BufTy).Contents (Elt F) → (⟨S800000, .i32⟩ : BufTy).Contents (Elt F)),
    binary main_v1 main_v105 main_v106 (addi : (⟨S800000, .i32⟩ : BufTy).Contents (Elt F) → (⟨S800000, .i32⟩ : BufTy).Contents (Elt F) → (⟨S800000, .i32⟩ : BufTy).Contents (Elt F)),
    ternary main_v104 main_v106 main_v1 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v107 main_v108 (broadcastInDim S800000x1 ![0] bcast_S800000_S800000x1_0 : (⟨S800000, .i32⟩ : BufTy).Contents (Elt F) → (⟨S800000x1, .i32⟩ : BufTy).Contents (Elt F)),
    binary main_v102 main_v108 main_v109 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_19 (constant S_ .f32 0x00000000#32),
    unary main_cst_19 main_v110 (broadcastInDim S50000x128 ![] bcast_S_S50000x128 : (⟨S_, .f32⟩ : BufTy).Contents (Elt F) → (⟨S50000x128, .f32⟩ : BufTy).Contents (Elt F)),
    unary main_v3 main_v111 (broadcastInDim S800000x1 ![0] bcast_S800000_S800000x1_0 : (⟨S800000, .i32⟩ : BufTy).Contents (Elt F) → (⟨S800000x1, .i32⟩ : BufTy).Contents (Elt F)),
    ternary main_v110 main_v111 main_v109 main_v112 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v113 ((transpose S128x384 [1, 0] · transposes_S384x128_S128x384_1_0) : (⟨S384x128, .f32⟩ : BufTy).Contents (Elt F) → (⟨S128x384, .f32⟩ : BufTy).Contents (Elt F)),
    binary main_v112 main_v113 main_v114 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg8 main_v115 (broadcastInDim S1x384 ![1] bcast_S384_S1x384_1 : (⟨S384, .f32⟩ : BufTy).Contents (Elt F) → (⟨S1x384, .f32⟩ : BufTy).Contents (Elt F)),
    unary main_v115 main_v116 (broadcastInDim S50000x384 ![0, 1] bcast_S1x384_S50000x384_0_1 : (⟨S1x384, .f32⟩ : BufTy).Contents (Elt F) → (⟨S50000x384, .f32⟩ : BufTy).Contents (Elt F)),
    binary main_v114 main_v116 main_v117 (addf : (⟨S50000x384, .f32⟩ : BufTy).Contents (Elt F) → (⟨S50000x384, .f32⟩ : BufTy).Contents (Elt F) → (⟨S50000x384, .f32⟩ : BufTy).Contents (Elt F)),
    unary main_arg7 main_v118 ((transpose S128x384 [1, 0] · transposes_S384x128_S128x384_1_0) : (⟨S384x128, .f32⟩ : BufTy).Contents (Elt F) → (⟨S128x384, .f32⟩ : BufTy).Contents (Elt F)),
    binary main_v99 main_v118 main_v119 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg9 main_v120 (broadcastInDim S1x384 ![1] bcast_S384_S1x384_1 : (⟨S384, .f32⟩ : BufTy).Contents (Elt F) → (⟨S1x384, .f32⟩ : BufTy).Contents (Elt F)),
    unary main_v120 main_v121 (broadcastInDim S50000x384 ![0, 1] bcast_S1x384_S50000x384_0_1 : (⟨S1x384, .f32⟩ : BufTy).Contents (Elt F) → (⟨S50000x384, .f32⟩ : BufTy).Contents (Elt F)),
    binary main_v119 main_v121 main_v122 (addf : (⟨S50000x384, .f32⟩ : BufTy).Contents (Elt F) → (⟨S50000x384, .f32⟩ : BufTy).Contents (Elt F) → (⟨S50000x384, .f32⟩ : BufTy).Contents (Elt F)),
    unary main_v117 main_v123 ((extractStridedSlice S50000x128 ![0, 0] · slices_S50000x384_S50000x128_0_0) : (⟨S50000x384, .f32⟩ : BufTy).Contents (Elt F) → (⟨S50000x128, .f32⟩ : BufTy).Contents (Elt F)),
    unary main_v117 main_v124 ((extractStridedSlice S50000x128 ![0, 128] · slices_S50000x384_S50000x128_0_128) : (⟨S50000x384, .f32⟩ : BufTy).Contents (Elt F) → (⟨S50000x128, .f32⟩ : BufTy).Contents (Elt F)),
    unary main_v117 main_v125 ((extractStridedSlice S50000x128 ![0, 256] · slices_S50000x384_S50000x128_0_256) : (⟨S50000x384, .f32⟩ : BufTy).Contents (Elt F) → (⟨S50000x128, .f32⟩ : BufTy).Contents (Elt F)),
    unary main_v122 main_v126 ((extractStridedSlice S50000x128 ![0, 0] · slices_S50000x384_S50000x128_0_0) : (⟨S50000x384, .f32⟩ : BufTy).Contents (Elt F) → (⟨S50000x128, .f32⟩ : BufTy).Contents (Elt F)),
    unary main_v122 main_v127 ((extractStridedSlice S50000x128 ![0, 128] · slices_S50000x384_S50000x128_0_128) : (⟨S50000x384, .f32⟩ : BufTy).Contents (Elt F) → (⟨S50000x128, .f32⟩ : BufTy).Contents (Elt F)),
    unary main_v122 main_v128 ((extractStridedSlice S50000x128 ![0, 256] · slices_S50000x384_S50000x128_0_256) : (⟨S50000x384, .f32⟩ : BufTy).Contents (Elt F) → (⟨S50000x128, .f32⟩ : BufTy).Contents (Elt F)),
    binary main_v123 main_v126 main_v129 (addf : (⟨S50000x128, .f32⟩ : BufTy).Contents (Elt F) → (⟨S50000x128, .f32⟩ : BufTy).Contents (Elt F) → (⟨S50000x128, .f32⟩ : BufTy).Contents (Elt F)),
    unary main_v129 main_v130 (Host.negf : (⟨S50000x128, .f32⟩ : BufTy).Contents (Elt F) → (⟨S50000x128, .f32⟩ : BufTy).Contents (Elt F)),
    unary main_v130 main_v131 (Host.exp : (⟨S50000x128, .f32⟩ : BufTy).Contents (Elt F) → (⟨S50000x128, .f32⟩ : BufTy).Contents (Elt F)),
    nullary main_cst_20 (constant S_ .f32 0x3F800000#32),
    unary main_cst_20 main_v132 (broadcastInDim S50000x128 ![] bcast_S_S50000x128 : (⟨S_, .f32⟩ : BufTy).Contents (Elt F) → (⟨S50000x128, .f32⟩ : BufTy).Contents (Elt F)),
    binary main_v132 main_v131 main_v133 (addf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3F800000#32),
    unary main_cst_21 main_v134 (broadcastInDim S50000x128 ![] bcast_S_S50000x128 : (⟨S_, .f32⟩ : BufTy).Contents (Elt F) → (⟨S50000x128, .f32⟩ : BufTy).Contents (Elt F)),
    binary main_v134 main_v133 main_v135 (Host.divf : (⟨S50000x128, .f32⟩ : BufTy).Contents (Elt F) → (⟨S50000x128, .f32⟩ : BufTy).Contents (Elt F) → (⟨S50000x128, .f32⟩ : BufTy).Contents (Elt F)),
    binary main_v124 main_v127 main_v136 (addf : (⟨S50000x128, .f32⟩ : BufTy).Contents (Elt F) → (⟨S50000x128, .f32⟩ : BufTy).Contents (Elt F) → (⟨S50000x128, .f32⟩ : BufTy).Contents (Elt F)),
    unary main_v136 main_v137 (Host.negf : (⟨S50000x128, .f32⟩ : BufTy).Contents (Elt F) → (⟨S50000x128, .f32⟩ : BufTy).Contents (Elt F)),
    unary main_v137 main_v138 (Host.exp : (⟨S50000x128, .f32⟩ : BufTy).Contents (Elt F) → (⟨S50000x128, .f32⟩ : BufTy).Contents (Elt F)),
    nullary main_cst_22 (constant S_ .f32 0x3F800000#32),
    unary main_cst_22 main_v139 (broadcastInDim S50000x128 ![] bcast_S_S50000x128 : (⟨S_, .f32⟩ : BufTy).Contents (Elt F) → (⟨S50000x128, .f32⟩ : BufTy).Contents (Elt F)),
    binary main_v139 main_v138 main_v140 (addf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3F800000#32),
    unary main_cst_23 main_v141 (broadcastInDim S50000x128 ![] bcast_S_S50000x128 : (⟨S_, .f32⟩ : BufTy).Contents (Elt F) → (⟨S50000x128, .f32⟩ : BufTy).Contents (Elt F)),
    binary main_v141 main_v140 main_v142 (Host.divf : (⟨S50000x128, .f32⟩ : BufTy).Contents (Elt F) → (⟨S50000x128, .f32⟩ : BufTy).Contents (Elt F) → (⟨S50000x128, .f32⟩ : BufTy).Contents (Elt F)),
    binary main_v135 main_v128 main_v143 (mulf : (⟨S50000x128, .f32⟩ : BufTy).Contents (Elt F) → (⟨S50000x128, .f32⟩ : BufTy).Contents (Elt F) → (⟨S50000x128, .f32⟩ : BufTy).Contents (Elt F)),
    binary main_v125 main_v143 main_v144 (addf : (⟨S50000x128, .f32⟩ : BufTy).Contents (Elt F) → (⟨S50000x128, .f32⟩ : BufTy).Contents (Elt F) → (⟨S50000x128, .f32⟩ : BufTy).Contents (Elt F)),
    unary main_v144 main_v145 (Host.tanh : (⟨S50000x128, .f32⟩ : BufTy).Contents (Elt F) → (⟨S50000x128, .f32⟩ : BufTy).Contents (Elt F)),
    nullary main_cst_24 (constant S_ .f32 0x3F800000#32),
    unary main_cst_24 main_v146 (broadcastInDim S50000x128 ![] bcast_S_S50000x128 : (⟨S_, .f32⟩ : BufTy).Contents (Elt F) → (⟨S50000x128, .f32⟩ : BufTy).Contents (Elt F)),
    binary main_v146 main_v142 main_v147 (subf : (⟨S50000x128, .f32⟩ : BufTy).Contents (Elt F) → (⟨S50000x128, .f32⟩ : BufTy).Contents (Elt F) → (⟨S50000x128, .f32⟩ : BufTy).Contents (Elt F)),
    binary main_v147 main_v145 main_v148 (mulf : (⟨S50000x128, .f32⟩ : BufTy).Contents (Elt F) → (⟨S50000x128, .f32⟩ : BufTy).Contents (Elt F) → (⟨S50000x128, .f32⟩ : BufTy).Contents (Elt F)),
    binary main_v142 main_v99 main_v149 (mulf : (⟨S50000x128, .f32⟩ : BufTy).Contents (Elt F) → (⟨S50000x128, .f32⟩ : BufTy).Contents (Elt F) → (⟨S50000x128, .f32⟩ : BufTy).Contents (Elt F)),
    binary main_v148 main_v149 main_v150 (addf : (⟨S50000x128, .f32⟩ : BufTy).Contents (Elt F) → (⟨S50000x128, .f32⟩ : BufTy).Contents (Elt F) → (⟨S50000x128, .f32⟩ : BufTy).Contents (Elt F)) ]

/-- The third gated layer (operations 185 … 243 of the line). -/
def stB3 : List (HloOp τ sig (Elt F)) :=
  [ unary main_arg5 main_v151 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v151 main_v152 rfl shapeCasts_S1x128x128_S128x128,
    binary main_v150 main_v152 main_v153 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_25 (constantI S_ 32 0#32),
    unary main_c_25 main_v154 (broadcastInDim S800000 ![] bcast_S_S800000 : (⟨S_, .i32⟩ : BufTy).Contents (Elt F) → (⟨S800000, .i32⟩ : BufTy).Contents (Elt F)),
    binary main_v1 main_v154 main_v155 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v156 (broadcastInDim S800000 ![] bcast_S_S800000 : (⟨S_, .i32⟩ : BufTy).Contents (Elt F) → (⟨S800000, .i32⟩ : BufTy).Contents (Elt F)),
    binary main_v1 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v153 main_v159 main_v160 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_27 (constant S_ .f32 0x00000000#32),
    unary main_cst_27 main_v161 (broadcastInDim S50000x128 ![] bcast_S_S50000x128 : (⟨S_, .f32⟩ : BufTy).Contents (Elt F) → (⟨S50000x128, .f32⟩ : BufTy).Contents (Elt F)),
    unary main_v3 main_v162 (broadcastInDim S800000x1 ![0] bcast_S800000_S800000x1_0 : (⟨S800000, .i32⟩ : BufTy).Contents (Elt F) → (⟨S800000x1, .i32⟩ : BufTy).Contents (Elt F)),
    ternary main_v161 main_v162 main_v160 main_v163 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v164 ((transpose S128x384 [1, 0] · transposes_S384x128_S128x384_1_0) : (⟨S384x128, .f32⟩ : BufTy).Contents (Elt F) → (⟨S128x384, .f32⟩ : BufTy).Contents (Elt F)),
    binary main_v163 main_v164 main_v165 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg8 main_v166 (broadcastInDim S1x384 ![1] bcast_S384_S1x384_1 : (⟨S384, .f32⟩ : BufTy).Contents (Elt F) → (⟨S1x384, .f32⟩ : BufTy).Contents (Elt F)),
    unary main_v166 main_v167 (broadcastInDim S50000x384 ![0, 1] bcast_S1x384_S50000x384_0_1 : (⟨S1x384, .f32⟩ : BufTy).Contents (Elt F) → (⟨S50000x384, .f32⟩ : BufTy).Contents (Elt F)),
    binary main_v165 main_v167 main_v168 (addf : (⟨S50000x384, .f32⟩ : BufTy).Contents (Elt F) → (⟨S50000x384, .f32⟩ : BufTy).Contents (Elt F) → (⟨S50000x384, .f32⟩ : BufTy).Contents (Elt F)),
    unary main_arg7 main_v169 ((transpose S128x384 [1, 0] · transposes_S384x128_S128x384_1_0) : (⟨S384x128, .f32⟩ : BufTy).Contents (Elt F) → (⟨S128x384, .f32⟩ : BufTy).Contents (Elt F)),
    binary main_v150 main_v169 main_v170 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg9 main_v171 (broadcastInDim S1x384 ![1] bcast_S384_S1x384_1 : (⟨S384, .f32⟩ : BufTy).Contents (Elt F) → (⟨S1x384, .f32⟩ : BufTy).Contents (Elt F)),
    unary main_v171 main_v172 (broadcastInDim S50000x384 ![0, 1] bcast_S1x384_S50000x384_0_1 : (⟨S1x384, .f32⟩ : BufTy).Contents (Elt F) → (⟨S50000x384, .f32⟩ : BufTy).Contents (Elt F)),
    binary main_v170 main_v172 main_v173 (addf : (⟨S50000x384, .f32⟩ : BufTy).Contents (Elt F) → (⟨S50000x384, .f32⟩ : BufTy).Contents (Elt F) → (⟨S50000x384, .f32⟩ : BufTy).Contents (Elt F)),
    unary main_v168 main_v174 ((extractStridedSlice S50000x128 ![0, 0] · slices_S50000x384_S50000x128_0_0) : (⟨S50000x384, .f32⟩ : BufTy).Contents (Elt F) → (⟨S50000x128, .f32⟩ : BufTy).Contents (Elt F)),
    unary main_v168 main_v175 ((extractStridedSlice S50000x128 ![0, 128] · slices_S50000x384_S50000x128_0_128) : (⟨S50000x384, .f32⟩ : BufTy).Contents (Elt F) → (⟨S50000x128, .f32⟩ : BufTy).Contents (Elt F)),
    unary main_v168 main_v176 ((extractStridedSlice S50000x128 ![0, 256] · slices_S50000x384_S50000x128_0_256) : (⟨S50000x384, .f32⟩ : BufTy).Contents (Elt F) → (⟨S50000x128, .f32⟩ : BufTy).Contents (Elt F)),
    unary main_v173 main_v177 ((extractStridedSlice S50000x128 ![0, 0] · slices_S50000x384_S50000x128_0_0) : (⟨S50000x384, .f32⟩ : BufTy).Contents (Elt F) → (⟨S50000x128, .f32⟩ : BufTy).Contents (Elt F)),
    unary main_v173 main_v178 ((extractStridedSlice S50000x128 ![0, 128] · slices_S50000x384_S50000x128_0_128) : (⟨S50000x384, .f32⟩ : BufTy).Contents (Elt F) → (⟨S50000x128, .f32⟩ : BufTy).Contents (Elt F)),
    unary main_v173 main_v179 ((extractStridedSlice S50000x128 ![0, 256] · slices_S50000x384_S50000x128_0_256) : (⟨S50000x384, .f32⟩ : BufTy).Contents (Elt F) → (⟨S50000x128, .f32⟩ : BufTy).Contents (Elt F)),
    binary main_v174 main_v177 main_v180 (addf : (⟨S50000x128, .f32⟩ : BufTy).Contents (Elt F) → (⟨S50000x128, .f32⟩ : BufTy).Contents (Elt F) → (⟨S50000x128, .f32⟩ : BufTy).Contents (Elt F)),
    unary main_v180 main_v181 (Host.negf : (⟨S50000x128, .f32⟩ : BufTy).Contents (Elt F) → (⟨S50000x128, .f32⟩ : BufTy).Contents (Elt F)),
    unary main_v181 main_v182 (Host.exp : (⟨S50000x128, .f32⟩ : BufTy).Contents (Elt F) → (⟨S50000x128, .f32⟩ : BufTy).Contents (Elt F)),
    nullary main_cst_28 (constant S_ .f32 0x3F800000#32),
    unary main_cst_28 main_v183 (broadcastInDim S50000x128 ![] bcast_S_S50000x128 : (⟨S_, .f32⟩ : BufTy).Contents (Elt F) → (⟨S50000x128, .f32⟩ : BufTy).Contents (Elt F)),
    binary main_v183 main_v182 main_v184 (addf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x3F800000#32),
    unary main_cst_29 main_v185 (broadcastInDim S50000x128 ![] bcast_S_S50000x128 : (⟨S_, .f32⟩ : BufTy).Contents (Elt F) → (⟨S50000x128, .f32⟩ : BufTy).Contents (Elt F)),
    binary main_v185 main_v184 main_v186 (Host.divf : (⟨S50000x128, .f32⟩ : BufTy).Contents (Elt F) → (⟨S50000x128, .f32⟩ : BufTy).Contents (Elt F) → (⟨S50000x128, .f32⟩ : BufTy).Contents (Elt F)),
    binary main_v175 main_v178 main_v187 (addf : (⟨S50000x128, .f32⟩ : BufTy).Contents (Elt F) → (⟨S50000x128, .f32⟩ : BufTy).Contents (Elt F) → (⟨S50000x128, .f32⟩ : BufTy).Contents (Elt F)),
    unary main_v187 main_v188 (Host.negf : (⟨S50000x128, .f32⟩ : BufTy).Contents (Elt F) → (⟨S50000x128, .f32⟩ : BufTy).Contents (Elt F)),
    unary main_v188 main_v189 (Host.exp : (⟨S50000x128, .f32⟩ : BufTy).Contents (Elt F) → (⟨S50000x128, .f32⟩ : BufTy).Contents (Elt F)),
    nullary main_cst_30 (constant S_ .f32 0x3F800000#32),
    unary main_cst_30 main_v190 (broadcastInDim S50000x128 ![] bcast_S_S50000x128 : (⟨S_, .f32⟩ : BufTy).Contents (Elt F) → (⟨S50000x128, .f32⟩ : BufTy).Contents (Elt F)),
    binary main_v190 main_v189 main_v191 (addf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x3F800000#32),
    unary main_cst_31 main_v192 (broadcastInDim S50000x128 ![] bcast_S_S50000x128 : (⟨S_, .f32⟩ : BufTy).Contents (Elt F) → (⟨S50000x128, .f32⟩ : BufTy).Contents (Elt F)),
    binary main_v192 main_v191 main_v193 (Host.divf : (⟨S50000x128, .f32⟩ : BufTy).Contents (Elt F) → (⟨S50000x128, .f32⟩ : BufTy).Contents (Elt F) → (⟨S50000x128, .f32⟩ : BufTy).Contents (Elt F)),
    binary main_v186 main_v179 main_v194 (mulf : (⟨S50000x128, .f32⟩ : BufTy).Contents (Elt F) → (⟨S50000x128, .f32⟩ : BufTy).Contents (Elt F) → (⟨S50000x128, .f32⟩ : BufTy).Contents (Elt F)),
    binary main_v176 main_v194 main_v195 (addf : (⟨S50000x128, .f32⟩ : BufTy).Contents (Elt F) → (⟨S50000x128, .f32⟩ : BufTy).Contents (Elt F) → (⟨S50000x128, .f32⟩ : BufTy).Contents (Elt F)),
    unary main_v195 main_v196 (Host.tanh : (⟨S50000x128, .f32⟩ : BufTy).Contents (Elt F) → (⟨S50000x128, .f32⟩ : BufTy).Contents (Elt F)),
    nullary main_cst_32 (constant S_ .f32 0x3F800000#32),
    unary main_cst_32 main_v197 (broadcastInDim S50000x128 ![] bcast_S_S50000x128 : (⟨S_, .f32⟩ : BufTy).Contents (Elt F) → (⟨S50000x128, .f32⟩ : BufTy).Contents (Elt F)),
    binary main_v197 main_v193 main_v198 (subf : (⟨S50000x128, .f32⟩ : BufTy).Contents (Elt F) → (⟨S50000x128, .f32⟩ : BufTy).Contents (Elt F) → (⟨S50000x128, .f32⟩ : BufTy).Contents (Elt F)),
    binary main_v198 main_v196 main_v199 (mulf : (⟨S50000x128, .f32⟩ : BufTy).Contents (Elt F) → (⟨S50000x128, .f32⟩ : BufTy).Contents (Elt F) → (⟨S50000x128, .f32⟩ : BufTy).Contents (Elt F)),
    binary main_v193 main_v150 main_v200 (mulf : (⟨S50000x128, .f32⟩ : BufTy).Contents (Elt F) → (⟨S50000x128, .f32⟩ : BufTy).Contents (Elt F) → (⟨S50000x128, .f32⟩ : BufTy).Contents (Elt F)),
    binary main_v199 main_v200 main_v201 (addf : (⟨S50000x128, .f32⟩ : BufTy).Contents (Elt F) → (⟨S50000x128, .f32⟩ : BufTy).Contents (Elt F) → (⟨S50000x128, .f32⟩ : BufTy).Contents (Elt F)) ]

/-- The head: the rectified state plus the convolution's output, two dense layers and the logistic quotient (operations 244 … 276 of the line). -/
def stC : List (HloOp τ sig (Elt F)) :=
  [ nullary main_cst_33 (constant S_ .f32 0x3C23D70A#32),
    TRef.nullary main_call1.cst (constant S_ .f32 0x00000000#32),
    TRef.unary main_call1.cst main_call1.v0 (broadcastInDim S50000x128 ![] bcast_S_S50000x128),
    TRef.binary (.of main_v201 : TRef sig ⟨S50000x128, .f32⟩) main_call1.v0 main_call1.v1 (cmpf .oge),
    TRef.unary (.of main_cst_33 : TRef sig ⟨S_, .f32⟩) main_call1.v2 id,
    TRef.unary main_call1.v2 main_call1.v3 (broadcastInDim S50000x128 ![] bcast_S_S50000x128),
    TRef.binary main_call1.v3 (.of main_v201 : TRef sig ⟨S50000x128, .f32⟩) main_call1.v4 mulf,
    TRef.ternary main_call1.v1 (.of main_v201 : TRef sig ⟨S50000x128, .f32⟩) main_call1.v4 main_call1.call0.v0 select,
    binary main_v202 main_v48 main_v203 (addf : (⟨S50000x128, .f32⟩ : BufTy).Contents (Elt F) → (⟨S50000x128, .f32⟩ : BufTy).Contents (Elt F) → (⟨S50000x128, .f32⟩ : BufTy).Contents (Elt F)),
    binary main_v203 main_arg10 main_v204 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v205 (broadcastInDim S1x128 ![1] bcast_S128_S1x128_1 : (⟨S128, .f32⟩ : BufTy).Contents (Elt F) → (⟨S1x128, .f32⟩ : BufTy).Contents (Elt F)),
    unary main_v205 main_v206 (broadcastInDim S50000x128 ![0, 1] bcast_S1x128_S50000x128_0_1 : (⟨S1x128, .f32⟩ : BufTy).Contents (Elt F) → (⟨S50000x128, .f32⟩ : BufTy).Contents (Elt F)),
    binary main_v204 main_v206 main_v207 (addf : (⟨S50000x128, .f32⟩ : BufTy).Contents (Elt F) → (⟨S50000x128, .f32⟩ : BufTy).Contents (Elt F) → (⟨S50000x128, .f32⟩ : BufTy).Contents (Elt F)),
    nullary main_cst_34 (constant S_ .f32 0x3C23D70A#32),
    TRef.nullary main_call2.cst (constant S_ .f32 0x00000000#32),
    TRef.unary main_call2.cst main_call2.v0 (broadcastInDim S50000x128 ![] bcast_S_S50000x128),
    TRef.binary (.of main_v207 : TRef sig ⟨S50000x128, .f32⟩) main_call2.v0 main_call2.v1 (cmpf .oge),
    TRef.unary (.of main_cst_34 : TRef sig ⟨S_, .f32⟩) main_call2.v2 id,
    TRef.unary main_call2.v2 main_call2.v3 (broadcastInDim S50000x128 ![] bcast_S_S50000x128),
    TRef.binary main_call2.v3 (.of main_v207 : TRef sig ⟨S50000x128, .f32⟩) main_call2.v4 mulf,
    TRef.ternary main_call2.v1 (.of main_v207 : TRef sig ⟨S50000x128, .f32⟩) main_call2.v4 main_call2.call0.v0 select,
    binary main_v208 main_arg12 main_v209 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg13 main_v210 (broadcastInDim S1x1 ![1] bcast_S1_S1x1_1 : (⟨S1, .f32⟩ : BufTy).Contents (Elt F) → (⟨S1x1, .f32⟩ : BufTy).Contents (Elt F)),
    unary main_v210 main_v211 (broadcastInDim S50000x1 ![0, 1] bcast_S1x1_S50000x1_0_1 : (⟨S1x1, .f32⟩ : BufTy).Contents (Elt F) → (⟨S50000x1, .f32⟩ : BufTy).Contents (Elt F)),
    binary main_v209 main_v211 main_v212 (addf : (⟨S50000x1, .f32⟩ : BufTy).Contents (Elt F) → (⟨S50000x1, .f32⟩ : BufTy).Contents (Elt F) → (⟨S50000x1, .f32⟩ : BufTy).Contents (Elt F)),
    unary main_v212 main_v213 (Host.negf : (⟨S50000x1, .f32⟩ : BufTy).Contents (Elt F) → (⟨S50000x1, .f32⟩ : BufTy).Contents (Elt F)),
    unary main_v213 main_v214 (Host.exp : (⟨S50000x1, .f32⟩ : BufTy).Contents (Elt F) → (⟨S50000x1, .f32⟩ : BufTy).Contents (Elt F)),
    nullary main_cst_35 (constant S_ .f32 0x3F800000#32),
    unary main_cst_35 main_v215 (broadcastInDim S50000x1 ![] bcast_S_S50000x1 : (⟨S_, .f32⟩ : BufTy).Contents (Elt F) → (⟨S50000x1, .f32⟩ : BufTy).Contents (Elt F)),
    binary main_v215 main_v214 main_v216 (addf : (⟨S50000x1, .f32⟩ : BufTy).Contents (Elt F) → (⟨S50000x1, .f32⟩ : BufTy).Contents (Elt F) → (⟨S50000x1, .f32⟩ : BufTy).Contents (Elt F)),
    nullary main_cst_36 (constant S_ .f32 0x3F800000#32),
    unary main_cst_36 main_v217 (broadcastInDim S50000x1 ![] bcast_S_S50000x1 : (⟨S_, .f32⟩ : BufTy).Contents (Elt F) → (⟨S50000x1, .f32⟩ : BufTy).Contents (Elt F)),
    binary main_v217 main_v216 main_v218 (Host.divf : (⟨S50000x1, .f32⟩ : BufTy).Contents (Elt F) → (⟨S50000x1, .f32⟩ : BufTy).Contents (Elt F) → (⟨S50000x1, .f32⟩ : BufTy).Contents (Elt F)) ]

/-- The loss: the two per-graph sums, their difference, minus a half of it (operations 277 … 325 of the line). -/
def stD : List (HloOp τ sig (Elt F)) :=
  [ nullary main_cst_37 (constant S_ .f32 0x3F800000#32),
    unary main_cst_37 main_v219 (broadcastInDim S800000 ![] bcast_S_S800000 : (⟨S_, .f32⟩ : BufTy).Contents (Elt F) → (⟨S800000, .f32⟩ : BufTy).Contents (Elt F)),
    nullary main_cst_38 (constant S_ .f32 0x00000000#32),
    unary main_cst_38 main_v220 (broadcastInDim S50000 ![] bcast_S_S50000 : (⟨S_, .f32⟩ : BufTy).Contents (Elt F) → (⟨S50000, .f32⟩ : BufTy).Contents (Elt F)),
    unary main_v1 main_v221 (broadcastInDim S800000x1 ![0] bcast_S800000_S800000x1_0 : (⟨S800000, .i32⟩ : BufTy).Contents (Elt F) → (⟨S800000x1, .i32⟩ : BufTy).Contents (Elt F)),
    ternary main_v220 main_v221 main_v219 main_v222 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    unary main_v222 main_v223 (broadcastInDim S50000x1 ![0] bcast_S50000_S50000x1_0 : (⟨S50000, .f32⟩ : BufTy).Contents (Elt F) → (⟨S50000x1, .f32⟩ : BufTy).Contents (Elt F)),
    nullary main_c_39 (constantI S_ 32 0#32),
    unary main_c_39 main_v224 (broadcastInDim S800000 ![] bcast_S_S800000 : (⟨S_, .i32⟩ : BufTy).Contents (Elt F) → (⟨S800000, .i32⟩ : BufTy).Contents (Elt F)),
    binary main_v1 main_v224 main_v225 (cmpi .slt : (⟨S800000, .i32⟩ : BufTy).Contents (Elt F) → (⟨S800000, .i32⟩ : BufTy).Contents (Elt F) → (⟨S800000, .i1⟩ : BufTy).Contents (Elt F)),
    nullary main_c_40 (constantI S_ 32 50000#32),
    unary main_c_40 main_v226 (broadcastInDim S800000 ![] bcast_S_S800000 : (⟨S_, .i32⟩ : BufTy).Contents (Elt F) → (⟨S800000, .i32⟩ : BufTy).Contents (Elt F)),
    binary main_v1 main_v226 main_v227 (addi : (⟨S800000, .i32⟩ : BufTy).Contents (Elt F) → (⟨S800000, .i32⟩ : BufTy).Contents (Elt F) → (⟨S800000, .i32⟩ : BufTy).Contents (Elt F)),
    ternary main_v225 main_v227 main_v1 main_v228 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v228 main_v229 (broadcastInDim S800000x1 ![0] bcast_S800000_S800000x1_0 : (⟨S800000, .i32⟩ : BufTy).Contents (Elt F) → (⟨S800000x1, .i32⟩ : BufTy).Contents (Elt F)),
    binary main_v218 main_v229 main_v230 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    nullary main_c_41 (constantI S_ 32 0#32),
    unary main_c_41 main_v231 (broadcastInDim S800000 ![] bcast_S_S800000 : (⟨S_, .i32⟩ : BufTy).Contents (Elt F) → (⟨S800000, .i32⟩ : BufTy).Contents (Elt F)),
    binary main_v3 main_v231 main_v232 (cmpi .slt : (⟨S800000, .i32⟩ : BufTy).Contents (Elt F) → (⟨S800000, .i32⟩ : BufTy).Contents (Elt F) → (⟨S800000, .i1⟩ : BufTy).Contents (Elt F)),
    nullary main_c_42 (constantI S_ 32 50000#32),
    unary main_c_42 main_v233 (broadcastInDim S800000 ![] bcast_S_S800000 : (⟨S_, .i32⟩ : BufTy).Contents (Elt F) → (⟨S800000, .i32⟩ : BufTy).Contents (Elt F)),
    binary main_v3 main_v233 main_v234 (addi : (⟨S800000, .i32⟩ : BufTy).Contents (Elt F) → (⟨S800000, .i32⟩ : BufTy).Contents (Elt F) → (⟨S800000, .i32⟩ : BufTy).Contents (Elt F)),
    ternary main_v232 main_v234 main_v3 main_v235 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v235 main_v236 (broadcastInDim S800000x1 ![0] bcast_S800000_S800000x1_0 : (⟨S800000, .i32⟩ : BufTy).Contents (Elt F) → (⟨S800000x1, .i32⟩ : BufTy).Contents (Elt F)),
    binary main_v218 main_v236 main_v237 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    binary main_v230 main_v237 main_v238 (mulf : (⟨S800000x1, .f32⟩ : BufTy).Contents (Elt F) → (⟨S800000x1, .f32⟩ : BufTy).Contents (Elt F) → (⟨S800000x1, .f32⟩ : BufTy).Contents (Elt F)),
    nullary main_c_43 (constantI S_ 32 0#32),
    unary main_c_43 main_v239 (broadcastInDim S800000 ![] bcast_S_S800000 : (⟨S_, .i32⟩ : BufTy).Contents (Elt F) → (⟨S800000, .i32⟩ : BufTy).Contents (Elt F)),
    binary main_v1 main_v239 main_v240 (cmpi .slt : (⟨S800000, .i32⟩ : BufTy).Contents (Elt F) → (⟨S800000, .i32⟩ : BufTy).Contents (Elt F) → (⟨S800000, .i1⟩ : BufTy).Contents (Elt F)),
    nullary main_c_44 (constantI S_ 32 50000#32),
    unary main_c_44 main_v241 (broadcastInDim S800000 ![] bcast_S_S800000 : (⟨S_, .i32⟩ : BufTy).Contents (Elt F) → (⟨S800000, .i32⟩ : BufTy).Contents (Elt F)),
    binary main_v1 main_v241 main_v242 (addi : (⟨S800000, .i32⟩ : BufTy).Contents (Elt F) → (⟨S800000, .i32⟩ : BufTy).Contents (Elt F) → (⟨S800000, .i32⟩ : BufTy).Contents (Elt F)),
    ternary main_v240 main_v242 main_v1 main_v243 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v243 main_v244 (broadcastInDim S800000x1 ![0] bcast_S800000_S800000x1_0 : (⟨S800000, .i32⟩ : BufTy).Contents (Elt F) → (⟨S800000x1, .i32⟩ : BufTy).Contents (Elt F)),
    binary main_arg2 main_v244 main_v245 ((fun x i => Host.gather gather_S50000_S800000x1_S800000_n_0_n_n_0_1_1 x i) : (⟨S50000, .i32⟩ : BufTy).Contents (Elt F) → (⟨S800000x1, .i32⟩ : BufTy).Contents (Elt F) → (⟨S800000, .i32⟩ : BufTy).Contents (Elt F)),
    nullary main_cst_45 (constant S_ .f32 0x00000000#32),
    unary main_cst_45 main_v246 (broadcastInDim S64x1 ![] bcast_S_S64x1 : (⟨S_, .f32⟩ : BufTy).Contents (Elt F) → (⟨S64x1, .f32⟩ : BufTy).Contents (Elt F)),
    unary main_v245 main_v247 (broadcastInDim S800000x1 ![0] bcast_S800000_S800000x1_0 : (⟨S800000, .i32⟩ : BufTy).Contents (Elt F) → (⟨S800000x1, .i32⟩ : BufTy).Contents (Elt F)),
    ternary main_v246 main_v247 main_v238 main_v248 ((fun x i u => Host.scatterAdd scatter_S64x1_S800000x1_S800000x1_1_0_0_1 x i u) : (⟨S64x1, .f32⟩ : BufTy).Contents (Elt F) → (⟨S800000x1, .i32⟩ : BufTy).Contents (Elt F) → (⟨S800000x1, .f32⟩ : BufTy).Contents (Elt F) → (⟨S64x1, .f32⟩ : BufTy).Contents (Elt F)),
    binary main_v218 main_v223 main_v249 (mulf : (⟨S50000x1, .f32⟩ : BufTy).Contents (Elt F) → (⟨S50000x1, .f32⟩ : BufTy).Contents (Elt F) → (⟨S50000x1, .f32⟩ : BufTy).Contents (Elt F)),
    nullary main_cst_46 (constant S_ .f32 0x00000000#32),
    unary main_cst_46 main_v250 (broadcastInDim S64x1 ![] bcast_S_S64x1 : (⟨S_, .f32⟩ : BufTy).Contents (Elt F) → (⟨S64x1, .f32⟩ : BufTy).Contents (Elt F)),
    unary main_arg2 main_v251 (broadcastInDim S50000x1 ![0] bcast_S50000_S50000x1_0 : (⟨S50000, .i32⟩ : BufTy).Contents (Elt F) → (⟨S50000x1, .i32⟩ : BufTy).Contents (Elt F)),
    ternary main_v250 main_v251 main_v249 main_v252 ((fun x i u => Host.scatterAdd scatter_S64x1_S50000x1_S50000x1_1_0_0_1 x i u) : (⟨S64x1, .f32⟩ : BufTy).Contents (Elt F) → (⟨S50000x1, .i32⟩ : BufTy).Contents (Elt F) → (⟨S50000x1, .f32⟩ : BufTy).Contents (Elt F) → (⟨S64x1, .f32⟩ : BufTy).Contents (Elt F)),
    binary main_v252 main_v248 main_v253 (subf : (⟨S64x1, .f32⟩ : BufTy).Contents (Elt F) → (⟨S64x1, .f32⟩ : BufTy).Contents (Elt F) → (⟨S64x1, .f32⟩ : BufTy).Contents (Elt F)),
    unary main_v253 main_v254 (Host.negf : (⟨S64x1, .f32⟩ : BufTy).Contents (Elt F) → (⟨S64x1, .f32⟩ : BufTy).Contents (Elt F)),
    nullary main_cst_47 (constant S_ .f32 0x40000000#32),
    unary main_cst_47 main_v255 (broadcastInDim S64x1 ![] bcast_S_S64x1 : (⟨S_, .f32⟩ : BufTy).Contents (Elt F) → (⟨S64x1, .f32⟩ : BufTy).Contents (Elt F)),
    binary main_v254 main_v255 main_v256 (Host.divf : (⟨S64x1, .f32⟩ : BufTy).Contents (Elt F) → (⟨S64x1, .f32⟩ : BufTy).Contents (Elt F) → (⟨S64x1, .f32⟩ : BufTy).Contents (Elt F)) ]

set_option maxRecDepth 16384 in
set_option maxHeartbeats 4000000 in
/-- The line is the six stages in order: the same operations, cut at other places. -/
theorem ops_stages : (ops : List (HloOp τ sig (Elt F))) = stA ++ (stB1 ++ (stB2 ++ (stB3 ++ (stC ++ stD)))) := rfl

/-- The fold over the whole line is the stages' folds, one after the other. -/
theorem after_stages (V : Valuation τ sig (Elt F)) :
    after ops V = after stD (after stC (after stB3 (after stB2 (after stB1 (after stA V))))) := by
  rw [ops_stages]; simp only [after_append]

/-! ## What each stage writes, and what it leaves alone -/

abbrev stA_W : List (Ref sig .tc) := [main_v0, main_v1, main_v2, main_v3, main_v4, main_cst, main_v5, main_cst_0,
    main_v6, main_v7, main_v8, main_cst_1, main_v9, main_v10, main_v11, main_c, main_v12, main_v13, main_c_2,
    main_v14, main_v15, main_v16, main_v17, main_v18, main_c_3, main_v19, main_v20, main_c_4, main_v21, main_v22,
    main_v23, main_v24, main_v25, main_v26, main_c_5, main_v27, main_v28, main_c_6, main_v29, main_v30, main_v31,
    main_v32, main_v33, main_v34, main_v35, main_v36, main_cst_7, main_v37, main_v38, main_v39, main_v40, main_v41,
    main_v42, main_v43, main_v44, main_v45, main_v46, main_v47, main_cst_8, main_call0_cst, main_call0_v0,
    main_call0_v1, main_call0_v2, main_call0_v3, main_call0_v4, main_v48]
set_option maxRecDepth 8192 in
set_option maxHeartbeats 4000000 in
theorem stA_writes : (stA : List (HloOp τ sig (Elt F))).Forall fun op =>
    op.writes ⊆ (stA_W.map (Proc.devRef (τ := τ) .tc)).toFinset := by
  simp only [stA, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer the stage does not write keeps its contents through it. -/
theorem stA_keep (W : Valuation τ sig (Elt F)) (r : Ref sig .tc) (h : r ∉ stA_W) :
    after stA W (Proc.devRef .tc r) = W (Proc.devRef .tc r) :=
  after_of_writes_sub stA W stA_writes h

abbrev stB1_W : List (Ref sig .tc) := [main_v49, main_v50, main_v51, main_c_9, main_v52, main_v53, main_c_10,
    main_v54, main_v55, main_v56, main_v57, main_v58, main_cst_11, main_v59, main_v60, main_v61, main_v62, main_v63,
    main_v64, main_v65, main_v66, main_v67, main_v68, main_v69, main_v70, main_v71, main_v72, main_v73, main_v74,
    main_v75, main_v76, main_v77, main_v78, main_v79, main_v80, main_cst_12, main_v81, main_v82, main_cst_13,
    main_v83, main_v84, main_v85, main_v86, main_v87, main_cst_14, main_v88, main_v89, main_cst_15, main_v90,
    main_v91, main_v92, main_v93, main_v94, main_cst_16, main_v95, main_v96, main_v97, main_v98, main_v99]
set_option maxRecDepth 8192 in
set_option maxHeartbeats 4000000 in
theorem stB1_writes : (stB1 : List (HloOp τ sig (Elt F))).Forall fun op =>
    op.writes ⊆ (stB1_W.map (Proc.devRef (τ := τ) .tc)).toFinset := by
  simp only [stB1, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer the stage does not write keeps its contents through it. -/
theorem stB1_keep (W : Valuation τ sig (Elt F)) (r : Ref sig .tc) (h : r ∉ stB1_W) :
    after stB1 W (Proc.devRef .tc r) = W (Proc.devRef .tc r) :=
  after_of_writes_sub stB1 W stB1_writes h

abbrev stB2_W : List (Ref sig .tc) := [main_v100, main_v101, main_v102, main_c_17, main_v103, main_v104, main_c_18,
    main_v105, main_v106, main_v107, main_v108, main_v109, main_cst_19, main_v110, main_v111, main_v112, main_v113,
    main_v114, main_v115, main_v116, main_v117, main_v118, main_v119, main_v120, main_v121, main_v122, main_v123,
    main_v124, main_v125, main_v126, main_v127, main_v128, main_v129, main_v130, main_v131, main_cst_20, main_v132,
    main_v133, main_cst_21, main_v134, main_v135, main_v136, main_v137, main_v138, main_cst_22, main_v139, main_v140,
    main_cst_23, main_v141, main_v142, main_v143, main_v144, main_v145, main_cst_24, main_v146, main_v147, main_v148,
    main_v149, main_v150]
set_option maxRecDepth 8192 in
set_option maxHeartbeats 4000000 in
theorem stB2_writes : (stB2 : List (HloOp τ sig (Elt F))).Forall fun op =>
    op.writes ⊆ (stB2_W.map (Proc.devRef (τ := τ) .tc)).toFinset := by
  simp only [stB2, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer the stage does not write keeps its contents through it. -/
theorem stB2_keep (W : Valuation τ sig (Elt F)) (r : Ref sig .tc) (h : r ∉ stB2_W) :
    after stB2 W (Proc.devRef .tc r) = W (Proc.devRef .tc r) :=
  after_of_writes_sub stB2 W stB2_writes h

abbrev stB3_W : List (Ref sig .tc) := [main_v151, main_v152, main_v153, main_c_25, main_v154, main_v155, main_c_26,
    main_v156, main_v157, main_v158, main_v159, main_v160, main_cst_27, main_v161, main_v162, main_v163, main_v164,
    main_v165, main_v166, main_v167, main_v168, main_v169, main_v170, main_v171, main_v172, main_v173, main_v174,
    main_v175, main_v176, main_v177, main_v178, main_v179, main_v180, main_v181, main_v182, main_cst_28, main_v183,
    main_v184, main_cst_29, main_v185, main_v186, main_v187, main_v188, main_v189, main_cst_30, main_v190, main_v191,
    main_cst_31, main_v192, main_v193, main_v194, main_v195, main_v196, main_cst_32, main_v197, main_v198, main_v199,
    main_v200, main_v201]
set_option maxRecDepth 8192 in
set_option maxHeartbeats 4000000 in
theorem stB3_writes : (stB3 : List (HloOp τ sig (Elt F))).Forall fun op =>
    op.writes ⊆ (stB3_W.map (Proc.devRef (τ := τ) .tc)).toFinset := by
  simp only [stB3, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer the stage does not write keeps its contents through it. -/
theorem stB3_keep (W : Valuation τ sig (Elt F)) (r : Ref sig .tc) (h : r ∉ stB3_W) :
    after stB3 W (Proc.devRef .tc r) = W (Proc.devRef .tc r) :=
  after_of_writes_sub stB3 W stB3_writes h

abbrev stC_W : List (Ref sig .tc) := [main_cst_33, main_call1_cst, main_call1_v0, main_call1_v1, main_call1_v2,
    main_call1_v3, main_call1_v4, main_v202, main_v203, main_v204, main_v205, main_v206, main_v207, main_cst_34,
    main_call2_cst, main_call2_v0, main_call2_v1, main_call2_v2, main_call2_v3, main_call2_v4, main_v208, main_v209,
    main_v210, main_v211, main_v212, main_v213, main_v214, main_cst_35, main_v215, main_v216, main_cst_36, main_v217,
    main_v218]
set_option maxRecDepth 8192 in
set_option maxHeartbeats 4000000 in
theorem stC_writes : (stC : List (HloOp τ sig (Elt F))).Forall fun op =>
    op.writes ⊆ (stC_W.map (Proc.devRef (τ := τ) .tc)).toFinset := by
  simp only [stC, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer the stage does not write keeps its contents through it. -/
theorem stC_keep (W : Valuation τ sig (Elt F)) (r : Ref sig .tc) (h : r ∉ stC_W) :
    after stC W (Proc.devRef .tc r) = W (Proc.devRef .tc r) :=
  after_of_writes_sub stC W stC_writes h

abbrev stD_W : List (Ref sig .tc) := [main_cst_37, main_v219, main_cst_38, main_v220, main_v221, main_v222,
    main_v223, main_c_39, main_v224, main_v225, main_c_40, main_v226, main_v227, main_v228, main_v229, main_v230,
    main_c_41, main_v231, main_v232, main_c_42, main_v233, main_v234, main_v235, main_v236, main_v237, main_v238,
    main_c_43, main_v239, main_v240, main_c_44, main_v241, main_v242, main_v243, main_v244, main_v245, main_cst_45,
    main_v246, main_v247, main_v248, main_v249, main_cst_46, main_v250, main_v251, main_v252, main_v253, main_v254,
    main_cst_47, main_v255, main_v256]
set_option maxRecDepth 8192 in
set_option maxHeartbeats 4000000 in
theorem stD_writes : (stD : List (HloOp τ sig (Elt F))).Forall fun op =>
    op.writes ⊆ (stD_W.map (Proc.devRef (τ := τ) .tc)).toFinset := by
  simp only [stD, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
/-- A buffer the stage does not write keeps its contents through it. -/
theorem stD_keep (W : Valuation τ sig (Elt F)) (r : Ref sig .tc) (h : r ∉ stD_W) :
    after stD W (Proc.devRef .tc r) = W (Proc.devRef .tc r) :=
  after_of_writes_sub stD W stD_writes h

/-! ## Each stage's output

The fold is unrolled operation by operation: the buffer read is either the one an operation writes — then it
holds the operation's function of its operands' buffers — or another, which the operation leaves alone.  What
remains is the stage's own term over the buffers the stage reads. -/

set_option maxRecDepth 16384 in
set_option maxHeartbeats 16000000 in
theorem stA_src (W : Valuation τ sig (Elt F)) : after stA W (Proc.devRef .tc main_v1) = Spec.src (W (Proc.devRef .tc main_arg1)) := by
  simp only [stA]
  after_results_simp <;> rfl

set_option maxRecDepth 16384 in
set_option maxHeartbeats 16000000 in
theorem stA_dst (W : Valuation τ sig (Elt F)) : after stA W (Proc.devRef .tc main_v3) = Spec.dst (W (Proc.devRef .tc main_arg1)) := by
  simp only [stA]
  after_results_simp <;> rfl

set_option maxRecDepth 16384 in
set_option maxHeartbeats 16000000 in
theorem stA_out (W : Valuation τ sig (Elt F)) :
    after stA W (Proc.devRef .tc main_v48)
      = Spec.hid (W (Proc.devRef .tc main_arg0)) (W (Proc.devRef .tc main_arg1)) (W (Proc.devRef .tc main_arg3)) (W (Proc.devRef .tc main_arg4)) := by
  simp only [stA]
  after_results_simp <;> rfl

set_option maxRecDepth 16384 in
set_option maxHeartbeats 16000000 in
theorem stB1_out (W : Valuation τ sig (Elt F)) (E : IVec S2x800000 32)
    (hs : W (Proc.devRef .tc main_v1) = Spec.src E) (hd : W (Proc.devRef .tc main_v3) = Spec.dst E) :
    after stB1 W (Proc.devRef .tc main_v99)
      = Spec.layer (W (Proc.devRef .tc main_v48)) E (Spec.W0 (W (Proc.devRef .tc main_arg5))) (W (Proc.devRef .tc main_arg6)) (W (Proc.devRef .tc main_arg7))
          (W (Proc.devRef .tc main_arg8)) (W (Proc.devRef .tc main_arg9)) := by
  simp only [stB1]
  after_results_simp
  simp only [hs, hd]
  rfl

set_option maxRecDepth 16384 in
set_option maxHeartbeats 16000000 in
theorem stB2_out (W : Valuation τ sig (Elt F)) (E : IVec S2x800000 32)
    (hs : W (Proc.devRef .tc main_v1) = Spec.src E) (hd : W (Proc.devRef .tc main_v3) = Spec.dst E) :
    after stB2 W (Proc.devRef .tc main_v150)
      = Spec.layer (W (Proc.devRef .tc main_v99)) E (Spec.W1 (W (Proc.devRef .tc main_arg5))) (W (Proc.devRef .tc main_arg6)) (W (Proc.devRef .tc main_arg7))
          (W (Proc.devRef .tc main_arg8)) (W (Proc.devRef .tc main_arg9)) := by
  simp only [stB2]
  after_results_simp
  simp only [hs, hd]
  rfl

set_option maxRecDepth 16384 in
set_option maxHeartbeats 16000000 in
theorem stB3_out (W : Valuation τ sig (Elt F)) (E : IVec S2x800000 32)
    (hs : W (Proc.devRef .tc main_v1) = Spec.src E) (hd : W (Proc.devRef .tc main_v3) = Spec.dst E) :
    after stB3 W (Proc.devRef .tc main_v201)
      = Spec.layer (W (Proc.devRef .tc main_v150)) E (Spec.W2 (W (Proc.devRef .tc main_arg5))) (W (Proc.devRef .tc main_arg6)) (W (Proc.devRef .tc main_arg7))
          (W (Proc.devRef .tc main_arg8)) (W (Proc.devRef .tc main_arg9)) := by
  simp only [stB3]
  after_results_simp
  simp only [hs, hd]
  rfl

set_option maxRecDepth 16384 in
set_option maxHeartbeats 16000000 in
theorem stC_out (W : Valuation τ sig (Elt F)) :
    after stC W (Proc.devRef .tc main_v218)
      = Spec.probs (W (Proc.devRef .tc main_v201)) (W (Proc.devRef .tc main_v48)) (W (Proc.devRef .tc main_arg10)) (W (Proc.devRef .tc main_arg11))
          (W (Proc.devRef .tc main_arg12)) (W (Proc.devRef .tc main_arg13)) := by
  simp only [stC]
  after_results_simp <;> rfl

set_option maxRecDepth 16384 in
set_option maxHeartbeats 16000000 in
theorem stD_out (W : Valuation τ sig (Elt F)) (E : IVec S2x800000 32)
    (hs : W (Proc.devRef .tc main_v1) = Spec.src E) (hd : W (Proc.devRef .tc main_v3) = Spec.dst E) :
    after stD W (Proc.devRef .tc main_v256) = Spec.loss (W (Proc.devRef .tc main_v218)) E (W (Proc.devRef .tc main_arg2)) := by
  simp only [stD]
  after_results_simp
  simp only [hs, hd]
  rfl

/-! ## The stages chained -/

/-- The convolution's output on the argument arrays `V` holds. -/
def hidV (V : Valuation τ sig (Elt F)) : FVec F S50000x128 .f32 := Spec.hid (V (Proc.devRef .tc main_arg0)) (V (Proc.devRef .tc main_arg1)) (V (Proc.devRef .tc main_arg3)) (V (Proc.devRef .tc main_arg4))
/-- The state after the first, second and third gated layer. -/
def g1V (V : Valuation τ sig (Elt F)) : FVec F S50000x128 .f32 := Spec.layer (hidV V) (V (Proc.devRef .tc main_arg1)) (Spec.W0 (V (Proc.devRef .tc main_arg5))) (V (Proc.devRef .tc main_arg6)) (V (Proc.devRef .tc main_arg7)) (V (Proc.devRef .tc main_arg8)) (V (Proc.devRef .tc main_arg9))
@[inherit_doc g1V]
def g2V (V : Valuation τ sig (Elt F)) : FVec F S50000x128 .f32 := Spec.layer (g1V V) (V (Proc.devRef .tc main_arg1)) (Spec.W1 (V (Proc.devRef .tc main_arg5))) (V (Proc.devRef .tc main_arg6)) (V (Proc.devRef .tc main_arg7)) (V (Proc.devRef .tc main_arg8)) (V (Proc.devRef .tc main_arg9))
@[inherit_doc g1V]
def g3V (V : Valuation τ sig (Elt F)) : FVec F S50000x128 .f32 := Spec.layer (g2V V) (V (Proc.devRef .tc main_arg1)) (Spec.W2 (V (Proc.devRef .tc main_arg5))) (V (Proc.devRef .tc main_arg6)) (V (Proc.devRef .tc main_arg7)) (V (Proc.devRef .tc main_arg8)) (V (Proc.devRef .tc main_arg9))
/-- The nodes' probabilities. -/
def probV (V : Valuation τ sig (Elt F)) : FVec F S50000x1 .f32 := Spec.probs (g3V V) (hidV V) (V (Proc.devRef .tc main_arg10)) (V (Proc.devRef .tc main_arg11)) (V (Proc.devRef .tc main_arg12)) (V (Proc.devRef .tc main_arg13))

/-- What the later stages read and none of them writes, in contents `W` reached from the launch contents `V`:
    the two edge rows, the convolution's output, and the argument arrays the later stages use. -/
structure Carried (V W : Valuation τ sig (Elt F)) : Prop where
  src : W (Proc.devRef .tc main_v1) = Spec.src (V (Proc.devRef .tc main_arg1))
  dst : W (Proc.devRef .tc main_v3) = Spec.dst (V (Proc.devRef .tc main_arg1))
  hid : W (Proc.devRef .tc main_v48) = hidV V
  a2 : W (Proc.devRef .tc main_arg2) = V (Proc.devRef .tc main_arg2)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)
  a10 : W (Proc.devRef .tc main_arg10) = V (Proc.devRef .tc main_arg10)
  a11 : W (Proc.devRef .tc main_arg11) = V (Proc.devRef .tc main_arg11)
  a12 : W (Proc.devRef .tc main_arg12) = V (Proc.devRef .tc main_arg12)
  a13 : W (Proc.devRef .tc main_arg13) = V (Proc.devRef .tc main_arg13)

theorem carried_A (V : Valuation τ sig (Elt F)) : Carried V (after stA V) :=
  ⟨stA_src V, stA_dst V, stA_out V,
    stA_keep V main_arg2 (by decide),
    stA_keep V main_arg5 (by decide),
    stA_keep V main_arg6 (by decide),
    stA_keep V main_arg7 (by decide),
    stA_keep V main_arg8 (by decide),
    stA_keep V main_arg9 (by decide),
    stA_keep V main_arg10 (by decide),
    stA_keep V main_arg11 (by decide),
    stA_keep V main_arg12 (by decide),
    stA_keep V main_arg13 (by decide)⟩

theorem carried_B1 {V W : Valuation τ sig (Elt F)} (h : Carried V W) : Carried V (after stB1 W) :=
  ⟨(stB1_keep W main_v1 (by decide)).trans h.src, (stB1_keep W main_v3 (by decide)).trans h.dst,
    (stB1_keep W main_v48 (by decide)).trans h.hid,
    (stB1_keep W main_arg2 (by decide)).trans h.a2,
    (stB1_keep W main_arg5 (by decide)).trans h.a5,
    (stB1_keep W main_arg6 (by decide)).trans h.a6,
    (stB1_keep W main_arg7 (by decide)).trans h.a7,
    (stB1_keep W main_arg8 (by decide)).trans h.a8,
    (stB1_keep W main_arg9 (by decide)).trans h.a9,
    (stB1_keep W main_arg10 (by decide)).trans h.a10,
    (stB1_keep W main_arg11 (by decide)).trans h.a11,
    (stB1_keep W main_arg12 (by decide)).trans h.a12,
    (stB1_keep W main_arg13 (by decide)).trans h.a13⟩

theorem carried_B2 {V W : Valuation τ sig (Elt F)} (h : Carried V W) : Carried V (after stB2 W) :=
  ⟨(stB2_keep W main_v1 (by decide)).trans h.src, (stB2_keep W main_v3 (by decide)).trans h.dst,
    (stB2_keep W main_v48 (by decide)).trans h.hid,
    (stB2_keep W main_arg2 (by decide)).trans h.a2,
    (stB2_keep W main_arg5 (by decide)).trans h.a5,
    (stB2_keep W main_arg6 (by decide)).trans h.a6,
    (stB2_keep W main_arg7 (by decide)).trans h.a7,
    (stB2_keep W main_arg8 (by decide)).trans h.a8,
    (stB2_keep W main_arg9 (by decide)).trans h.a9,
    (stB2_keep W main_arg10 (by decide)).trans h.a10,
    (stB2_keep W main_arg11 (by decide)).trans h.a11,
    (stB2_keep W main_arg12 (by decide)).trans h.a12,
    (stB2_keep W main_arg13 (by decide)).trans h.a13⟩

theorem carried_B3 {V W : Valuation τ sig (Elt F)} (h : Carried V W) : Carried V (after stB3 W) :=
  ⟨(stB3_keep W main_v1 (by decide)).trans h.src, (stB3_keep W main_v3 (by decide)).trans h.dst,
    (stB3_keep W main_v48 (by decide)).trans h.hid,
    (stB3_keep W main_arg2 (by decide)).trans h.a2,
    (stB3_keep W main_arg5 (by decide)).trans h.a5,
    (stB3_keep W main_arg6 (by decide)).trans h.a6,
    (stB3_keep W main_arg7 (by decide)).trans h.a7,
    (stB3_keep W main_arg8 (by decide)).trans h.a8,
    (stB3_keep W main_arg9 (by decide)).trans h.a9,
    (stB3_keep W main_arg10 (by decide)).trans h.a10,
    (stB3_keep W main_arg11 (by decide)).trans h.a11,
    (stB3_keep W main_arg12 (by decide)).trans h.a12,
    (stB3_keep W main_arg13 (by decide)).trans h.a13⟩

theorem carried_C {V W : Valuation τ sig (Elt F)} (h : Carried V W) : Carried V (after stC W) :=
  ⟨(stC_keep W main_v1 (by decide)).trans h.src, (stC_keep W main_v3 (by decide)).trans h.dst,
    (stC_keep W main_v48 (by decide)).trans h.hid,
    (stC_keep W main_arg2 (by decide)).trans h.a2,
    (stC_keep W main_arg5 (by decide)).trans h.a5,
    (stC_keep W main_arg6 (by decide)).trans h.a6,
    (stC_keep W main_arg7 (by decide)).trans h.a7,
    (stC_keep W main_arg8 (by decide)).trans h.a8,
    (stC_keep W main_arg9 (by decide)).trans h.a9,
    (stC_keep W main_arg10 (by decide)).trans h.a10,
    (stC_keep W main_arg11 (by decide)).trans h.a11,
    (stC_keep W main_arg12 (by decide)).trans h.a12,
    (stC_keep W main_arg13 (by decide)).trans h.a13⟩

/-- The result buffer after the whole line is the network applied to the fourteen argument arrays. -/
theorem val_eq (V : Valuation τ sig (Elt F)) :
    after ops V (Proc.devRef .tc main_v256)
      = Cert.Spec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have hA := carried_A V
  have hB1 := carried_B1 hA
  have hB2 := carried_B2 hB1
  have hB3 := carried_B3 hB2
  have hC := carried_C hB3
  have e1 : after stB1 (after stA V) (Proc.devRef .tc main_v99) = g1V V := by
    rw [stB1_out _ _ hA.src hA.dst, hA.hid, hA.a5, hA.a6, hA.a7, hA.a8, hA.a9]; rfl
  have e2 : after stB2 (after stB1 (after stA V)) (Proc.devRef .tc main_v150) = g2V V := by
    rw [stB2_out _ _ hB1.src hB1.dst, e1, hB1.a5, hB1.a6, hB1.a7, hB1.a8, hB1.a9]; rfl
  have e3 : after stB3 (after stB2 (after stB1 (after stA V))) (Proc.devRef .tc main_v201) = g3V V := by
    rw [stB3_out _ _ hB2.src hB2.dst, e2, hB2.a5, hB2.a6, hB2.a7, hB2.a8, hB2.a9]; rfl
  have e4 : after stC (after stB3 (after stB2 (after stB1 (after stA V)))) (Proc.devRef .tc main_v218) = probV V := by
    rw [stC_out, e3, hB3.hid, hB3.a10, hB3.a11, hB3.a12, hB3.a13]; rfl
  rw [after_stages, stD_out _ _ hC.src hC.dst, e4, hC.a2]
  rfl

end Cert.ReferenceIdeal.RefRun

end
-- ==== Proof.lean ====
/-
  A graph network — a graph convolution, three gated layers with a recurrent cell, a two-layer head and a cut loss
  over 50000 nodes, 800000 edges and 64 graphs — computed once with its dense per-node stages as nine row-tiled
  regions between the gathers and edge sums, and once as plain array operations.  At the extended reals the two
  compute one function of the fourteen arguments.

  The specification (Proof/Spec.lean) names the plain program's stages as whole-array functions.  The plain program's
  run ends at the fold of its operations (Proof/RefRun.lean), and that fold is the specification (Proof/RefRunVal.lean).
  The tiled program's run ends at the last of twenty boundary contents (Proof/KernelRun.lean).  Each region's fifty
  blocks tile its output array, and a block's body computes the same rows of the stage's value on the whole arrays —
  a product into a zero accumulator is the plain product's sum over the contracted axis, a change of float format is
  the identity, and the logistic function is the quotient 1 / (1 + exp (-x)) — so the region leaves the stage's value
  in its output array (Proof/Body*.lean, Proof/Regions*.lean).  Between regions the host operations are the plain
  program's own, and no segment disturbs a buffer it does not write (Proof/Keep.lean), so reading the result buffer
  back through the boundaries gives the specification again (Proof/ChainA.lean … Proof/ChainE.lean).  No finiteness
  of the inputs is used: only the order of finite sums differs between the two programs.
-/
import proofs.«142699_j1640677507203_1_alg».proof.Defs
import proofs.«142699_j1640677507203_1_alg».proof.Proof.Gen.Kernel
import proofs.«142699_j1640677507203_1_alg».proof.Proof.Gen.Kernel.Frame
import proofs.«142699_j1640677507203_1_alg».proof.Proof.Gen.KernelIdeal
import proofs.«142699_j1640677507203_1_alg».proof.Proof.Gen.KernelIdeal.Frame
import proofs.«142699_j1640677507203_1_alg».proof.Proof.Gen.ReferenceIdeal
import proofs.«142699_j1640677507203_1_alg».proof.Proof.Gen.Pre_finite_inputs
import proofs.«142699_j1640677507203_1_alg».proof.Proof.KernelRun
import proofs.«142699_j1640677507203_1_alg».proof.Proof.ChainE
import proofs.«142699_j1640677507203_1_alg».proof.Proof.RefRun
import proofs.«142699_j1640677507203_1_alg».proof.Proof.RefRunVal
import Idealize.ShloMosaic.Adequacy
import Idealize.ShloMosaic.Init

noncomputable section

namespace Cert.Proof

open Idealize.ShloMosaic Idealize.ShloMosaic.TcCoe Idealize.SL.Sem

/-- The word-level tiled program runs, its arguments unchanged. -/
theorem frame_k : Cert.frame_Kernel := fun m ρ _ => Cert.Kernel.Gen.frame m ρ

/-- The tiled program at the extended reals runs, its arguments unchanged. -/
theorem frame_ki : Cert.frame_KernelIdeal := fun m ρ _ => Cert.KernelIdeal.Gen.frame m ρ

/-- The plain program runs, its arguments unchanged: its run with the result dropped. -/
theorem frame_ri : Cert.frame_ReferenceIdeal := fun m ρ _ =>
  (θ_run (Cert.ReferenceIdeal.defs (F := Ideal)) _ _).mono (fun _ h c => (h c).2) (Cert.ReferenceIdeal.RefRun.run m ρ)

/-- The tiled program's run with its result named: the network's value on the launch contents. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v133) = (Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run (Cert.KernelIdeal.defs (F := Ideal)) _ _).mono
    (fun r h c => ⟨(h c).1.trans (Cert.KernelIdeal.Chain.v133_at19 m ρ c), (h c).2⟩)
    (Cert.KernelIdeal.Run.run (F := Ideal) m ρ)

/-- From memories agreeing on the arguments both programs end with the network's value on them. -/
theorem algebraic : Cert.algebraic_KernelIdeal_ReferenceIdeal := by
  intro m ρ m' ρ' _ hagree
  refine ⟨fun c => (Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))), kernel_value m ρ, ?_⟩
  refine (θ_run (Cert.ReferenceIdeal.defs (F := Ideal)) _ _).mono
    (fun r h c => ⟨(h c).1.trans ((Cert.ReferenceIdeal.RefRun.val_eq (F := Ideal) _).trans ?_), (h c).2⟩)
    (Cert.ReferenceIdeal.RefRun.run (F := Ideal) m' ρ')
  obtain ⟨e0, e1, e2, e3, e4, e5, e6, e7, e8, e9, e10, e11, e12, e13⟩ := hagree c
  show (Cert.Spec.out (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) = _
  rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
